-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x320000 : S_.BroadcastsInDim S2x320000 (![] : Fin 0 → Fin S2x320000.rank)
  reducesTo_S2x320000_S_d0_1 : S2x320000.ReducesTo [0, 1] S_

variable [Facts]

def fn {F : FTy → Type} [FloatOps F] (main_arg0 : FVec F S10000x128 .f32) (main_arg1 : IVec S2x320000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_c_0 : IVec S_ 32 := constantI S_ 32 0#32
  let main_v4 : IVec S2x320000 32 := broadcastInDim S2x320000 ![] bcast_S_S2x320000 main_c_0
  let main_v5 : IVec S2x320000 1 := cmpi .sge main_arg1 main_v4
  let main_c_1 : IVec S_ 32 := constantI S_ 32 9999#32
  let main_v6 : IVec S2x320000 32 := broadcastInDim S2x320000 ![] bcast_S_S2x320000 main_c_1
  let main_v7 : IVec S2x320000 1 := cmpi .sle main_arg1 main_v6
  let main_v8 : IVec S2x320000 1 := andi main_v5 main_v7
  let main_c_2 : IVec S_ 1 := constantI S_ 1 1#1
  let main_v9 : IVec S_ 1 := (fun x v => Host.reduce IntOp.andi x v reducesTo_S2x320000_S_d0_1 h_S_) main_v8 main_c_2
  let main_v10 : IVec S_ 1 := andi main_v3 main_v9
  main_v10
-- ==== Kernel.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S10000 : Shape := ⟨1, ![10000]⟩
abbrev S16x17 : Shape := ⟨2, ![16, 17]⟩
abbrev S80x128 : Shape := ⟨2, ![80, 128]⟩
abbrev S_ : Shape := ⟨0, ![]⟩
abbrev S80 : Shape := ⟨1, ![80]⟩
abbrev S16 : Shape := ⟨1, ![16]⟩
abbrev S1x16 : Shape := ⟨2, ![1, 16]⟩
abbrev S320000x1 : Shape := ⟨2, ![320000, 1]⟩

abbrev nBuf : Table → Nat
  | .hbm => 8
  | .local .scVector .vmem => 8
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S1x320000, .i32⟩
  | .hbm, ⟨3, _⟩ => ⟨S320000, .i32⟩
  | .hbm, ⟨4, _⟩ => ⟨S1x320000, .i32⟩
  | .hbm, ⟨5, _⟩ => ⟨S320000, .i32⟩
  | .hbm, ⟨6, _⟩ => ⟨S320000, .f32⟩
  | .hbm, ⟨7, _⟩ => ⟨S320000x1, .f32⟩
  | .local .scVector .vmem, ⟨0, _⟩ => ⟨S10000, .i32⟩
  | .local .scVector .vmem, ⟨1, _⟩ => ⟨S10000, .i32⟩
  | .local .scVector .vmem, ⟨2, _⟩ => ⟨S10000, .f32⟩
  | .local .scVector .vmem, ⟨3, _⟩ => ⟨S16x17, .f32⟩
  | .local .scVector .vmem, ⟨4, _⟩ => ⟨S80x128, .f32⟩
  | .local .scVector .vmem, ⟨5, _⟩ => ⟨S80x128, .f32⟩
  | .local .scVector .vmem, ⟨6, _⟩ => ⟨S80x128, .f32⟩
  | .local .scVector .vmem, ⟨7, _⟩ => ⟨S80x128, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg0_scv : Ref sig .scVector := ⟨.hbm, 0, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch8 : Ref sig .scVector := ⟨.vmem, 6, rfl⟩
abbrev cc0_scratch9 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k0_t1_loop : Scf.Loop 32 :=
  let c0_i32_6 : BitVec 32 := 0#32
  let c62_i32 : BitVec 32 := 62#32
  let v7 : BitVec 32 := Scalar.addi c0_i32_6 c62_i32
  let c1_i32 : BitVec 32 := 1#32
  ⟨c0_i32_6, v7, c1_i32⟩
def k0_off2 (k0_t1 : Fin k0_t1_loop.trips) : Fin 1 → Nat :=
  let c2_i32_17 : BitVec 32 := 2#32
  let c0_i32_6 : BitVec 32 := 0#32
  let c1_i32 : BitVec 32 := 1#32
  let arg18 : BitVec 32 := Scf.iv c0_i32_6 c1_i32 k0_t1
  let v16 : BitVec 32 := Scalar.muli c2_i32_17 arg18
  let c1_i32_18 : BitVec 32 := 1#32
  let v17 : BitVec 32 := Scalar.addi v16 c1_i32_18
  let c80_i32 : BitVec 32 := 80#32
  let v18 : BitVec 32 := Scalar.muli v17 c80_i32
  ![v18.toNat]
def k0_off3 (k0_t1 : Fin k0_t1_loop.trips) : Fin 1 → Nat :=
  let c2_i32_17 : BitVec 32 := 2#32
  let c0_i32_6 : BitVec 32 := 0#32
  let c1_i32 : BitVec 32 := 1#32
  let arg18 : BitVec 32 := Scf.iv c0_i32_6 c1_i32 k0_t1
  let v16 : BitVec 32 := Scalar.muli c2_i32_17 arg18
  let c80_i32_24 : BitVec 32 := 80#32
  let v24 : BitVec 32 := Scalar.muli v16 c80_i32_24
  ![v24.toNat]
@[reducible] def k0_t2_loop : Scf.Loop 32 :=
  let c0_i32_32 : BitVec 32 := 0#32
  let c5_i32_33 : BitVec 32 := 5#32
  let v32 : BitVec 32 := Scalar.addi c0_i32_32 c5_i32_33
  let c1_i32_34 : BitVec 32 := 1#32
  ⟨c0_i32_32, v32, c1_i32_34⟩
def k0_off4 (k0_t2 : Fin k0_t2_loop.trips) (c0_i32_57 : BitVec 32) : Fin 2 → Nat :=
  let c0_i32_32 : BitVec 32 := 0#32
  let c1_i32_34 : BitVec 32 := 1#32
  let arg20 : BitVec 32 := Scf.iv c0_i32_32 c1_i32_34 k0_t2
  let c16_i32 : BitVec 32 := 16#32
  let v52 : BitVec 32 := Scalar.muli arg20 c16_i32
  let v53 : BitVec 32 := Scalar.addi v52 c0_i32_57
  let v54 : Index := Scalar.indexCast v53
  let c0 : Index := 0#32
  ![v54.toNat, 0]
def k0_off5 (k0_t2 : Fin k0_t2_loop.trips) (c0_i32_57 : BitVec 32) : Fin 2 → Nat :=
  let c0_i32_32 : BitVec 32 := 0#32
  let c1_i32_34 : BitVec 32 := 1#32
  let arg20 : BitVec 32 := Scf.iv c0_i32_32 c1_i32_34 k0_t2
  let c16_i32 : BitVec 32 := 16#32
  let v52 : BitVec 32 := Scalar.muli arg20 c16_i32
  let v53 : BitVec 32 := Scalar.addi v52 c0_i32_57
  let v59 : Index := Scalar.indexCast v53
  let c16 : Index := 16#32
  ![v59.toNat, 16]
def k0_off6 (k0_t2 : Fin k0_t2_loop.trips) (c0_i32_57 : BitVec 32) : Fin 2 → Nat :=
  let c0_i32_32 : BitVec 32 := 0#32
  let c1_i32_34 : BitVec 32 := 1#32
  let arg20 : BitVec 32 := Scf.iv c0_i32_32 c1_i32_34 k0_t2
  let c16_i32 : BitVec 32 := 16#32
  let v52 : BitVec 32 := Scalar.muli arg20 c16_i32
  let v53 : BitVec 32 := Scalar.addi v52 c0_i32_57
  let v65 : Index := Scalar.indexCast v53
  let c32 : Index := 32#32
  ![v65.toNat, 32]
def k0_off7 (k0_t2 : Fin k0_t2_loop.trips) (c0_i32_57 : BitVec 32) : Fin 2 → Nat :=
  let c0_i32_32 : BitVec 32 := 0#32
  let c1_i32_34 : BitVec 32 := 1#32
  let arg20 : BitVec 32 := Scf.iv c0_i32_32 c1_i32_34 k0_t2
  let c16_i32 : BitVec 32 := 16#32
  let v52 : BitVec 32 := Scalar.muli arg20 c16_i32
  let v53 : BitVec 32 := Scalar.addi v52 c0_i32_57
  let v71 : Index := Scalar.indexCast v53
  let c48 : Index := 48#32
  ![v71.toNat, 48]
def k0_off8 (k0_t2 : Fin k0_t2_loop.trips) (c0_i32_57 : BitVec 32) : Fin 2 → Nat :=
  let c0_i32_32 : BitVec 32 := 0#32
  let c1_i32_34 : BitVec 32 := 1#32
  let arg20 : BitVec 32 := Scf.iv c0_i32_32 c1_i32_34 k0_t2
  let c16_i32 : BitVec 32 := 16#32
  let v52 : BitVec 32 := Scalar.muli arg20 c16_i32
  let v53 : BitVec 32 := Scalar.addi v52 c0_i32_57
  let v77 : Index := Scalar.indexCast v53
  let c64 : Index := 64#32
  ![v77.toNat, 64]
def k0_off9 (k0_t2 : Fin k0_t2_loop.trips) (c0_i32_57 : BitVec 32) : Fin 2 → Nat :=
  let c0_i32_32 : BitVec 32 := 0#32
  let c1_i32_34 : BitVec 32 := 1#32
  let arg20 : BitVec 32 := Scf.iv c0_i32_32 c1_i32_34 k0_t2
  let c16_i32 : BitVec 32 := 16#32
  let v52 : BitVec 32 := Scalar.muli arg20 c16_i32
  let v53 : BitVec 32 := Scalar.addi v52 c0_i32_57
  let v83 : Index := Scalar.indexCast v53
  let c80 : Index := 80#32
  ![v83.toNat, 80]
def k0_off10 (k0_t2 : Fin k0_t2_loop.trips) (c0_i32_57 : BitVec 32) : Fin 2 → Nat :=
  let c0_i32_32 : BitVec 32 := 0#32
  let c1_i32_34 : BitVec 32 := 1#32
  let arg20 : BitVec 32 := Scf.iv c0_i32_32 c1_i32_34 k0_t2
  let c16_i32 : BitVec 32 := 16#32
  let v52 : BitVec 32 := Scalar.muli arg20 c16_i32
  let v53 : BitVec 32 := Scalar.addi v52 c0_i32_57
  let v89 : Index := Scalar.indexCast v53
  let c96 : Index := 96#32
  ![v89.toNat, 96]
def k0_off11 (k0_t2 : Fin k0_t2_loop.trips) (c0_i32_57 : BitVec 32) : Fin 2 → Nat :=
  let c0_i32_32 : BitVec 32 := 0#32
  let c1_i32_34 : BitVec 32 := 1#32
  let arg20 : BitVec 32 := Scf.iv c0_i32_32 c1_i32_34 k0_t2
  let c16_i32 : BitVec 32 := 16#32
  let v52 : BitVec 32 := Scalar.muli arg20 c16_i32
  let v53 : BitVec 32 := Scalar.addi v52 c0_i32_57
  let v95 : Index := Scalar.indexCast v53
  let c112 : Index := 112#32
  ![v95.toNat, 112]

def k0_chk1 (v31 : IVec S16 32) (v853 : IVec S16 32) : Prop :=
  (∀ a x, ((![v31, v853] : Fin 2 → IVec S16 32) a x).toNat < S16x17.size a)
instance k0_chk1.dec : ∀ (v31 : IVec S16 32) (v853 : IVec S16 32), Decidable (k0_chk1 v31 v853) := fun v31 v853 => decidable_of_iff' _ (Iff.of_eq (k0_chk1.eq_1 v31 v853))
theorem k0_idx1_inb : ∀ (v31 : IVec S16 32) (v853 : IVec S16 32) (k0_hw1 : k0_chk1 v31 v853), ∀ a x, ((![v31, v853] : Fin 2 → IVec S16 32) a x).toNat < S16x17.size a := fun v31 v853 k0_hw1 => k0_hw1

def k0_chk2 (v31 : IVec S16 32) (v855 : IVec S16 32) : Prop :=
  (∀ a x, ((![v31, v855] : Fin 2 → IVec S16 32) a x).toNat < S16x17.size a)
instance k0_chk2.dec : ∀ (v31 : IVec S16 32) (v855 : IVec S16 32), Decidable (k0_chk2 v31 v855) := fun v31 v855 => decidable_of_iff' _ (Iff.of_eq (k0_chk2.eq_1 v31 v855))
theorem k0_idx2_inb : ∀ (v31 : IVec S16 32) (v855 : IVec S16 32) (k0_hw2 : k0_chk2 v31 v855), ∀ a x, ((![v31, v855] : Fin 2 → IVec S16 32) a x).toNat < S16x17.size a := fun v31 v855 k0_hw2 => k0_hw2

def k0_chk3 (v31 : IVec S16 32) (v858 : IVec S16 32) : Prop :=
  (∀ a x, ((![v31, v858] : Fin 2 → IVec S16 32) a x).toNat < S16x17.size a)
instance k0_chk3.dec : ∀ (v31 : IVec S16 32) (v858 : IVec S16 32), Decidable (k0_chk3 v31 v858) := fun v31 v858 => decidable_of_iff' _ (Iff.of_eq (k0_chk3.eq_1 v31 v858))
theorem k0_idx3_inb : ∀ (v31 : IVec S16 32) (v858 : IVec S16 32) (k0_hw3 : k0_chk3 v31 v858), ∀ a x, ((![v31, v858] : Fin 2 → IVec S16 32) a x).toNat < S16x17.size a := fun v31 v858 k0_hw3 => k0_hw3

def k0_chk4 (v31 : IVec S16 32) (v861 : IVec S16 32) : Prop :=
  (∀ a x, ((![v31, v861] : Fin 2 → IVec S16 32) a x).toNat < S16x17.size a)
instance k0_chk4.dec : ∀ (v31 : IVec S16 32) (v861 : IVec S16 32), Decidable (k0_chk4 v31 v861) := fun v31 v861 => decidable_of_iff' _ (Iff.of_eq (k0_chk4.eq_1 v31 v861))
theorem k0_idx4_inb : ∀ (v31 : IVec S16 32) (v861 : IVec S16 32) (k0_hw4 : k0_chk4 v31 v861), ∀ a x, ((![v31, v861] : Fin 2 → IVec S16 32) a x).toNat < S16x17.size a := fun v31 v861 k0_hw4 => k0_hw4

def k0_chk5 (v31 : IVec S16 32) (v864 : IVec S16 32) : Prop :=
  (∀ a x, ((![v31, v864] : Fin 2 → IVec S16 32) a x).toNat < S16x17.size a)
instance k0_chk5.dec : ∀ (v31 : IVec S16 32) (v864 : IVec S16 32), Decidable (k0_chk5 v31 v864) := fun v31 v864 => decidable_of_iff' _ (Iff.of_eq (k0_chk5.eq_1 v31 v864))
theorem k0_idx5_inb : ∀ (v31 : IVec S16 32) (v864 : IVec S16 32) (k0_hw5 : k0_chk5 v31 v864), ∀ a x, ((![v31, v864] : Fin 2 → IVec S16 32) a x).toNat < S16x17.size a := fun v31 v864 k0_hw5 => k0_hw5

def k0_chk6 (v31 : IVec S16 32) (v867 : IVec S16 32) : Prop :=
  (∀ a x, ((![v31, v867] : Fin 2 → IVec S16 32) a x).toNat < S16x17.size a)
instance k0_chk6.dec : ∀ (v31 : IVec S16 32) (v867 : IVec S16 32), Decidable (k0_chk6 v31 v867) := fun v31 v867 => decidable_of_iff' _ (Iff.of_eq (k0_chk6.eq_1 v31 v867))
theorem k0_idx6_inb : ∀ (v31 : IVec S16 32) (v867 : IVec S16 32) (k0_hw6 : k0_chk6 v31 v867), ∀ a x, ((![v31, v867] : Fin 2 → IVec S16 32) a x).toNat < S16x17.size a := fun v31 v867 k0_hw6 => k0_hw6

def k0_chk7 (v31 : IVec S16 32) (v870 : IVec S16 32) : Prop :=
  (∀ a x, ((![v31, v870] : Fin 2 → IVec S16 32) a x).toNat < S16x17.size a)
instance k0_chk7.dec : ∀ (v31 : IVec S16 32) (v870 : IVec S16 32), Decidable (k0_chk7 v31 v870) := fun v31 v870 => decidable_of_iff' _ (Iff.of_eq (k0_chk7.eq_1 v31 v870))
theorem k0_idx7_inb : ∀ (v31 : IVec S16 32) (v870 : IVec S16 32) (k0_hw7 : k0_chk7 v31 v870), ∀ a x, ((![v31, v870] : Fin 2 → IVec S16 32) a x).toNat < S16x17.size a := fun v31 v870 k0_hw7 => k0_hw7

def k0_chk8 (v31 : IVec S16 32) (v873 : IVec S16 32) : Prop :=
  (∀ a x, ((![v31, v873] : Fin 2 → IVec S16 32) a x).toNat < S16x17.size a)
instance k0_chk8.dec : ∀ (v31 : IVec S16 32) (v873 : IVec S16 32), Decidable (k0_chk8 v31 v873) := fun v31 v873 => decidable_of_iff' _ (Iff.of_eq (k0_chk8.eq_1 v31 v873))
theorem k0_idx8_inb : ∀ (v31 : IVec S16 32) (v873 : IVec S16 32) (k0_hw8 : k0_chk8 v31 v873), ∀ a x, ((![v31, v873] : Fin 2 → IVec S16 32) a x).toNat < S16x17.size a := fun v31 v873 k0_hw8 => k0_hw8

def k0_chk9 (v31 : IVec S16 32) (v876 : IVec S16 32) : Prop :=
  (∀ a x, ((![v31, v876] : Fin 2 → IVec S16 32) a x).toNat < S16x17.size a)
instance k0_chk9.dec : ∀ (v31 : IVec S16 32) (v876 : IVec S16 32), Decidable (k0_chk9 v31 v876) := fun v31 v876 => decidable_of_iff' _ (Iff.of_eq (k0_chk9.eq_1 v31 v876))
theorem k0_idx9_inb : ∀ (v31 : IVec S16 32) (v876 : IVec S16 32) (k0_hw9 : k0_chk9 v31 v876), ∀ a x, ((![v31, v876] : Fin 2 → IVec S16 32) a x).toNat < S16x17.size a := fun v31 v876 k0_hw9 => k0_hw9

def k0_chk10 (v31 : IVec S16 32) (v879 : IVec S16 32) : Prop :=
  (∀ a x, ((![v31, v879] : Fin 2 → IVec S16 32) a x).toNat < S16x17.size a)
instance k0_chk10.dec : ∀ (v31 : IVec S16 32) (v879 : IVec S16 32), Decidable (k0_chk10 v31 v879) := fun v31 v879 => decidable_of_iff' _ (Iff.of_eq (k0_chk10.eq_1 v31 v879))
theorem k0_idx10_inb : ∀ (v31 : IVec S16 32) (v879 : IVec S16 32) (k0_hw10 : k0_chk10 v31 v879), ∀ a x, ((![v31, v879] : Fin 2 → IVec S16 32) a x).toNat < S16x17.size a := fun v31 v879 k0_hw10 => k0_hw10

def k0_chk11 (v31 : IVec S16 32) (v882 : IVec S16 32) : Prop :=
  (∀ a x, ((![v31, v882] : Fin 2 → IVec S16 32) a x).toNat < S16x17.size a)
instance k0_chk11.dec : ∀ (v31 : IVec S16 32) (v882 : IVec S16 32), Decidable (k0_chk11 v31 v882) := fun v31 v882 => decidable_of_iff' _ (Iff.of_eq (k0_chk11.eq_1 v31 v882))
theorem k0_idx11_inb : ∀ (v31 : IVec S16 32) (v882 : IVec S16 32) (k0_hw11 : k0_chk11 v31 v882), ∀ a x, ((![v31, v882] : Fin 2 → IVec S16 32) a x).toNat < S16x17.size a := fun v31 v882 k0_hw11 => k0_hw11

def k0_chk12 (v31 : IVec S16 32) (v885 : IVec S16 32) : Prop :=
  (∀ a x, ((![v31, v885] : Fin 2 → IVec S16 32) a x).toNat < S16x17.size a)
instance k0_chk12.dec : ∀ (v31 : IVec S16 32) (v885 : IVec S16 32), Decidable (k0_chk12 v31 v885) := fun v31 v885 => decidable_of_iff' _ (Iff.of_eq (k0_chk12.eq_1 v31 v885))
theorem k0_idx12_inb : ∀ (v31 : IVec S16 32) (v885 : IVec S16 32) (k0_hw12 : k0_chk12 v31 v885), ∀ a x, ((![v31, v885] : Fin 2 → IVec S16 32) a x).toNat < S16x17.size a := fun v31 v885 k0_hw12 => k0_hw12

def k0_chk13 (v31 : IVec S16 32) (v888 : IVec S16 32) : Prop :=
  (∀ a x, ((![v31, v888] : Fin 2 → IVec S16 32) a x).toNat < S16x17.size a)
instance k0_chk13.dec : ∀ (v31 : IVec S16 32) (v888 : IVec S16 32), Decidable (k0_chk13 v31 v888) := fun v31 v888 => decidable_of_iff' _ (Iff.of_eq (k0_chk13.eq_1 v31 v888))
theorem k0_idx13_inb : ∀ (v31 : IVec S16 32) (v888 : IVec S16 32) (k0_hw13 : k0_chk13 v31 v888), ∀ a x, ((![v31, v888] : Fin 2 → IVec S16 32) a x).toNat < S16x17.size a := fun v31 v888 k0_hw13 => k0_hw13

def k0_chk14 (v31 : IVec S16 32) (v891 : IVec S16 32) : Prop :=
  (∀ a x, ((![v31, v891] : Fin 2 → IVec S16 32) a x).toNat < S16x17.size a)
instance k0_chk14.dec : ∀ (v31 : IVec S16 32) (v891 : IVec S16 32), Decidable (k0_chk14 v31 v891) := fun v31 v891 => decidable_of_iff' _ (Iff.of_eq (k0_chk14.eq_1 v31 v891))
theorem k0_idx14_inb : ∀ (v31 : IVec S16 32) (v891 : IVec S16 32) (k0_hw14 : k0_chk14 v31 v891), ∀ a x, ((![v31, v891] : Fin 2 → IVec S16 32) a x).toNat < S16x17.size a := fun v31 v891 k0_hw14 => k0_hw14

def k0_chk15 (v31 : IVec S16 32) (v894 : IVec S16 32) : Prop :=
  (∀ a x, ((![v31, v894] : Fin 2 → IVec S16 32) a x).toNat < S16x17.size a)
instance k0_chk15.dec : ∀ (v31 : IVec S16 32) (v894 : IVec S16 32), Decidable (k0_chk15 v31 v894) := fun v31 v894 => decidable_of_iff' _ (Iff.of_eq (k0_chk15.eq_1 v31 v894))
theorem k0_idx15_inb : ∀ (v31 : IVec S16 32) (v894 : IVec S16 32) (k0_hw15 : k0_chk15 v31 v894), ∀ a x, ((![v31, v894] : Fin 2 → IVec S16 32) a x).toNat < S16x17.size a := fun v31 v894 k0_hw15 => k0_hw15

def k0_chk16 (v31 : IVec S16 32) (v897 : IVec S16 32) : Prop :=
  (∀ a x, ((![v31, v897] : Fin 2 → IVec S16 32) a x).toNat < S16x17.size a)
instance k0_chk16.dec : ∀ (v31 : IVec S16 32) (v897 : IVec S16 32), Decidable (k0_chk16 v31 v897) := fun v31 v897 => decidable_of_iff' _ (Iff.of_eq (k0_chk16.eq_1 v31 v897))
theorem k0_idx16_inb : ∀ (v31 : IVec S16 32) (v897 : IVec S16 32) (k0_hw16 : k0_chk16 v31 v897), ∀ a x, ((![v31, v897] : Fin 2 → IVec S16 32) a x).toNat < S16x17.size a := fun v31 v897 k0_hw16 => k0_hw16
def k0_off12 (k0_t1 : Fin k0_t1_loop.trips) (k0_t2 : Fin k0_t2_loop.trips) : Fin 1 → Nat :=
  let c2_i32_17 : BitVec 32 := 2#32
  let c0_i32_6 : BitVec 32 := 0#32
  let c1_i32 : BitVec 32 := 1#32
  let arg18 : BitVec 32 := Scf.iv c0_i32_6 c1_i32 k0_t1
  let v16 : BitVec 32 := Scalar.muli c2_i32_17 arg18
  let c80_i32_30 : BitVec 32 := 80#32
  let v30 : BitVec 32 := Scalar.muli v16 c80_i32_30
  let c0_i32_32 : BitVec 32 := 0#32
  let c1_i32_34 : BitVec 32 := 1#32
  let arg20 : BitVec 32 := Scf.iv c0_i32_32 c1_i32_34 k0_t2
  let c16_i32 : BitVec 32 := 16#32
  let v52 : BitVec 32 := Scalar.muli arg20 c16_i32
  let v900 : BitVec 32 := Scalar.addi v30 v52
  let v901 : Index := Scalar.indexCast v900
  ![v901.toNat]
def k0_off13 (k0_t1 : Fin k0_t1_loop.trips) (c2_i32_36 : BitVec 32) : Fin 1 → Nat :=
  let c2_i32_17 : BitVec 32 := 2#32
  let c0_i32_6 : BitVec 32 := 0#32
  let c1_i32 : BitVec 32 := 1#32
  let arg18 : BitVec 32 := Scf.iv c0_i32_6 c1_i32 k0_t1
  let v16 : BitVec 32 := Scalar.muli c2_i32_17 arg18
  let v34 : BitVec 32 := Scalar.addi v16 c2_i32_36
  let c80_i32_37 : BitVec 32 := 80#32
  let v35 : BitVec 32 := Scalar.muli v34 c80_i32_37
  ![v35.toNat]
@[reducible] def k0_t3_loop : Scf.Loop 32 :=
  let c0_i32_52 : BitVec 32 := 0#32
  let c5_i32_53 : BitVec 32 := 5#32
  let v50 : BitVec 32 := Scalar.addi c0_i32_52 c5_i32_53
  let c1_i32_54 : BitVec 32 := 1#32
  ⟨c0_i32_52, v50, c1_i32_54⟩
def k0_off14 (k0_t3 : Fin k0_t3_loop.trips) (c0_i32_57 : BitVec 32) : Fin 2 → Nat :=
  let c0_i32_52 : BitVec 32 := 0#32
  let c1_i32_54 : BitVec 32 := 1#32
  let arg20 : BitVec 32 := Scf.iv c0_i32_52 c1_i32_54 k0_t3
  let c16_i32 : BitVec 32 := 16#32
  let v52 : BitVec 32 := Scalar.muli arg20 c16_i32
  let v53 : BitVec 32 := Scalar.addi v52 c0_i32_57
  let v54 : Index := Scalar.indexCast v53
  let c0 : Index := 0#32
  ![v54.toNat, 0]
def k0_off15 (k0_t3 : Fin k0_t3_loop.trips) (c0_i32_57 : BitVec 32) : Fin 2 → Nat :=
  let c0_i32_52 : BitVec 32 := 0#32
  let c1_i32_54 : BitVec 32 := 1#32
  let arg20 : BitVec 32 := Scf.iv c0_i32_52 c1_i32_54 k0_t3
  let c16_i32 : BitVec 32 := 16#32
  let v52 : BitVec 32 := Scalar.muli arg20 c16_i32
  let v53 : BitVec 32 := Scalar.addi v52 c0_i32_57
  let v59 : Index := Scalar.indexCast v53
  let c16 : Index := 16#32
  ![v59.toNat, 16]
def k0_off16 (k0_t3 : Fin k0_t3_loop.trips) (c0_i32_57 : BitVec 32) : Fin 2 → Nat :=
  let c0_i32_52 : BitVec 32 := 0#32
  let c1_i32_54 : BitVec 32 := 1#32
  let arg20 : BitVec 32 := Scf.iv c0_i32_52 c1_i32_54 k0_t3
  let c16_i32 : BitVec 32 := 16#32
  let v52 : BitVec 32 := Scalar.muli arg20 c16_i32
  let v53 : BitVec 32 := Scalar.addi v52 c0_i32_57
  let v65 : Index := Scalar.indexCast v53
  let c32 : Index := 32#32
  ![v65.toNat, 32]
def k0_off17 (k0_t3 : Fin k0_t3_loop.trips) (c0_i32_57 : BitVec 32) : Fin 2 → Nat :=
  let c0_i32_52 : BitVec 32 := 0#32
  let c1_i32_54 : BitVec 32 := 1#32
  let arg20 : BitVec 32 := Scf.iv c0_i32_52 c1_i32_54 k0_t3
  let c16_i32 : BitVec 32 := 16#32
  let v52 : BitVec 32 := Scalar.muli arg20 c16_i32
  let v53 : BitVec 32 := Scalar.addi v52 c0_i32_57
  let v71 : Index := Scalar.indexCast v53
  let c48 : Index := 48#32
  ![v71.toNat, 48]
def k0_off18 (k0_t3 : Fin k0_t3_loop.trips) (c0_i32_57 : BitVec 32) : Fin 2 → Nat :=
  let c0_i32_52 : BitVec 32 := 0#32
  let c1_i32_54 : BitVec 32 := 1#32
  let arg20 : BitVec 32 := Scf.iv c0_i32_52 c1_i32_54 k0_t3
  let c16_i32 : BitVec 32 := 16#32
  let v52 : BitVec 32 := Scalar.muli arg20 c16_i32
  let v53 : BitVec 32 := Scalar.addi v52 c0_i32_57
  let v77 : Index := Scalar.indexCast v53
  let c64 : Index := 64#32
  ![v77.toNat, 64]
def k0_off19 (k0_t3 : Fin k0_t3_loop.trips) (c0_i32_57 : BitVec 32) : Fin 2 → Nat :=
  let c0_i32_52 : BitVec 32 := 0#32
  let c1_i32_54 : BitVec 32 := 1#32
  let arg20 : BitVec 32 := Scf.iv c0_i32_52 c1_i32_54 k0_t3
  let c16_i32 : BitVec 32 := 16#32
  let v52 : BitVec 32 := Scalar.muli arg20 c16_i32
  let v53 : BitVec 32 := Scalar.addi v52 c0_i32_57
  let v83 : Index := Scalar.indexCast v53
  let c80 : Index := 80#32
  ![v83.toNat, 80]
def k0_off20 (k0_t3 : Fin k0_t3_loop.trips) (c0_i32_57 : BitVec 32) : Fin 2 → Nat :=
  let c0_i32_52 : BitVec 32 := 0#32
  let c1_i32_54 : BitVec 32 := 1#32
  let arg20 : BitVec 32 := Scf.iv c0_i32_52 c1_i32_54 k0_t3
  let c16_i32 : BitVec 32 := 16#32
  let v52 : BitVec 32 := Scalar.muli arg20 c16_i32
  let v53 : BitVec 32 := Scalar.addi v52 c0_i32_57
  let v89 : Index := Scalar.indexCast v53
  let c96 : Index := 96#32
  ![v89.toNat, 96]
def k0_off21 (k0_t3 : Fin k0_t3_loop.trips) (c0_i32_57 : BitVec 32) : Fin 2 → Nat :=
  let c0_i32_52 : BitVec 32 := 0#32
  let c1_i32_54 : BitVec 32 := 1#32
  let arg20 : BitVec 32 := Scf.iv c0_i32_52 c1_i32_54 k0_t3
  let c16_i32 : BitVec 32 := 16#32
  let v52 : BitVec 32 := Scalar.muli arg20 c16_i32
  let v53 : BitVec 32 := Scalar.addi v52 c0_i32_57
  let v95 : Index := Scalar.indexCast v53
  let c112 : Index := 112#32
  ![v95.toNat, 112]

def k0_chk17 (v49 : IVec S16 32) (v853 : IVec S16 32) : Prop :=
  (∀ a x, ((![v49, v853] : Fin 2 → IVec S16 32) a x).toNat < S16x17.size a)
instance k0_chk17.dec : ∀ (v49 : IVec S16 32) (v853 : IVec S16 32), Decidable (k0_chk17 v49 v853) := fun v49 v853 => decidable_of_iff' _ (Iff.of_eq (k0_chk17.eq_1 v49 v853))
theorem k0_idx17_inb : ∀ (v49 : IVec S16 32) (v853 : IVec S16 32) (k0_hw17 : k0_chk17 v49 v853), ∀ a x, ((![v49, v853] : Fin 2 → IVec S16 32) a x).toNat < S16x17.size a := fun v49 v853 k0_hw17 => k0_hw17

def k0_chk18 (v49 : IVec S16 32) (v855 : IVec S16 32) : Prop :=
  (∀ a x, ((![v49, v855] : Fin 2 → IVec S16 32) a x).toNat < S16x17.size a)
instance k0_chk18.dec : ∀ (v49 : IVec S16 32) (v855 : IVec S16 32), Decidable (k0_chk18 v49 v855) := fun v49 v855 => decidable_of_iff' _ (Iff.of_eq (k0_chk18.eq_1 v49 v855))
theorem k0_idx18_inb : ∀ (v49 : IVec S16 32) (v855 : IVec S16 32) (k0_hw18 : k0_chk18 v49 v855), ∀ a x, ((![v49, v855] : Fin 2 → IVec S16 32) a x).toNat < S16x17.size a := fun v49 v855 k0_hw18 => k0_hw18

def k0_chk19 (v49 : IVec S16 32) (v858 : IVec S16 32) : Prop :=
  (∀ a x, ((![v49, v858] : Fin 2 → IVec S16 32) a x).toNat < S16x17.size a)
instance k0_chk19.dec : ∀ (v49 : IVec S16 32) (v858 : IVec S16 32), Decidable (k0_chk19 v49 v858) := fun v49 v858 => decidable_of_iff' _ (Iff.of_eq (k0_chk19.eq_1 v49 v858))
theorem k0_idx19_inb : ∀ (v49 : IVec S16 32) (v858 : IVec S16 32) (k0_hw19 : k0_chk19 v49 v858), ∀ a x, ((![v49, v858] : Fin 2 → IVec S16 32) a x).toNat < S16x17.size a := fun v49 v858 k0_hw19 => k0_hw19

def k0_chk20 (v49 : IVec S16 32) (v861 : IVec S16 32) : Prop :=
  (∀ a x, ((![v49, v861] : Fin 2 → IVec S16 32) a x).toNat < S16x17.size a)
instance k0_chk20.dec : ∀ (v49 : IVec S16 32) (v861 : IVec S16 32), Decidable (k0_chk20 v49 v861) := fun v49 v861 => decidable_of_iff' _ (Iff.of_eq (k0_chk20.eq_1 v49 v861))
theorem k0_idx20_inb : ∀ (v49 : IVec S16 32) (v861 : IVec S16 32) (k0_hw20 : k0_chk20 v49 v861), ∀ a x, ((![v49, v861] : Fin 2 → IVec S16 32) a x).toNat < S16x17.size a := fun v49 v861 k0_hw20 => k0_hw20

def k0_chk21 (v49 : IVec S16 32) (v864 : IVec S16 32) : Prop :=
  (∀ a x, ((![v49, v864] : Fin 2 → IVec S16 32) a x).toNat < S16x17.size a)
instance k0_chk21.dec : ∀ (v49 : IVec S16 32) (v864 : IVec S16 32), Decidable (k0_chk21 v49 v864) := fun v49 v864 => decidable_of_iff' _ (Iff.of_eq (k0_chk21.eq_1 v49 v864))
theorem k0_idx21_inb : ∀ (v49 : IVec S16 32) (v864 : IVec S16 32) (k0_hw21 : k0_chk21 v49 v864), ∀ a x, ((![v49, v864] : Fin 2 → IVec S16 32) a x).toNat < S16x17.size a := fun v49 v864 k0_hw21 => k0_hw21

def k0_chk22 (v49 : IVec S16 32) (v867 : IVec S16 32) : Prop :=
  (∀ a x, ((![v49, v867] : Fin 2 → IVec S16 32) a x).toNat < S16x17.size a)
instance k0_chk22.dec : ∀ (v49 : IVec S16 32) (v867 : IVec S16 32), Decidable (k0_chk22 v49 v867) := fun v49 v867 => decidable_of_iff' _ (Iff.of_eq (k0_chk22.eq_1 v49 v867))
theorem k0_idx22_inb : ∀ (v49 : IVec S16 32) (v867 : IVec S16 32) (k0_hw22 : k0_chk22 v49 v867), ∀ a x, ((![v49, v867] : Fin 2 → IVec S16 32) a x).toNat < S16x17.size a := fun v49 v867 k0_hw22 => k0_hw22

def k0_chk23 (v49 : IVec S16 32) (v870 : IVec S16 32) : Prop :=
  (∀ a x, ((![v49, v870] : Fin 2 → IVec S16 32) a x).toNat < S16x17.size a)
instance k0_chk23.dec : ∀ (v49 : IVec S16 32) (v870 : IVec S16 32), Decidable (k0_chk23 v49 v870) := fun v49 v870 => decidable_of_iff' _ (Iff.of_eq (k0_chk23.eq_1 v49 v870))
theorem k0_idx23_inb : ∀ (v49 : IVec S16 32) (v870 : IVec S16 32) (k0_hw23 : k0_chk23 v49 v870), ∀ a x, ((![v49, v870] : Fin 2 → IVec S16 32) a x).toNat < S16x17.size a := fun v49 v870 k0_hw23 => k0_hw23

def k0_chk24 (v49 : IVec S16 32) (v873 : IVec S16 32) : Prop :=
  (∀ a x, ((![v49, v873] : Fin 2 → IVec S16 32) a x).toNat < S16x17.size a)
instance k0_chk24.dec : ∀ (v49 : IVec S16 32) (v873 : IVec S16 32), Decidable (k0_chk24 v49 v873) := fun v49 v873 => decidable_of_iff' _ (Iff.of_eq (k0_chk24.eq_1 v49 v873))
theorem k0_idx24_inb : ∀ (v49 : IVec S16 32) (v873 : IVec S16 32) (k0_hw24 : k0_chk24 v49 v873), ∀ a x, ((![v49, v873] : Fin 2 → IVec S16 32) a x).toNat < S16x17.size a := fun v49 v873 k0_hw24 => k0_hw24

def k0_chk25 (v49 : IVec S16 32) (v876 : IVec S16 32) : Prop :=
  (∀ a x, ((![v49, v876] : Fin 2 → IVec S16 32) a x).toNat < S16x17.size a)
instance k0_chk25.dec : ∀ (v49 : IVec S16 32) (v876 : IVec S16 32), Decidable (k0_chk25 v49 v876) := fun v49 v876 => decidable_of_iff' _ (Iff.of_eq (k0_chk25.eq_1 v49 v876))
theorem k0_idx25_inb : ∀ (v49 : IVec S16 32) (v876 : IVec S16 32) (k0_hw25 : k0_chk25 v49 v876), ∀ a x, ((![v49, v876] : Fin 2 → IVec S16 32) a x).toNat < S16x17.size a := fun v49 v876 k0_hw25 => k0_hw25

def k0_chk26 (v49 : IVec S16 32) (v879 : IVec S16 32) : Prop :=
  (∀ a x, ((![v49, v879] : Fin 2 → IVec S16 32) a x).toNat < S16x17.size a)
instance k0_chk26.dec : ∀ (v49 : IVec S16 32) (v879 : IVec S16 32), Decidable (k0_chk26 v49 v879) := fun v49 v879 => decidable_of_iff' _ (Iff.of_eq (k0_chk26.eq_1 v49 v879))
theorem k0_idx26_inb : ∀ (v49 : IVec S16 32) (v879 : IVec S16 32) (k0_hw26 : k0_chk26 v49 v879), ∀ a x, ((![v49, v879] : Fin 2 → IVec S16 32) a x).toNat < S16x17.size a := fun v49 v879 k0_hw26 => k0_hw26

def k0_chk27 (v49 : IVec S16 32) (v882 : IVec S16 32) : Prop :=
  (∀ a x, ((![v49, v882] : Fin 2 → IVec S16 32) a x).toNat < S16x17.size a)
instance k0_chk27.dec : ∀ (v49 : IVec S16 32) (v882 : IVec S16 32), Decidable (k0_chk27 v49 v882) := fun v49 v882 => decidable_of_iff' _ (Iff.of_eq (k0_chk27.eq_1 v49 v882))
theorem k0_idx27_inb : ∀ (v49 : IVec S16 32) (v882 : IVec S16 32) (k0_hw27 : k0_chk27 v49 v882), ∀ a x, ((![v49, v882] : Fin 2 → IVec S16 32) a x).toNat < S16x17.size a := fun v49 v882 k0_hw27 => k0_hw27

def k0_chk28 (v49 : IVec S16 32) (v885 : IVec S16 32) : Prop :=
  (∀ a x, ((![v49, v885] : Fin 2 → IVec S16 32) a x).toNat < S16x17.size a)
instance k0_chk28.dec : ∀ (v49 : IVec S16 32) (v885 : IVec S16 32), Decidable (k0_chk28 v49 v885) := fun v49 v885 => decidable_of_iff' _ (Iff.of_eq (k0_chk28.eq_1 v49 v885))
theorem k0_idx28_inb : ∀ (v49 : IVec S16 32) (v885 : IVec S16 32) (k0_hw28 : k0_chk28 v49 v885), ∀ a x, ((![v49, v885] : Fin 2 → IVec S16 32) a x).toNat < S16x17.size a := fun v49 v885 k0_hw28 => k0_hw28

def k0_chk29 (v49 : IVec S16 32) (v888 : IVec S16 32) : Prop :=
  (∀ a x, ((![v49, v888] : Fin 2 → IVec S16 32) a x).toNat < S16x17.size a)
instance k0_chk29.dec : ∀ (v49 : IVec S16 32) (v888 : IVec S16 32), Decidable (k0_chk29 v49 v888) := fun v49 v888 => decidable_of_iff' _ (Iff.of_eq (k0_chk29.eq_1 v49 v888))
theorem k0_idx29_inb : ∀ (v49 : IVec S16 32) (v888 : IVec S16 32) (k0_hw29 : k0_chk29 v49 v888), ∀ a x, ((![v49, v888] : Fin 2 → IVec S16 32) a x).toNat < S16x17.size a := fun v49 v888 k0_hw29 => k0_hw29

def k0_chk30 (v49 : IVec S16 32) (v891 : IVec S16 32) : Prop :=
  (∀ a x, ((![v49, v891] : Fin 2 → IVec S16 32) a x).toNat < S16x17.size a)
instance k0_chk30.dec : ∀ (v49 : IVec S16 32) (v891 : IVec S16 32), Decidable (k0_chk30 v49 v891) := fun v49 v891 => decidable_of_iff' _ (Iff.of_eq (k0_chk30.eq_1 v49 v891))
theorem k0_idx30_inb : ∀ (v49 : IVec S16 32) (v891 : IVec S16 32) (k0_hw30 : k0_chk30 v49 v891), ∀ a x, ((![v49, v891] : Fin 2 → IVec S16 32) a x).toNat < S16x17.size a := fun v49 v891 k0_hw30 => k0_hw30

def k0_chk31 (v49 : IVec S16 32) (v894 : IVec S16 32) : Prop :=
  (∀ a x, ((![v49, v894] : Fin 2 → IVec S16 32) a x).toNat < S16x17.size a)
instance k0_chk31.dec : ∀ (v49 : IVec S16 32) (v894 : IVec S16 32), Decidable (k0_chk31 v49 v894) := fun v49 v894 => decidable_of_iff' _ (Iff.of_eq (k0_chk31.eq_1 v49 v894))
theorem k0_idx31_inb : ∀ (v49 : IVec S16 32) (v894 : IVec S16 32) (k0_hw31 : k0_chk31 v49 v894), ∀ a x, ((![v49, v894] : Fin 2 → IVec S16 32) a x).toNat < S16x17.size a := fun v49 v894 k0_hw31 => k0_hw31

def k0_chk32 (v49 : IVec S16 32) (v897 : IVec S16 32) : Prop :=
  (∀ a x, ((![v49, v897] : Fin 2 → IVec S16 32) a x).toNat < S16x17.size a)
instance k0_chk32.dec : ∀ (v49 : IVec S16 32) (v897 : IVec S16 32), Decidable (k0_chk32 v49 v897) := fun v49 v897 => decidable_of_iff' _ (Iff.of_eq (k0_chk32.eq_1 v49 v897))
theorem k0_idx32_inb : ∀ (v49 : IVec S16 32) (v897 : IVec S16 32) (k0_hw32 : k0_chk32 v49 v897), ∀ a x, ((![v49, v897] : Fin 2 → IVec S16 32) a x).toNat < S16x17.size a := fun v49 v897 k0_hw32 => k0_hw32
def k0_off22 (k0_t1 : Fin k0_t1_loop.trips) (k0_t3 : Fin k0_t3_loop.trips) : Fin 1 → Nat :=
  let c2_i32_17 : BitVec 32 := 2#32
  let c0_i32_6 : BitVec 32 := 0#32
  let c1_i32 : BitVec 32 := 1#32
  let arg18 : BitVec 32 := Scf.iv c0_i32_6 c1_i32 k0_t1
  let v16 : BitVec 32 := Scalar.muli c2_i32_17 arg18
  let c1_i32_43 : BitVec 32 := 1#32
  let v41 : BitVec 32 := Scalar.addi v16 c1_i32_43
  let c80_i32_50 : BitVec 32 := 80#32
  let v48 : BitVec 32 := Scalar.muli v41 c80_i32_50
  let c0_i32_52 : BitVec 32 := 0#32
  let c1_i32_54 : BitVec 32 := 1#32
  let arg20 : BitVec 32 := Scf.iv c0_i32_52 c1_i32_54 k0_t3
  let c16_i32 : BitVec 32 := 16#32
  let v52 : BitVec 32 := Scalar.muli arg20 c16_i32
  let v900 : BitVec 32 := Scalar.addi v48 v52
  let v901 : Index := Scalar.indexCast v900
  ![v901.toNat]
@[reducible] def k0_t4_loop : Scf.Loop 32 :=
  let c0_i32_14 : BitVec 32 := 0#32
  let c5_i32 : BitVec 32 := 5#32
  let v14 : BitVec 32 := Scalar.addi c0_i32_14 c5_i32
  let c1_i32_15 : BitVec 32 := 1#32
  ⟨c0_i32_14, v14, c1_i32_15⟩
def k0_off23 (k0_t4 : Fin k0_t4_loop.trips) (c0_i32_17 : BitVec 32) : Fin 2 → Nat :=
  let c0_i32_14 : BitVec 32 := 0#32
  let c1_i32_15 : BitVec 32 := 1#32
  let arg18 : BitVec 32 := Scf.iv c0_i32_14 c1_i32_15 k0_t4
  let c16_i32 : BitVec 32 := 16#32
  let v16 : BitVec 32 := Scalar.muli arg18 c16_i32
  let v17 : BitVec 32 := Scalar.addi v16 c0_i32_17
  let v18 : Index := Scalar.indexCast v17
  let c0 : Index := 0#32
  ![v18.toNat, 0]
def k0_off24 (k0_t4 : Fin k0_t4_loop.trips) (c0_i32_17 : BitVec 32) : Fin 2 → Nat :=
  let c0_i32_14 : BitVec 32 := 0#32
  let c1_i32_15 : BitVec 32 := 1#32
  let arg18 : BitVec 32 := Scf.iv c0_i32_14 c1_i32_15 k0_t4
  let c16_i32 : BitVec 32 := 16#32
  let v16 : BitVec 32 := Scalar.muli arg18 c16_i32
  let v17 : BitVec 32 := Scalar.addi v16 c0_i32_17
  let v23 : Index := Scalar.indexCast v17
  let c16 : Index := 16#32
  ![v23.toNat, 16]
def k0_off25 (k0_t4 : Fin k0_t4_loop.trips) (c0_i32_17 : BitVec 32) : Fin 2 → Nat :=
  let c0_i32_14 : BitVec 32 := 0#32
  let c1_i32_15 : BitVec 32 := 1#32
  let arg18 : BitVec 32 := Scf.iv c0_i32_14 c1_i32_15 k0_t4
  let c16_i32 : BitVec 32 := 16#32
  let v16 : BitVec 32 := Scalar.muli arg18 c16_i32
  let v17 : BitVec 32 := Scalar.addi v16 c0_i32_17
  let v29 : Index := Scalar.indexCast v17
  let c32 : Index := 32#32
  ![v29.toNat, 32]
def k0_off26 (k0_t4 : Fin k0_t4_loop.trips) (c0_i32_17 : BitVec 32) : Fin 2 → Nat :=
  let c0_i32_14 : BitVec 32 := 0#32
  let c1_i32_15 : BitVec 32 := 1#32
  let arg18 : BitVec 32 := Scf.iv c0_i32_14 c1_i32_15 k0_t4
  let c16_i32 : BitVec 32 := 16#32
  let v16 : BitVec 32 := Scalar.muli arg18 c16_i32
  let v17 : BitVec 32 := Scalar.addi v16 c0_i32_17
  let v35 : Index := Scalar.indexCast v17
  let c48 : Index := 48#32
  ![v35.toNat, 48]
def k0_off27 (k0_t4 : Fin k0_t4_loop.trips) (c0_i32_17 : BitVec 32) : Fin 2 → Nat :=
  let c0_i32_14 : BitVec 32 := 0#32
  let c1_i32_15 : BitVec 32 := 1#32
  let arg18 : BitVec 32 := Scf.iv c0_i32_14 c1_i32_15 k0_t4
  let c16_i32 : BitVec 32 := 16#32
  let v16 : BitVec 32 := Scalar.muli arg18 c16_i32
  let v17 : BitVec 32 := Scalar.addi v16 c0_i32_17
  let v41 : Index := Scalar.indexCast v17
  let c64 : Index := 64#32
  ![v41.toNat, 64]
def k0_off28 (k0_t4 : Fin k0_t4_loop.trips) (c0_i32_17 : BitVec 32) : Fin 2 → Nat :=
  let c0_i32_14 : BitVec 32 := 0#32
  let c1_i32_15 : BitVec 32 := 1#32
  let arg18 : BitVec 32 := Scf.iv c0_i32_14 c1_i32_15 k0_t4
  let c16_i32 : BitVec 32 := 16#32
  let v16 : BitVec 32 := Scalar.muli arg18 c16_i32
  let v17 : BitVec 32 := Scalar.addi v16 c0_i32_17
  let v47 : Index := Scalar.indexCast v17
  let c80 : Index := 80#32
  ![v47.toNat, 80]
def k0_off29 (k0_t4 : Fin k0_t4_loop.trips) (c0_i32_17 : BitVec 32) : Fin 2 → Nat :=
  let c0_i32_14 : BitVec 32 := 0#32
  let c1_i32_15 : BitVec 32 := 1#32
  let arg18 : BitVec 32 := Scf.iv c0_i32_14 c1_i32_15 k0_t4
  let c16_i32 : BitVec 32 := 16#32
  let v16 : BitVec 32 := Scalar.muli arg18 c16_i32
  let v17 : BitVec 32 := Scalar.addi v16 c0_i32_17
  let v53 : Index := Scalar.indexCast v17
  let c96 : Index := 96#32
  ![v53.toNat, 96]
def k0_off30 (k0_t4 : Fin k0_t4_loop.trips) (c0_i32_17 : BitVec 32) : Fin 2 → Nat :=
  let c0_i32_14 : BitVec 32 := 0#32
  let c1_i32_15 : BitVec 32 := 1#32
  let arg18 : BitVec 32 := Scf.iv c0_i32_14 c1_i32_15 k0_t4
  let c16_i32 : BitVec 32 := 16#32
  let v16 : BitVec 32 := Scalar.muli arg18 c16_i32
  let v17 : BitVec 32 := Scalar.addi v16 c0_i32_17
  let v59 : Index := Scalar.indexCast v17
  let c112 : Index := 112#32
  ![v59.toNat, 112]

def k0_chk33 (v13 : IVec S16 32) (v817 : IVec S16 32) : Prop :=
  (∀ a x, ((![v13, v817] : Fin 2 → IVec S16 32) a x).toNat < S16x17.size a)
instance k0_chk33.dec : ∀ (v13 : IVec S16 32) (v817 : IVec S16 32), Decidable (k0_chk33 v13 v817) := fun v13 v817 => decidable_of_iff' _ (Iff.of_eq (k0_chk33.eq_1 v13 v817))
theorem k0_idx33_inb : ∀ (v13 : IVec S16 32) (v817 : IVec S16 32) (k0_hw33 : k0_chk33 v13 v817), ∀ a x, ((![v13, v817] : Fin 2 → IVec S16 32) a x).toNat < S16x17.size a := fun v13 v817 k0_hw33 => k0_hw33

def k0_chk34 (v13 : IVec S16 32) (v819 : IVec S16 32) : Prop :=
  (∀ a x, ((![v13, v819] : Fin 2 → IVec S16 32) a x).toNat < S16x17.size a)
instance k0_chk34.dec : ∀ (v13 : IVec S16 32) (v819 : IVec S16 32), Decidable (k0_chk34 v13 v819) := fun v13 v819 => decidable_of_iff' _ (Iff.of_eq (k0_chk34.eq_1 v13 v819))
theorem k0_idx34_inb : ∀ (v13 : IVec S16 32) (v819 : IVec S16 32) (k0_hw34 : k0_chk34 v13 v819), ∀ a x, ((![v13, v819] : Fin 2 → IVec S16 32) a x).toNat < S16x17.size a := fun v13 v819 k0_hw34 => k0_hw34

def k0_chk35 (v13 : IVec S16 32) (v822 : IVec S16 32) : Prop :=
  (∀ a x, ((![v13, v822] : Fin 2 → IVec S16 32) a x).toNat < S16x17.size a)
instance k0_chk35.dec : ∀ (v13 : IVec S16 32) (v822 : IVec S16 32), Decidable (k0_chk35 v13 v822) := fun v13 v822 => decidable_of_iff' _ (Iff.of_eq (k0_chk35.eq_1 v13 v822))
theorem k0_idx35_inb : ∀ (v13 : IVec S16 32) (v822 : IVec S16 32) (k0_hw35 : k0_chk35 v13 v822), ∀ a x, ((![v13, v822] : Fin 2 → IVec S16 32) a x).toNat < S16x17.size a := fun v13 v822 k0_hw35 => k0_hw35

def k0_chk36 (v13 : IVec S16 32) (v825 : IVec S16 32) : Prop :=
  (∀ a x, ((![v13, v825] : Fin 2 → IVec S16 32) a x).toNat < S16x17.size a)
instance k0_chk36.dec : ∀ (v13 : IVec S16 32) (v825 : IVec S16 32), Decidable (k0_chk36 v13 v825) := fun v13 v825 => decidable_of_iff' _ (Iff.of_eq (k0_chk36.eq_1 v13 v825))
theorem k0_idx36_inb : ∀ (v13 : IVec S16 32) (v825 : IVec S16 32) (k0_hw36 : k0_chk36 v13 v825), ∀ a x, ((![v13, v825] : Fin 2 → IVec S16 32) a x).toNat < S16x17.size a := fun v13 v825 k0_hw36 => k0_hw36

def k0_chk37 (v13 : IVec S16 32) (v828 : IVec S16 32) : Prop :=
  (∀ a x, ((![v13, v828] : Fin 2 → IVec S16 32) a x).toNat < S16x17.size a)
instance k0_chk37.dec : ∀ (v13 : IVec S16 32) (v828 : IVec S16 32), Decidable (k0_chk37 v13 v828) := fun v13 v828 => decidable_of_iff' _ (Iff.of_eq (k0_chk37.eq_1 v13 v828))
theorem k0_idx37_inb : ∀ (v13 : IVec S16 32) (v828 : IVec S16 32) (k0_hw37 : k0_chk37 v13 v828), ∀ a x, ((![v13, v828] : Fin 2 → IVec S16 32) a x).toNat < S16x17.size a := fun v13 v828 k0_hw37 => k0_hw37

def k0_chk38 (v13 : IVec S16 32) (v831 : IVec S16 32) : Prop :=
  (∀ a x, ((![v13, v831] : Fin 2 → IVec S16 32) a x).toNat < S16x17.size a)
instance k0_chk38.dec : ∀ (v13 : IVec S16 32) (v831 : IVec S16 32), Decidable (k0_chk38 v13 v831) := fun v13 v831 => decidable_of_iff' _ (Iff.of_eq (k0_chk38.eq_1 v13 v831))
theorem k0_idx38_inb : ∀ (v13 : IVec S16 32) (v831 : IVec S16 32) (k0_hw38 : k0_chk38 v13 v831), ∀ a x, ((![v13, v831] : Fin 2 → IVec S16 32) a x).toNat < S16x17.size a := fun v13 v831 k0_hw38 => k0_hw38

def k0_chk39 (v13 : IVec S16 32) (v834 : IVec S16 32) : Prop :=
  (∀ a x, ((![v13, v834] : Fin 2 → IVec S16 32) a x).toNat < S16x17.size a)
instance k0_chk39.dec : ∀ (v13 : IVec S16 32) (v834 : IVec S16 32), Decidable (k0_chk39 v13 v834) := fun v13 v834 => decidable_of_iff' _ (Iff.of_eq (k0_chk39.eq_1 v13 v834))
theorem k0_idx39_inb : ∀ (v13 : IVec S16 32) (v834 : IVec S16 32) (k0_hw39 : k0_chk39 v13 v834), ∀ a x, ((![v13, v834] : Fin 2 → IVec S16 32) a x).toNat < S16x17.size a := fun v13 v834 k0_hw39 => k0_hw39

def k0_chk40 (v13 : IVec S16 32) (v837 : IVec S16 32) : Prop :=
  (∀ a x, ((![v13, v837] : Fin 2 → IVec S16 32) a x).toNat < S16x17.size a)
instance k0_chk40.dec : ∀ (v13 : IVec S16 32) (v837 : IVec S16 32), Decidable (k0_chk40 v13 v837) := fun v13 v837 => decidable_of_iff' _ (Iff.of_eq (k0_chk40.eq_1 v13 v837))
theorem k0_idx40_inb : ∀ (v13 : IVec S16 32) (v837 : IVec S16 32) (k0_hw40 : k0_chk40 v13 v837), ∀ a x, ((![v13, v837] : Fin 2 → IVec S16 32) a x).toNat < S16x17.size a := fun v13 v837 k0_hw40 => k0_hw40

def k0_chk41 (v13 : IVec S16 32) (v840 : IVec S16 32) : Prop :=
  (∀ a x, ((![v13, v840] : Fin 2 → IVec S16 32) a x).toNat < S16x17.size a)
instance k0_chk41.dec : ∀ (v13 : IVec S16 32) (v840 : IVec S16 32), Decidable (k0_chk41 v13 v840) := fun v13 v840 => decidable_of_iff' _ (Iff.of_eq (k0_chk41.eq_1 v13 v840))
theorem k0_idx41_inb : ∀ (v13 : IVec S16 32) (v840 : IVec S16 32) (k0_hw41 : k0_chk41 v13 v840), ∀ a x, ((![v13, v840] : Fin 2 → IVec S16 32) a x).toNat < S16x17.size a := fun v13 v840 k0_hw41 => k0_hw41

def k0_chk42 (v13 : IVec S16 32) (v843 : IVec S16 32) : Prop :=
  (∀ a x, ((![v13, v843] : Fin 2 → IVec S16 32) a x).toNat < S16x17.size a)
instance k0_chk42.dec : ∀ (v13 : IVec S16 32) (v843 : IVec S16 32), Decidable (k0_chk42 v13 v843) := fun v13 v843 => decidable_of_iff' _ (Iff.of_eq (k0_chk42.eq_1 v13 v843))
theorem k0_idx42_inb : ∀ (v13 : IVec S16 32) (v843 : IVec S16 32) (k0_hw42 : k0_chk42 v13 v843), ∀ a x, ((![v13, v843] : Fin 2 → IVec S16 32) a x).toNat < S16x17.size a := fun v13 v843 k0_hw42 => k0_hw42

def k0_chk43 (v13 : IVec S16 32) (v846 : IVec S16 32) : Prop :=
  (∀ a x, ((![v13, v846] : Fin 2 → IVec S16 32) a x).toNat < S16x17.size a)
instance k0_chk43.dec : ∀ (v13 : IVec S16 32) (v846 : IVec S16 32), Decidable (k0_chk43 v13 v846) := fun v13 v846 => decidable_of_iff' _ (Iff.of_eq (k0_chk43.eq_1 v13 v846))
theorem k0_idx43_inb : ∀ (v13 : IVec S16 32) (v846 : IVec S16 32) (k0_hw43 : k0_chk43 v13 v846), ∀ a x, ((![v13, v846] : Fin 2 → IVec S16 32) a x).toNat < S16x17.size a := fun v13 v846 k0_hw43 => k0_hw43

def k0_chk44 (v13 : IVec S16 32) (v849 : IVec S16 32) : Prop :=
  (∀ a x, ((![v13, v849] : Fin 2 → IVec S16 32) a x).toNat < S16x17.size a)
instance k0_chk44.dec : ∀ (v13 : IVec S16 32) (v849 : IVec S16 32), Decidable (k0_chk44 v13 v849) := fun v13 v849 => decidable_of_iff' _ (Iff.of_eq (k0_chk44.eq_1 v13 v849))
theorem k0_idx44_inb : ∀ (v13 : IVec S16 32) (v849 : IVec S16 32) (k0_hw44 : k0_chk44 v13 v849), ∀ a x, ((![v13, v849] : Fin 2 → IVec S16 32) a x).toNat < S16x17.size a := fun v13 v849 k0_hw44 => k0_hw44

def k0_chk45 (v13 : IVec S16 32) (v852 : IVec S16 32) : Prop :=
  (∀ a x, ((![v13, v852] : Fin 2 → IVec S16 32) a x).toNat < S16x17.size a)
instance k0_chk45.dec : ∀ (v13 : IVec S16 32) (v852 : IVec S16 32), Decidable (k0_chk45 v13 v852) := fun v13 v852 => decidable_of_iff' _ (Iff.of_eq (k0_chk45.eq_1 v13 v852))
theorem k0_idx45_inb : ∀ (v13 : IVec S16 32) (v852 : IVec S16 32) (k0_hw45 : k0_chk45 v13 v852), ∀ a x, ((![v13, v852] : Fin 2 → IVec S16 32) a x).toNat < S16x17.size a := fun v13 v852 k0_hw45 => k0_hw45

def k0_chk46 (v13 : IVec S16 32) (v855 : IVec S16 32) : Prop :=
  (∀ a x, ((![v13, v855] : Fin 2 → IVec S16 32) a x).toNat < S16x17.size a)
instance k0_chk46.dec : ∀ (v13 : IVec S16 32) (v855 : IVec S16 32), Decidable (k0_chk46 v13 v855) := fun v13 v855 => decidable_of_iff' _ (Iff.of_eq (k0_chk46.eq_1 v13 v855))
theorem k0_idx46_inb : ∀ (v13 : IVec S16 32) (v855 : IVec S16 32) (k0_hw46 : k0_chk46 v13 v855), ∀ a x, ((![v13, v855] : Fin 2 → IVec S16 32) a x).toNat < S16x17.size a := fun v13 v855 k0_hw46 => k0_hw46

def k0_chk47 (v13 : IVec S16 32) (v858 : IVec S16 32) : Prop :=
  (∀ a x, ((![v13, v858] : Fin 2 → IVec S16 32) a x).toNat < S16x17.size a)
instance k0_chk47.dec : ∀ (v13 : IVec S16 32) (v858 : IVec S16 32), Decidable (k0_chk47 v13 v858) := fun v13 v858 => decidable_of_iff' _ (Iff.of_eq (k0_chk47.eq_1 v13 v858))
theorem k0_idx47_inb : ∀ (v13 : IVec S16 32) (v858 : IVec S16 32) (k0_hw47 : k0_chk47 v13 v858), ∀ a x, ((![v13, v858] : Fin 2 → IVec S16 32) a x).toNat < S16x17.size a := fun v13 v858 k0_hw47 => k0_hw47

def k0_chk48 (v13 : IVec S16 32) (v861 : IVec S16 32) : Prop :=
  (∀ a x, ((![v13, v861] : Fin 2 → IVec S16 32) a x).toNat < S16x17.size a)
instance k0_chk48.dec : ∀ (v13 : IVec S16 32) (v861 : IVec S16 32), Decidable (k0_chk48 v13 v861) := fun v13 v861 => decidable_of_iff' _ (Iff.of_eq (k0_chk48.eq_1 v13 v861))
theorem k0_idx48_inb : ∀ (v13 : IVec S16 32) (v861 : IVec S16 32) (k0_hw48 : k0_chk48 v13 v861), ∀ a x, ((![v13, v861] : Fin 2 → IVec S16 32) a x).toNat < S16x17.size a := fun v13 v861 k0_hw48 => k0_hw48
def k0_off31 (k0_t4 : Fin k0_t4_loop.trips) : Fin 1 → Nat :=
  let c9920_i32_317 : BitVec 32 := 9920#32
  let c0_i32_14 : BitVec 32 := 0#32
  let c1_i32_15 : BitVec 32 := 1#32
  let arg18 : BitVec 32 := Scf.iv c0_i32_14 c1_i32_15 k0_t4
  let c16_i32 : BitVec 32 := 16#32
  let v16 : BitVec 32 := Scalar.muli arg18 c16_i32
  let v864 : BitVec 32 := Scalar.addi c9920_i32_317 v16
  let v865 : Index := Scalar.indexCast v864
  ![v865.toNat]
def k0_off32 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S10000_S80_0 : ∀ a, (![0] : Fin 1 → Nat) a + S80.size a ≤ S10000.size a
  inb_S10000x128_S10000x128_0_0 : ∀ a, (![0, 0] : Fin 2 → Nat) a + S10000x128.size a ≤ S10000x128.size a
  gathers_S10000x128_S80x128 : S10000x128.Gathers 0 S80x128
  iota_S16_d0_w32_scVector : S16.Iotas .scVector 32 [0]
  h_S1x16 : 0 < S1x16.numel
  shapeCasts_S1x16_S16 : S1x16.ShapeCasts S16
  inb_S16x17_S1x16_0_0 : ∀ a, (![0, 0] : Fin 2 → Nat) a + S1x16.size a ≤ S16x17.size a
  shapeCasts_S16_S1x16 : S16.ShapeCasts S1x16
  inb_S16x17_S1x16_1_0 : ∀ a, (![1, 0] : Fin 2 → Nat) a + S1x16.size a ≤ S16x17.size a
  inb_S16x17_S1x16_2_0 : ∀ a, (![2, 0] : Fin 2 → Nat) a + S1x16.size a ≤ S16x17.size a
  inb_S16x17_S1x16_3_0 : ∀ a, (![3, 0] : Fin 2 → Nat) a + S1x16.size a ≤ S16x17.size a
  inb_S16x17_S1x16_4_0 : ∀ a, (![4, 0] : Fin 2 → Nat) a + S1x16.size a ≤ S16x17.size a
  inb_S16x17_S1x16_5_0 : ∀ a, (![5, 0] : Fin 2 → Nat) a + S1x16.size a ≤ S16x17.size a
  inb_S16x17_S1x16_6_0 : ∀ a, (![6, 0] : Fin 2 → Nat) a + S1x16.size a ≤ S16x17.size a
  inb_S16x17_S1x16_7_0 : ∀ a, (![7, 0] : Fin 2 → Nat) a + S1x16.size a ≤ S16x17.size a
  inb_S16x17_S1x16_8_0 : ∀ a, (![8, 0] : Fin 2 → Nat) a + S1x16.size a ≤ S16x17.size a
  inb_S16x17_S1x16_9_0 : ∀ a, (![9, 0] : Fin 2 → Nat) a + S1x16.size a ≤ S16x17.size a
  inb_S16x17_S1x16_10_0 : ∀ a, (![10, 0] : Fin 2 → Nat) a + S1x16.size a ≤ S16x17.size a
  inb_S16x17_S1x16_11_0 : ∀ a, (![11, 0] : Fin 2 → Nat) a + S1x16.size a ≤ S16x17.size a
  inb_S16x17_S1x16_12_0 : ∀ a, (![12, 0] : Fin 2 → Nat) a + S1x16.size a ≤ S16x17.size a
  inb_S16x17_S1x16_13_0 : ∀ a, (![13, 0] : Fin 2 → Nat) a + S1x16.size a ≤ S16x17.size a
  inb_S16x17_S1x16_14_0 : ∀ a, (![14, 0] : Fin 2 → Nat) a + S1x16.size a ≤ S16x17.size a
  inb_S16x17_S1x16_15_0 : ∀ a, (![15, 0] : Fin 2 → Nat) a + S1x16.size a ≤ S16x17.size a
  h_S16x17 : 0 < S16x17.numel
  h_S16 : 0 < S16.numel
  inb_S10000_S80_9920 : ∀ a, (![9920] : Fin 1 → Nat) a + S80.size a ≤ S10000.size a
  shapeCasts_S320000_S320000x1 : S320000.ShapeCasts S320000x1
  hcc0_scratch6 : 0 + S_.numel ≤ 7
  hcc0_scratch7 : 1 + S_.numel ≤ 7
  hcc0_scratch10 : 2 + S_.numel ≤ 7
  hcc0_scratch11 : 3 + S_.numel ≤ 7
  hcc0_scoped0 : 4 + S_.numel ≤ 7
  hcc0_scoped1 : 5 + S_.numel ≤ 7
  hcc0_scoped2 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S10000.size a ≤ S320000.size a
  k0_t1_ok : k0_t1_loop.OK
  k0_off2_inb : ∀ k0_t1 : Fin k0_t1_loop.trips, ∀ a, (k0_off2 k0_t1) a + S80.size a ≤ S10000.size a
  k0_off3_inb : ∀ k0_t1 : Fin k0_t1_loop.trips, ∀ a, (k0_off3 k0_t1) a + S80.size a ≤ S10000.size a
  k0_t2_ok : k0_t2_loop.OK
  k0_off4_inb : ∀ k0_t2 : Fin k0_t2_loop.trips, ∀ (r : Fin 16), ∀ a, (k0_off4 k0_t2 (BitVec.ofNat 32 r.val)) a + S1x16.size a ≤ S80x128.size a
  k0_off5_inb : ∀ k0_t2 : Fin k0_t2_loop.trips, ∀ (r : Fin 16), ∀ a, (k0_off5 k0_t2 (BitVec.ofNat 32 r.val)) a + S1x16.size a ≤ S80x128.size a
  k0_off6_inb : ∀ k0_t2 : Fin k0_t2_loop.trips, ∀ (r : Fin 16), ∀ a, (k0_off6 k0_t2 (BitVec.ofNat 32 r.val)) a + S1x16.size a ≤ S80x128.size a
  k0_off7_inb : ∀ k0_t2 : Fin k0_t2_loop.trips, ∀ (r : Fin 16), ∀ a, (k0_off7 k0_t2 (BitVec.ofNat 32 r.val)) a + S1x16.size a ≤ S80x128.size a
  k0_off8_inb : ∀ k0_t2 : Fin k0_t2_loop.trips, ∀ (r : Fin 16), ∀ a, (k0_off8 k0_t2 (BitVec.ofNat 32 r.val)) a + S1x16.size a ≤ S80x128.size a
  k0_off9_inb : ∀ k0_t2 : Fin k0_t2_loop.trips, ∀ (r : Fin 16), ∀ a, (k0_off9 k0_t2 (BitVec.ofNat 32 r.val)) a + S1x16.size a ≤ S80x128.size a
  k0_off10_inb : ∀ k0_t2 : Fin k0_t2_loop.trips, ∀ (r : Fin 16), ∀ a, (k0_off10 k0_t2 (BitVec.ofNat 32 r.val)) a + S1x16.size a ≤ S80x128.size a
  k0_off11_inb : ∀ k0_t2 : Fin k0_t2_loop.trips, ∀ (r : Fin 16), ∀ a, (k0_off11 k0_t2 (BitVec.ofNat 32 r.val)) a + S1x16.size a ≤ S80x128.size a
  k0_off12_inb : ∀ (k0_t1 : Fin k0_t1_loop.trips) (k0_t2 : Fin k0_t2_loop.trips), ∀ a, (k0_off12 k0_t1 k0_t2) a + S16.size a ≤ S10000.size a
  k0_off13_inb : ∀ k0_t1 : Fin k0_t1_loop.trips, ∀ (r : Fin 2), ∀ a, (k0_off13 k0_t1 (BitVec.ofNat 32 (1 + r.val))) a + S80.size a ≤ S10000.size a
  k0_t3_ok : k0_t3_loop.OK
  k0_off14_inb : ∀ k0_t3 : Fin k0_t3_loop.trips, ∀ (r : Fin 16), ∀ a, (k0_off14 k0_t3 (BitVec.ofNat 32 r.val)) a + S1x16.size a ≤ S80x128.size a
  k0_off15_inb : ∀ k0_t3 : Fin k0_t3_loop.trips, ∀ (r : Fin 16), ∀ a, (k0_off15 k0_t3 (BitVec.ofNat 32 r.val)) a + S1x16.size a ≤ S80x128.size a
  k0_off16_inb : ∀ k0_t3 : Fin k0_t3_loop.trips, ∀ (r : Fin 16), ∀ a, (k0_off16 k0_t3 (BitVec.ofNat 32 r.val)) a + S1x16.size a ≤ S80x128.size a
  k0_off17_inb : ∀ k0_t3 : Fin k0_t3_loop.trips, ∀ (r : Fin 16), ∀ a, (k0_off17 k0_t3 (BitVec.ofNat 32 r.val)) a + S1x16.size a ≤ S80x128.size a
  k0_off18_inb : ∀ k0_t3 : Fin k0_t3_loop.trips, ∀ (r : Fin 16), ∀ a, (k0_off18 k0_t3 (BitVec.ofNat 32 r.val)) a + S1x16.size a ≤ S80x128.size a
  k0_off19_inb : ∀ k0_t3 : Fin k0_t3_loop.trips, ∀ (r : Fin 16), ∀ a, (k0_off19 k0_t3 (BitVec.ofNat 32 r.val)) a + S1x16.size a ≤ S80x128.size a
  k0_off20_inb : ∀ k0_t3 : Fin k0_t3_loop.trips, ∀ (r : Fin 16), ∀ a, (k0_off20 k0_t3 (BitVec.ofNat 32 r.val)) a + S1x16.size a ≤ S80x128.size a
  k0_off21_inb : ∀ k0_t3 : Fin k0_t3_loop.trips, ∀ (r : Fin 16), ∀ a, (k0_off21 k0_t3 (BitVec.ofNat 32 r.val)) a + S1x16.size a ≤ S80x128.size a
  k0_off22_inb : ∀ (k0_t1 : Fin k0_t1_loop.trips) (k0_t3 : Fin k0_t3_loop.trips), ∀ a, (k0_off22 k0_t1 k0_t3) a + S16.size a ≤ S10000.size a
  k0_t4_ok : k0_t4_loop.OK
  k0_off23_inb : ∀ k0_t4 : Fin k0_t4_loop.trips, ∀ (r : Fin 16), ∀ a, (k0_off23 k0_t4 (BitVec.ofNat 32 r.val)) a + S1x16.size a ≤ S80x128.size a
  k0_off24_inb : ∀ k0_t4 : Fin k0_t4_loop.trips, ∀ (r : Fin 16), ∀ a, (k0_off24 k0_t4 (BitVec.ofNat 32 r.val)) a + S1x16.size a ≤ S80x128.size a
  k0_off25_inb : ∀ k0_t4 : Fin k0_t4_loop.trips, ∀ (r : Fin 16), ∀ a, (k0_off25 k0_t4 (BitVec.ofNat 32 r.val)) a + S1x16.size a ≤ S80x128.size a
  k0_off26_inb : ∀ k0_t4 : Fin k0_t4_loop.trips, ∀ (r : Fin 16), ∀ a, (k0_off26 k0_t4 (BitVec.ofNat 32 r.val)) a + S1x16.size a ≤ S80x128.size a
  k0_off27_inb : ∀ k0_t4 : Fin k0_t4_loop.trips, ∀ (r : Fin 16), ∀ a, (k0_off27 k0_t4 (BitVec.ofNat 32 r.val)) a + S1x16.size a ≤ S80x128.size a
  k0_off28_inb : ∀ k0_t4 : Fin k0_t4_loop.trips, ∀ (r : Fin 16), ∀ a, (k0_off28 k0_t4 (BitVec.ofNat 32 r.val)) a + S1x16.size a ≤ S80x128.size a
  k0_off29_inb : ∀ k0_t4 : Fin k0_t4_loop.trips, ∀ (r : Fin 16), ∀ a, (k0_off29 k0_t4 (BitVec.ofNat 32 r.val)) a + S1x16.size a ≤ S80x128.size a
  k0_off30_inb : ∀ k0_t4 : Fin k0_t4_loop.trips, ∀ (r : Fin 16), ∀ a, (k0_off30 k0_t4 (BitVec.ofNat 32 r.val)) a + S1x16.size a ≤ S80x128.size a
  k0_off31_inb : ∀ k0_t4 : Fin k0_t4_loop.trips, ∀ a, (k0_off31 k0_t4) a + S16.size a ≤ S10000.size a
  k0_off32_inb : ∀ i : grid0.Coords, ∀ a, (k0_off32 i) a + S10000.size a ≤ S320000.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch10 : DmaSems sig S_ := SemArray.consecutive 2 S_ hcc0_scratch10
abbrev cc0_scratch11 : DmaSems sig S_ := SemArray.consecutive 3 S_ hcc0_scratch11
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2

class Facts : Prop extends Facts₀ where

variable [Facts]
-- ==== ReferenceIdeal.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩

abbrev nBuf : Space → Nat
  | .hbm => 56
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S1x320000, .i32⟩
  | .hbm, ⟨3, _⟩ => ⟨S320000, .i32⟩
  | .hbm, ⟨4, _⟩ => ⟨S1x320000, .i32⟩
  | .hbm, ⟨5, _⟩ => ⟨S320000, .i32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S1, .i32⟩
  | .hbm, ⟨15, _⟩ => ⟨S_, .i32⟩
  | .hbm, ⟨16, _⟩ => ⟨S320000x1, .i32⟩
  | .hbm, ⟨17, _⟩ => ⟨S320000x1, .i1⟩
  | .hbm, ⟨18, _⟩ => ⟨S1x1, .i32⟩
  | .hbm, ⟨19, _⟩ => ⟨S320000x1, .i32⟩
  | .hbm, ⟨20, _⟩ => ⟨S320000x1, .i1⟩
  | .hbm, ⟨21, _⟩ => ⟨S320000x1, .i1⟩
  | .hbm, ⟨22, _⟩ => ⟨S_, .i1⟩
  | .hbm, ⟨23, _⟩ => ⟨S320000, .i1⟩
  | .hbm, ⟨24, _⟩ => ⟨S320000x128, .f32⟩
  | .hbm, ⟨25, _⟩ => ⟨S320000x128, .i1⟩
  | .hbm, ⟨26, _⟩ => ⟨S_, .f32⟩
  | .hbm, ⟨27, _⟩ => ⟨S320000x128, .f32⟩
  | .hbm, ⟨28, _⟩ => ⟨S320000x128, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S1, .i32⟩
  | .hbm, ⟨38, _⟩ => ⟨S_, .i32⟩
  | .hbm, ⟨39, _⟩ => ⟨S320000x1, .i32⟩
  | .hbm, ⟨40, _⟩ => ⟨S320000x1, .i1⟩
  | .hbm, ⟨41, _⟩ => ⟨S1x1, .i32⟩
  | .hbm, ⟨42, _⟩ => ⟨S320000x1, .i32⟩
  | .hbm, ⟨43, _⟩ => ⟨S320000x1, .i1⟩
  | .hbm, ⟨44, _⟩ => ⟨S320000x1, .i1⟩
  | .hbm, ⟨45, _⟩ => ⟨S_, .i1⟩
  | .hbm, ⟨46, _⟩ => ⟨S320000, .i1⟩
  | .hbm, ⟨47, _⟩ => ⟨S320000x128, .f32⟩
  | .hbm, ⟨48, _⟩ => ⟨S320000x128, .i1⟩
  | .hbm, ⟨49, _⟩ => ⟨S_, .f32⟩
  | .hbm, ⟨50, _⟩ => ⟨S320000x128, .f32⟩
  | .hbm, ⟨51, _⟩ => ⟨S320000x128, .f32⟩
  | .hbm, ⟨52, _⟩ => ⟨S320000x128, .f32⟩
  | .hbm, ⟨53, _⟩ => ⟨S_, .f32⟩
  | .hbm, ⟨54, _⟩ => ⟨S320000, .f32⟩
  | .hbm, ⟨55, _⟩ => ⟨S320000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩
abbrev main_v6 : Ref sig .tc := ⟨.hbm, 52, rfl⟩
abbrev main_cst : Ref sig .tc := ⟨.hbm, 53, rfl⟩
abbrev main_v7 : Ref sig .tc := ⟨.hbm, 54, rfl⟩
abbrev main_v8 : Ref sig .tc := ⟨.hbm, 55, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  reducesTo_S320000x128_S320000_d1 : S320000x128.ReducesTo [1] S320000
  gather_S10000x128_S320000x1_S320000x128_1_0_n_n_0_1_1128_wf : GatherDims.WF S10000x128 S320000x1 S320000x128 [1] [0] [] [0] [] 1 ![1, 128]

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf

class Facts : Prop extends Facts₀ where

variable [Facts]
-- ==== Proof.SetupI.lean ====
/-
  The idealized kernel's program as the SparseCore launch theorem sees it: one vector-subcore call on two SparseCores of
  sixteen tiles each. Every tile only makes copies of its own and waits for them, so no schedule between threads is
  needed: the ghost state is the launch handshakes' rounds beside the transfers' counters.
-/
import proofs.«215249_g59107339927817_cont_9to1_m_583_18_alg».proof.Defs
import proofs.«215249_g59107339927817_cont_9to1_m_583_18_alg».proof.Proof.Gen.KernelIdeal
import proofs.«215249_g59107339927817_cont_9to1_m_583_18_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The tile a grid point names. -/
abbrev cV (L : grid0.Coords) : Fin τ.nSC := (L 0).castLE hcore0
abbrev jV (L : grid0.Coords) : Fin τ.nSub := (L 1).castLE hsub0

end Cert.Proof.KI

end
-- ==== Proof.NamesI.lean ====
/-
  The kernel's memrefs as its body table passes them, and the slices one tile works on: tile `(c, s)` is worker
  `w = 2 s + c` and owns entries `[10000 w, 10000 w + 10000)` of the source list, the destination list and the result.
-/
import proofs.«215249_g59107339927817_cont_9to1_m_583_18_alg».proof.Proof.SetupI
import Idealize.ShloMosaic.Lib.ValueIdx

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

abbrev xW : Memref sig .scVector .hbm S10000x128 .f32 := Memref.whole main_arg0_scv
abbrev sW : Memref sig .scVector .hbm S320000 .i32 := Memref.whole main_v1_scv
abbrev dW : Memref sig .scVector .hbm S320000 .i32 := Memref.whole main_v3_scv
abbrev oW : Memref sig .scVector .hbm S320000 .f32 := Memref.whole main_v4_scv
abbrev iU : Memref sig .scVector .vmem S10000 .i32 := Memref.whole cc0_scratch0
abbrev iV : Memref sig .scVector .vmem S10000 .i32 := Memref.whole cc0_scratch1
abbrev oA : Memref sig .scVector .vmem S10000 .f32 := Memref.whole cc0_scratch2
abbrev tB : Memref sig .scVector .vmem S16x17 .f32 := Memref.whole cc0_scratch3
abbrev rU0 : Memref sig .scVector .vmem S80x128 .f32 := Memref.whole cc0_scratch4
abbrev rV0 : Memref sig .scVector .vmem S80x128 .f32 := Memref.whole cc0_scratch5
abbrev rU1 : Memref sig .scVector .vmem S80x128 .f32 := Memref.whole cc0_scratch8
abbrev rV1 : Memref sig .scVector .vmem S80x128 .f32 := Memref.whole cc0_scratch9
abbrev sSl (L : grid0.Coords) : Memref sig .scVector .hbm S10000 .i32 := sW.slice (Rect.unit (s := S320000) (k0_off1 L) S10000.size (k0_off1_inb L)) (fun _ => rfl)
abbrev dSl (L : grid0.Coords) : Memref sig .scVector .hbm S10000 .i32 := dW.slice (Rect.unit (s := S320000) (k0_off1 L) S10000.size (k0_off1_inb L)) (fun _ => rfl)
abbrev oSl (L : grid0.Coords) : Memref sig .scVector .hbm S10000 .f32 := oW.slice (Rect.unit (s := S320000) (k0_off32 L) S10000.size (k0_off32_inb L)) (fun _ => rfl)
abbrev thr (d : Dev nD) (L : grid0.Coords) : Thread nD τ := V d (cV L) (jV L)

end Cert.Proof.KI

end
-- ==== Proof.GrpSpecI.lean ====
/-
  What one group of sixteen edges computes, as one pure function of the two gathered row buffers: for each of the
  sixteen rows the eight lane-wise products are added into a 16-lane vector stored as a row of a 16 × 17 scratch; the
  scratch is then read down its columns and the sixteen columns are added. Lane `l` of the result is therefore
  `∑ c < 16, ∑ j < 8, u[l, 16 j + c] · v[l, 16 j + c]`: the inner product of row `l` of the two buffers, in another order.
-/
import proofs.«215249_g59107339927817_cont_9to1_m_583_18_alg».proof.Proof.NamesI
import Idealize.ShloMosaic.Lib.ValueIdx

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- The lane numbers 0 … 15 and a constant column below 17 name entries of the 16 × 17 scratch. -/
theorem chk_ok (c : BitVec 32) (hc : c.toNat < 17) :
    ∀ a x, ((![iota .scVector S16 32 [0] iota_S16_d0_w32_scVector, broadcast S16 c] : Fin 2 → IVec S16 32) a x).toNat < S16x17.size a := by
  intro a x
  match a with
  | ⟨0, _⟩ =>
    have hx := (x 0).isLt
    show (BitVec.ofNat 32 (0 * S16.size 0 + (x 0).val)).toNat < 16
    simp only [BitVec.toNat_ofNat]
    have : (x 0).val < 16 := hx
    omega
  | ⟨1, _⟩ => exact hc

/-- Sixteen consecutive entries of one row of a row buffer: the block of extent [1, 16] at `off`, flattened. -/
def ld16 (d : Dev nD) (L : grid0.Coords) (mm : Memref sig .scVector .vmem S80x128 .f32) (f : Buf (Elt F) (mm.view.loc (thr d L)))
    (off : Fin 2 → Nat) (h : ∀ a, off a + S1x16.size a ≤ S80x128.size a) : Vec F S16 .f32 :=
  shapeCast S16 (View.readAt (Elt F) mm.view (Rect.unit (s := S80x128) off S1x16.size h).toLoadRect f) shapeCasts_S1x16_S16

/-- What the body stores in row `r` of the 16 × 17 scratch: lane `c` holds `∑ j < 8, u[r, 16 j + c] · v[r, 16 j + c]`, the eight
    products added in order. `off j r` is where the `j`-th block of row `r` of the group starts. -/
def rowP (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a) (r : Fin 16) : FVec F S16 .f32 :=
  (addf (addf (addf (addf (addf (addf (addf (mulf (ld16 d L mu fu (off 0 r) (hoff 0 r)) (ld16 d L mv fv (off 0 r) (hoff 0 r)))
      (mulf (ld16 d L mu fu (off 1 r) (hoff 1 r)) (ld16 d L mv fv (off 1 r) (hoff 1 r))))
      (mulf (ld16 d L mu fu (off 2 r) (hoff 2 r)) (ld16 d L mv fv (off 2 r) (hoff 2 r))))
      (mulf (ld16 d L mu fu (off 3 r) (hoff 3 r)) (ld16 d L mv fv (off 3 r) (hoff 3 r))))
      (mulf (ld16 d L mu fu (off 4 r) (hoff 4 r)) (ld16 d L mv fv (off 4 r) (hoff 4 r))))
      (mulf (ld16 d L mu fu (off 5 r) (hoff 5 r)) (ld16 d L mv fv (off 5 r) (hoff 5 r))))
      (mulf (ld16 d L mu fu (off 6 r) (hoff 6 r)) (ld16 d L mv fv (off 6 r) (hoff 6 r))))
      (mulf (ld16 d L mu fu (off 7 r) (hoff 7 r)) (ld16 d L mv fv (off 7 r) (hoff 7 r))))

/-- The sixteen row stores, the last first. -/
def tbPieces (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a) : List (View.Piece (Elt F) S16x17 .f32) :=
  [
    ⟨Rect.unit (s := S16x17) ![15, 0] S1x16.size inb_S16x17_S1x16_15_0, shapeCast S1x16 (rowP d L mu mv fu fv off hoff 15) shapeCasts_S16_S1x16⟩,
    ⟨Rect.unit (s := S16x17) ![14, 0] S1x16.size inb_S16x17_S1x16_14_0, shapeCast S1x16 (rowP d L mu mv fu fv off hoff 14) shapeCasts_S16_S1x16⟩,
    ⟨Rect.unit (s := S16x17) ![13, 0] S1x16.size inb_S16x17_S1x16_13_0, shapeCast S1x16 (rowP d L mu mv fu fv off hoff 13) shapeCasts_S16_S1x16⟩,
    ⟨Rect.unit (s := S16x17) ![12, 0] S1x16.size inb_S16x17_S1x16_12_0, shapeCast S1x16 (rowP d L mu mv fu fv off hoff 12) shapeCasts_S16_S1x16⟩,
    ⟨Rect.unit (s := S16x17) ![11, 0] S1x16.size inb_S16x17_S1x16_11_0, shapeCast S1x16 (rowP d L mu mv fu fv off hoff 11) shapeCasts_S16_S1x16⟩,
    ⟨Rect.unit (s := S16x17) ![10, 0] S1x16.size inb_S16x17_S1x16_10_0, shapeCast S1x16 (rowP d L mu mv fu fv off hoff 10) shapeCasts_S16_S1x16⟩,
    ⟨Rect.unit (s := S16x17) ![9, 0] S1x16.size inb_S16x17_S1x16_9_0, shapeCast S1x16 (rowP d L mu mv fu fv off hoff 9) shapeCasts_S16_S1x16⟩,
    ⟨Rect.unit (s := S16x17) ![8, 0] S1x16.size inb_S16x17_S1x16_8_0, shapeCast S1x16 (rowP d L mu mv fu fv off hoff 8) shapeCasts_S16_S1x16⟩,
    ⟨Rect.unit (s := S16x17) ![7, 0] S1x16.size inb_S16x17_S1x16_7_0, shapeCast S1x16 (rowP d L mu mv fu fv off hoff 7) shapeCasts_S16_S1x16⟩,
    ⟨Rect.unit (s := S16x17) ![6, 0] S1x16.size inb_S16x17_S1x16_6_0, shapeCast S1x16 (rowP d L mu mv fu fv off hoff 6) shapeCasts_S16_S1x16⟩,
    ⟨Rect.unit (s := S16x17) ![5, 0] S1x16.size inb_S16x17_S1x16_5_0, shapeCast S1x16 (rowP d L mu mv fu fv off hoff 5) shapeCasts_S16_S1x16⟩,
    ⟨Rect.unit (s := S16x17) ![4, 0] S1x16.size inb_S16x17_S1x16_4_0, shapeCast S1x16 (rowP d L mu mv fu fv off hoff 4) shapeCasts_S16_S1x16⟩,
    ⟨Rect.unit (s := S16x17) ![3, 0] S1x16.size inb_S16x17_S1x16_3_0, shapeCast S1x16 (rowP d L mu mv fu fv off hoff 3) shapeCasts_S16_S1x16⟩,
    ⟨Rect.unit (s := S16x17) ![2, 0] S1x16.size inb_S16x17_S1x16_2_0, shapeCast S1x16 (rowP d L mu mv fu fv off hoff 2) shapeCasts_S16_S1x16⟩,
    ⟨Rect.unit (s := S16x17) ![1, 0] S1x16.size inb_S16x17_S1x16_1_0, shapeCast S1x16 (rowP d L mu mv fu fv off hoff 1) shapeCasts_S16_S1x16⟩,
    ⟨Rect.unit (s := S16x17) ![0, 0] S1x16.size inb_S16x17_S1x16_0_0, shapeCast S1x16 (rowP d L mu mv fu fv off hoff 0) shapeCasts_S16_S1x16⟩]

/-- Column `c` of the scratch after the sixteen row stores, read down its first sixteen rows: lane `l` is entry `(l, c)`. -/
def colAt (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a)
    (g3 : Buf (Elt F) (tB.view.loc (thr d L))) (c : Nat) (hc : (BitVec.ofNat 32 c).toNat < 17) : Vec F S16 .f32 :=
  loadIdx (View.readAt (Elt F) tB.view (LoadRect.whole S16x17) (tB.view.writes (Elt F) g3 (tbPieces d L mu mv fu fv off hoff)))
    ![iota .scVector S16 32 [0] iota_S16_d0_w32_scVector, broadcast S16 (BitVec.ofNat 32 c)] (chk_ok _ hc)

/-- The sixteen scores of one group: lane `l` is the sum over the sixteen columns of row `l` of the scratch, that is
    `∑ c < 16, ∑ j < 8, u[l, 16 j + c] · v[l, 16 j + c]`, added in this order. -/
def grpSpec (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a)
    (g3 : Buf (Elt F) (tB.view.loc (thr d L))) : FVec F S16 .f32 :=
  (addf (addf (addf (addf (addf (addf (addf (addf (addf (addf (addf (addf (addf (addf (addf (colAt d L mu mv fu fv off hoff g3 0 (by decide))
      (colAt d L mu mv fu fv off hoff g3 1 (by decide)))
      (colAt d L mu mv fu fv off hoff g3 2 (by decide)))
      (colAt d L mu mv fu fv off hoff g3 3 (by decide)))
      (colAt d L mu mv fu fv off hoff g3 4 (by decide)))
      (colAt d L mu mv fu fv off hoff g3 5 (by decide)))
      (colAt d L mu mv fu fv off hoff g3 6 (by decide)))
      (colAt d L mu mv fu fv off hoff g3 7 (by decide)))
      (colAt d L mu mv fu fv off hoff g3 8 (by decide)))
      (colAt d L mu mv fu fv off hoff g3 9 (by decide)))
      (colAt d L mu mv fu fv off hoff g3 10 (by decide)))
      (colAt d L mu mv fu fv off hoff g3 11 (by decide)))
      (colAt d L mu mv fu fv off hoff g3 12 (by decide)))
      (colAt d L mu mv fu fv off hoff g3 13 (by decide)))
      (colAt d L mu mv fu fv off hoff g3 14 (by decide)))
      (colAt d L mu mv fu fv off hoff g3 15 (by decide)))

end Cert.Proof.KI

end
-- ==== Proof.TileSpecI.lean ====
/-
  The statement of one tile's run, in the spelling of the body's own memrefs: what the tile holds when its task starts
  (`tilePre`) and what it leaves (`tilePost`).
-/
import proofs.«215249_g59107339927817_cont_9to1_m_583_18_alg».proof.Proof.GrpSpecI
import Idealize.ShloMosaic.Lib.ValueIdx

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- The node a 32-bit index word names (reduced mod 10000, which is the identity on the words the precondition admits). -/
def nodeOf (w : BitVec 32) : Fin 10000 := ⟨w.toNat % 10000, Nat.mod_lt _ (by decide)⟩

/-- What is asked of a result lane: a relation between the feature table, the two end nodes and the lane's value.
    At the bit-exact instance nothing is asked; at the ideal one the value is the inner product of the two feature rows. -/
abbrev LaneRel (F : FTy → Type) : Type := Vec F S10000x128 .f32 → Fin 10000 → Fin 10000 → Elt F .f32 → Prop

/-- The one fact about the arithmetic the frame proof uses: a group's lane `l` satisfies the relation whenever row
    `rowOf l` of the two row buffers holds the feature rows of the two nodes. -/
def LaneHyp (Lane : LaneRel F) : Prop :=
  ∀ (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a)
    (g3 : Buf (Elt F) (tB.view.loc (thr d L))) (rowOf : Fin 16 → Fin 80) (_ : ∀ j r, off j r = ![(rowOf r).val, 16 * j.val])
    (X : Vec F S10000x128 .f32) (u v : Fin 10000) (l : Fin 16),
    (∀ k : Fin 128, mu.view.read (Elt F) fu (ix2 (rowOf l) k) = X (ix2 u k)) →
    (∀ k : Fin 128, mv.view.read (Elt F) fv (ix2 (rowOf l) k) = X (ix2 v k)) →
    Lane X u v (grpSpec d L mu mv fu fv off hoff g3 (ix1 l))

/-- Every word of a tile's slice of an index list names a row of the feature table. -/
def IdxOK (m : Memref sig .scVector .hbm S10000 .i32) (d : Dev nD) (L : grid0.Coords) (f : Buf (Elt F) (m.view.loc (thr d L))) : Prop :=
  ∀ j : S10000.Idx, (m.view.read (Elt F) f j).toNat < 10000

def tilePre (d : Dev nD) (L : grid0.Coords) (q : PosShare TreeShare) (O : CellTallies nD τ sig (HIx 1)) (W : Waits sig (HIx 1))
    (fx : Buf (Elt F) (xW.view.loc (thr d L))) (fs : Buf (Elt F) ((sSl L).view.loc (thr d L))) (fd : Buf (Elt F) ((dSl L).view.loc (thr d L)))
    (fo : Buf (Elt F) ((oSl L).view.loc (thr d L)))
    (g0 : Buf (Elt F) (iU.view.loc (thr d L))) (g1 : Buf (Elt F) (iV.view.loc (thr d L))) (g2 : Buf (Elt F) (oA.view.loc (thr d L)))
    (g3 : Buf (Elt F) (tB.view.loc (thr d L))) (g4 : Buf (Elt F) (rU0.view.loc (thr d L))) (g5 : Buf (Elt F) (rV0.view.loc (thr d L)))
    (g8 : Buf (Elt F) (rU1.view.loc (thr d L))) (g9 : Buf (Elt F) (rV1.view.loc (thr d L))) : sProp 𝕄 :=
    iprop(Transfers.MayWaits (thr d L) (none : HIx 1) O
        ∗ (xW.view.loc (thr d L) ↦{q} fx)
        ∗ ((sSl L).view.loc (thr d L) ↦[(sSl L).view.set]{fullShare} fs)
        ∗ ((dSl L).view.loc (thr d L) ↦[(dSl L).view.set]{fullShare} fd)
        ∗ ((oSl L).view.loc (thr d L) ↦[(oSl L).view.set]{fullShare} fo)
        ∗ (iU.view.loc (thr d L) ↦{fullShare} g0) ∗ (iV.view.loc (thr d L) ↦{fullShare} g1) ∗ (oA.view.loc (thr d L) ↦{fullShare} g2)
        ∗ (tB.view.loc (thr d L) ↦{fullShare} g3) ∗ (rU0.view.loc (thr d L) ↦{fullShare} g4) ∗ (rV0.view.loc (thr d L) ↦{fullShare} g5)
        ∗ (rU1.view.loc (thr d L) ↦{fullShare} g8) ∗ (rV1.view.loc (thr d L) ↦{fullShare} g9)
        ∗ semVal (thr d L, SemLoc.dma cc0_scratch6.sem) 0 ∗ semVal (thr d L, SemLoc.dma cc0_scratch7.sem) 0
        ∗ semVal (thr d L, SemLoc.dma cc0_scratch10.sem) 0 ∗ semVal (thr d L, SemLoc.dma cc0_scratch11.sem) 0
        ∗ semVal (thr d L, SemLoc.dma cc0_scoped0.sem) 0 ∗ semVal (thr d L, SemLoc.dma cc0_scoped1.sem) 0 ∗ semVal (thr d L, SemLoc.dma cc0_scoped2.sem) 0
        ∗ owes (thr d L) O W)

/-- What a tile leaves: the feature table, its slices of the two index lists unchanged, its slice of the result with every
    lane in the relation to the table and the edge's two nodes; its scratches at some contents, its counters at zero. -/
def tilePost (Lane : LaneRel F) (d : Dev nD) (L : grid0.Coords) (q : PosShare TreeShare) (O : CellTallies nD τ sig (HIx 1)) (W : Waits sig (HIx 1))
    (fx : Buf (Elt F) (xW.view.loc (thr d L))) (fs : Buf (Elt F) ((sSl L).view.loc (thr d L))) (fd : Buf (Elt F) ((dSl L).view.loc (thr d L))) : sProp 𝕄 :=
    iprop((xW.view.loc (thr d L) ↦{q} fx)
        ∗ ((sSl L).view.loc (thr d L) ↦[(sSl L).view.set]{fullShare} fs)
        ∗ ((dSl L).view.loc (thr d L) ↦[(dSl L).view.set]{fullShare} fd)
        ∗ (∃ f, ((oSl L).view.loc (thr d L) ↦[(oSl L).view.set]{fullShare} f)
            ∗ ⌜∀ j : S10000.Idx, Lane (xW.view.read (Elt F) fx) (nodeOf ((sSl L).view.read (Elt F) fs j)) (nodeOf ((dSl L).view.read (Elt F) fd j))
                ((oSl L).view.read (Elt F) f j)⌝)
        ∗ (∃ g, iU.view.loc (thr d L) ↦{fullShare} g) ∗ (∃ g, iV.view.loc (thr d L) ↦{fullShare} g) ∗ (∃ g, oA.view.loc (thr d L) ↦{fullShare} g)
        ∗ (∃ g, tB.view.loc (thr d L) ↦{fullShare} g) ∗ (∃ g, rU0.view.loc (thr d L) ↦{fullShare} g) ∗ (∃ g, rV0.view.loc (thr d L) ↦{fullShare} g)
        ∗ (∃ g, rU1.view.loc (thr d L) ↦{fullShare} g) ∗ (∃ g, rV1.view.loc (thr d L) ↦{fullShare} g)
        ∗ semVal (thr d L, SemLoc.dma cc0_scratch6.sem) 0 ∗ semVal (thr d L, SemLoc.dma cc0_scratch7.sem) 0
        ∗ semVal (thr d L, SemLoc.dma cc0_scratch10.sem) 0 ∗ semVal (thr d L, SemLoc.dma cc0_scratch11.sem) 0
        ∗ semVal (thr d L, SemLoc.dma cc0_scoped0.sem) 0 ∗ semVal (thr d L, SemLoc.dma cc0_scoped1.sem) 0 ∗ semVal (thr d L, SemLoc.dma cc0_scoped2.sem) 0
        ∗ ∃ W', ⌜∀ p ∈ W', p ∈ W ∨ p.2 = none⌝ ∗ owes (thr d L) O W')

/-- The statement of the tile's run: from `tilePre`, with both index slices in range, the kernel function at grid point `L`
    terminates in `tilePost`. -/
def TileRun (Lane : LaneRel F) : Prop :=
  ∀ (d : Dev nD) (L : grid0.Coords) (q : PosShare TreeShare) (O : CellTallies nD τ sig (HIx 1)) (W : Waits sig (HIx 1))
    (fx : Buf (Elt F) (xW.view.loc (thr d L))) (fs : Buf (Elt F) ((sSl L).view.loc (thr d L))) (fd : Buf (Elt F) ((dSl L).view.loc (thr d L)))
    (fo : Buf (Elt F) ((oSl L).view.loc (thr d L)))
    (g0 : Buf (Elt F) (iU.view.loc (thr d L))) (g1 : Buf (Elt F) (iV.view.loc (thr d L))) (g2 : Buf (Elt F) (oA.view.loc (thr d L)))
    (g3 : Buf (Elt F) (tB.view.loc (thr d L))) (g4 : Buf (Elt F) (rU0.view.loc (thr d L))) (g5 : Buf (Elt F) (rV0.view.loc (thr d L)))
    (g8 : Buf (Elt F) (rU1.view.loc (thr d L))) (g9 : Buf (Elt F) (rV1.view.loc (thr d L))),
    IdxOK (sSl L) d L fs → IdxOK (dSl L) d L fd →
    (tilePre d L q O W fx fs fd fo g0 g1 g2 g3 g4 g5 g8 g9
      ⊢ wp frame (wpE (defs₀ (F := F)) 𝒱₀ (thr d L) none) Set.univ
          (cc0__score_kernel (F := F) L xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2)
          (fun _ => tilePost Lane d L q O W fx fs fd))

end Cert.Proof.KI

end
-- ==== Proof.LaneSum.lean ====
/-
  Two facts about finite sums in a commutative monoid: a sum over sixteen indices written out in order, and the sum
  over the 8 × 16 blocks of a row of 128 entries (entry 16 j + c is entry c of block j) as the sum over the row.
-/
import Mathlib.Algebra.BigOperators.Fin
import Mathlib.Logic.Equiv.Fin.Basic

namespace Cert.Proof.KI

open scoped BigOperators

theorem sum_univ_9 {M : Type} [AddCommMonoid M] (f : Fin 9 → M) : ∑ i, f i = f 0 + f 1 + f 2 + f 3 + f 4 + f 5 + f 6 + f 7 + f 8 := by
  rw [Fin.sum_univ_castSucc, Fin.sum_univ_eight]; rfl
theorem sum_univ_10 {M : Type} [AddCommMonoid M] (f : Fin 10 → M) : ∑ i, f i = f 0 + f 1 + f 2 + f 3 + f 4 + f 5 + f 6 + f 7 + f 8 + f 9 := by
  rw [Fin.sum_univ_castSucc, sum_univ_9]; rfl
theorem sum_univ_11 {M : Type} [AddCommMonoid M] (f : Fin 11 → M) : ∑ i, f i = f 0 + f 1 + f 2 + f 3 + f 4 + f 5 + f 6 + f 7 + f 8 + f 9 + f 10 := by
  rw [Fin.sum_univ_castSucc, sum_univ_10]; rfl
theorem sum_univ_12 {M : Type} [AddCommMonoid M] (f : Fin 12 → M) : ∑ i, f i = f 0 + f 1 + f 2 + f 3 + f 4 + f 5 + f 6 + f 7 + f 8 + f 9 + f 10 + f 11 := by
  rw [Fin.sum_univ_castSucc, sum_univ_11]; rfl
theorem sum_univ_13 {M : Type} [AddCommMonoid M] (f : Fin 13 → M) : ∑ i, f i = f 0 + f 1 + f 2 + f 3 + f 4 + f 5 + f 6 + f 7 + f 8 + f 9 + f 10 + f 11 + f 12 := by
  rw [Fin.sum_univ_castSucc, sum_univ_12]; rfl
theorem sum_univ_14 {M : Type} [AddCommMonoid M] (f : Fin 14 → M) : ∑ i, f i = f 0 + f 1 + f 2 + f 3 + f 4 + f 5 + f 6 + f 7 + f 8 + f 9 + f 10 + f 11 + f 12 + f 13 := by
  rw [Fin.sum_univ_castSucc, sum_univ_13]; rfl
theorem sum_univ_15 {M : Type} [AddCommMonoid M] (f : Fin 15 → M) : ∑ i, f i = f 0 + f 1 + f 2 + f 3 + f 4 + f 5 + f 6 + f 7 + f 8 + f 9 + f 10 + f 11 + f 12 + f 13 + f 14 := by
  rw [Fin.sum_univ_castSucc, sum_univ_14]; rfl
theorem sum_univ_16 {M : Type} [AddCommMonoid M] (f : Fin 16 → M) : ∑ i, f i = f 0 + f 1 + f 2 + f 3 + f 4 + f 5 + f 6 + f 7 + f 8 + f 9 + f 10 + f 11 + f 12 + f 13 + f 14 + f 15 := by
  rw [Fin.sum_univ_castSucc, sum_univ_15]; rfl

/-- Entry `c` of block `j` of a row of 128 entries cut into eight blocks of sixteen. -/
def blkCol (j : Fin 8) (c : Fin 16) : Fin 128 := ⟨16 * j.val + c.val, by omega⟩

/-- Summing every block's entry `c` and then over `c` is summing the whole row: (j, c) ↦ 16 j + c is a bijection. -/
theorem sum_blkCol {M : Type} [AddCommMonoid M] (Q : Fin 128 → M) :
    ∑ c : Fin 16, ∑ j : Fin 8, Q (blkCol j c) = ∑ k : Fin 128, Q k := by
  rw [Finset.sum_comm, ← Fintype.sum_prod_type' (fun j c => Q (blkCol j c))]
  refine Fintype.sum_equiv (finProdFinEquiv : Fin 8 × Fin 16 ≃ Fin 128) _ _ (fun p => congrArg Q (Fin.ext ?_))
  show 16 * p.1.val + p.2.val = p.2.val + 16 * p.1.val
  omega

end Cert.Proof.KI
-- ==== Proof.LaneRead.lean ====
/-
  One group's intermediate values read at an index: the sixteen entries a block load reads, the vector stored in a row
  of the 16 × 17 scratch (lane c: the sum over the eight blocks of the products at entry c), the scratch after the sixteen
  row stores (entry (l, c): lane c of row l's vector), and a column of it read down its rows.
-/
import proofs.«215249_g59107339927817_cont_9to1_m_583_18_alg».proof.Proof.TileSpecI
import proofs.«215249_g59107339927817_cont_9to1_m_583_18_alg».proof.Proof.LaneSum
import Idealize.ShloMosaic.Lib.Pipeline.Value
import Idealize.ShloMosaic.Lib.Writes

noncomputable section

namespace Cert.Proof.KI
open Cert.KernelIdeal Cert.KernelIdeal.Gen

open Idealize.ShloMosaic
open Idealize.ShloMosaic.SparseCore (S V T)
open Idealize.SL.Sem
open Idealize.ShloMosaic.ValueIdx
open scoped BigOperators

variable {F : FTy → Type} [FloatOps F]

/-- Entry `c` of the sixteen read at row `rw`, column `16 j`, is entry `(rw, 16 j + c)` of the buffer. -/
theorem ld16_at (d : Dev nD) (L : grid0.Coords) (mm : Memref sig .scVector .vmem S80x128 .f32) (f : Buf (Elt F) (mm.view.loc (thr d L)))
    (off2 : Fin 2 → Nat) (h : ∀ a, off2 a + S1x16.size a ≤ S80x128.size a) (rw : Fin 80) (j : Fin 8)
    (hoff : off2 = ![rw.val, 16 * j.val]) (c : Fin 16) :
    ld16 d L mm f off2 h (ix1 c) = mm.view.read (Elt F) f (ix2 rw (blkCol j c)) := by
  subst hoff
  unfold ld16
  refine (shapeCast_apply _ _ (ix1 c) (ix2 (0 : Fin 1) c) ?_).trans ?_
  · rw [Shape.rowMajor_val_two, Shape.rowMajor_val_one]; show 0 * 16 + c.val = c.val; omega
  · rw [View.readAt_apply]
    refine congrArg (mm.view.read (Elt F) f) (funext fun a => Fin.ext ?_)
    match a with
    | ⟨0, _⟩ => show rw.val + 1 * 0 = rw.val; omega
    | ⟨1, _⟩ => show 16 * j.val + 1 * c.val = 16 * j.val + c.val; omega

/-- Lane `c` of what is stored in row `r` of the scratch: the sum over the eight blocks of the products at entry `c`. -/
theorem rowP_apply (d : Dev nD) (L : grid0.Coords) (mu mv : Memref sig .scVector .vmem S80x128 .f32)
    (fu : Buf (Elt Ideal) (mu.view.loc (thr d L))) (fv : Buf (Elt Ideal) (mv.view.loc (thr d L)))
    (off : Fin 8 → Fin 16 → Fin 2 → Nat) (hoff : ∀ j r a, off j r a + S1x16.size a ≤ S80x128.size a)
    (rowOf : Fin 16 → Fin 80) (hoffeq : ∀ j r, off j r = ![(rowOf r).val, 16 * j.val]) (r c : Fin 16) :
    rowP (F := Ideal) d L mu mv fu fv off hoff r (ix1 c)
      = ∑ j : Fin 8, mu.view.read (Elt Ideal) fu (ix2 (rowOf r) (blkCol j c)) * mv.view.read (Elt Ideal) fv (ix2 (rowOf r) (blkCol j c)) := by
  have e : ∀ j : Fin 8, mu.view.read (Elt Ideal) fu (ix2 (rowOf r) (blkCol j c)) * mv.view.read (Elt Ideal) fv (ix2 (rowOf r) (blkCol j c))
      = ld16 d L mu fu (off j r) (hoff j r) (ix1 c) * ld16 d L mv fv (off j r) (hoff j r) (ix1 c) := fun j => by
    rw [ld16_at d L mu fu (off j r) (hoff j r) (rowOf r) j (hoffeq j r) c, ld16_at d L mv fv (off j r) (hoff j r) (rowOf r) j (hoffeq j r) c]
  rw [Finset.sum_congr rfl (fun j _ => e j), Fin.sum_univ_eight]
  rfl

/-- Row `r` of the 16 × 17 scratch, columns 0 … 15, lies inside it. -/
theorem inbRow (r : Fin 16) : ∀ a, (![r.val, 0] : Fin 2 → Nat) a + S1x16.size a ≤ S16x17.size a := by
  intro a
  match a with
  | ⟨0, _⟩ => show r.val + 1 ≤ 16; omega
  | ⟨1, _⟩ => show 0 + 16 ≤ 17; omega

/-- The store into row `r` of the scratch. -/
def pieceOf (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a) (r : Fin 16) : View.Piece (Elt F) S16x17 .f32 :=
  ⟨Rect.unit (s := S16x17) ![r.val, 0] S1x16.size (inbRow r), shapeCast S1x16 (rowP d L mu mv fu fv off hoff r) shapeCasts_S16_S1x16⟩

/-- The sixteen stores are the rows' stores, the last row's first. -/
theorem tbPieces_eq (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a) :
    tbPieces d L mu mv fu fv off hoff
      = ([15, 14, 13, 12, 11, 10, 9, 8, 7, 6, 5, 4, 3, 2, 1, 0] : List (Fin 16)).map (pieceOf d L mu mv fu fv off hoff) := rfl

/-- The one function the sixteen stores are blocks of: entry (l, c) is lane `c` of row `l`'s vector. -/
def scrG (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a) : S16x17.Idx → Elt F .f32 :=
  fun y => rowP d L mu mv fu fv off hoff ⟨(y 0).val % 16, Nat.mod_lt _ (by decide)⟩ (ix1 (⟨(y 1).val % 16, Nat.mod_lt _ (by decide)⟩ : Fin 16))

theorem piece_ok (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a) (r : Fin 16) (x : S1x16.Idx) :
    shapeCast S1x16 (rowP d L mu mv fu fv off hoff r) shapeCasts_S16_S1x16 x
      = scrG d L mu mv fu fv off hoff ((Rect.unit (s := S16x17) ![r.val, 0] S1x16.size (inbRow r)).emb x) := by
  obtain ⟨z, c, rfl⟩ : ∃ (z : Fin 1) (c : Fin 16), x = ix2 z c := ⟨x 0, x 1, eq_ix2 x⟩
  refine (shapeCast_apply _ _ (ix2 z c) (ix1 c) ?_).trans ?_
  · rw [Shape.rowMajor_val_two, Shape.rowMajor_val_one]; show c.val = z.val * 16 + c.val; have := z.isLt; omega
  · have h0 : (⟨(r.val + 1 * z.val) % 16, Nat.mod_lt _ (by decide)⟩ : Fin 16) = r :=
      Fin.ext (by show (r.val + 1 * z.val) % 16 = r.val; have := z.isLt; have := r.isLt; omega)
    have h1 : (⟨(0 + 1 * c.val) % 16, Nat.mod_lt _ (by decide)⟩ : Fin 16) = c :=
      Fin.ext (by show (0 + 1 * c.val) % 16 = c.val; have := c.isLt; omega)
    exact (congrArg₂ (fun (a b : Fin 16) => rowP d L mu mv fu fv off hoff a (ix1 b)) h0 h1).symm

/-- The scratch after the sixteen row stores, read at row `l`, column `c` (both below 16): lane `c` of row `l`'s vector. -/
theorem scratch_apply (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a) (g3 : Buf (Elt F) (tB.view.loc (thr d L))) (l c : Fin 16) :
    tB.view.read (Elt F) (tB.view.writes (Elt F) g3 (tbPieces d L mu mv fu fv off hoff)) (ix2 l (⟨c.val, by omega⟩ : Fin 17))
      = rowP d L mu mv fu fv off hoff l (ix1 c) := by
  rw [tbPieces_eq]
  refine (View.read_writes_apply_of_pieces tB.view g3 (scrG d L mu mv fu fv off hoff) _ ?_ _ ?_).trans ?_
  · intro p hp x
    obtain ⟨r, _, rfl⟩ := List.mem_map.1 hp
    exact piece_ok d L mu mv fu fv off hoff r x
  · refine ⟨pieceOf d L mu mv fu fv off hoff l, List.mem_map.2 ⟨l, by revert l; decide, rfl⟩, ?_⟩
    show ix2 l (⟨c.val, by omega⟩ : Fin 17) ∈ (Rect.unit (s := S16x17) ![l.val, 0] S1x16.size (inbRow l)).set
    refine (Rect.mem_set_unit (s := S16x17) (off := ![l.val, 0]) (size := S1x16.size) (inb := inbRow l)).2 ?_
    intro a
    match a with
    | ⟨0, _⟩ => exact ⟨Nat.le_refl _, by show l.val < l.val + 1; omega⟩
    | ⟨1, _⟩ => exact ⟨Nat.zero_le _, by show c.val < 0 + 16; omega⟩
  · have h0 : (⟨l.val % 16, Nat.mod_lt _ (by decide)⟩ : Fin 16) = l := Fin.ext (by show l.val % 16 = l.val; omega)
    have h1 : (⟨c.val % 16, Nat.mod_lt _ (by decide)⟩ : Fin 16) = c := Fin.ext (by show c.val % 16 = c.val; omega)
    exact congrArg₂ (fun (a b : Fin 16) => rowP d L mu mv fu fv off hoff a (ix1 b)) h0 h1

/-- Column `c` of the scratch read down its rows: lane `l` is lane `c` of row `l`'s vector. -/
theorem colAt_apply (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a) (g3 : Buf (Elt F) (tB.view.loc (thr d L))) (c : Fin 16) (hc : (BitVec.ofNat 32 c.val).toNat < 17) (l : Fin 16) :
    colAt d L mu mv fu fv off hoff g3 c.val hc (ix1 l) = rowP d L mu mv fu fv off hoff l (ix1 c) := by
  unfold colAt loadIdx
  rw [View.readAt_apply]
  refine (congrArg (tB.view.read (Elt F) _) (funext fun a => Fin.ext ?_)).trans (scratch_apply d L mu mv fu fv off hoff g3 l c)
  match a with
  | ⟨0, _⟩ =>
    show 0 + 1 * (BitVec.ofNat 32 (0 * 16 + l.val)).toNat = l.val
    simp only [BitVec.toNat_ofNat]
    have := l.isLt
    omega
  | ⟨1, _⟩ =>
    show 0 + 1 * (BitVec.ofNat 32 c.val).toNat = c.val
    simp only [BitVec.toNat_ofNat]
    have := c.isLt
    omega

end Cert.Proof.KI

end
-- ==== Proof.Spec.lean ====
/-
  The specification: the score of edge `e` is the inner product of the feature rows of its two end nodes,
  `score x ei (e, 0) = ∑ k < 128, x[u_e, k] · x[v_e, k]` with `u_e = ei[0, e]`, `v_e = ei[1, e]`, over the extended reals.
  A node index is read off its 32-bit word unsigned and reduced mod 10000, which makes the function total; for the
  words the precondition admits (`InRange`: every word below 10000) the reduction is the identity.
-/
import Idealize.ShloMosaic.PureOps.Ideal
import Idealize.ShloMosaic.Lib.ValueIdx

noncomputable section

open scoped BigOperators

namespace Cert.Score

open Idealize.ShloMosaic Idealize.ShloMosaic.ValueIdx

/-- The feature table's shape, the edge list's, the result's. -/
abbrev SX : Shape := ⟨2, ![10000, 128]⟩
abbrev SE : Shape := ⟨2, ![2, 320000]⟩
abbrev SO : Shape := ⟨2, ![320000, 1]⟩

/-- The node that end `side` (0 the source, 1 the destination) of edge `e` names. -/
def node (ei : SE.Idx → BitVec 32) (side : Fin 2) (e : Fin 320000) : Fin 10000 :=
  ⟨(ei (ix2 side e)).toNat % 10000, Nat.mod_lt _ (by decide)⟩

/-- The inner product of two feature rows. -/
def rowDot (x : SX.Idx → EReal) (u v : Fin 10000) : EReal := ∑ k : Fin 128, x (ix2 u k) * x (ix2 v k)

/-- Every edge's score, as the `[320000, 1]` array both programs return. -/
def score (x : SX.Idx → EReal) (ei : SE.Idx → BitVec 32) : SO.Idx → EReal :=
  fun i => rowDot x (node ei 0 (i 0)) (node ei 1 (i 0))

/-- Every node index of the edge list names a row of the feature table. -/
def InRange (ei : SE.Idx → BitVec 32) : Prop := ∀ j, (ei j).toNat < 10000

theorem node_val {ei : SE.Idx → BitVec 32} (h : InRange ei) (side : Fin 2) (e : Fin 320000) :
    (node ei side e).val = (ei (ix2 side e)).toNat := Nat.mod_eq_of_lt (h _)

end Cert.Score

end
-- ==== Proof.LaneIdeal.lean ====
/-
  The arithmetic of one group at the ideal instance: lane l of a group's result is the inner product of row rowOf l of
  the two row buffers. The kernel adds the 128 products in the order (column c of the scratch, block j); addition of
  extended reals is commutative and associative, and (j, c) ↦ 16 j + c is a bijection onto the row's 128 entries.
-/
import proofs.«215249_g59107339927817_cont_9to1_m_583_18_alg».proof.Proof.LaneRead
import proofs.«215249_g59107339927817_cont_9to1_m_583_18_alg».proof.Proof.TileSpecI
import proofs.«215249_g59107339927817_cont_9to1_m_583_18_alg».proof.Proof.Spec

noncomputable section

namespace Cert.Proof.KI
open Cert.KernelIdeal Cert.KernelIdeal.Gen

open Idealize.ShloMosaic
open Idealize.ShloMosaic.SparseCore (S V T)
open Idealize.SL.Sem
open Idealize.ShloMosaic.ValueIdx
open scoped BigOperators

/-- A column number below 16 is a word below 17. -/
theorem col_word_lt (c : Fin 16) : (BitVec.ofNat 32 c.val).toNat < 17 := by
  simp only [BitVec.toNat_ofNat]
  have := c.isLt
  omega

theorem grpSpec_lane (d : Dev nD) (L : grid0.Coords) (mu mv : Memref sig .scVector .vmem S80x128 .f32)
    (fu : Buf (Elt Ideal) (mu.view.loc (thr d L))) (fv : Buf (Elt Ideal) (mv.view.loc (thr d L)))
    (off : Fin 8 → Fin 16 → Fin 2 → Nat) (hoff : ∀ j r a, off j r a + S1x16.size a ≤ S80x128.size a)
    (g3 : Buf (Elt Ideal) (tB.view.loc (thr d L))) (rowOf : Fin 16 → Fin 80) (hoffeq : ∀ j r, off j r = ![(rowOf r).val, 16 * j.val]) (l : Fin 16) :
    grpSpec (F := Ideal) d L mu mv fu fv off hoff g3 (ix1 l)
      = ∑ k : Fin 128, mu.view.read (Elt Ideal) fu (ix2 (rowOf l) k) * mv.view.read (Elt Ideal) fv (ix2 (rowOf l) k) := by
  have h1 : grpSpec (F := Ideal) d L mu mv fu fv off hoff g3 (ix1 l)
      = ∑ c : Fin 16, colAt (F := Ideal) d L mu mv fu fv off hoff g3 c.val (col_word_lt c) (ix1 l) := by
    rw [sum_univ_16]; rfl
  rw [h1, ← sum_blkCol (fun k : Fin 128 => mu.view.read (Elt Ideal) fu (ix2 (rowOf l) k) * mv.view.read (Elt Ideal) fv (ix2 (rowOf l) k))]
  refine Finset.sum_congr rfl (fun c _ => ?_)
  exact (colAt_apply d L mu mv fu fv off hoff g3 c (col_word_lt c) l).trans (rowP_apply d L mu mv fu fv off hoff rowOf hoffeq l c)

/-- What is asked of a lane at the ideal instance: it is the inner product of the two nodes' feature rows. -/
def laneIdeal : LaneRel Ideal := fun X u v r => r = Cert.Score.rowDot X u v

theorem laneHyp_ideal : LaneHyp (F := Ideal) laneIdeal := by
  intro d L mu mv fu fv off hoff g3 rowOf hoffeq X u v l hu hv
  show grpSpec (F := Ideal) d L mu mv fu fv off hoff g3 (ix1 l) = Cert.Score.rowDot X u v
  rw [grpSpec_lane d L mu mv fu fv off hoff g3 rowOf hoffeq l]
  show _ = ∑ k : Fin 128, X (ix2 u k) * X (ix2 v k)
  exact Finset.sum_congr rfl (fun k _ => by rw [hu k, hv k])

end Cert.Proof.KI

end
-- ==== Proof.RefOps.lean ====
/-
  The reference program's @main as the list of its host operations, the two calls of the row-gather function (and the
  index-normalising select nested in each) written out at the call sites over each call's own buffers, and its run:
  every weakly fair execution terminates with each buffer at the fold of the operations over the launch contents.
-/
import proofs.«215249_g59107339927817_cont_9to1_m_583_18_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 54 operations in order: the two row slices of the edge list and their reshapes; per call of the
    row-gather function its twenty-three (the index's sign test, the index plus the row count, the select between
    them, the index as a column, the two range comparisons and their conjunction reduced along the unit axis, the
    gather, the mask broadcast over the row, the quiet-NaN constant and its broadcast, the final select); the
    product, the zero, the row sum and its reshaping broadcast. -/
abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    TRef.nullary main_call0.c (constantI S_ 32 0#32),
    TRef.unary main_call0.c main_call0.v0 (broadcastInDim S320000 ![] bcast_S_S320000),
    TRef.binary (.of main_v1 : TRef sig ⟨S320000, .i32⟩) main_call0.v0 main_call0.v1 (cmpi .slt),
    TRef.nullary main_call0.c_0 (constantI S_ 32 10000#32),
    TRef.unary main_call0.c_0 main_call0.v2 (broadcastInDim S320000 ![] bcast_S_S320000),
    TRef.binary (.of main_v1 : TRef sig ⟨S320000, .i32⟩) main_call0.v2 main_call0.v3 addi,
    TRef.ternary main_call0.v1 main_call0.v3 (.of main_v1 : TRef sig ⟨S320000, .i32⟩) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0 : TRef sig ⟨S10000x128, .f32⟩) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    TRef.nullary main_call1.c (constantI S_ 32 0#32),
    TRef.unary main_call1.c main_call1.v0 (broadcastInDim S320000 ![] bcast_S_S320000),
    TRef.binary (.of main_v3 : TRef sig ⟨S320000, .i32⟩) main_call1.v0 main_call1.v1 (cmpi .slt),
    TRef.nullary main_call1.c_0 (constantI S_ 32 10000#32),
    TRef.unary main_call1.c_0 main_call1.v2 (broadcastInDim S320000 ![] bcast_S_S320000),
    TRef.binary (.of main_v3 : TRef sig ⟨S320000, .i32⟩) main_call1.v2 main_call1.v3 addi,
    TRef.ternary main_call1.v1 main_call1.v3 (.of main_v3 : TRef sig ⟨S320000, .i32⟩) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg0 : TRef sig ⟨S10000x128, .f32⟩) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    binary main_v4 main_v5 main_v6 (mulf : (⟨S320000x128, .f32⟩ : BufTy).Contents (Elt F) → (⟨S320000x128, .f32⟩ : BufTy).Contents (Elt F) → (⟨S320000x128, .f32⟩ : BufTy).Contents (Elt F)),
    nullary main_cst (constant S_ .f32 0x00000000#32),
    binary main_v6 main_cst main_v7 ((fun x v => Host.reduceAdd x v reducesTo_S320000x128_S320000_d1 h_S_) : (⟨S320000x128, .f32⟩ : BufTy).Contents (Elt F) → (⟨S_, .f32⟩ : BufTy).Contents (Elt F) → (⟨S320000, .f32⟩ : BufTy).Contents (Elt F)),
    unary main_v7 main_v8 (broadcastInDim S320000x1 ![0] bcast_S320000_S320000x1_0 : (⟨S320000, .f32⟩ : BufTy).Contents (Elt F) → (⟨S320000x1, .f32⟩ : BufTy).Contents (Elt F)) ]

set_option maxRecDepth 2048 in
/-- @main is that straight line: the functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., nullary_bufs_sub .., binary_bufs_sub .., unary_bufs_sub ..⟩

/-- From any memory with zero counters every weakly fair execution of @main terminates, and every final state has each
    buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference program's result as one term of the two argument arrays: the row of the edge list an end reads,
  the index normalised, the in-range mask, the gathered rows, and the row sum of their product.
-/
import proofs.«215249_g59107339927817_cont_9to1_m_583_18_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Row 0 of the edge list (the sources) as a flat vector. -/
def row0 (ei : IVec S2x320000 32) : IVec S320000 32 :=
  shapeCast S320000 (extractStridedSlice S1x320000 ![0, 0] ei slices_S2x320000_S1x320000_0_0) shapeCasts_S1x320000_S320000

/-- Row 1 of the edge list (the destinations) as a flat vector. -/
def row1 (ei : IVec S2x320000 32) : IVec S320000 32 :=
  shapeCast S320000 (extractStridedSlice S1x320000 ![1, 0] ei slices_S2x320000_S1x320000_1_0) shapeCasts_S1x320000_S320000

/-- A negative index counted from the end: idx + 10000 where idx < 0, else idx. -/
def norm (idx : IVec S320000 32) : IVec S320000 32 :=
  select (cmpi .slt idx (broadcastInDim S320000 ![] bcast_S_S320000 (constantI S_ 32 0#32)))
    (addi idx (broadcastInDim S320000 ![] bcast_S_S320000 (constantI S_ 32 10000#32))) idx

/-- The normalised index as a column of start indices. -/
def col (idx : IVec S320000 32) : IVec S320000x1 32 :=
  broadcastInDim S320000x1 ![0] bcast_S320000_S320000x1_0 (norm idx)

/-- Whether the normalised index lies in [0, 9999], per edge. -/
def mask (idx : IVec S320000 32) : IVec S320000 1 :=
  Host.reduce IntOp.andi
    (andi (cmpi .sge (col idx) (broadcastInDim S320000x1 ![] bcast_S_S320000x1 (constantI S_ 32 0#32)))
      (cmpi .sle (col idx) (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The rows of the table the indices name, a quiet NaN where an index is out of range. -/
def take (x : FVec F S10000x128 .f32) (idx : IVec S320000 32) : FVec F S320000x128 .f32 :=
  select (broadcastInDim S320000x128 ![0] bcast_S320000_S320000x128_0 (mask idx))
    (Host.gather gather_S10000x128_S320000x1_S320000x128_1_0_n_n_0_1_1128 x (col idx))
    (broadcastInDim S320000x128 ![] bcast_S_S320000x128 (constant S_ .f32 0x7FC00000#32))

/-- The program's result: per edge the sum over the row of the product of its two ends' rows. -/
def out (x : FVec F S10000x128 .f32) (ei : IVec S2x320000 32) : FVec F S320000x1 .f32 :=
  broadcastInDim S320000x1 ![0] bcast_S320000_S320000x1_0
    (Host.reduceAdd (mulf (take x (row0 ei)) (take x (row1 ei))) (constant S_ .f32 0x00000000#32)
      reducesTo_S320000x128_S320000_d1 h_S_)

attribute [local irreducible] Host.reduce Host.gather Host.reduceAdd in
set_option maxRecDepth 8192 in
/-- The fold of the operations at the result buffer is that term of the launch contents of the two arguments. -/
theorem after_v8 (V : Valuation τ sig (Elt F)) :
    after ops V (main_v8 : DevRef τ sig) = out (V (main_arg0 : DevRef τ sig)) (V (main_arg1 : DevRef τ sig)) := by
  after_results_simp
  rfl

theorem after_arg0 (V : Valuation τ sig (Elt F)) :
    after ops V (main_arg0 : DevRef τ sig) = V (main_arg0 : DevRef τ sig) := by
  after_results_simp

theorem after_arg1 (V : Valuation τ sig (Elt F)) :
    after ops V (main_arg1 : DevRef τ sig) = V (main_arg1 : DevRef τ sig) := by
  after_results_simp

end Cert.ReferenceIdeal.RefValue

end
-- ==== Proof.RefIdx.lean ====
/-
  The reference's term read at an index, for an edge list whose every word names a row of the table (below 10000):
  the two rows of the edge list, the normalisation of a non-negative index (the identity), the in-range mask (all
  ones), and the row gather (the table's row at the index read signed and clamped, here the index itself).
-/
import proofs.«215249_g59107339927817_cont_9to1_m_583_18_alg».proof.Proof.RefTerm
import Idealize.ShloMosaic.Lib.ValueIdx
import Idealize.ShloMosaic.Lib.Pipeline.Value
import Idealize.ShloMosaic.Lib.ReduceAll

noncomputable section

namespace Cert.ReferenceIdeal.RefValue

open Cert.ReferenceIdeal Cert.ReferenceIdeal.Gen Idealize.ShloMosaic Idealize.ShloMosaic.ValueIdx

/-- The row gather read at (e, k): row of the table named by the start index of edge e, read signed and clamped
    into [0, 9999], at column k. -/
theorem gather_apply {α : Type} (x : S10000x128.Idx → α) (c : IVec S320000x1 32) (e : Fin 320000) (k : Fin 128) :
    Host.gather gather_S10000x128_S320000x1_S320000x128_1_0_n_n_0_1_1128 x c (ix2 e k)
      = x (ix2 (⟨min (c (ix2 e (0 : Fin 1))).toInt.toNat 9999, by omega⟩ : Fin 10000) k) := by
  unfold Host.gather
  congr 1
  funext a
  refine Fin.ext ?_
  match a with
  | ⟨0, _⟩ =>
    show gather_S10000x128_S320000x1_S320000x128_1_0_n_n_0_1_1128.start (ix2 e k) c 0
        + gather_S10000x128_S320000x1_S320000x128_1_0_n_n_0_1_1128.batchCoord (ix2 e k) 0
        + gather_S10000x128_S320000x1_S320000x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S320000x1_S320000x128_1_0_n_n_0_1_1128.startIndexMap from List.mem_singleton.mpr rfl)]
    have hsi : gather_S10000x128_S320000x1_S320000x128_1_0_n_n_0_1_1128.siIdx (ix2 e k)
        ⟨List.idxOf (0 : Fin 2) gather_S10000x128_S320000x1_S320000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x128_S320000x1_S320000x128_1_0_n_n_0_1_1128.start (ix2 e k) c 1
        + gather_S10000x128_S320000x1_S320000x128_1_0_n_n_0_1_1128.batchCoord (ix2 e k) 1
        + gather_S10000x128_S320000x1_S320000x128_1_0_n_n_0_1_1128.offCoord (ix2 e k) 1 = k.val
    rw [GatherDims.batchCoord_eq_zero _ _ _ List.not_mem_nil]
    unfold GatherDims.start
    rw [dif_neg (show (1 : Fin 2) ∉ gather_S10000x128_S320000x1_S320000x128_1_0_n_n_0_1_1128.startIndexMap from by decide)]
    unfold GatherDims.offCoord
    rw [dif_pos (show (1 : Fin 2) ∈ gather_S10000x128_S320000x1_S320000x128_1_0_n_n_0_1_1128.sKept from by decide)]
    simp only [Nat.zero_add, Nat.add_zero]
    rfl

/-- Row 0 of the edge list at edge e. -/
theorem row0_apply (ei : IVec S2x320000 32) (e : Fin 320000) : row0 ei (ix1 e) = ei (ix2 (0 : Fin 2) e) := by
  unfold row0
  refine (shapeCast_apply _ _ (ix1 e) (ix2 (0 : Fin 1) e) ?_).trans ?_
  · rw [Shape.rowMajor_val_two, Shape.rowMajor_val_one]; show 0 * 320000 + e.val = e.val; omega
  · refine extractStridedSlice_apply _ _ _ _ (ix2 (0 : Fin 2) e) ?_
    intro a
    match a with
    | ⟨0, _⟩ => rfl
    | ⟨1, _⟩ => show e.val = 0 + e.val; omega

/-- Row 1 of the edge list at edge e. -/
theorem row1_apply (ei : IVec S2x320000 32) (e : Fin 320000) : row1 ei (ix1 e) = ei (ix2 (1 : Fin 2) e) := by
  unfold row1
  refine (shapeCast_apply _ _ (ix1 e) (ix2 (0 : Fin 1) e) ?_).trans ?_
  · rw [Shape.rowMajor_val_two, Shape.rowMajor_val_one]; show 0 * 320000 + e.val = e.val; omega
  · refine extractStridedSlice_apply _ _ _ _ (ix2 (1 : Fin 2) e) ?_
    intro a
    match a with
    | ⟨0, _⟩ => rfl
    | ⟨1, _⟩ => show e.val = 0 + e.val; omega

/-- A word below 10000 read as a signed integer is itself. -/
theorem toInt_of_lt (w : BitVec 32) (h : w.toNat < 10000) : w.toInt = (w.toNat : Int) := by
  exact BitVec.toInt_eq_toNat_of_lt (by omega)

/-- An index in range is not negative: the normalisation keeps it. -/
theorem norm_apply (idx : IVec S320000 32) (i : S320000.Idx) (h : (idx i).toNat < 10000) : norm idx i = idx i := by
  unfold norm
  rw [select_apply]
  have hc : cmpi .slt idx (broadcastInDim S320000 ![] bcast_S_S320000 (constantI S_ 32 0#32)) i = 0#1 := by
    apply eq_zero_of_ne_one
    intro h1
    have h2 : IntOp.cmpi .slt (idx i) (0#32) = 1#1 := h1
    rw [IntOp.cmpi_slt, toInt_of_lt _ h] at h2
    have e0 : (0#32 : BitVec 32).toInt = 0 := by decide
    rw [e0] at h2
    omega
  rw [hc, select_zero]

/-- The column of start indices at (e, 0) is the normalised index of edge e. -/
theorem col_apply (idx : IVec S320000 32) (e : Fin 320000) (z : Fin 1) : col idx (ix2 e z) = norm idx (ix1 e) := by
  unfold col
  refine broadcastInDim_apply _ _ _ (ix2 e z) (ix1 e) ?_
  intro a
  match a with
  | ⟨0, _⟩ => rfl

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

/-- A reduction by `and` from 1 of an array of ones is 1 everywhere. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ (fun n _ => hx n)

/-- With every index in range the in-range mask is all ones. -/
theorem mask_apply (idx : IVec S320000 32) (h : ∀ i, (idx i).toNat < 10000) (j : S320000.Idx) : mask idx j = 1#1 := by
  unfold mask
  refine reduce_andi_one _ _ _ _ j rfl ?_
  intro i
  obtain ⟨e, z, rfl⟩ : ∃ (e : Fin 320000) (z : Fin 1), i = ix2 e z := ⟨i 0, i 1, eq_ix2 i⟩
  have hw := h (ix1 e)
  have hcol : col idx (ix2 e z) = idx (ix1 e) := (col_apply idx e z).trans (norm_apply idx _ hw)
  have e0 : (0#32 : BitVec 32).toInt = 0 := by decide
  have e1 : (9999#32 : BitVec 32).toInt = 9999 := by decide
  refine IntOp.andi_eq_one.2 ⟨?_, ?_⟩
  · show IntOp.cmpi .sge (col idx (ix2 e z)) (0#32) = 1#1
    rw [hcol, IntOp.cmpi_sge, toInt_of_lt _ hw, e0]; omega
  · show IntOp.cmpi .sle (col idx (ix2 e z)) (9999#32) = 1#1
    rw [hcol, IntOp.cmpi_sle, toInt_of_lt _ hw, e1]; omega

end Cert.ReferenceIdeal.RefValue

end
-- ==== Proof.RefRun.lean ====
/-
  The reference's run with its result read as the specification: under the precondition's index range every edge's
  entry of the result is the inner product of its two end nodes' rows.
-/
import proofs.«215249_g59107339927817_cont_9to1_m_583_18_alg».proof.Proof.RefIdx
import proofs.«215249_g59107339927817_cont_9to1_m_583_18_alg».proof.Proof.Spec
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo
open scoped BigOperators

/-- With every index in range the gathered array at (e, k) is the table at (idx e, k). -/
theorem take_apply {F : FTy → Type} [FloatOps F] (x : FVec F S10000x128 .f32) (idx : IVec S320000 32)
    (h : ∀ i, (idx i).toNat < 10000) (e : Fin 320000) (k : Fin 128) :
    take x idx (ix2 e k) = x (ix2 (⟨(idx (ix1 e)).toNat, h _⟩ : Fin 10000) k) := by
  unfold take
  rw [select_apply]
  have hm : broadcastInDim S320000x128 ![0] bcast_S320000_S320000x128_0 (mask idx) (ix2 e k) = 1#1 := by
    rw [broadcastInDim_apply _ _ _ (ix2 e k) (ix1 e) (by intro a; match a with | ⟨0, _⟩ => rfl)]
    exact mask_apply idx h _
  rw [hm, select_one, gather_apply]
  refine congrArg x (congrArg (fun r : Fin 10000 => ix2 r k) (Fin.ext ?_))
  show min (col idx (ix2 e (0 : Fin 1))).toInt.toNat 9999 = (idx (ix1 e)).toNat
  rw [col_apply, norm_apply idx _ (h _), toInt_of_lt _ (h _), Int.toNat_natCast]
  have := h (ix1 e)
  exact Nat.min_eq_left (by omega)

/-- The result at edge e: the sum over the row of the product of the two gathered rows. -/
theorem out_apply (x : FVec Ideal S10000x128 .f32) (ei : IVec S2x320000 32) (e : Fin 320000) (z : Fin 1) :
    out x ei (ix2 e z) = ∑ k : Fin 128, take x (row0 ei) (ix2 e k) * take x (row1 ei) (ix2 e k) := by
  have hR : S320000x128.Reduces [1] S320000 := by decide
  have hl : ∀ k : Fin 128, hR.lift (ix1 e) k = ix2 e k := fun k => by
    funext a
    refine Fin.ext ?_
    match a with
    | ⟨0, _⟩ => rfl
    | ⟨1, _⟩ => rfl
  unfold out
  rw [broadcastInDim_apply _ _ _ (ix2 e z) (ix1 e) (by intro a; match a with | ⟨0, _⟩ => rfl)]
  unfold Host.reduceAdd
  rw [Ideal.hostReduceAdd_def, Ideal.hostReduceAdd_single _ hR]
  rw [constant_apply, Ideal.ofBits_zero_f32, zero_add]
  refine Finset.sum_congr rfl (fun (k : Fin 128) _ => ?_)
  rw [hl k, mulf_apply]

/-- A flat row of the edge list has its words among the edge list's. -/
theorem row0_lt (ei : IVec S2x320000 32) (h : Cert.Score.InRange ei) (i : S320000.Idx) : (row0 ei i).toNat < 10000 := by
  obtain ⟨e, rfl⟩ : ∃ e : Fin 320000, i = ix1 e := ⟨i 0, eq_ix1 i⟩
  rw [row0_apply]; exact h _
theorem row1_lt (ei : IVec S2x320000 32) (h : Cert.Score.InRange ei) (i : S320000.Idx) : (row1 ei i).toNat < 10000 := by
  obtain ⟨e, rfl⟩ : ∃ e : Fin 320000, i = ix1 e := ⟨i 0, eq_ix1 i⟩
  rw [row1_apply]; exact h _

/-- Under the index range the reference's term is the specification. -/
theorem out_eq_score (x : FVec Ideal S10000x128 .f32) (ei : IVec S2x320000 32) (h : Cert.Score.InRange ei) :
    out x ei = Cert.Score.score x ei := by
  funext i
  obtain ⟨e, z, rfl⟩ : ∃ (e : Fin 320000) (z : Fin 1), i = ix2 e z := ⟨i 0, i 1, eq_ix2 i⟩
  rw [out_apply]
  show _ = ∑ k : Fin 128, x (ix2 (Cert.Score.node ei 0 e) k) * x (ix2 (Cert.Score.node ei 1 e) k)
  refine Finset.sum_congr rfl (fun k _ => ?_)
  rw [take_apply x (row0 ei) (row0_lt ei h) e k, take_apply x (row1 ei) (row1_lt ei h) e k]
  have e0 : (⟨(row0 ei (ix1 e)).toNat, row0_lt ei h _⟩ : Fin 10000) = Cert.Score.node ei 0 e :=
    Fin.ext (by rw [Cert.Score.node_val h]; exact congrArg BitVec.toNat (row0_apply ei e))
  have e1 : (⟨(row1 ei (ix1 e)).toNat, row1_lt ei h _⟩ : Fin 10000) = Cert.Score.node ei 1 e :=
    Fin.ext (by rw [Cert.Score.node_val h]; exact congrArg BitVec.toNat (row1_apply ei e))
  rw [e0, e1]

/-- THE REFERENCE'S RUN: from any memory with zero counters whose edge list is in range, every weakly fair execution
    terminates with the result buffer at the specification of the two arguments' launch contents, the arguments unchanged. -/
theorem ref_run (m' : (ℓ : Loc nD τ sig) → Buf (Elt Ideal) ℓ) (ρ' : Dev nD → PrngReg)
    (hr : ∀ c : Dev nD, Cert.Score.InRange (m' ((c.tc : Thread nD τ).loc main_arg1))) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v8) = Cert.Score.score (m' ((c.tc : Thread nD τ).loc main_arg0)) (m' ((c.tc : Thread nD τ).loc main_arg1))
        ∧ r.2.mem ((c.tc : Thread nD τ).loc main_arg0) = m' ((c.tc : Thread nD τ).loc main_arg0)
        ∧ r.2.mem ((c.tc : Thread nD τ).loc main_arg1) = m' ((c.tc : Thread nD τ).loc main_arg1)) :=
  (θ_run defs _ _).mono (fun _ h c =>
      ⟨(h c main_v8).trans ((after_v8 _).trans (out_eq_score _ _ (hr c))),
        (h c main_arg0).trans (after_arg0 _),
        (h c main_arg1).trans (after_arg1 _)⟩)
    (run_after m' ρ')

end Cert.ReferenceIdeal.RefValue

end
-- ==== Proof.RefPre.lean ====
/-
  The precondition decoded: the second conjunct of the input domain is a reduction by `and`, over every entry of the
  edge list, of the comparisons 0 ≤ w and w ≤ 9999 (both signed) of the entry's word w. When the whole predicate is
  true every such comparison is true, and a word in [0, 9999] signed is below 10000 unsigned.
-/
import proofs.«215249_g59107339927817_cont_9to1_m_583_18_alg».proof.Pre_input_domain
import proofs.«215249_g59107339927817_cont_9to1_m_583_18_alg».proof.Proof.Gen.Pre_input_domain
import proofs.«215249_g59107339927817_cont_9to1_m_583_18_alg».proof.Proof.Spec
import Idealize.ShloMosaic.Lib.ReduceAll

noncomputable section

namespace Cert.Score

open Idealize.ShloMosaic

/-- The rank-0 shape has one index. -/
instance refSubsingletonScalarIdx : Subsingleton Cert.Pre_input_domain.S_.Idx :=
  ⟨fun a b => funext fun d => d.elim0⟩

/-- A word between 0 and 9999 as a signed integer is below 10000 as a natural number. -/
theorem ref_toNat_lt_of_signed (w : BitVec 32) (h0 : IntOp.cmpi .sge w (0#32) = 1#1)
    (h1 : IntOp.cmpi .sle w (9999#32) = 1#1) : w.toNat < 10000 := by
  rw [IntOp.cmpi_sge] at h0
  rw [IntOp.cmpi_sle] at h1
  have e0 : (0#32 : BitVec 32).toInt = 0 := by decide
  have e1 : (9999#32 : BitVec 32).toInt = 9999 := by decide
  rw [e0] at h0
  rw [e1] at h1
  have h32 := w.isLt
  have hc := BitVec.toInt_eq_toNat_cond w
  split at hc <;> omega

/-- The input domain holds only of edge lists whose every word names a row of the feature table. -/
theorem inRange_of_fn {F : FTy → Type} [FloatOps F] (x : FVec F Cert.Pre_input_domain.S10000x128 .f32)
    (ei : IVec Cert.Pre_input_domain.S2x320000 32)
    (h : Cert.Pre_input_domain.fn (F := F) x ei = fun _ => 1#1) : InRange ei := by
  intro j
  have e := congrFun h ValueIdx.ix0
  dsimp only [Cert.Pre_input_domain.fn] at e
  obtain ⟨-, e2⟩ := IntOp.andi_eq_one.1 e
  have ej := Host.reduce_andi_all _ _ _ _ _ e2 j
  obtain ⟨h0, h1⟩ := IntOp.andi_eq_one.1 ej
  exact ref_toNat_lt_of_signed (ei j) h0 h1

end Cert.Score

end
-- ==== Proof.ClaimsI.lean ====
/-
  The certificate's claims at the ideal instance, assembled from the reference's run, the arithmetic of one group, and two
  statements proved elsewhere: a tile's run (`TileRun`) and the launch (`KernelRun`, stated here). The kernel's result
  entry of edge e is in the lane relation to the table and the edge's two nodes; at the ideal instance that relation says it
  is the inner product of the two feature rows, which is the specification the reference's run ends at.
-/
import proofs.«215249_g59107339927817_cont_9to1_m_583_18_alg».proof.Defs
import proofs.«215249_g59107339927817_cont_9to1_m_583_18_alg».proof.Proof.TileSpecI
import proofs.«215249_g59107339927817_cont_9to1_m_583_18_alg».proof.Proof.LaneIdeal
import proofs.«215249_g59107339927817_cont_9to1_m_583_18_alg».proof.Proof.RefRun
import proofs.«215249_g59107339927817_cont_9to1_m_583_18_alg».proof.Proof.RefPre
import proofs.«215249_g59107339927817_cont_9to1_m_583_18_alg».proof.Proof.Gen.KernelIdeal
import proofs.«215249_g59107339927817_cont_9to1_m_583_18_alg».proof.Proof.Gen.ReferenceIdeal
import proofs.«215249_g59107339927817_cont_9to1_m_583_18_alg».proof.Proof.Gen.Pre_input_domain

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

/-- The launch's statement, at any instance: given every tile's run with the lane relation `Lane`, from any memory with zero
    counters whose edge list is in range the whole program terminates, entry e of the result is in the relation to the
    table and edge e's two nodes, and the two arguments are unchanged. -/
def KernelRun (F : FTy → Type) [FloatOps F] : Prop :=
  ∀ (Lane : LaneRel F) (_ : TileRun Lane) (m : (ℓ : Loc nD τ sig) → Buf (Elt F) ℓ) (ρ : Dev nD → PrngReg)
    (_ : ∀ c : Dev nD, Cert.Score.InRange (m ((c.tc : Thread nD τ).loc main_arg1))),
    θ_run (Cert.KernelIdeal.defs (F := F)) (Cert.KernelIdeal.threads (F := F)) ⟨m, fun _ => 0, ρ⟩
      (fun r => ∀ c : Dev nD,
        (∀ e : Fin 320000, Lane (m ((c.tc : Thread nD τ).loc main_arg0))
            (Cert.Score.node (m ((c.tc : Thread nD τ).loc main_arg1)) 0 e) (Cert.Score.node (m ((c.tc : Thread nD τ).loc main_arg1)) 1 e)
            (r.2.mem ((c.tc : Thread nD τ).loc main_v5) (ix2 e (0 : Fin 1))))
        ∧ r.2.mem ((c.tc : Thread nD τ).loc main_arg0) = m ((c.tc : Thread nD τ).loc main_arg0)
        ∧ r.2.mem ((c.tc : Thread nD τ).loc main_arg1) = m ((c.tc : Thread nD τ).loc main_arg1))

/-- The reference runs and leaves its arguments: its run with the result dropped, the index range from the precondition. -/
theorem frame_ri : Cert.frame_ReferenceIdeal := by
  intro m g hpre
  have hr : ∀ c : Dev Cert.ReferenceIdeal.nD, Cert.Score.InRange
      (m ((c.tc : Thread Cert.ReferenceIdeal.nD Cert.ReferenceIdeal.τ).loc Cert.ReferenceIdeal.main_arg1)) :=
    fun c => Cert.Score.inRange_of_fn _ _ (hpre c)
  exact (θ_run (Cert.ReferenceIdeal.defs (F := Ideal)) _ _).mono (fun _ h c => ⟨(h c).2.1, (h c).2.2⟩)
    (Cert.ReferenceIdeal.RefValue.ref_run m g hr)

/-- The idealized kernel runs and leaves its arguments, given the launch and a tile's run. -/
theorem frame_pi_of (hK : KernelRun Ideal) (hT : TileRun (F := Ideal) laneIdeal) : Cert.frame_KernelIdeal := by
  intro m g hpre
  have hr : ∀ c : Dev nD, Cert.Score.InRange (m ((c.tc : Thread nD τ).loc main_arg1)) :=
    fun c => Cert.Score.inRange_of_fn _ _ (hpre c)
  exact (θ_run (Cert.KernelIdeal.defs (F := Ideal)) _ _).mono (fun _ h c => ⟨(h c).2.1, (h c).2.2⟩) (hK laneIdeal hT m g hr)

/-- The idealized kernel and the idealized reference end with equal results, the specification of the arguments, given
    the launch and a tile's run. -/
theorem algebraic_of (hK : KernelRun Ideal) (hT : TileRun (F := Ideal) laneIdeal) : Cert.algebraic_KernelIdeal_ReferenceIdeal := by
  intro m g m' g' hpre hagree
  have hr : ∀ c : Dev nD, Cert.Score.InRange (m ((c.tc : Thread nD τ).loc main_arg1)) :=
    fun c => Cert.Score.inRange_of_fn _ _ (hpre c)
  have hr' : ∀ c : Dev Cert.ReferenceIdeal.nD, Cert.Score.InRange
      (m' ((c.tc : Thread Cert.ReferenceIdeal.nD Cert.ReferenceIdeal.τ).loc Cert.ReferenceIdeal.main_arg1)) :=
    fun c => by rw [(hagree c).2]; exact hr c
  refine ⟨fun c => Cert.Score.score (m ((c.tc : Thread nD τ).loc main_arg0)) (m ((c.tc : Thread nD τ).loc main_arg1)), ?_, ?_⟩
  · refine (θ_run (Cert.KernelIdeal.defs (F := Ideal)) _ _).mono (fun r h c => ⟨?_, (h c).2.1, (h c).2.2⟩) (hK laneIdeal hT m g hr)
    funext i
    obtain ⟨e, z, rfl⟩ : ∃ (e : Fin 320000) (z : Fin 1), i = ix2 e z := ⟨i 0, i 1, eq_ix2 i⟩
    obtain rfl : z = 0 := Subsingleton.elim _ _
    exact (h c).1 e
  · refine (θ_run (Cert.ReferenceIdeal.defs (F := Ideal)) _ _).mono (fun r h c => ⟨?_, (h c).2.1, (h c).2.2⟩)
      (Cert.ReferenceIdeal.RefValue.ref_run m' g' hr')
    rw [(h c).1, (hagree c).1, (hagree c).2]

end Cert.Proof.KI

end
-- ==== Proof.SetupB.lean ====
/-
  The kernel's program as the SparseCore launch theorem sees it: one vector-subcore call on two SparseCores of
  sixteen tiles each. Every tile only makes copies of its own and waits for them, so no schedule between threads is
  needed: the ghost state is the launch handshakes' rounds beside the transfers' counters.
-/
import proofs.«215249_g59107339927817_cont_9to1_m_583_18_alg».proof.Defs
import proofs.«215249_g59107339927817_cont_9to1_m_583_18_alg».proof.Proof.Gen.Kernel
import proofs.«215249_g59107339927817_cont_9to1_m_583_18_alg».proof.Proof.Gen.Kernel.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The tile a grid point names. -/
abbrev cV (L : grid0.Coords) : Fin τ.nSC := (L 0).castLE hcore0
abbrev jV (L : grid0.Coords) : Fin τ.nSub := (L 1).castLE hsub0

end Cert.Proof.KB

end
-- ==== Proof.NamesB.lean ====
/-
  The kernel's memrefs as its body table passes them, and the slices one tile works on: tile `(c, s)` is worker
  `w = 2 s + c` and owns entries `[10000 w, 10000 w + 10000)` of the source list, the destination list and the result.
-/
import proofs.«215249_g59107339927817_cont_9to1_m_583_18_alg».proof.Proof.SetupB
import Idealize.ShloMosaic.Lib.ValueIdx

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

abbrev xW : Memref sig .scVector .hbm S10000x128 .f32 := Memref.whole main_arg0_scv
abbrev sW : Memref sig .scVector .hbm S320000 .i32 := Memref.whole main_v1_scv
abbrev dW : Memref sig .scVector .hbm S320000 .i32 := Memref.whole main_v3_scv
abbrev oW : Memref sig .scVector .hbm S320000 .f32 := Memref.whole main_v4_scv
abbrev iU : Memref sig .scVector .vmem S10000 .i32 := Memref.whole cc0_scratch0
abbrev iV : Memref sig .scVector .vmem S10000 .i32 := Memref.whole cc0_scratch1
abbrev oA : Memref sig .scVector .vmem S10000 .f32 := Memref.whole cc0_scratch2
abbrev tB : Memref sig .scVector .vmem S16x17 .f32 := Memref.whole cc0_scratch3
abbrev rU0 : Memref sig .scVector .vmem S80x128 .f32 := Memref.whole cc0_scratch4
abbrev rV0 : Memref sig .scVector .vmem S80x128 .f32 := Memref.whole cc0_scratch5
abbrev rU1 : Memref sig .scVector .vmem S80x128 .f32 := Memref.whole cc0_scratch8
abbrev rV1 : Memref sig .scVector .vmem S80x128 .f32 := Memref.whole cc0_scratch9
abbrev sSl (L : grid0.Coords) : Memref sig .scVector .hbm S10000 .i32 := sW.slice (Rect.unit (s := S320000) (k0_off1 L) S10000.size (k0_off1_inb L)) (fun _ => rfl)
abbrev dSl (L : grid0.Coords) : Memref sig .scVector .hbm S10000 .i32 := dW.slice (Rect.unit (s := S320000) (k0_off1 L) S10000.size (k0_off1_inb L)) (fun _ => rfl)
abbrev oSl (L : grid0.Coords) : Memref sig .scVector .hbm S10000 .f32 := oW.slice (Rect.unit (s := S320000) (k0_off32 L) S10000.size (k0_off32_inb L)) (fun _ => rfl)
abbrev thr (d : Dev nD) (L : grid0.Coords) : Thread nD τ := V d (cV L) (jV L)

end Cert.Proof.KB

end
-- ==== Proof.GrpSpecB.lean ====
/-
  What one group of sixteen edges computes, as one pure function of the two gathered row buffers: for each of the
  sixteen rows the eight lane-wise products are added into a 16-lane vector stored as a row of a 16 × 17 scratch; the
  scratch is then read down its columns and the sixteen columns are added. Lane `l` of the result is therefore
  `∑ c < 16, ∑ j < 8, u[l, 16 j + c] · v[l, 16 j + c]`: the inner product of row `l` of the two buffers, in another order.
-/
import proofs.«215249_g59107339927817_cont_9to1_m_583_18_alg».proof.Proof.NamesB
import Idealize.ShloMosaic.Lib.ValueIdx

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- The lane numbers 0 … 15 and a constant column below 17 name entries of the 16 × 17 scratch. -/
theorem chk_ok (c : BitVec 32) (hc : c.toNat < 17) :
    ∀ a x, ((![iota .scVector S16 32 [0] iota_S16_d0_w32_scVector, broadcast S16 c] : Fin 2 → IVec S16 32) a x).toNat < S16x17.size a := by
  intro a x
  match a with
  | ⟨0, _⟩ =>
    have hx := (x 0).isLt
    show (BitVec.ofNat 32 (0 * S16.size 0 + (x 0).val)).toNat < 16
    simp only [BitVec.toNat_ofNat]
    have : (x 0).val < 16 := hx
    omega
  | ⟨1, _⟩ => exact hc

/-- Sixteen consecutive entries of one row of a row buffer: the block of extent [1, 16] at `off`, flattened. -/
def ld16 (d : Dev nD) (L : grid0.Coords) (mm : Memref sig .scVector .vmem S80x128 .f32) (f : Buf (Elt F) (mm.view.loc (thr d L)))
    (off : Fin 2 → Nat) (h : ∀ a, off a + S1x16.size a ≤ S80x128.size a) : Vec F S16 .f32 :=
  shapeCast S16 (View.readAt (Elt F) mm.view (Rect.unit (s := S80x128) off S1x16.size h).toLoadRect f) shapeCasts_S1x16_S16

/-- What the body stores in row `r` of the 16 × 17 scratch: lane `c` holds `∑ j < 8, u[r, 16 j + c] · v[r, 16 j + c]`, the eight
    products added in order. `off j r` is where the `j`-th block of row `r` of the group starts. -/
def rowP (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a) (r : Fin 16) : FVec F S16 .f32 :=
  (addf (addf (addf (addf (addf (addf (addf (mulf (ld16 d L mu fu (off 0 r) (hoff 0 r)) (ld16 d L mv fv (off 0 r) (hoff 0 r)))
      (mulf (ld16 d L mu fu (off 1 r) (hoff 1 r)) (ld16 d L mv fv (off 1 r) (hoff 1 r))))
      (mulf (ld16 d L mu fu (off 2 r) (hoff 2 r)) (ld16 d L mv fv (off 2 r) (hoff 2 r))))
      (mulf (ld16 d L mu fu (off 3 r) (hoff 3 r)) (ld16 d L mv fv (off 3 r) (hoff 3 r))))
      (mulf (ld16 d L mu fu (off 4 r) (hoff 4 r)) (ld16 d L mv fv (off 4 r) (hoff 4 r))))
      (mulf (ld16 d L mu fu (off 5 r) (hoff 5 r)) (ld16 d L mv fv (off 5 r) (hoff 5 r))))
      (mulf (ld16 d L mu fu (off 6 r) (hoff 6 r)) (ld16 d L mv fv (off 6 r) (hoff 6 r))))
      (mulf (ld16 d L mu fu (off 7 r) (hoff 7 r)) (ld16 d L mv fv (off 7 r) (hoff 7 r))))

/-- The sixteen row stores, the last first. -/
def tbPieces (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a) : List (View.Piece (Elt F) S16x17 .f32) :=
  [
    ⟨Rect.unit (s := S16x17) ![15, 0] S1x16.size inb_S16x17_S1x16_15_0, shapeCast S1x16 (rowP d L mu mv fu fv off hoff 15) shapeCasts_S16_S1x16⟩,
    ⟨Rect.unit (s := S16x17) ![14, 0] S1x16.size inb_S16x17_S1x16_14_0, shapeCast S1x16 (rowP d L mu mv fu fv off hoff 14) shapeCasts_S16_S1x16⟩,
    ⟨Rect.unit (s := S16x17) ![13, 0] S1x16.size inb_S16x17_S1x16_13_0, shapeCast S1x16 (rowP d L mu mv fu fv off hoff 13) shapeCasts_S16_S1x16⟩,
    ⟨Rect.unit (s := S16x17) ![12, 0] S1x16.size inb_S16x17_S1x16_12_0, shapeCast S1x16 (rowP d L mu mv fu fv off hoff 12) shapeCasts_S16_S1x16⟩,
    ⟨Rect.unit (s := S16x17) ![11, 0] S1x16.size inb_S16x17_S1x16_11_0, shapeCast S1x16 (rowP d L mu mv fu fv off hoff 11) shapeCasts_S16_S1x16⟩,
    ⟨Rect.unit (s := S16x17) ![10, 0] S1x16.size inb_S16x17_S1x16_10_0, shapeCast S1x16 (rowP d L mu mv fu fv off hoff 10) shapeCasts_S16_S1x16⟩,
    ⟨Rect.unit (s := S16x17) ![9, 0] S1x16.size inb_S16x17_S1x16_9_0, shapeCast S1x16 (rowP d L mu mv fu fv off hoff 9) shapeCasts_S16_S1x16⟩,
    ⟨Rect.unit (s := S16x17) ![8, 0] S1x16.size inb_S16x17_S1x16_8_0, shapeCast S1x16 (rowP d L mu mv fu fv off hoff 8) shapeCasts_S16_S1x16⟩,
    ⟨Rect.unit (s := S16x17) ![7, 0] S1x16.size inb_S16x17_S1x16_7_0, shapeCast S1x16 (rowP d L mu mv fu fv off hoff 7) shapeCasts_S16_S1x16⟩,
    ⟨Rect.unit (s := S16x17) ![6, 0] S1x16.size inb_S16x17_S1x16_6_0, shapeCast S1x16 (rowP d L mu mv fu fv off hoff 6) shapeCasts_S16_S1x16⟩,
    ⟨Rect.unit (s := S16x17) ![5, 0] S1x16.size inb_S16x17_S1x16_5_0, shapeCast S1x16 (rowP d L mu mv fu fv off hoff 5) shapeCasts_S16_S1x16⟩,
    ⟨Rect.unit (s := S16x17) ![4, 0] S1x16.size inb_S16x17_S1x16_4_0, shapeCast S1x16 (rowP d L mu mv fu fv off hoff 4) shapeCasts_S16_S1x16⟩,
    ⟨Rect.unit (s := S16x17) ![3, 0] S1x16.size inb_S16x17_S1x16_3_0, shapeCast S1x16 (rowP d L mu mv fu fv off hoff 3) shapeCasts_S16_S1x16⟩,
    ⟨Rect.unit (s := S16x17) ![2, 0] S1x16.size inb_S16x17_S1x16_2_0, shapeCast S1x16 (rowP d L mu mv fu fv off hoff 2) shapeCasts_S16_S1x16⟩,
    ⟨Rect.unit (s := S16x17) ![1, 0] S1x16.size inb_S16x17_S1x16_1_0, shapeCast S1x16 (rowP d L mu mv fu fv off hoff 1) shapeCasts_S16_S1x16⟩,
    ⟨Rect.unit (s := S16x17) ![0, 0] S1x16.size inb_S16x17_S1x16_0_0, shapeCast S1x16 (rowP d L mu mv fu fv off hoff 0) shapeCasts_S16_S1x16⟩]

/-- Column `c` of the scratch after the sixteen row stores, read down its first sixteen rows: lane `l` is entry `(l, c)`. -/
def colAt (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a)
    (g3 : Buf (Elt F) (tB.view.loc (thr d L))) (c : Nat) (hc : (BitVec.ofNat 32 c).toNat < 17) : Vec F S16 .f32 :=
  loadIdx (View.readAt (Elt F) tB.view (LoadRect.whole S16x17) (tB.view.writes (Elt F) g3 (tbPieces d L mu mv fu fv off hoff)))
    ![iota .scVector S16 32 [0] iota_S16_d0_w32_scVector, broadcast S16 (BitVec.ofNat 32 c)] (chk_ok _ hc)

/-- The sixteen scores of one group: lane `l` is the sum over the sixteen columns of row `l` of the scratch, that is
    `∑ c < 16, ∑ j < 8, u[l, 16 j + c] · v[l, 16 j + c]`, added in this order. -/
def grpSpec (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a)
    (g3 : Buf (Elt F) (tB.view.loc (thr d L))) : FVec F S16 .f32 :=
  (addf (addf (addf (addf (addf (addf (addf (addf (addf (addf (addf (addf (addf (addf (addf (colAt d L mu mv fu fv off hoff g3 0 (by decide))
      (colAt d L mu mv fu fv off hoff g3 1 (by decide)))
      (colAt d L mu mv fu fv off hoff g3 2 (by decide)))
      (colAt d L mu mv fu fv off hoff g3 3 (by decide)))
      (colAt d L mu mv fu fv off hoff g3 4 (by decide)))
      (colAt d L mu mv fu fv off hoff g3 5 (by decide)))
      (colAt d L mu mv fu fv off hoff g3 6 (by decide)))
      (colAt d L mu mv fu fv off hoff g3 7 (by decide)))
      (colAt d L mu mv fu fv off hoff g3 8 (by decide)))
      (colAt d L mu mv fu fv off hoff g3 9 (by decide)))
      (colAt d L mu mv fu fv off hoff g3 10 (by decide)))
      (colAt d L mu mv fu fv off hoff g3 11 (by decide)))
      (colAt d L mu mv fu fv off hoff g3 12 (by decide)))
      (colAt d L mu mv fu fv off hoff g3 13 (by decide)))
      (colAt d L mu mv fu fv off hoff g3 14 (by decide)))
      (colAt d L mu mv fu fv off hoff g3 15 (by decide)))

end Cert.Proof.KB

end
-- ==== Proof.TileSpecB.lean ====
/-
  The statement of one tile's run, in the spelling of the body's own memrefs: what the tile holds when its task starts
  (`tilePre`) and what it leaves (`tilePost`).
-/
import proofs.«215249_g59107339927817_cont_9to1_m_583_18_alg».proof.Proof.GrpSpecB
import Idealize.ShloMosaic.Lib.ValueIdx

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- The node a 32-bit index word names (reduced mod 10000, which is the identity on the words the precondition admits). -/
def nodeOf (w : BitVec 32) : Fin 10000 := ⟨w.toNat % 10000, Nat.mod_lt _ (by decide)⟩

/-- What is asked of a result lane: a relation between the feature table, the two end nodes and the lane's value.
    At the bit-exact instance nothing is asked; at the ideal one the value is the inner product of the two feature rows. -/
abbrev LaneRel (F : FTy → Type) : Type := Vec F S10000x128 .f32 → Fin 10000 → Fin 10000 → Elt F .f32 → Prop

/-- The one fact about the arithmetic the frame proof uses: a group's lane `l` satisfies the relation whenever row
    `rowOf l` of the two row buffers holds the feature rows of the two nodes. -/
def LaneHyp (Lane : LaneRel F) : Prop :=
  ∀ (d : Dev nD) (L : grid0.Coords) (mu mv : Memref sig .scVector .vmem S80x128 .f32)
    (fu : Buf (Elt F) (mu.view.loc (thr d L))) (fv : Buf (Elt F) (mv.view.loc (thr d L)))
    (off : Fin 8 → Fin 16 → Fin 2 → Nat) (hoff : ∀ j r a, off j r a + S1x16.size a ≤ S80x128.size a)
    (g3 : Buf (Elt F) (tB.view.loc (thr d L))) (rowOf : Fin 16 → Fin 80) (_ : ∀ j r, off j r = ![(rowOf r).val, 16 * j.val])
    (X : Vec F S10000x128 .f32) (u v : Fin 10000) (l : Fin 16),
    (∀ k : Fin 128, mu.view.read (Elt F) fu (ix2 (rowOf l) k) = X (ix2 u k)) →
    (∀ k : Fin 128, mv.view.read (Elt F) fv (ix2 (rowOf l) k) = X (ix2 v k)) →
    Lane X u v (grpSpec d L mu mv fu fv off hoff g3 (ix1 l))

/-- Every word of a tile's slice of an index list names a row of the feature table. -/
def IdxOK (m : Memref sig .scVector .hbm S10000 .i32) (d : Dev nD) (L : grid0.Coords) (f : Buf (Elt F) (m.view.loc (thr d L))) : Prop :=
  ∀ j : S10000.Idx, (m.view.read (Elt F) f j).toNat < 10000

def tilePre (d : Dev nD) (L : grid0.Coords) (q : PosShare TreeShare) (O : CellTallies nD τ sig (HIx 1)) (W : Waits sig (HIx 1))
    (fx : Buf (Elt F) (xW.view.loc (thr d L))) (fs : Buf (Elt F) ((sSl L).view.loc (thr d L))) (fd : Buf (Elt F) ((dSl L).view.loc (thr d L)))
    (fo : Buf (Elt F) ((oSl L).view.loc (thr d L)))
    (g0 : Buf (Elt F) (iU.view.loc (thr d L))) (g1 : Buf (Elt F) (iV.view.loc (thr d L))) (g2 : Buf (Elt F) (oA.view.loc (thr d L)))
    (g3 : Buf (Elt F) (tB.view.loc (thr d L))) (g4 : Buf (Elt F) (rU0.view.loc (thr d L))) (g5 : Buf (Elt F) (rV0.view.loc (thr d L)))
    (g8 : Buf (Elt F) (rU1.view.loc (thr d L))) (g9 : Buf (Elt F) (rV1.view.loc (thr d L))) : sProp 𝕄 :=
    iprop(Transfers.MayWaits (thr d L) (none : HIx 1) O
        ∗ (xW.view.loc (thr d L) ↦{q} fx)
        ∗ ((sSl L).view.loc (thr d L) ↦[(sSl L).view.set]{fullShare} fs)
        ∗ ((dSl L).view.loc (thr d L) ↦[(dSl L).view.set]{fullShare} fd)
        ∗ ((oSl L).view.loc (thr d L) ↦[(oSl L).view.set]{fullShare} fo)
        ∗ (iU.view.loc (thr d L) ↦{fullShare} g0) ∗ (iV.view.loc (thr d L) ↦{fullShare} g1) ∗ (oA.view.loc (thr d L) ↦{fullShare} g2)
        ∗ (tB.view.loc (thr d L) ↦{fullShare} g3) ∗ (rU0.view.loc (thr d L) ↦{fullShare} g4) ∗ (rV0.view.loc (thr d L) ↦{fullShare} g5)
        ∗ (rU1.view.loc (thr d L) ↦{fullShare} g8) ∗ (rV1.view.loc (thr d L) ↦{fullShare} g9)
        ∗ semVal (thr d L, SemLoc.dma cc0_scratch6.sem) 0 ∗ semVal (thr d L, SemLoc.dma cc0_scratch7.sem) 0
        ∗ semVal (thr d L, SemLoc.dma cc0_scratch10.sem) 0 ∗ semVal (thr d L, SemLoc.dma cc0_scratch11.sem) 0
        ∗ semVal (thr d L, SemLoc.dma cc0_scoped0.sem) 0 ∗ semVal (thr d L, SemLoc.dma cc0_scoped1.sem) 0 ∗ semVal (thr d L, SemLoc.dma cc0_scoped2.sem) 0
        ∗ owes (thr d L) O W)

/-- What a tile leaves: the feature table, its slices of the two index lists unchanged, its slice of the result with every
    lane in the relation to the table and the edge's two nodes; its scratches at some contents, its counters at zero. -/
def tilePost (Lane : LaneRel F) (d : Dev nD) (L : grid0.Coords) (q : PosShare TreeShare) (O : CellTallies nD τ sig (HIx 1)) (W : Waits sig (HIx 1))
    (fx : Buf (Elt F) (xW.view.loc (thr d L))) (fs : Buf (Elt F) ((sSl L).view.loc (thr d L))) (fd : Buf (Elt F) ((dSl L).view.loc (thr d L))) : sProp 𝕄 :=
    iprop((xW.view.loc (thr d L) ↦{q} fx)
        ∗ ((sSl L).view.loc (thr d L) ↦[(sSl L).view.set]{fullShare} fs)
        ∗ ((dSl L).view.loc (thr d L) ↦[(dSl L).view.set]{fullShare} fd)
        ∗ (∃ f, ((oSl L).view.loc (thr d L) ↦[(oSl L).view.set]{fullShare} f)
            ∗ ⌜∀ j : S10000.Idx, Lane (xW.view.read (Elt F) fx) (nodeOf ((sSl L).view.read (Elt F) fs j)) (nodeOf ((dSl L).view.read (Elt F) fd j))
                ((oSl L).view.read (Elt F) f j)⌝)
        ∗ (∃ g, iU.view.loc (thr d L) ↦{fullShare} g) ∗ (∃ g, iV.view.loc (thr d L) ↦{fullShare} g) ∗ (∃ g, oA.view.loc (thr d L) ↦{fullShare} g)
        ∗ (∃ g, tB.view.loc (thr d L) ↦{fullShare} g) ∗ (∃ g, rU0.view.loc (thr d L) ↦{fullShare} g) ∗ (∃ g, rV0.view.loc (thr d L) ↦{fullShare} g)
        ∗ (∃ g, rU1.view.loc (thr d L) ↦{fullShare} g) ∗ (∃ g, rV1.view.loc (thr d L) ↦{fullShare} g)
        ∗ semVal (thr d L, SemLoc.dma cc0_scratch6.sem) 0 ∗ semVal (thr d L, SemLoc.dma cc0_scratch7.sem) 0
        ∗ semVal (thr d L, SemLoc.dma cc0_scratch10.sem) 0 ∗ semVal (thr d L, SemLoc.dma cc0_scratch11.sem) 0
        ∗ semVal (thr d L, SemLoc.dma cc0_scoped0.sem) 0 ∗ semVal (thr d L, SemLoc.dma cc0_scoped1.sem) 0 ∗ semVal (thr d L, SemLoc.dma cc0_scoped2.sem) 0
        ∗ ∃ W', ⌜∀ p ∈ W', p ∈ W ∨ p.2 = none⌝ ∗ owes (thr d L) O W')

/-- The statement of the tile's run: from `tilePre`, with both index slices in range, the kernel function at grid point `L`
    terminates in `tilePost`. -/
def TileRun (Lane : LaneRel F) : Prop :=
  ∀ (d : Dev nD) (L : grid0.Coords) (q : PosShare TreeShare) (O : CellTallies nD τ sig (HIx 1)) (W : Waits sig (HIx 1))
    (fx : Buf (Elt F) (xW.view.loc (thr d L))) (fs : Buf (Elt F) ((sSl L).view.loc (thr d L))) (fd : Buf (Elt F) ((dSl L).view.loc (thr d L)))
    (fo : Buf (Elt F) ((oSl L).view.loc (thr d L)))
    (g0 : Buf (Elt F) (iU.view.loc (thr d L))) (g1 : Buf (Elt F) (iV.view.loc (thr d L))) (g2 : Buf (Elt F) (oA.view.loc (thr d L)))
    (g3 : Buf (Elt F) (tB.view.loc (thr d L))) (g4 : Buf (Elt F) (rU0.view.loc (thr d L))) (g5 : Buf (Elt F) (rV0.view.loc (thr d L)))
    (g8 : Buf (Elt F) (rU1.view.loc (thr d L))) (g9 : Buf (Elt F) (rV1.view.loc (thr d L))),
    IdxOK (sSl L) d L fs → IdxOK (dSl L) d L fd →
    (tilePre d L q O W fx fs fd fo g0 g1 g2 g3 g4 g5 g8 g9
      ⊢ wp frame (wpE (defs₀ (F := F)) 𝒱₀ (thr d L) none) Set.univ
          (cc0__score_kernel (F := F) L xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2)
          (fun _ => tilePost Lane d L q O W fx fs fd))

end Cert.Proof.KB

end
-- ==== Proof.ClaimsB.lean ====
/-
  The kernel's frame claim at the word level, assembled from two statements proved elsewhere: a tile's run (`TileRun`)
  and the launch (`KernelRun`, stated here). At this instance nothing is asked of a result lane: the relation is `True`.
-/
import proofs.«215249_g59107339927817_cont_9to1_m_583_18_alg».proof.Defs
import proofs.«215249_g59107339927817_cont_9to1_m_583_18_alg».proof.Proof.TileSpecB
import proofs.«215249_g59107339927817_cont_9to1_m_583_18_alg».proof.Proof.Spec
import proofs.«215249_g59107339927817_cont_9to1_m_583_18_alg».proof.Proof.RefPre
import proofs.«215249_g59107339927817_cont_9to1_m_583_18_alg».proof.Proof.Gen.Kernel
import proofs.«215249_g59107339927817_cont_9to1_m_583_18_alg».proof.Proof.Gen.Pre_input_domain

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

/-- The launch's statement, at any instance: given every tile's run with the lane relation `Lane`, from any memory with zero
    counters whose edge list is in range the whole program terminates, entry e of the result is in the relation to the
    table and edge e's two nodes, and the two arguments are unchanged. -/
def KernelRun (F : FTy → Type) [FloatOps F] : Prop :=
  ∀ (Lane : LaneRel F) (_ : TileRun Lane) (m : (ℓ : Loc nD τ sig) → Buf (Elt F) ℓ) (ρ : Dev nD → PrngReg)
    (_ : ∀ c : Dev nD, Cert.Score.InRange (m ((c.tc : Thread nD τ).loc main_arg1))),
    θ_run (Cert.Kernel.defs (F := F)) (Cert.Kernel.threads (F := F)) ⟨m, fun _ => 0, ρ⟩
      (fun r => ∀ c : Dev nD,
        (∀ e : Fin 320000, Lane (m ((c.tc : Thread nD τ).loc main_arg0))
            (Cert.Score.node (m ((c.tc : Thread nD τ).loc main_arg1)) 0 e) (Cert.Score.node (m ((c.tc : Thread nD τ).loc main_arg1)) 1 e)
            (r.2.mem ((c.tc : Thread nD τ).loc main_v5) (ix2 e (0 : Fin 1))))
        ∧ r.2.mem ((c.tc : Thread nD τ).loc main_arg0) = m ((c.tc : Thread nD τ).loc main_arg0)
        ∧ r.2.mem ((c.tc : Thread nD τ).loc main_arg1) = m ((c.tc : Thread nD τ).loc main_arg1))

/-- The relation that asks nothing holds of every group's lanes. -/
theorem laneHyp_true : LaneHyp (F := Bits) (fun _ _ _ _ => True) := by
  unfold LaneHyp
  intros
  trivial

/-- The kernel runs and leaves its arguments, given the launch and a tile's run: the launch's post with the result
    dropped, the index range from the precondition. -/
theorem frame_p_of (hK : KernelRun Bits) (hT : TileRun (F := Bits) (fun _ _ _ _ => True)) : Cert.frame_Kernel := by
  intro m g hpre
  have hr : ∀ c : Dev nD, Cert.Score.InRange (m ((c.tc : Thread nD τ).loc main_arg1)) :=
    fun c => Cert.Score.inRange_of_fn _ _ (hpre c)
  exact (θ_run (Cert.Kernel.defs (F := Bits)) _ _).mono (fun _ h c => ⟨(h c).2.1, (h c).2.2⟩) (hK (fun _ _ _ _ => True) hT m g hr)

end Cert.Proof.KB

end
-- ==== Proof.LaunchPayI.lean ====
/-
  What the launch hands each SparseCore and each tile and takes back: a read share of the feature table, the tile's
  10000-entry slices of the two index lists (rows 0 and 1 of the edge list) and its slice of the result, whose entries come
  back in the relation to the table and the edges' nodes. Tile s of SparseCore c is worker w = 2 s + c and owns entries
  [10000 w, 10000 w + 10000) of each list; the thirty-two slices are pairwise disjoint and cover the lists.
-/
import proofs.«215249_g59107339927817_cont_9to1_m_583_18_alg».proof.Proof.TileSpecI
import proofs.«215249_g59107339927817_cont_9to1_m_583_18_alg».proof.Proof.Spec
import Idealize.ShloMosaic.Lib.ValueIdx
import Idealize.ShloMosaic.Lib.Pipeline.Value

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The arrays, as locations of device `d` -/

abbrev xLoc (d : Dev nD) : Loc nD τ sig := (SparseCore.T d).loc main_arg0
abbrev eLoc (d : Dev nD) : Loc nD τ sig := (SparseCore.T d).loc main_arg1
abbrev sLoc (d : Dev nD) : Loc nD τ sig := (SparseCore.T d).loc main_v1
abbrev dLoc (d : Dev nD) : Loc nD τ sig := (SparseCore.T d).loc main_v3
abbrev oLoc (d : Dev nD) : Loc nD τ sig := (SparseCore.T d).loc main_v4
abbrev rLoc (d : Dev nD) : Loc nD τ sig := (SparseCore.T d).loc main_v5

/-- The source list and the destination list as the host operations leave them: rows 0 and 1 of the edge list. -/
def V1 (d : Dev nD) : Buf (Elt F) (sLoc d) :=
  shapeCast S320000 (extractStridedSlice S1x320000 ![0, 0] (m (eLoc d)) slices_S2x320000_S1x320000_0_0) shapeCasts_S1x320000_S320000
def V3 (d : Dev nD) : Buf (Elt F) (dLoc d) :=
  shapeCast S320000 (extractStridedSlice S1x320000 ![1, 0] (m (eLoc d)) slices_S2x320000_S1x320000_1_0) shapeCasts_S1x320000_S320000

omit [FloatOps F] in
theorem V1_apply (d : Dev nD) (e : Fin 320000) : V1 m d (ix1 e) = m (eLoc d) (ix2 0 e) := by
  unfold V1
  rw [shapeCast_apply (s := S1x320000) (t := S320000) _ _ (ix1 e) (ix2 (0 : Fin 1) e) (by
    rw [Shape.rowMajor_val_two, Shape.rowMajor_val_one]; simp)]
  unfold extractStridedSlice
  congr 1
  funext a
  match a with
  | ⟨0, _⟩ => rfl
  | ⟨1, _⟩ => apply Fin.ext; simp
omit [FloatOps F] in
theorem V3_apply (d : Dev nD) (e : Fin 320000) : V3 m d (ix1 e) = m (eLoc d) (ix2 1 e) := by
  unfold V3
  rw [shapeCast_apply (s := S1x320000) (t := S320000) _ _ (ix1 e) (ix2 (0 : Fin 1) e) (by
    rw [Shape.rowMajor_val_two, Shape.rowMajor_val_one]; simp)]
  unfold extractStridedSlice
  congr 1
  funext a
  match a with
  | ⟨0, _⟩ => rfl
  | ⟨1, _⟩ => apply Fin.ext; simp

/-! ## The thirty-two slices -/

theorem hdiv32 : 32 ∣ S320000.size 0 := ⟨10000, rfl⟩
/-- Worker `w`'s entries `[10000 w, 10000 w + 10000)` of a list of 320000. -/
abbrev pSet (w : Fin 32) : Finset S320000.Idx := (Rect.part (s := S320000) (a₀ := 0) hdiv32 w).set
/-- Tile `s` of SparseCore `c` is worker `2 s + c`. -/
def wIdx (c s : ℕ) (hc : c < 2) (hs : s < 16) : Fin 32 := ⟨2 * s + c, by omega⟩
abbrev wOf (L : grid0.Coords) : Fin 32 := wIdx (L 0).val (L 1).val (L 0).isLt (L 1).isLt

theorem wIdx_injective {c s c' s' : ℕ} {hc hs hc' hs'} (h : wIdx c s hc hs = wIdx c' s' hc' hs') : c = c' ∧ s = s' := by
  have := congrArg Fin.val h
  simp only [wIdx] at this
  omega

theorem pSet_disjoint {w w' : Fin 32} (h : w ≠ w') : Disjoint (pSet w) (pSet w') := Rect.part_disjoint hdiv32 h
theorem pSet_cover : (Finset.univ : Finset (Fin 32)).biUnion pSet = Finset.univ := Rect.biUnion_part hdiv32

theorem rect1_eq (L : grid0.Coords) : Rect.unit (s := S320000) (k0_off1 L) S10000.size (k0_off1_inb L) = Rect.part (s := S320000) (a₀ := 0) hdiv32 (wOf L) := by
  unfold Rect.part Rect.block
  congr 1 <;> funext a
  · rw [k0_off1_eq]
    match a with
    | 0 => simp [Shape.partIx, Shape.partSize, wOf, wIdx]; omega
  · match a with
    | 0 => simp [Shape.partSize]
theorem rect32_eq (L : grid0.Coords) : Rect.unit (s := S320000) (k0_off32 L) S10000.size (k0_off32_inb L) = Rect.part (s := S320000) (a₀ := 0) hdiv32 (wOf L) := by
  unfold Rect.part Rect.block
  congr 1 <;> funext a
  · rw [k0_off32_eq]
    match a with
    | 0 => simp [Shape.partIx, Shape.partSize, wOf, wIdx]; omega
  · match a with
    | 0 => simp [Shape.partSize]

theorem set_sSl (L : grid0.Coords) : (sSl L).view.set = pSet (wOf L) := by
  show ((View.whole (main_v1_scv : Ref sig .scVector)).slice (Rect.unit (s := S320000) (k0_off1 L) S10000.size (k0_off1_inb L))).set = _
  rw [View.set_slice_whole, rect1_eq]
theorem set_dSl (L : grid0.Coords) : (dSl L).view.set = pSet (wOf L) := by
  show ((View.whole (main_v3_scv : Ref sig .scVector)).slice (Rect.unit (s := S320000) (k0_off1 L) S10000.size (k0_off1_inb L))).set = _
  rw [View.set_slice_whole, rect1_eq]
theorem set_oSl (L : grid0.Coords) : (oSl L).view.set = pSet (wOf L) := by
  show ((View.whole (main_v4_scv : Ref sig .scVector)).slice (Rect.unit (s := S320000) (k0_off32 L) S10000.size (k0_off32_inb L))).set = _
  rw [View.set_slice_whole, rect32_eq]

/-! ## What the handshakes carry -/

/-- Every entry of worker `w`'s slice of the result is in the relation to the feature table and the entry's two nodes. -/
def Good (Lane : LaneRel F) (d : Dev nD) (w : Fin 32) (f : Buf (Elt F) (oLoc d)) : Prop :=
  ∀ j ∈ pSet w, Lane (m (xLoc d)) (nodeOf (V1 m d j)) (nodeOf (V3 m d j)) (f j)

/-- Worker `w`'s slices of the two lists, and of the result at the launch contents; -/
def restGo (d : Dev nD) (w : Fin 32) : sProp 𝕄 :=
  iprop((sLoc d ↦[pSet w]{fullShare} V1 m d) ∗ (dLoc d ↦[pSet w]{fullShare} V3 m d) ∗ (oLoc d ↦[pSet w]{fullShare} m (oLoc d)))
/-- the same with the result's slice at what the worker left, every entry in the relation. -/
def restTd (Lane : LaneRel F) (d : Dev nD) (w : Fin 32) : sProp 𝕄 :=
  iprop((sLoc d ↦[pSet w]{fullShare} V1 m d) ∗ (dLoc d ↦[pSet w]{fullShare} V3 m d) ∗ ∃ f, ⌜Good m Lane d w f⌝ ∗ (oLoc d ↦[pSet w]{fullShare} f))

abbrev xAt (d : Dev nD) (q : PosShare TreeShare) : sProp 𝕄 := xLoc d ↦{q} m (xLoc d)

/-- The feature table's read share of SparseCore `c`, and of its tile `s`. -/
abbrev qC (c : ℕ) : PosShare TreeShare := Transfers.shareTokN fullShare c
abbrev qT (c s : ℕ) : PosShare TreeShare := Transfers.shareTokN (qC c) s

/-- The one call hands SparseCore `c` a read share of the feature table and its sixteen workers' slices of the two
    lists and of the result; each tile a read share of the table and its worker's slices; and brings them back, the
    result's slices at what the workers left. -/
def P (Lane : LaneRel F) : (K (F := F)).Pay (nD := nD) (Val := Elt F) (Name := ℕ) (U := UU) where
  st := fun q d c => match q with
    | 0 => iprop(xAt m d (qC c.val) ∗ bigSep Finset.univ fun s : Fin 16 => restGo m d (wIdx c.val s.val c.isLt s.isLt))
  dn := fun q d c => match q with
    | 0 => iprop(xAt m d (qC c.val) ∗ bigSep Finset.univ fun s : Fin 16 => restTd m Lane d (wIdx c.val s.val c.isLt s.isLt))
  go := fun q d c i => match q with
    | 0 => iprop(xAt m d (qT c.val i.val) ∗ restGo m d (wIdx c.val i.val c.isLt i.isLt))
  td := fun q d c i => match q with
    | 0 => iprop(xAt m d (qT c.val i.val) ∗ restTd m Lane d (wIdx c.val i.val c.isLt i.isLt))
  x := fun _ _ => iprop(emp)

instance restGo_storable (d : Dev nD) (w : Fin 32) : BI.Storable (upEmb : UEmb _ 𝕄) (restGo m d w) := by unfold restGo; infer_instance
instance restTd_storable (Lane : LaneRel F) (d : Dev nD) (w : Fin 32) : BI.Storable (upEmb : UEmb _ 𝕄) (restTd m Lane d w) := by unfold restTd; infer_instance

instance P_storable (Lane : LaneRel F) : (P (F := F) m Lane).IsStorable where
  st q d c := match q with | 0 => by unfold P; infer_instance
  dn q d c := match q with | 0 => by unfold P; infer_instance
  go q d c i := match q with | 0 => by unfold P; infer_instance
  td q d c i := match q with | 0 => by unfold P; infer_instance

theorem P_st (Lane : LaneRel F) (d : Dev nD) (c : Fin ((K (F := F)).nCore 0)) :
    (P m Lane).st 0 d c = iprop(xAt m d (qC c.val) ∗ bigSep Finset.univ fun s : Fin 16 => restGo m d (wIdx c.val s.val c.isLt s.isLt)) := rfl
theorem P_dn (Lane : LaneRel F) (d : Dev nD) (c : Fin ((K (F := F)).nCore 0)) :
    (P m Lane).dn 0 d c = iprop(xAt m d (qC c.val) ∗ bigSep Finset.univ fun s : Fin 16 => restTd m Lane d (wIdx c.val s.val c.isLt s.isLt)) := rfl
theorem P_go (Lane : LaneRel F) (d : Dev nD) (c : Fin ((K (F := F)).nCore 0)) (i : Fin ((K (F := F)).nSub 0)) :
    (P m Lane).go 0 d c i = iprop(xAt m d (qT c.val i.val) ∗ restGo m d (wIdx c.val i.val c.isLt i.isLt)) := rfl
theorem P_td (Lane : LaneRel F) (d : Dev nD) (c : Fin ((K (F := F)).nCore 0)) (i : Fin ((K (F := F)).nSub 0)) :
    (P m Lane).td 0 d c i = iprop(xAt m d (qT c.val i.val) ∗ restTd m Lane d (wIdx c.val i.val c.isLt i.isLt)) := rfl

end Cert.Proof.KI

end
-- ==== Proof.LaunchTileI.lean ====
/-
  One tile's obligation to the launch: what the launch hands the tile at a grid point (its own buffers and semaphores, a
  read share of the feature table, its slices of the two index lists and of the result, every index word below 10000 when
  the edge list is in range) is what the tile's run starts from, and what the run leaves, read entry by entry through
  the slices, is what the launch takes back.
-/
import proofs.«215249_g59107339927817_cont_9to1_m_583_18_alg».proof.Proof.LaunchPayI
import Idealize.ShloMosaic.Lib.ValueIdx
import Idealize.ShloMosaic.Lib.Pipeline.Value

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]
variable (m : (ℓ : Loc nD τ sig) → Buf (Elt F) ℓ)

/-! ## A tile's own counters and scratches -/

abbrev tileSems : Finset (SemLoc sig) :=
  {.dma cc0_scratch6.sem, .dma cc0_scratch7.sem, .dma cc0_scratch10.sem, .dma cc0_scratch11.sem, .dma cc0_scoped0.sem, .dma cc0_scoped1.sem, .dma cc0_scoped2.sem}
def semEmb (t : Thread nD τ) : SemLoc sig ↪ GSem nD τ sig := ⟨fun sm => (t, sm), fun _ _ e => (Prod.mk.inj e).2⟩

theorem tileSems_scoped : ∀ sm ∈ tileSems, (sm : SemLoc sig).isScoped .scVector = true := by decide

omit [FloatOps F] in
theorem ownSems0_V (d : Dev nD) (L : grid0.Coords) :
    (ownSems0 (thr d L) : sProp 𝕄)
      = iprop((semVal (thr d L, SemLoc.dma cc0_scratch6.sem) 0 ∗ semVal (thr d L, SemLoc.dma cc0_scratch7.sem) 0
          ∗ semVal (thr d L, SemLoc.dma cc0_scratch10.sem) 0 ∗ semVal (thr d L, SemLoc.dma cc0_scratch11.sem) 0
          ∗ semVal (thr d L, SemLoc.dma cc0_scoped0.sem) 0 ∗ semVal (thr d L, SemLoc.dma cc0_scoped1.sem) 0 ∗ semVal (thr d L, SemLoc.dma cc0_scoped2.sem) 0)
          ∗ bigSep (ownCells (thr d L) \ tileSems.map (semEmb (thr d L))) fun g => semVal g 0) := by
  unfold SparseCore.Cfg.ownSems0
  have hsub : tileSems.map (semEmb (thr d L)) ⊆ ownCells (thr d L) := by
    intro g hg
    obtain ⟨sm, hsm, rfl⟩ := Finset.mem_map.mp hg
    exact mem_ownCells.mpr ⟨rfl, tileSems_scoped sm hsm⟩
  rw [bigSep_sdiff_split hsub, bigSep_map]
  unfold tileSems
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

abbrev tileRefs : Finset (Ref sig .scVector) :=
  {cc0_scratch0, cc0_scratch1, cc0_scratch2, cc0_scratch3, cc0_scratch4, cc0_scratch5, cc0_scratch8, cc0_scratch9}
def refEmb (c : Fin τ.nSC) (s : Fin τ.nSub) : Ref sig .scVector ↪ DevRef τ sig :=
  ⟨(Proc.scVector c s).devRef, Proc.devRef_injective (Proc.scVector c s)⟩

omit [FloatOps F] in
theorem ownBufs_V (d : Dev nD) (L : grid0.Coords) :
    (ownBufs (thr d L) : sProp 𝕄)
      = iprop(((∃ g, iU.view.loc (thr d L) ↦{fullShare} g) ∗ (∃ g, iV.view.loc (thr d L) ↦{fullShare} g) ∗ (∃ g, oA.view.loc (thr d L) ↦{fullShare} g)
          ∗ (∃ g, tB.view.loc (thr d L) ↦{fullShare} g) ∗ (∃ g, rU0.view.loc (thr d L) ↦{fullShare} g) ∗ (∃ g, rV0.view.loc (thr d L) ↦{fullShare} g)
          ∗ (∃ g, rU1.view.loc (thr d L) ↦{fullShare} g) ∗ (∃ g, rV1.view.loc (thr d L) ↦{fullShare} g))
          ∗ bigSep (ownRefs (τ := τ) (.scVector (cV L) (jV L)) \ tileRefs.map (refEmb (cV L) (jV L)))
              fun b => iprop(∃ f, ((d, b) : Loc nD τ sig) ↦{fullShare} f)) := by
  unfold SparseCore.Cfg.ownBufs
  have hsub : tileRefs.map (refEmb (cV L) (jV L)) ⊆ ownRefs (τ := τ) (.scVector (cV L) (jV L)) := by
    intro b hb
    obtain ⟨r, hr, rfl⟩ := Finset.mem_map.mp hb
    simp only [Finset.mem_insert, Finset.mem_singleton] at hr
    rcases hr with rfl | rfl | rfl | rfl | rfl | rfl | rfl | rfl <;>
      exact SparseCore.Cfg.mem_ownRefs_of_owner (p := Proc.scVector (cV L) (jV L)) rfl
  show bigSep (ownRefs (τ := τ) (.scVector (cV L) (jV L))) (fun b => iprop(∃ f, ((d, b) : Loc nD τ sig) ↦{fullShare} f)) = _
  rw [bigSep_sdiff_split hsub, bigSep_map]
  unfold tileRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  exact rfl

/-! ## The tile's slices, in the program's spelling -/

omit [FloatOps F] in
theorem pts_s (d : Dev nD) (L : grid0.Coords) (f : Buf (Elt F) (sLoc d)) :
    ((sSl L).view.loc (thr d L) ↦[(sSl L).view.set]{fullShare} f : sProp 𝕄) = sLoc d ↦[pSet (wOf L)]{fullShare} f := by
  rw [set_sSl]
omit [FloatOps F] in
theorem pts_d (d : Dev nD) (L : grid0.Coords) (f : Buf (Elt F) (dLoc d)) :
    ((dSl L).view.loc (thr d L) ↦[(dSl L).view.set]{fullShare} f : sProp 𝕄) = dLoc d ↦[pSet (wOf L)]{fullShare} f := by
  rw [set_dSl]
omit [FloatOps F] in
theorem pts_o (d : Dev nD) (L : grid0.Coords) (f : Buf (Elt F) (oLoc d)) :
    ((oSl L).view.loc (thr d L) ↦[(oSl L).view.set]{fullShare} f : sProp 𝕄) = oLoc d ↦[pSet (wOf L)]{fullShare} f := by
  rw [set_oSl]
omit [FloatOps F] in
theorem pts_x (d : Dev nD) (L : grid0.Coords) (q : PosShare TreeShare) (f : Buf (Elt F) (xLoc d)) :
    (xW.view.loc (thr d L) ↦{q} f : sProp 𝕄) = xLoc d ↦{q} f := rfl

omit [FloatOps F] in
theorem read_s (d : Dev nD) (L : grid0.Coords) (f : Buf (Elt F) (sLoc d)) (j : S10000.Idx) :
    (sSl L).view.read (Elt F) f j = f ((sSl L).view.emb j) := (View.read_apply _ _).trans (cast_eq _ _)
omit [FloatOps F] in
theorem read_d (d : Dev nD) (L : grid0.Coords) (f : Buf (Elt F) (dLoc d)) (j : S10000.Idx) :
    (dSl L).view.read (Elt F) f j = f ((dSl L).view.emb j) := (View.read_apply _ _).trans (cast_eq _ _)
omit [FloatOps F] in
theorem read_o (d : Dev nD) (L : grid0.Coords) (f : Buf (Elt F) (oLoc d)) (j : S10000.Idx) :
    (oSl L).view.read (Elt F) f j = f ((oSl L).view.emb j) := (View.read_apply _ _).trans (cast_eq _ _)

theorem emb_d_s (L : grid0.Coords) (j : S10000.Idx) : (dSl L).view.emb j = (sSl L).view.emb j := rfl
theorem emb_o_s (L : grid0.Coords) (j : S10000.Idx) : (oSl L).view.emb j = (sSl L).view.emb j := by
  funext a; apply Fin.ext
  show (k0_off32 L) a + 1 * (j a).val = (k0_off1 L) a + 1 * (j a).val
  rw [k0_off1_eq, k0_off32_eq]

omit [FloatOps F] in
theorem V1_apply' (d : Dev nD) (i : S320000.Idx) : V1 m d i = m (eLoc d) (ix2 0 (i 0)) := by
  have hi : i = ix1 (n := 320000) (i 0) := by funext a; match a with | ⟨0, _⟩ => rfl
  exact (congrArg (V1 m d) hi).trans (V1_apply m d (i 0))
omit [FloatOps F] in
theorem V3_apply' (d : Dev nD) (i : S320000.Idx) : V3 m d i = m (eLoc d) (ix2 1 (i 0)) := by
  have hi : i = ix1 (n := 320000) (i 0) := by funext a; match a with | ⟨0, _⟩ => rfl
  exact (congrArg (V3 m d) hi).trans (V3_apply m d (i 0))
omit [FloatOps F] in
theorem idxOK_s (d : Dev nD) (L : grid0.Coords) (hr : Cert.Score.InRange (m (eLoc d))) : IdxOK (sSl L) d L (V1 m d) := by
  intro j
  rw [read_s, V1_apply']
  exact hr _
omit [FloatOps F] in
theorem idxOK_d (d : Dev nD) (L : grid0.Coords) (hr : Cert.Score.InRange (m (eLoc d))) : IdxOK (dSl L) d L (V3 m d) := by
  intro j
  rw [read_d, V3_apply']
  exact hr _

/-- What the tile's run says of its slice of the result, entry by entry. -/
theorem good_of_post (Lane : LaneRel F) (d : Dev nD) (L : grid0.Coords) (f : Buf (Elt F) (oLoc d))
    (h : ∀ j : S10000.Idx, Lane (xW.view.read (Elt F) (m (xLoc d))) (nodeOf ((sSl L).view.read (Elt F) (V1 m d) j)) (nodeOf ((dSl L).view.read (Elt F) (V3 m d) j))
      ((oSl L).view.read (Elt F) f j)) : Good m Lane d (wOf L) f := by
  intro i hi
  rw [← set_oSl] at hi
  obtain ⟨j, -, rfl⟩ := Finset.mem_map.mp hi
  have := h j
  rw [read_s, read_d, read_o, emb_d_s] at this
  rw [emb_o_s]
  rw [emb_o_s] at this
  exact this

/-! ## The tile's obligation -/

/-- The tile at grid point `L`: what the launch hands it is what the tile's run starts from; what the run leaves is what
    the launch takes back. -/
theorem tile_body (Lane : LaneRel F) (hT : TileRun Lane) (d : Dev nD) (L : grid0.Coords) (hr : Cert.Score.InRange (m (eLoc d))) (q : PosShare TreeShare)
    (O : CellTallies nD τ sig (HIx 1)) (W : Waits sig (HIx 1)) (hO : ∀ g, O g none = 0) :
    iprop(levAts (K (F := F)).L (K (F := F)).lev ∗ emp ∗ (xAt m d q ∗ restGo m d (wOf L))
        ∗ scopedBufs (thr d L) ∗ scopedSems0 (thr d L) ∗ owes (thr d L) O W)
      ⊢ wp frame (wpE (defs₀ (F := F)) 𝒱₀ (thr d L) none) Set.univ
          (cc0__score_kernel (F := F) L xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2)
          fun _ => iprop((xAt m d q ∗ restTd m Lane d (wOf L)) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  unfold restGo restTd
  iintro ⟨#Hlv, -, ⟨Hx, Hs, Hd, Ho⟩, ⟨⟨⟨%g0, H0⟩, ⟨%g1, H1⟩, ⟨%g2, H2⟩, ⟨%g3, H3⟩, ⟨%g4, H4⟩, ⟨%g5, H5⟩, ⟨%g8, H8⟩, ⟨%g9, H9⟩⟩, Hbufs⟩,
    ⟨⟨S6, S7, S10, S11, T0, T1, T2⟩, Hsems⟩, HO⟩
  ihave Hmw := ((K (F := F)).mayWaits_none (thr := thr d L) hO) $$ Hlv
  ihave Hs' := (Entails.of_eq (pts_s (F := F) d L _).symm) $$ Hs
  ihave Hd' := (Entails.of_eq (pts_d (F := F) d L _).symm) $$ Hd
  ihave Ho' := (Entails.of_eq (pts_o (F := F) d L _).symm) $$ Ho
  ihave Hx' := (Entails.of_eq (pts_x (F := F) d L q _).symm) $$ Hx
  ihave Hwp := (hT d L q O W (m (xLoc d)) (V1 m d) (V3 m d) (m (oLoc d)) g0 g1 g2 g3 g4 g5 g8 g9 (idxOK_s m d L hr) (idxOK_d m d L hr))
    $$ [Hmw Hx' Hs' Hd' Ho' H0 H1 H2 H3 H4 H5 H8 H9 S6 S7 S10 S11 T0 T1 T2 HO]
  · unfold tilePre
    isplitl [Hmw]; · iexact Hmw
    isplitl [Hx']; · iexact Hx'
    isplitl [Hs']; · iexact Hs'
    isplitl [Hd']; · iexact Hd'
    isplitl [Ho']; · iexact Ho'
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    isplitl [S6]; · iexact S6
    isplitl [S7]; · iexact S7
    isplitl [S10]; · iexact S10
    isplitl [S11]; · iexact S11
    isplitl [T0]; · iexact T0
    isplitl [T1]; · iexact T1
    isplitl [T2]; · iexact T2
    iexact HO
  iapply (wp_wand_r frame _ _)
  isplitl [Hwp]; · iexact Hwp
  iintro %_ Hpost
  unfold tilePost
  icases Hpost with ⟨Hx, Hs, Hd, ⟨%f, Ho, %hf⟩, H0, H1, H2, H3, H4, H5, H8, H9, S6, S7, S10, S11, T0, T1, T2, %W', %hW', HO⟩
  isplitl [Hx Hs Hd Ho]
  · isplitl [Hx]; · iapply (Entails.of_eq (pts_x (F := F) d L q _)); iexact Hx
    isplitl [Hs]; · iapply (Entails.of_eq (pts_s (F := F) d L _)); iexact Hs
    isplitl [Hd]; · iapply (Entails.of_eq (pts_d (F := F) d L _)); iexact Hd
    iexists f
    isplitr; · ipureintro; exact good_of_post m Lane d L f hf
    iapply (Entails.of_eq (pts_o (F := F) d L _)); iexact Ho
  isplitl [H0 H1 H2 H3 H4 H5 H8 H9 Hbufs]
  · isplitl [H0 H1 H2 H3 H4 H5 H8 H9]
    · isplitl [H0]; · iexact H0
      isplitl [H1]; · iexact H1
      isplitl [H2]; · iexact H2
      isplitl [H3]; · iexact H3
      isplitl [H4]; · iexact H4
      isplitl [H5]; · iexact H5
      isplitl [H8]; · iexact H8
      iexact H9
    · iexact Hbufs
  isplitl [S6 S7 S10 S11 T0 T1 T2 Hsems]
  · isplitl [S6 S7 S10 S11 T0 T1 T2]
    · isplitl [S6]; · iexact S6
      isplitl [S7]; · iexact S7
      isplitl [S10]; · iexact S10
      isplitl [S11]; · iexact S11
      isplitl [T0]; · iexact T0
      isplitl [T1]; · iexact T1
      iexact T2
    · iexact Hsems
  iexists W'; isplitr
  · ipureintro; exact hW'
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__score_kernel (F := F) (coordsV c s) xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (Lane : LaneRel F) (hT : TileRun Lane) (hr : ∀ d : Dev nD, Cert.Score.InRange (m (eLoc d))) :
    (K (F := F)).TileObl (D (F := F)) 𝒱 (P m Lane) v₀ 0 := by
  intro d c i O W hO _ _
  simp only [show (P m Lane).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td]
  exact (tile_body m Lane hT d (coordsV ⟨_, hc.1⟩ ⟨_, hc.2⟩) (hr d) _ O W hO).trans (wp_mono frame _ _ fun _ => obl_post)

end Cert.Proof.KI

end
-- ==== Proof.LaunchSplitI.lean ====
/-
  A SparseCore's read share of the feature table splits into its sixteen tiles' shares, the remainder kept aside until
  they come back; the slices of the three lists are already stated worker by worker.
-/
import proofs.«215249_g59107339927817_cont_9to1_m_583_18_alg».proof.Proof.LaunchPayI
import Idealize.ShloMosaic.Lib.ValueIdx
import Idealize.ShloMosaic.Lib.Pipeline.Value

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]
variable (m : (ℓ : Loc nD τ sig) → Buf (Elt F) ℓ)

/-- A SparseCore's read share of the feature table splits into its sixteen tiles' shares, the remainder kept aside until
    they come back; the slices of the three lists are already stated worker by worker. -/
theorem vecSplit (Lane : LaneRel F) : (K (F := F)).VecSplit' (P m Lane) 0 := by
  intro d c
  show iprop(xAt m d (qC c.val) ∗ bigSep Finset.univ fun s : Fin 16 => restGo m d (wIdx c.val s.val c.isLt s.isLt))
    ⊢ |={Set.univ}=> iprop((bigSep Finset.univ fun i : Fin 16 => iprop(xAt m d (qT c.val i.val) ∗ restGo m d (wIdx c.val i.val c.isLt i.isLt)))
        ∗ ((bigSep Finset.univ fun i : Fin 16 => iprop(xAt m d (qT c.val i.val) ∗ restTd m Lane d (wIdx c.val i.val c.isLt i.isLt)))
          -∗ iprop(xAt m d (qC c.val) ∗ bigSep Finset.univ fun s : Fin 16 => restTd m Lane d (wIdx c.val s.val c.isLt s.isLt))))
  rw [bigSep_sep', bigSep_sep']
  iintro ⟨Hx, Hr⟩
  ihave Hx' := (Transfers.pointsTo_toks_split (qC c.val) 16) $$ Hx
  icases Hx' with ⟨Hdrop, Htoks⟩
  imodintro
  isplitl [Htoks Hr]
  · isplitl [Htoks]; · iexact Htoks
    iexact Hr
  iintro ⟨Htoks, Hr⟩
  isplitl [Hdrop Htoks]
  · iapply (Transfers.pointsTo_toks_join (qC c.val) 16)
    isplitl [Hdrop]; · iexact Hdrop
    iexact Htoks
  iexact Hr

end Cert.Proof.KI

end
-- ==== Proof.LaunchWorkersI.lean ====
/-
  The thirty-two workers by SparseCore and tile: (c, s) ↦ 2 s + c is a bijection from 2 × 16 onto the workers, so a
  list held whole is its thirty-two slices held one by one; and the slices of the result, each with every entry in the
  relation to the table and the entry's two nodes, are the whole result with every entry in the relation. Also the
  initial ghost state of the launch's handshakes.
-/
import proofs.«215249_g59107339927817_cont_9to1_m_583_18_alg».proof.Proof.LaunchPayI
import Idealize.ShloMosaic.Lib.ValueIdx
import Idealize.ShloMosaic.Lib.Pipeline.Value

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (Lane : LaneRel F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m Lane).x q t) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The thirty-two workers, by SparseCore and tile -/

def wEquiv : Fin 2 × Fin 16 ≃ Fin 32 where
  toFun p := wIdx p.1.val p.2.val p.1.isLt p.2.isLt
  invFun w := (⟨w.val % 2, Nat.mod_lt _ (by decide)⟩, ⟨w.val / 2, by have := w.isLt; omega⟩)
  left_inv p := by
    obtain ⟨c, s⟩ := p
    apply Prod.ext <;> apply Fin.ext <;> simp only [wIdx] <;> omega
  right_inv w := by
    apply Fin.ext; simp only [wIdx]; omega

omit [FloatOps F] in
theorem bigSep_workers (Φ : Fin 32 → sProp 𝕄) :
    bigSep Finset.univ Φ = bigSep Finset.univ fun c : Fin 2 => bigSep Finset.univ fun s : Fin 16 => Φ (wIdx c.val s.val c.isLt s.isLt) := by
  rw [bigSep_univ_equiv wEquiv Φ, bigSep_univ_prod]
  rfl

omit [FloatOps F] in
theorem s_workers (d : Dev nD) (f : Buf (Elt F) (sLoc d)) :
    (sLoc d ↦{fullShare} f : sProp 𝕄) = bigSep Finset.univ fun w : Fin 32 => sLoc d ↦[pSet w]{fullShare} f := by
  rw [← pointsTo_biUnion Finset.univ (ℓ := sLoc d) pSet (fun w _ w' _ h => pSet_disjoint h), pSet_cover]; try rfl
omit [FloatOps F] in
theorem d_workers (d : Dev nD) (f : Buf (Elt F) (dLoc d)) :
    (dLoc d ↦{fullShare} f : sProp 𝕄) = bigSep Finset.univ fun w : Fin 32 => dLoc d ↦[pSet w]{fullShare} f := by
  rw [← pointsTo_biUnion Finset.univ (ℓ := dLoc d) pSet (fun w _ w' _ h => pSet_disjoint h), pSet_cover]; try rfl
omit [FloatOps F] in
theorem o_workers (d : Dev nD) (f : Buf (Elt F) (oLoc d)) :
    (oLoc d ↦{fullShare} f : sProp 𝕄) = bigSep Finset.univ fun w : Fin 32 => oLoc d ↦[pSet w]{fullShare} f := by
  rw [← pointsTo_biUnion Finset.univ (ℓ := oLoc d) pSet (fun w _ w' _ h => pSet_disjoint h), pSet_cover]; try rfl

/-- Every entry of the result is in the relation to the feature table and the entry's two nodes. -/
def AllGood (Lane : LaneRel F) (d : Dev nD) (f : Buf (Elt F) (oLoc d)) : Prop :=
  ∀ j : S320000.Idx, Lane (m (xLoc d)) (nodeOf (V1 m d j)) (nodeOf (V3 m d j)) (f j)

/-- The workers' slices of the result, each at what its worker left, are the result whole at one function, every entry
    in the relation. -/
theorem o_join (Lane : LaneRel F) (d : Dev nD) :
    (bigSep Finset.univ fun w : Fin 32 => iprop(∃ f, ⌜Good m Lane d w f⌝ ∗ (oLoc d ↦[pSet w]{fullShare} f)))
      ⊢ (iprop(∃ f, ⌜AllGood m Lane d f⌝ ∗ (oLoc d ↦{fullShare} f)) : sProp 𝕄) := by
  refine (bigSep_exists_pi Finset.univ (fun w (f : Buf (Elt F) (oLoc d)) => iprop(⌜Good m Lane d w f⌝ ∗ (oLoc d ↦[pSet w]{fullShare} f)))).trans ?_
  iintro ⟨%fs, H⟩
  ihave H' := (bigSep_pure_sep Finset.univ (fun w => Good m Lane d w (fs w)) (fun w => (oLoc d ↦[pSet w]{fullShare} fs w : sProp 𝕄))) $$ H
  icases H' with ⟨%hg, H'⟩
  ihave H'' := (pointsTo_biUnion_join Finset.univ pSet fs (fs 0) (fun w _ w' _ h => pSet_disjoint h)) $$ H'
  icases H'' with ⟨%g, %hgeq, Hg⟩
  rw [pSet_cover]
  iexists g
  isplitr
  · ipureintro
    intro j
    obtain ⟨w, hw⟩ := Rect.exists_mem_part hdiv32 j
    have h1 := hg w (Finset.mem_univ w) j hw
    rw [← hgeq w (Finset.mem_univ w) j hw] at h1
    exact h1
  · iexact Hg

end Cert.Proof.KI

end
-- ==== Proof.LaunchMainI.lean ====
/-
  @main around the one kernel call. The four host operations before it leave rows 0 and 1 of the edge list as the source
  list and the destination list; the one after it reshapes the result to a column. What the call takes for the two
  SparseCores is dealt from the arrays those operations leave, and what it hands back is collected into them; at the end
  the two arguments are at their launch contents and entry e of the result is in the relation to the table and the two
  nodes of edge e.
-/
import proofs.«215249_g59107339927817_cont_9to1_m_583_18_alg».proof.Proof.LaunchWorkersI
import Idealize.ShloMosaic.Lib.ValueIdx
import Idealize.ShloMosaic.Lib.Pipeline.Value

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The TensorCore's arrays and @main's host operations -/

abbrev x' : DevRef τ sig := Proc.devRef .tc (main_arg0 : Ref sig .tc)
abbrev e' : DevRef τ sig := Proc.devRef .tc (main_arg1 : Ref sig .tc)
abbrev a0' : DevRef τ sig := Proc.devRef .tc (main_v0 : Ref sig .tc)
abbrev s' : DevRef τ sig := Proc.devRef .tc (main_v1 : Ref sig .tc)
abbrev a2' : DevRef τ sig := Proc.devRef .tc (main_v2 : Ref sig .tc)
abbrev d' : DevRef τ sig := Proc.devRef .tc (main_v3 : Ref sig .tc)
abbrev o' : DevRef τ sig := Proc.devRef .tc (main_v4 : Ref sig .tc)
abbrev r' : DevRef τ sig := Proc.devRef .tc (main_v5 : Ref sig .tc)

abbrev op1 : HloOp τ sig (Elt F) :=
  StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
abbrev op2 : HloOp τ sig (Elt F) := StableHlo.reshape main_v0 main_v1 rfl shapeCasts_S1x320000_S320000
abbrev op3 : HloOp τ sig (Elt F) :=
  StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F))
abbrev op4 : HloOp τ sig (Elt F) := StableHlo.reshape main_v2 main_v3 rfl shapeCasts_S1x320000_S320000
abbrev op5 : HloOp τ sig (Elt F) := StableHlo.reshape main_v4 main_v5 rfl shapeCasts_S320000_S320000x1

/-- The five arrays the four operations before the call touch; the two the one after it does. -/
abbrev S5 : Finset (DevRef τ sig) := {e', a0', s', a2', d'}
abbrev S2 : Finset (DevRef τ sig) := {o', r'}

omit [FloatOps F] in
theorem held_S5 (d : Dev nD) (W : Valuation τ sig (Elt F)) :
    (held (T d) S5 W : sProp 𝕄) = iprop((eLoc d ↦{fullShare} W e') ∗ ((SparseCore.T d).loc main_v0 ↦{fullShare} W a0') ∗ (sLoc d ↦{fullShare} W s')
      ∗ ((SparseCore.T d).loc main_v2 ↦{fullShare} W a2') ∗ (dLoc d ↦{fullShare} W d')) := by
  unfold held S5
  rw [SparseCore.bigSep_insert' (by decide), SparseCore.bigSep_insert' (by decide), SparseCore.bigSep_insert' (by decide),
    SparseCore.bigSep_insert' (by decide), bigSep_singleton]
omit [FloatOps F] in
theorem held_S2 (d : Dev nD) (W : Valuation τ sig (Elt F)) :
    (held (T d) S2 W : sProp 𝕄) = iprop((oLoc d ↦{fullShare} W o') ∗ (rLoc d ↦{fullShare} W r')) := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1)
      ∗ ((SparseCore.T d).loc main_v0 ↦{fullShare} W main_v0) ∗ (sLoc d ↦{fullShare} W main_v1) ∗ ((SparseCore.T d).loc main_v2 ↦{fullShare} W main_v2)
      ∗ (dLoc d ↦{fullShare} W main_v3) ∗ (oLoc d ↦{fullShare} W main_v4) ∗ (rLoc d ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and what the four operations before the call leave. -/
def V0 (d : Dev nD) : Valuation τ sig (Elt F) := fun b => m (d, b)
abbrev W4 (d : Dev nD) : Valuation τ sig (Elt F) := (op4 (F := F)).result ((op3 (F := F)).result ((op2 (F := F)).result ((op1 (F := F)).result (V0 m d))))

omit [FloatOps F] in
theorem W4_e (d : Dev nD) : W4 m d e' = m (eLoc d) := by
  unfold W4
  simp (disch := decide) only [StableHlo.unary_result_ne', StableHlo.reshape_result_ne']
  rfl
omit [FloatOps F] in
theorem W4_s (d : Dev nD) : W4 m d s' = V1 m d := by
  unfold W4
  simp (disch := decide) only [StableHlo.unary_result', StableHlo.reshape_result', StableHlo.unary_result_ne', StableHlo.reshape_result_ne']
  rfl
omit [FloatOps F] in
theorem W4_d (d : Dev nD) : W4 m d d' = V3 m d := by
  unfold W4
  simp (disch := decide) only [StableHlo.unary_result', StableHlo.reshape_result', StableHlo.unary_result_ne', StableHlo.reshape_result_ne']
  rfl

omit [FloatOps F] in
theorem held_W4 (d : Dev nD) :
    (held (T d) S5 (W4 m d) : sProp 𝕄) = iprop((eLoc d ↦{fullShare} m (eLoc d)) ∗ ((SparseCore.T d).loc main_v0 ↦{fullShare} W4 m d a0') ∗ (sLoc d ↦{fullShare} V1 m d)
      ∗ ((SparseCore.T d).loc main_v2 ↦{fullShare} W4 m d a2') ∗ (dLoc d ↦{fullShare} V3 m d)) := by
  rw [held_S5, W4_e, W4_s, W4_d]

/-- After the call: the result array at what the workers left. -/
def V5 (d : Dev nD) (f : Buf (Elt F) (oLoc d)) : Valuation τ sig (Elt F) := Function.update (V0 m d) o' f
omit [FloatOps F] in
theorem V5_o (d : Dev nD) (f : Buf (Elt F) (oLoc d)) : V5 m d f o' = f := Function.update_self _ _ _
omit [FloatOps F] in
theorem V5_r (d : Dev nD) (f : Buf (Elt F) (oLoc d)) : V5 m d f r' = m (rLoc d) := Function.update_of_ne (show r' ≠ o' by decide) _ _

/-- The result as a column. -/
def R5 (d : Dev nD) (f : Buf (Elt F) (oLoc d)) : Buf (Elt F) (rLoc d) := shapeCast S320000x1 f shapeCasts_S320000_S320000x1
omit [FloatOps F] in
theorem R5_apply (d : Dev nD) (f : Buf (Elt F) (oLoc d)) (e : Fin 320000) : R5 d f (ix2 e (0 : Fin 1)) = f (ix1 e) := by
  unfold R5
  exact shapeCast_apply (s := S320000) (t := S320000x1) f _ (ix2 e (0 : Fin 1)) (ix1 e) (by
    rw [Shape.rowMajor_val_two, Shape.rowMajor_val_one]; simp)

omit [FloatOps F] in
theorem W5_r (d : Dev nD) (f : Buf (Elt F) (oLoc d)) : (op5 (F := F)).result (V5 m d f) r' = R5 d f := by
  simp (disch := decide) only [StableHlo.reshape_result', V5_o]
  rfl
omit [FloatOps F] in
theorem W5_o (d : Dev nD) (f : Buf (Elt F) (oLoc d)) : (op5 (F := F)).result (V5 m d f) o' = f := by
  simp (disch := decide) only [StableHlo.reshape_result_ne']
  exact V5_o m d f
omit [FloatOps F] in
theorem held_W5 (d : Dev nD) (f : Buf (Elt F) (oLoc d)) :
    (held (T d) S2 ((op5 (F := F)).result (V5 m d f)) : sProp 𝕄) = iprop((oLoc d ↦{fullShare} f) ∗ (rLoc d ↦{fullShare} R5 d f)) := by
  rw [held_S2, W5_o, W5_r]

theorem hS1 : (op1 (F := F)).bufs ⊆ S5 := show ({e', a0'} : Finset (DevRef τ sig)) ⊆ S5 by decide
theorem hS2 : (op2 (F := F)).bufs ⊆ S5 := show ({a0', s'} : Finset (DevRef τ sig)) ⊆ S5 by decide
theorem hS3 : (op3 (F := F)).bufs ⊆ S5 := show ({e', a2'} : Finset (DevRef τ sig)) ⊆ S5 by decide
theorem hS4 : (op4 (F := F)).bufs ⊆ S5 := show ({a2', d'} : Finset (DevRef τ sig)) ⊆ S5 by decide
theorem hS5 : (op5 (F := F)).bufs ⊆ S2 := show ({o', r'} : Finset (DevRef τ sig)) ⊆ S2 by decide

/-! ## What the call takes for the two SparseCores, and what it hands back -/

theorem st_all (Lane : LaneRel F) (d : Dev nD) :
    (bigSep Finset.univ fun c : Fin ((K (F := F)).nCore 0) => (P m Lane).st 0 d c)
      = iprop((bigSep Finset.univ fun c : Fin 2 => xAt m d (qC c.val)) ∗ (sLoc d ↦{fullShare} V1 m d) ∗ (dLoc d ↦{fullShare} V3 m d) ∗ (oLoc d ↦{fullShare} m (oLoc d))) := by
  show (bigSep Finset.univ fun c : Fin 2 => iprop(xAt m d (qC c.val) ∗ bigSep Finset.univ fun s : Fin 16 => restGo m d (wIdx c.val s.val c.isLt s.isLt))) = _
  rw [bigSep_sep']
  unfold restGo
  simp only [bigSep_sep']
  rw [← bigSep_workers (fun w => (sLoc d ↦[pSet w]{fullShare} V1 m d : sProp 𝕄)), ← bigSep_workers (fun w => (dLoc d ↦[pSet w]{fullShare} V3 m d : sProp 𝕄)),
    ← bigSep_workers (fun w => (oLoc d ↦[pSet w]{fullShare} m (oLoc d) : sProp 𝕄)), ← s_workers, ← d_workers, ← o_workers]

theorem dn_all (Lane : LaneRel F) (d : Dev nD) :
    (bigSep Finset.univ fun c : Fin ((K (F := F)).nCore 0) => (P m Lane).dn 0 d c)
      ⊢ iprop((bigSep Finset.univ fun c : Fin 2 => xAt m d (qC c.val)) ∗ (sLoc d ↦{fullShare} V1 m d) ∗ (dLoc d ↦{fullShare} V3 m d)
          ∗ ∃ f, ⌜AllGood m Lane d f⌝ ∗ (oLoc d ↦{fullShare} f)) := by
  show (bigSep Finset.univ fun c : Fin 2 => iprop(xAt m d (qC c.val) ∗ bigSep Finset.univ fun s : Fin 16 => restTd m Lane d (wIdx c.val s.val c.isLt s.isLt))) ⊢ _
  rw [bigSep_sep']
  unfold restTd
  simp only [bigSep_sep']
  rw [← bigSep_workers (fun w => (sLoc d ↦[pSet w]{fullShare} V1 m d : sProp 𝕄)), ← bigSep_workers (fun w => (dLoc d ↦[pSet w]{fullShare} V3 m d : sProp 𝕄)),
    ← bigSep_workers (fun w => (iprop(∃ f, ⌜Good m Lane d w f⌝ ∗ (oLoc d ↦[pSet w]{fullShare} f)) : sProp 𝕄)), ← s_workers, ← d_workers]
  iintro ⟨Hx, Hs, Hd, Ho⟩
  isplitl [Hx]; · iexact Hx
  isplitl [Hs]; · iexact Hs
  isplitl [Hd]; · iexact Hd
  iapply (o_join m Lane d); iexact Ho

/-! ## @main on the TensorCore -/

/-- What @main leaves the claim: the two arguments at their launch contents, the result with every entry in the relation. -/
abbrev FIN (Lane : LaneRel F) (d : Dev nD) : sProp 𝕄 :=
  iprop((xLoc d ↦{fullShare} m (xLoc d)) ∗ (eLoc d ↦{fullShare} m (eLoc d))
    ∗ ∃ f, ⌜∀ e : Fin 320000, Lane (m (xLoc d)) (Cert.Score.node (m (eLoc d)) 0 e) (Cert.Score.node (m (eLoc d)) 1 e) (f (ix2 e (0 : Fin 1)))⌝ ∗ (rLoc d ↦{fullShare} f))

theorem hmain (Lane : LaneRel F) (κ : GSem nD τ sig → ℕ) (d : Dev nD) :
    iprop((K (F := F)).ctx EH (P m Lane) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m Lane d) := by
  unfold SparseCore.Cfg.tcRes
  rw [unscopedBufs_eq]
  simp only [main, wp_bind, wp_pure]
  iintro ⟨#Hctx, Hst, ⟨Hb, ⟨Hx, He, H0, Hs, H2, Hd, Ho, Hr⟩, -, -⟩, -⟩
  -- the two rows of the edge list sliced out and flattened
  iapply (wp_hlo_within 𝒱 (SparseCore.T d) none Set.univ (op := op1) (S := S5) hS1 (V := V0 m d)) $$ [Hb He H0 Hs H2 Hd]
  · isplitl [Hb]; · iexact Hb
    rw [held_S5]
    isplitl [He]; · iexact He
    isplitl [H0]; · iexact H0
    isplitl [Hs]; · iexact Hs
    isplitl [H2]; · iexact H2
    iexact Hd
  iintro ⟨Hb, Hheld⟩
  rw [wp_ret]; imodintro
  iapply (wp_hlo_within 𝒱 (SparseCore.T d) none Set.univ (op := op2) (S := S5) hS2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S5) hS3 (V := (op2 (F := F)).result ((op1 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S5) hS4
    (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  ihave Hh := (Entails.of_eq (held_W4 m d)) $$ Hheld
  icases Hh with ⟨He, H0, Hs, H2, Hd⟩
  -- the call: a read share of the feature table to each SparseCore, the remainder kept here
  ihave Hx' := (Transfers.pointsTo_toks_split fullShare 2) $$ Hx
  icases Hx' with ⟨Hdrop, Htoks⟩
  iapply ((K (F := F)).wp_run (D (F := F)) 𝒱 (EH := EH) (P := P m Lane) κ d 0) $$ [Hst Htoks Hs Hd Ho Hb Hdrop He Hr]
  isplitr; · iexact Hctx
  isplitl [Hst]; · iexact Hst
  isplitl [Htoks Hs Hd Ho]
  · rw [st_all]
    isplitl [Htoks]; · iexact Htoks
    isplitl [Hs]; · iexact Hs
    isplitl [Hd]; · iexact Hd
    iexact Ho
  iintro ⟨Hst, Hdn⟩
  ihave Hdn' := (dn_all m Lane d) $$ Hdn
  icases Hdn' with ⟨Htoks, Hs, Hd, %f4, %hf4, Ho⟩
  ihave Hx := (Transfers.pointsTo_toks_join fullShare 2) $$ [Hdrop Htoks]
  · isplitl [Hdrop]; · iexact Hdrop
    iexact Htoks
  -- the result as a column
  iapply (wp_hlo_within 𝒱 (SparseCore.T d) none Set.univ (op := op5) (S := S2) hS5 (V := V5 m d f4)) $$ [Hb Ho Hr]
  · isplitl [Hb]; · iexact Hb
    rw [held_S2, V5_o, V5_r]
    isplitl [Ho]; · iexact Ho
    iexact Hr
  iintro ⟨Hb, Hheld⟩
  ihave Hh := (Entails.of_eq (held_W5 m d f4)) $$ Hheld
  icases Hh with ⟨Ho, Hr⟩
  rw [wp_ret]; imodintro; imodintro
  isplitl [Hst]; · iexact Hst
  isplitl [Hx]; · iexact Hx
  isplitl [He]; · iexact He
  iexists (R5 d f4)
  isplitr
  · ipureintro
    intro e
    rw [R5_apply]
    have h := hf4 (ix1 e)
    rw [V1_apply, V3_apply] at h
    exact h
  · iexact Hr

/-! ## The final memory -/

def fq (Lane : LaneRel F) (d : Dev nD) (st : Phys nD τ sig (Elt F)) : Prop :=
  st.mem.mem (xLoc d) = m (xLoc d) ∧ st.mem.mem (eLoc d) = m (eLoc d)
    ∧ ∀ e : Fin 320000, Lane (m (xLoc d)) (Cert.Score.node (m (eLoc d)) 0 e) (Cert.Score.node (m (eLoc d)) 1 e) (st.mem.mem (rLoc d) (ix2 e (0 : Fin 1)))

theorem hfin (Lane : LaneRel F) (d : Dev nD) (st : Phys nD τ sig (Elt F)) : iprop(FIN m Lane d ∗ SI st) ⊢ (⌜fq m Lane d st⌝ : sProp 𝕄) := by
  iintro ⟨⟨Hx, He, %f, %hf, Hr⟩, HSI⟩
  ihave H := (persistent_entails_right (SI_pointsTo_agree (st := st) (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := st) (ℓ := eLoc d) (I := Finset.univ) (q := fullShare) (f := m (eLoc d)))) $$ [HSI He]
  · isplitl [HSI] <;> iassumption
  icases H with ⟨%h2, HSI, -⟩
  ihave H := (SI_pointsTo_agree (st := st) (ℓ := rLoc d) (I := Finset.univ) (q := fullShare) (f := f)) $$ [HSI Hr]
  · isplitl [HSI] <;> iassumption
  icases H with %h3
  ipureintro
  refine ⟨funext fun i => h1 i (Finset.mem_univ i), funext fun i => h2 i (Finset.mem_univ i), fun e => ?_⟩
  rw [h3 _ (Finset.mem_univ _)]
  exact hf e

end Cert.Proof.KI

end
-- ==== Proof.LaunchI.lean ====
/-
  The program's run from the statement of one tile's run: from any memory with zero counters whose edge list is in range,
  every weakly fair execution of the device's threads terminates, the two arguments end unchanged, and every entry of the
  result is in the relation to the feature table and the entry's two nodes.
-/
import proofs.«215249_g59107339927817_cont_9to1_m_583_18_alg».proof.Proof.LaunchTileI
import proofs.«215249_g59107339927817_cont_9to1_m_583_18_alg».proof.Proof.LaunchSplitI
import proofs.«215249_g59107339927817_cont_9to1_m_583_18_alg».proof.Proof.LaunchMainI
import Idealize.ShloMosaic.Lib.ValueIdx
import Idealize.ShloMosaic.Lib.Pipeline.Value

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]

/-- The program's run from the statement of one tile's run: every weakly fair execution of the device's threads
    terminates, the two arguments end unchanged, and every entry of the result is in the relation to the feature table
    and the entry's two nodes. -/
theorem kernel_run [∀ e, Nonempty (Elt F e)] (Lane : LaneRel F) (hT : TileRun Lane)
    (m : (ℓ : Loc nD τ sig) → Buf (Elt F) ℓ) (ρ : Dev nD → PrngReg)
    (hr : ∀ c : Dev nD, Cert.Score.InRange (m ((c.tc : Thread nD τ).loc main_arg1))) :
    θ_run (Cert.KernelIdeal.defs (F := F)) (Cert.KernelIdeal.threads (F := F)) ⟨m, fun _ => 0, ρ⟩
      (fun r => ∀ c : Dev nD,
        (∀ e : Fin 320000, Lane (m ((c.tc : Thread nD τ).loc main_arg0))
            (Cert.Score.node (m ((c.tc : Thread nD τ).loc main_arg1)) 0 e) (Cert.Score.node (m ((c.tc : Thread nD τ).loc main_arg1)) 1 e)
            (r.2.mem ((c.tc : Thread nD τ).loc main_v5) (ix2 e (0 : Fin 1))))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m Lane) facts v₀
    (fun q hq => match q with | 0 => nomatch hq)
    (fun q _ => match q with | 0 => tileObl m Lane hT hr)
    (fun q _ => match q with | 0 => SparseCore.Cfg.VecSplit.of_plain (vecSplit m Lane))
    m ρ main (fun _ => iprop(emp)) (FIN m Lane) (u₀ (F := F)) (sep_elim_left.trans (hu₀ m Lane)) (hmain m ρ Lane) (fq m Lane) (hfin m Lane) _
    (fun _ h c => ⟨(h c).2.2, (h c).1, (h c).2.1⟩)

end Cert.Proof.KI

end
-- ==== Proof.LaunchPayB.lean ====
/-
  What the launch hands each SparseCore and each tile and takes back: a read share of the feature table, the tile's
  10000-entry slices of the two index lists (rows 0 and 1 of the edge list) and its slice of the result, whose entries come
  back in the relation to the table and the edges' nodes. Tile s of SparseCore c is worker w = 2 s + c and owns entries
  [10000 w, 10000 w + 10000) of each list; the thirty-two slices are pairwise disjoint and cover the lists.
-/
import proofs.«215249_g59107339927817_cont_9to1_m_583_18_alg».proof.Proof.TileSpecB
import proofs.«215249_g59107339927817_cont_9to1_m_583_18_alg».proof.Proof.Spec
import Idealize.ShloMosaic.Lib.ValueIdx
import Idealize.ShloMosaic.Lib.Pipeline.Value

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The arrays, as locations of device `d` -/

abbrev xLoc (d : Dev nD) : Loc nD τ sig := (SparseCore.T d).loc main_arg0
abbrev eLoc (d : Dev nD) : Loc nD τ sig := (SparseCore.T d).loc main_arg1
abbrev sLoc (d : Dev nD) : Loc nD τ sig := (SparseCore.T d).loc main_v1
abbrev dLoc (d : Dev nD) : Loc nD τ sig := (SparseCore.T d).loc main_v3
abbrev oLoc (d : Dev nD) : Loc nD τ sig := (SparseCore.T d).loc main_v4
abbrev rLoc (d : Dev nD) : Loc nD τ sig := (SparseCore.T d).loc main_v5

/-- The source list and the destination list as the host operations leave them: rows 0 and 1 of the edge list. -/
def V1 (d : Dev nD) : Buf (Elt F) (sLoc d) :=
  shapeCast S320000 (extractStridedSlice S1x320000 ![0, 0] (m (eLoc d)) slices_S2x320000_S1x320000_0_0) shapeCasts_S1x320000_S320000
def V3 (d : Dev nD) : Buf (Elt F) (dLoc d) :=
  shapeCast S320000 (extractStridedSlice S1x320000 ![1, 0] (m (eLoc d)) slices_S2x320000_S1x320000_1_0) shapeCasts_S1x320000_S320000

omit [FloatOps F] in
theorem V1_apply (d : Dev nD) (e : Fin 320000) : V1 m d (ix1 e) = m (eLoc d) (ix2 0 e) := by
  unfold V1
  rw [shapeCast_apply (s := S1x320000) (t := S320000) _ _ (ix1 e) (ix2 (0 : Fin 1) e) (by
    rw [Shape.rowMajor_val_two, Shape.rowMajor_val_one]; simp)]
  unfold extractStridedSlice
  congr 1
  funext a
  match a with
  | ⟨0, _⟩ => rfl
  | ⟨1, _⟩ => apply Fin.ext; simp
omit [FloatOps F] in
theorem V3_apply (d : Dev nD) (e : Fin 320000) : V3 m d (ix1 e) = m (eLoc d) (ix2 1 e) := by
  unfold V3
  rw [shapeCast_apply (s := S1x320000) (t := S320000) _ _ (ix1 e) (ix2 (0 : Fin 1) e) (by
    rw [Shape.rowMajor_val_two, Shape.rowMajor_val_one]; simp)]
  unfold extractStridedSlice
  congr 1
  funext a
  match a with
  | ⟨0, _⟩ => rfl
  | ⟨1, _⟩ => apply Fin.ext; simp

/-! ## The thirty-two slices -/

theorem hdiv32 : 32 ∣ S320000.size 0 := ⟨10000, rfl⟩
/-- Worker `w`'s entries `[10000 w, 10000 w + 10000)` of a list of 320000. -/
abbrev pSet (w : Fin 32) : Finset S320000.Idx := (Rect.part (s := S320000) (a₀ := 0) hdiv32 w).set
/-- Tile `s` of SparseCore `c` is worker `2 s + c`. -/
def wIdx (c s : ℕ) (hc : c < 2) (hs : s < 16) : Fin 32 := ⟨2 * s + c, by omega⟩
abbrev wOf (L : grid0.Coords) : Fin 32 := wIdx (L 0).val (L 1).val (L 0).isLt (L 1).isLt

theorem wIdx_injective {c s c' s' : ℕ} {hc hs hc' hs'} (h : wIdx c s hc hs = wIdx c' s' hc' hs') : c = c' ∧ s = s' := by
  have := congrArg Fin.val h
  simp only [wIdx] at this
  omega

theorem pSet_disjoint {w w' : Fin 32} (h : w ≠ w') : Disjoint (pSet w) (pSet w') := Rect.part_disjoint hdiv32 h
theorem pSet_cover : (Finset.univ : Finset (Fin 32)).biUnion pSet = Finset.univ := Rect.biUnion_part hdiv32

theorem rect1_eq (L : grid0.Coords) : Rect.unit (s := S320000) (k0_off1 L) S10000.size (k0_off1_inb L) = Rect.part (s := S320000) (a₀ := 0) hdiv32 (wOf L) := by
  unfold Rect.part Rect.block
  congr 1 <;> funext a
  · rw [k0_off1_eq]
    match a with
    | 0 => simp [Shape.partIx, Shape.partSize, wOf, wIdx]; omega
  · match a with
    | 0 => simp [Shape.partSize]
theorem rect32_eq (L : grid0.Coords) : Rect.unit (s := S320000) (k0_off32 L) S10000.size (k0_off32_inb L) = Rect.part (s := S320000) (a₀ := 0) hdiv32 (wOf L) := by
  unfold Rect.part Rect.block
  congr 1 <;> funext a
  · rw [k0_off32_eq]
    match a with
    | 0 => simp [Shape.partIx, Shape.partSize, wOf, wIdx]; omega
  · match a with
    | 0 => simp [Shape.partSize]

theorem set_sSl (L : grid0.Coords) : (sSl L).view.set = pSet (wOf L) := by
  show ((View.whole (main_v1_scv : Ref sig .scVector)).slice (Rect.unit (s := S320000) (k0_off1 L) S10000.size (k0_off1_inb L))).set = _
  rw [View.set_slice_whole, rect1_eq]
theorem set_dSl (L : grid0.Coords) : (dSl L).view.set = pSet (wOf L) := by
  show ((View.whole (main_v3_scv : Ref sig .scVector)).slice (Rect.unit (s := S320000) (k0_off1 L) S10000.size (k0_off1_inb L))).set = _
  rw [View.set_slice_whole, rect1_eq]
theorem set_oSl (L : grid0.Coords) : (oSl L).view.set = pSet (wOf L) := by
  show ((View.whole (main_v4_scv : Ref sig .scVector)).slice (Rect.unit (s := S320000) (k0_off32 L) S10000.size (k0_off32_inb L))).set = _
  rw [View.set_slice_whole, rect32_eq]

/-! ## What the handshakes carry -/

/-- Every entry of worker `w`'s slice of the result is in the relation to the feature table and the entry's two nodes. -/
def Good (Lane : LaneRel F) (d : Dev nD) (w : Fin 32) (f : Buf (Elt F) (oLoc d)) : Prop :=
  ∀ j ∈ pSet w, Lane (m (xLoc d)) (nodeOf (V1 m d j)) (nodeOf (V3 m d j)) (f j)

/-- Worker `w`'s slices of the two lists, and of the result at the launch contents; -/
def restGo (d : Dev nD) (w : Fin 32) : sProp 𝕄 :=
  iprop((sLoc d ↦[pSet w]{fullShare} V1 m d) ∗ (dLoc d ↦[pSet w]{fullShare} V3 m d) ∗ (oLoc d ↦[pSet w]{fullShare} m (oLoc d)))
/-- the same with the result's slice at what the worker left, every entry in the relation. -/
def restTd (Lane : LaneRel F) (d : Dev nD) (w : Fin 32) : sProp 𝕄 :=
  iprop((sLoc d ↦[pSet w]{fullShare} V1 m d) ∗ (dLoc d ↦[pSet w]{fullShare} V3 m d) ∗ ∃ f, ⌜Good m Lane d w f⌝ ∗ (oLoc d ↦[pSet w]{fullShare} f))

abbrev xAt (d : Dev nD) (q : PosShare TreeShare) : sProp 𝕄 := xLoc d ↦{q} m (xLoc d)

/-- The feature table's read share of SparseCore `c`, and of its tile `s`. -/
abbrev qC (c : ℕ) : PosShare TreeShare := Transfers.shareTokN fullShare c
abbrev qT (c s : ℕ) : PosShare TreeShare := Transfers.shareTokN (qC c) s

/-- The one call hands SparseCore `c` a read share of the feature table and its sixteen workers' slices of the two
    lists and of the result; each tile a read share of the table and its worker's slices; and brings them back, the
    result's slices at what the workers left. -/
def P (Lane : LaneRel F) : (K (F := F)).Pay (nD := nD) (Val := Elt F) (Name := ℕ) (U := UU) where
  st := fun q d c => match q with
    | 0 => iprop(xAt m d (qC c.val) ∗ bigSep Finset.univ fun s : Fin 16 => restGo m d (wIdx c.val s.val c.isLt s.isLt))
  dn := fun q d c => match q with
    | 0 => iprop(xAt m d (qC c.val) ∗ bigSep Finset.univ fun s : Fin 16 => restTd m Lane d (wIdx c.val s.val c.isLt s.isLt))
  go := fun q d c i => match q with
    | 0 => iprop(xAt m d (qT c.val i.val) ∗ restGo m d (wIdx c.val i.val c.isLt i.isLt))
  td := fun q d c i => match q with
    | 0 => iprop(xAt m d (qT c.val i.val) ∗ restTd m Lane d (wIdx c.val i.val c.isLt i.isLt))
  x := fun _ _ => iprop(emp)

instance restGo_storable (d : Dev nD) (w : Fin 32) : BI.Storable (upEmb : UEmb _ 𝕄) (restGo m d w) := by unfold restGo; infer_instance
instance restTd_storable (Lane : LaneRel F) (d : Dev nD) (w : Fin 32) : BI.Storable (upEmb : UEmb _ 𝕄) (restTd m Lane d w) := by unfold restTd; infer_instance

instance P_storable (Lane : LaneRel F) : (P (F := F) m Lane).IsStorable where
  st q d c := match q with | 0 => by unfold P; infer_instance
  dn q d c := match q with | 0 => by unfold P; infer_instance
  go q d c i := match q with | 0 => by unfold P; infer_instance
  td q d c i := match q with | 0 => by unfold P; infer_instance

theorem P_st (Lane : LaneRel F) (d : Dev nD) (c : Fin ((K (F := F)).nCore 0)) :
    (P m Lane).st 0 d c = iprop(xAt m d (qC c.val) ∗ bigSep Finset.univ fun s : Fin 16 => restGo m d (wIdx c.val s.val c.isLt s.isLt)) := rfl
theorem P_dn (Lane : LaneRel F) (d : Dev nD) (c : Fin ((K (F := F)).nCore 0)) :
    (P m Lane).dn 0 d c = iprop(xAt m d (qC c.val) ∗ bigSep Finset.univ fun s : Fin 16 => restTd m Lane d (wIdx c.val s.val c.isLt s.isLt)) := rfl
theorem P_go (Lane : LaneRel F) (d : Dev nD) (c : Fin ((K (F := F)).nCore 0)) (i : Fin ((K (F := F)).nSub 0)) :
    (P m Lane).go 0 d c i = iprop(xAt m d (qT c.val i.val) ∗ restGo m d (wIdx c.val i.val c.isLt i.isLt)) := rfl
theorem P_td (Lane : LaneRel F) (d : Dev nD) (c : Fin ((K (F := F)).nCore 0)) (i : Fin ((K (F := F)).nSub 0)) :
    (P m Lane).td 0 d c i = iprop(xAt m d (qT c.val i.val) ∗ restTd m Lane d (wIdx c.val i.val c.isLt i.isLt)) := rfl

end Cert.Proof.KB

end
-- ==== Proof.LaunchTileB.lean ====
/-
  One tile's obligation to the launch: what the launch hands the tile at a grid point (its own buffers and semaphores, a
  read share of the feature table, its slices of the two index lists and of the result, every index word below 10000 when
  the edge list is in range) is what the tile's run starts from, and what the run leaves, read entry by entry through
  the slices, is what the launch takes back.
-/
import proofs.«215249_g59107339927817_cont_9to1_m_583_18_alg».proof.Proof.LaunchPayB
import Idealize.ShloMosaic.Lib.ValueIdx
import Idealize.ShloMosaic.Lib.Pipeline.Value

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]
variable (m : (ℓ : Loc nD τ sig) → Buf (Elt F) ℓ)

/-! ## A tile's own counters and scratches -/

abbrev tileSems : Finset (SemLoc sig) :=
  {.dma cc0_scratch6.sem, .dma cc0_scratch7.sem, .dma cc0_scratch10.sem, .dma cc0_scratch11.sem, .dma cc0_scoped0.sem, .dma cc0_scoped1.sem, .dma cc0_scoped2.sem}
def semEmb (t : Thread nD τ) : SemLoc sig ↪ GSem nD τ sig := ⟨fun sm => (t, sm), fun _ _ e => (Prod.mk.inj e).2⟩

theorem tileSems_scoped : ∀ sm ∈ tileSems, (sm : SemLoc sig).isScoped .scVector = true := by decide

omit [FloatOps F] in
theorem ownSems0_V (d : Dev nD) (L : grid0.Coords) :
    (ownSems0 (thr d L) : sProp 𝕄)
      = iprop((semVal (thr d L, SemLoc.dma cc0_scratch6.sem) 0 ∗ semVal (thr d L, SemLoc.dma cc0_scratch7.sem) 0
          ∗ semVal (thr d L, SemLoc.dma cc0_scratch10.sem) 0 ∗ semVal (thr d L, SemLoc.dma cc0_scratch11.sem) 0
          ∗ semVal (thr d L, SemLoc.dma cc0_scoped0.sem) 0 ∗ semVal (thr d L, SemLoc.dma cc0_scoped1.sem) 0 ∗ semVal (thr d L, SemLoc.dma cc0_scoped2.sem) 0)
          ∗ bigSep (ownCells (thr d L) \ tileSems.map (semEmb (thr d L))) fun g => semVal g 0) := by
  unfold SparseCore.Cfg.ownSems0
  have hsub : tileSems.map (semEmb (thr d L)) ⊆ ownCells (thr d L) := by
    intro g hg
    obtain ⟨sm, hsm, rfl⟩ := Finset.mem_map.mp hg
    exact mem_ownCells.mpr ⟨rfl, tileSems_scoped sm hsm⟩
  rw [bigSep_sdiff_split hsub, bigSep_map]
  unfold tileSems
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

abbrev tileRefs : Finset (Ref sig .scVector) :=
  {cc0_scratch0, cc0_scratch1, cc0_scratch2, cc0_scratch3, cc0_scratch4, cc0_scratch5, cc0_scratch8, cc0_scratch9}
def refEmb (c : Fin τ.nSC) (s : Fin τ.nSub) : Ref sig .scVector ↪ DevRef τ sig :=
  ⟨(Proc.scVector c s).devRef, Proc.devRef_injective (Proc.scVector c s)⟩

omit [FloatOps F] in
theorem ownBufs_V (d : Dev nD) (L : grid0.Coords) :
    (ownBufs (thr d L) : sProp 𝕄)
      = iprop(((∃ g, iU.view.loc (thr d L) ↦{fullShare} g) ∗ (∃ g, iV.view.loc (thr d L) ↦{fullShare} g) ∗ (∃ g, oA.view.loc (thr d L) ↦{fullShare} g)
          ∗ (∃ g, tB.view.loc (thr d L) ↦{fullShare} g) ∗ (∃ g, rU0.view.loc (thr d L) ↦{fullShare} g) ∗ (∃ g, rV0.view.loc (thr d L) ↦{fullShare} g)
          ∗ (∃ g, rU1.view.loc (thr d L) ↦{fullShare} g) ∗ (∃ g, rV1.view.loc (thr d L) ↦{fullShare} g))
          ∗ bigSep (ownRefs (τ := τ) (.scVector (cV L) (jV L)) \ tileRefs.map (refEmb (cV L) (jV L)))
              fun b => iprop(∃ f, ((d, b) : Loc nD τ sig) ↦{fullShare} f)) := by
  unfold SparseCore.Cfg.ownBufs
  have hsub : tileRefs.map (refEmb (cV L) (jV L)) ⊆ ownRefs (τ := τ) (.scVector (cV L) (jV L)) := by
    intro b hb
    obtain ⟨r, hr, rfl⟩ := Finset.mem_map.mp hb
    simp only [Finset.mem_insert, Finset.mem_singleton] at hr
    rcases hr with rfl | rfl | rfl | rfl | rfl | rfl | rfl | rfl <;>
      exact SparseCore.Cfg.mem_ownRefs_of_owner (p := Proc.scVector (cV L) (jV L)) rfl
  show bigSep (ownRefs (τ := τ) (.scVector (cV L) (jV L))) (fun b => iprop(∃ f, ((d, b) : Loc nD τ sig) ↦{fullShare} f)) = _
  rw [bigSep_sdiff_split hsub, bigSep_map]
  unfold tileRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  exact rfl

/-! ## The tile's slices, in the program's spelling -/

omit [FloatOps F] in
theorem pts_s (d : Dev nD) (L : grid0.Coords) (f : Buf (Elt F) (sLoc d)) :
    ((sSl L).view.loc (thr d L) ↦[(sSl L).view.set]{fullShare} f : sProp 𝕄) = sLoc d ↦[pSet (wOf L)]{fullShare} f := by
  rw [set_sSl]
omit [FloatOps F] in
theorem pts_d (d : Dev nD) (L : grid0.Coords) (f : Buf (Elt F) (dLoc d)) :
    ((dSl L).view.loc (thr d L) ↦[(dSl L).view.set]{fullShare} f : sProp 𝕄) = dLoc d ↦[pSet (wOf L)]{fullShare} f := by
  rw [set_dSl]
omit [FloatOps F] in
theorem pts_o (d : Dev nD) (L : grid0.Coords) (f : Buf (Elt F) (oLoc d)) :
    ((oSl L).view.loc (thr d L) ↦[(oSl L).view.set]{fullShare} f : sProp 𝕄) = oLoc d ↦[pSet (wOf L)]{fullShare} f := by
  rw [set_oSl]
omit [FloatOps F] in
theorem pts_x (d : Dev nD) (L : grid0.Coords) (q : PosShare TreeShare) (f : Buf (Elt F) (xLoc d)) :
    (xW.view.loc (thr d L) ↦{q} f : sProp 𝕄) = xLoc d ↦{q} f := rfl

omit [FloatOps F] in
theorem read_s (d : Dev nD) (L : grid0.Coords) (f : Buf (Elt F) (sLoc d)) (j : S10000.Idx) :
    (sSl L).view.read (Elt F) f j = f ((sSl L).view.emb j) := (View.read_apply _ _).trans (cast_eq _ _)
omit [FloatOps F] in
theorem read_d (d : Dev nD) (L : grid0.Coords) (f : Buf (Elt F) (dLoc d)) (j : S10000.Idx) :
    (dSl L).view.read (Elt F) f j = f ((dSl L).view.emb j) := (View.read_apply _ _).trans (cast_eq _ _)
omit [FloatOps F] in
theorem read_o (d : Dev nD) (L : grid0.Coords) (f : Buf (Elt F) (oLoc d)) (j : S10000.Idx) :
    (oSl L).view.read (Elt F) f j = f ((oSl L).view.emb j) := (View.read_apply _ _).trans (cast_eq _ _)

theorem emb_d_s (L : grid0.Coords) (j : S10000.Idx) : (dSl L).view.emb j = (sSl L).view.emb j := rfl
theorem emb_o_s (L : grid0.Coords) (j : S10000.Idx) : (oSl L).view.emb j = (sSl L).view.emb j := by
  funext a; apply Fin.ext
  show (k0_off32 L) a + 1 * (j a).val = (k0_off1 L) a + 1 * (j a).val
  rw [k0_off1_eq, k0_off32_eq]

omit [FloatOps F] in
theorem V1_apply' (d : Dev nD) (i : S320000.Idx) : V1 m d i = m (eLoc d) (ix2 0 (i 0)) := by
  have hi : i = ix1 (n := 320000) (i 0) := by funext a; match a with | ⟨0, _⟩ => rfl
  exact (congrArg (V1 m d) hi).trans (V1_apply m d (i 0))
omit [FloatOps F] in
theorem V3_apply' (d : Dev nD) (i : S320000.Idx) : V3 m d i = m (eLoc d) (ix2 1 (i 0)) := by
  have hi : i = ix1 (n := 320000) (i 0) := by funext a; match a with | ⟨0, _⟩ => rfl
  exact (congrArg (V3 m d) hi).trans (V3_apply m d (i 0))
omit [FloatOps F] in
theorem idxOK_s (d : Dev nD) (L : grid0.Coords) (hr : Cert.Score.InRange (m (eLoc d))) : IdxOK (sSl L) d L (V1 m d) := by
  intro j
  rw [read_s, V1_apply']
  exact hr _
omit [FloatOps F] in
theorem idxOK_d (d : Dev nD) (L : grid0.Coords) (hr : Cert.Score.InRange (m (eLoc d))) : IdxOK (dSl L) d L (V3 m d) := by
  intro j
  rw [read_d, V3_apply']
  exact hr _

/-- What the tile's run says of its slice of the result, entry by entry. -/
theorem good_of_post (Lane : LaneRel F) (d : Dev nD) (L : grid0.Coords) (f : Buf (Elt F) (oLoc d))
    (h : ∀ j : S10000.Idx, Lane (xW.view.read (Elt F) (m (xLoc d))) (nodeOf ((sSl L).view.read (Elt F) (V1 m d) j)) (nodeOf ((dSl L).view.read (Elt F) (V3 m d) j))
      ((oSl L).view.read (Elt F) f j)) : Good m Lane d (wOf L) f := by
  intro i hi
  rw [← set_oSl] at hi
  obtain ⟨j, -, rfl⟩ := Finset.mem_map.mp hi
  have := h j
  rw [read_s, read_d, read_o, emb_d_s] at this
  rw [emb_o_s]
  rw [emb_o_s] at this
  exact this

/-! ## The tile's obligation -/

/-- The tile at grid point `L`: what the launch hands it is what the tile's run starts from; what the run leaves is what
    the launch takes back. -/
theorem tile_body (Lane : LaneRel F) (hT : TileRun Lane) (d : Dev nD) (L : grid0.Coords) (hr : Cert.Score.InRange (m (eLoc d))) (q : PosShare TreeShare)
    (O : CellTallies nD τ sig (HIx 1)) (W : Waits sig (HIx 1)) (hO : ∀ g, O g none = 0) :
    iprop(levAts (K (F := F)).L (K (F := F)).lev ∗ emp ∗ (xAt m d q ∗ restGo m d (wOf L))
        ∗ scopedBufs (thr d L) ∗ scopedSems0 (thr d L) ∗ owes (thr d L) O W)
      ⊢ wp frame (wpE (defs₀ (F := F)) 𝒱₀ (thr d L) none) Set.univ
          (cc0__score_kernel (F := F) L xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2)
          fun _ => iprop((xAt m d q ∗ restTd m Lane d (wOf L)) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  unfold restGo restTd
  iintro ⟨#Hlv, -, ⟨Hx, Hs, Hd, Ho⟩, ⟨⟨⟨%g0, H0⟩, ⟨%g1, H1⟩, ⟨%g2, H2⟩, ⟨%g3, H3⟩, ⟨%g4, H4⟩, ⟨%g5, H5⟩, ⟨%g8, H8⟩, ⟨%g9, H9⟩⟩, Hbufs⟩,
    ⟨⟨S6, S7, S10, S11, T0, T1, T2⟩, Hsems⟩, HO⟩
  ihave Hmw := ((K (F := F)).mayWaits_none (thr := thr d L) hO) $$ Hlv
  ihave Hs' := (Entails.of_eq (pts_s (F := F) d L _).symm) $$ Hs
  ihave Hd' := (Entails.of_eq (pts_d (F := F) d L _).symm) $$ Hd
  ihave Ho' := (Entails.of_eq (pts_o (F := F) d L _).symm) $$ Ho
  ihave Hx' := (Entails.of_eq (pts_x (F := F) d L q _).symm) $$ Hx
  ihave Hwp := (hT d L q O W (m (xLoc d)) (V1 m d) (V3 m d) (m (oLoc d)) g0 g1 g2 g3 g4 g5 g8 g9 (idxOK_s m d L hr) (idxOK_d m d L hr))
    $$ [Hmw Hx' Hs' Hd' Ho' H0 H1 H2 H3 H4 H5 H8 H9 S6 S7 S10 S11 T0 T1 T2 HO]
  · unfold tilePre
    isplitl [Hmw]; · iexact Hmw
    isplitl [Hx']; · iexact Hx'
    isplitl [Hs']; · iexact Hs'
    isplitl [Hd']; · iexact Hd'
    isplitl [Ho']; · iexact Ho'
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    isplitl [S6]; · iexact S6
    isplitl [S7]; · iexact S7
    isplitl [S10]; · iexact S10
    isplitl [S11]; · iexact S11
    isplitl [T0]; · iexact T0
    isplitl [T1]; · iexact T1
    isplitl [T2]; · iexact T2
    iexact HO
  iapply (wp_wand_r frame _ _)
  isplitl [Hwp]; · iexact Hwp
  iintro %_ Hpost
  unfold tilePost
  icases Hpost with ⟨Hx, Hs, Hd, ⟨%f, Ho, %hf⟩, H0, H1, H2, H3, H4, H5, H8, H9, S6, S7, S10, S11, T0, T1, T2, %W', %hW', HO⟩
  isplitl [Hx Hs Hd Ho]
  · isplitl [Hx]; · iapply (Entails.of_eq (pts_x (F := F) d L q _)); iexact Hx
    isplitl [Hs]; · iapply (Entails.of_eq (pts_s (F := F) d L _)); iexact Hs
    isplitl [Hd]; · iapply (Entails.of_eq (pts_d (F := F) d L _)); iexact Hd
    iexists f
    isplitr; · ipureintro; exact good_of_post m Lane d L f hf
    iapply (Entails.of_eq (pts_o (F := F) d L _)); iexact Ho
  isplitl [H0 H1 H2 H3 H4 H5 H8 H9 Hbufs]
  · isplitl [H0 H1 H2 H3 H4 H5 H8 H9]
    · isplitl [H0]; · iexact H0
      isplitl [H1]; · iexact H1
      isplitl [H2]; · iexact H2
      isplitl [H3]; · iexact H3
      isplitl [H4]; · iexact H4
      isplitl [H5]; · iexact H5
      isplitl [H8]; · iexact H8
      iexact H9
    · iexact Hbufs
  isplitl [S6 S7 S10 S11 T0 T1 T2 Hsems]
  · isplitl [S6 S7 S10 S11 T0 T1 T2]
    · isplitl [S6]; · iexact S6
      isplitl [S7]; · iexact S7
      isplitl [S10]; · iexact S10
      isplitl [S11]; · iexact S11
      isplitl [T0]; · iexact T0
      isplitl [T1]; · iexact T1
      iexact T2
    · iexact Hsems
  iexists W'; isplitr
  · ipureintro; exact hW'
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__score_kernel (F := F) (coordsV c s) xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (Lane : LaneRel F) (hT : TileRun Lane) (hr : ∀ d : Dev nD, Cert.Score.InRange (m (eLoc d))) :
    (K (F := F)).TileObl (D (F := F)) 𝒱 (P m Lane) v₀ 0 := by
  intro d c i O W hO _ _
  simp only [show (P m Lane).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td]
  exact (tile_body m Lane hT d (coordsV ⟨_, hc.1⟩ ⟨_, hc.2⟩) (hr d) _ O W hO).trans (wp_mono frame _ _ fun _ => obl_post)

end Cert.Proof.KB

end
-- ==== Proof.LaunchSplitB.lean ====
/-
  A SparseCore's read share of the feature table splits into its sixteen tiles' shares, the remainder kept aside until
  they come back; the slices of the three lists are already stated worker by worker.
-/
import proofs.«215249_g59107339927817_cont_9to1_m_583_18_alg».proof.Proof.LaunchPayB
import Idealize.ShloMosaic.Lib.ValueIdx
import Idealize.ShloMosaic.Lib.Pipeline.Value

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]
variable (m : (ℓ : Loc nD τ sig) → Buf (Elt F) ℓ)

/-- A SparseCore's read share of the feature table splits into its sixteen tiles' shares, the remainder kept aside until
    they come back; the slices of the three lists are already stated worker by worker. -/
theorem vecSplit (Lane : LaneRel F) : (K (F := F)).VecSplit' (P m Lane) 0 := by
  intro d c
  show iprop(xAt m d (qC c.val) ∗ bigSep Finset.univ fun s : Fin 16 => restGo m d (wIdx c.val s.val c.isLt s.isLt))
    ⊢ |={Set.univ}=> iprop((bigSep Finset.univ fun i : Fin 16 => iprop(xAt m d (qT c.val i.val) ∗ restGo m d (wIdx c.val i.val c.isLt i.isLt)))
        ∗ ((bigSep Finset.univ fun i : Fin 16 => iprop(xAt m d (qT c.val i.val) ∗ restTd m Lane d (wIdx c.val i.val c.isLt i.isLt)))
          -∗ iprop(xAt m d (qC c.val) ∗ bigSep Finset.univ fun s : Fin 16 => restTd m Lane d (wIdx c.val s.val c.isLt s.isLt))))
  rw [bigSep_sep', bigSep_sep']
  iintro ⟨Hx, Hr⟩
  ihave Hx' := (Transfers.pointsTo_toks_split (qC c.val) 16) $$ Hx
  icases Hx' with ⟨Hdrop, Htoks⟩
  imodintro
  isplitl [Htoks Hr]
  · isplitl [Htoks]; · iexact Htoks
    iexact Hr
  iintro ⟨Htoks, Hr⟩
  isplitl [Hdrop Htoks]
  · iapply (Transfers.pointsTo_toks_join (qC c.val) 16)
    isplitl [Hdrop]; · iexact Hdrop
    iexact Htoks
  iexact Hr

end Cert.Proof.KB

end
-- ==== Proof.LaunchWorkersB.lean ====
/-
  The thirty-two workers by SparseCore and tile: (c, s) ↦ 2 s + c is a bijection from 2 × 16 onto the workers, so a
  list held whole is its thirty-two slices held one by one; and the slices of the result, each with every entry in the
  relation to the table and the entry's two nodes, are the whole result with every entry in the relation. Also the
  initial ghost state of the launch's handshakes.
-/
import proofs.«215249_g59107339927817_cont_9to1_m_583_18_alg».proof.Proof.LaunchPayB
import Idealize.ShloMosaic.Lib.ValueIdx
import Idealize.ShloMosaic.Lib.Pipeline.Value

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (Lane : LaneRel F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m Lane).x q t) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The thirty-two workers, by SparseCore and tile -/

def wEquiv : Fin 2 × Fin 16 ≃ Fin 32 where
  toFun p := wIdx p.1.val p.2.val p.1.isLt p.2.isLt
  invFun w := (⟨w.val % 2, Nat.mod_lt _ (by decide)⟩, ⟨w.val / 2, by have := w.isLt; omega⟩)
  left_inv p := by
    obtain ⟨c, s⟩ := p
    apply Prod.ext <;> apply Fin.ext <;> simp only [wIdx] <;> omega
  right_inv w := by
    apply Fin.ext; simp only [wIdx]; omega

omit [FloatOps F] in
theorem bigSep_workers (Φ : Fin 32 → sProp 𝕄) :
    bigSep Finset.univ Φ = bigSep Finset.univ fun c : Fin 2 => bigSep Finset.univ fun s : Fin 16 => Φ (wIdx c.val s.val c.isLt s.isLt) := by
  rw [bigSep_univ_equiv wEquiv Φ, bigSep_univ_prod]
  rfl

omit [FloatOps F] in
theorem s_workers (d : Dev nD) (f : Buf (Elt F) (sLoc d)) :
    (sLoc d ↦{fullShare} f : sProp 𝕄) = bigSep Finset.univ fun w : Fin 32 => sLoc d ↦[pSet w]{fullShare} f := by
  rw [← pointsTo_biUnion Finset.univ (ℓ := sLoc d) pSet (fun w _ w' _ h => pSet_disjoint h), pSet_cover]; try rfl
omit [FloatOps F] in
theorem d_workers (d : Dev nD) (f : Buf (Elt F) (dLoc d)) :
    (dLoc d ↦{fullShare} f : sProp 𝕄) = bigSep Finset.univ fun w : Fin 32 => dLoc d ↦[pSet w]{fullShare} f := by
  rw [← pointsTo_biUnion Finset.univ (ℓ := dLoc d) pSet (fun w _ w' _ h => pSet_disjoint h), pSet_cover]; try rfl
omit [FloatOps F] in
theorem o_workers (d : Dev nD) (f : Buf (Elt F) (oLoc d)) :
    (oLoc d ↦{fullShare} f : sProp 𝕄) = bigSep Finset.univ fun w : Fin 32 => oLoc d ↦[pSet w]{fullShare} f := by
  rw [← pointsTo_biUnion Finset.univ (ℓ := oLoc d) pSet (fun w _ w' _ h => pSet_disjoint h), pSet_cover]; try rfl

/-- Every entry of the result is in the relation to the feature table and the entry's two nodes. -/
def AllGood (Lane : LaneRel F) (d : Dev nD) (f : Buf (Elt F) (oLoc d)) : Prop :=
  ∀ j : S320000.Idx, Lane (m (xLoc d)) (nodeOf (V1 m d j)) (nodeOf (V3 m d j)) (f j)

/-- The workers' slices of the result, each at what its worker left, are the result whole at one function, every entry
    in the relation. -/
theorem o_join (Lane : LaneRel F) (d : Dev nD) :
    (bigSep Finset.univ fun w : Fin 32 => iprop(∃ f, ⌜Good m Lane d w f⌝ ∗ (oLoc d ↦[pSet w]{fullShare} f)))
      ⊢ (iprop(∃ f, ⌜AllGood m Lane d f⌝ ∗ (oLoc d ↦{fullShare} f)) : sProp 𝕄) := by
  refine (bigSep_exists_pi Finset.univ (fun w (f : Buf (Elt F) (oLoc d)) => iprop(⌜Good m Lane d w f⌝ ∗ (oLoc d ↦[pSet w]{fullShare} f)))).trans ?_
  iintro ⟨%fs, H⟩
  ihave H' := (bigSep_pure_sep Finset.univ (fun w => Good m Lane d w (fs w)) (fun w => (oLoc d ↦[pSet w]{fullShare} fs w : sProp 𝕄))) $$ H
  icases H' with ⟨%hg, H'⟩
  ihave H'' := (pointsTo_biUnion_join Finset.univ pSet fs (fs 0) (fun w _ w' _ h => pSet_disjoint h)) $$ H'
  icases H'' with ⟨%g, %hgeq, Hg⟩
  rw [pSet_cover]
  iexists g
  isplitr
  · ipureintro
    intro j
    obtain ⟨w, hw⟩ := Rect.exists_mem_part hdiv32 j
    have h1 := hg w (Finset.mem_univ w) j hw
    rw [← hgeq w (Finset.mem_univ w) j hw] at h1
    exact h1
  · iexact Hg

end Cert.Proof.KB

end
-- ==== Proof.LaunchMainB.lean ====
/-
  @main around the one kernel call. The four host operations before it leave rows 0 and 1 of the edge list as the source
  list and the destination list; the one after it reshapes the result to a column. What the call takes for the two
  SparseCores is dealt from the arrays those operations leave, and what it hands back is collected into them; at the end
  the two arguments are at their launch contents and entry e of the result is in the relation to the table and the two
  nodes of edge e.
-/
import proofs.«215249_g59107339927817_cont_9to1_m_583_18_alg».proof.Proof.LaunchWorkersB
import Idealize.ShloMosaic.Lib.ValueIdx
import Idealize.ShloMosaic.Lib.Pipeline.Value

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The TensorCore's arrays and @main's host operations -/

abbrev x' : DevRef τ sig := Proc.devRef .tc (main_arg0 : Ref sig .tc)
abbrev e' : DevRef τ sig := Proc.devRef .tc (main_arg1 : Ref sig .tc)
abbrev a0' : DevRef τ sig := Proc.devRef .tc (main_v0 : Ref sig .tc)
abbrev s' : DevRef τ sig := Proc.devRef .tc (main_v1 : Ref sig .tc)
abbrev a2' : DevRef τ sig := Proc.devRef .tc (main_v2 : Ref sig .tc)
abbrev d' : DevRef τ sig := Proc.devRef .tc (main_v3 : Ref sig .tc)
abbrev o' : DevRef τ sig := Proc.devRef .tc (main_v4 : Ref sig .tc)
abbrev r' : DevRef τ sig := Proc.devRef .tc (main_v5 : Ref sig .tc)

abbrev op1 : HloOp τ sig (Elt F) :=
  StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
abbrev op2 : HloOp τ sig (Elt F) := StableHlo.reshape main_v0 main_v1 rfl shapeCasts_S1x320000_S320000
abbrev op3 : HloOp τ sig (Elt F) :=
  StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F))
abbrev op4 : HloOp τ sig (Elt F) := StableHlo.reshape main_v2 main_v3 rfl shapeCasts_S1x320000_S320000
abbrev op5 : HloOp τ sig (Elt F) := StableHlo.reshape main_v4 main_v5 rfl shapeCasts_S320000_S320000x1

/-- The five arrays the four operations before the call touch; the two the one after it does. -/
abbrev S5 : Finset (DevRef τ sig) := {e', a0', s', a2', d'}
abbrev S2 : Finset (DevRef τ sig) := {o', r'}

omit [FloatOps F] in
theorem held_S5 (d : Dev nD) (W : Valuation τ sig (Elt F)) :
    (held (T d) S5 W : sProp 𝕄) = iprop((eLoc d ↦{fullShare} W e') ∗ ((SparseCore.T d).loc main_v0 ↦{fullShare} W a0') ∗ (sLoc d ↦{fullShare} W s')
      ∗ ((SparseCore.T d).loc main_v2 ↦{fullShare} W a2') ∗ (dLoc d ↦{fullShare} W d')) := by
  unfold held S5
  rw [SparseCore.bigSep_insert' (by decide), SparseCore.bigSep_insert' (by decide), SparseCore.bigSep_insert' (by decide),
    SparseCore.bigSep_insert' (by decide), bigSep_singleton]
omit [FloatOps F] in
theorem held_S2 (d : Dev nD) (W : Valuation τ sig (Elt F)) :
    (held (T d) S2 W : sProp 𝕄) = iprop((oLoc d ↦{fullShare} W o') ∗ (rLoc d ↦{fullShare} W r')) := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1)
      ∗ ((SparseCore.T d).loc main_v0 ↦{fullShare} W main_v0) ∗ (sLoc d ↦{fullShare} W main_v1) ∗ ((SparseCore.T d).loc main_v2 ↦{fullShare} W main_v2)
      ∗ (dLoc d ↦{fullShare} W main_v3) ∗ (oLoc d ↦{fullShare} W main_v4) ∗ (rLoc d ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and what the four operations before the call leave. -/
def V0 (d : Dev nD) : Valuation τ sig (Elt F) := fun b => m (d, b)
abbrev W4 (d : Dev nD) : Valuation τ sig (Elt F) := (op4 (F := F)).result ((op3 (F := F)).result ((op2 (F := F)).result ((op1 (F := F)).result (V0 m d))))

omit [FloatOps F] in
theorem W4_e (d : Dev nD) : W4 m d e' = m (eLoc d) := by
  unfold W4
  simp (disch := decide) only [StableHlo.unary_result_ne', StableHlo.reshape_result_ne']
  rfl
omit [FloatOps F] in
theorem W4_s (d : Dev nD) : W4 m d s' = V1 m d := by
  unfold W4
  simp (disch := decide) only [StableHlo.unary_result', StableHlo.reshape_result', StableHlo.unary_result_ne', StableHlo.reshape_result_ne']
  rfl
omit [FloatOps F] in
theorem W4_d (d : Dev nD) : W4 m d d' = V3 m d := by
  unfold W4
  simp (disch := decide) only [StableHlo.unary_result', StableHlo.reshape_result', StableHlo.unary_result_ne', StableHlo.reshape_result_ne']
  rfl

omit [FloatOps F] in
theorem held_W4 (d : Dev nD) :
    (held (T d) S5 (W4 m d) : sProp 𝕄) = iprop((eLoc d ↦{fullShare} m (eLoc d)) ∗ ((SparseCore.T d).loc main_v0 ↦{fullShare} W4 m d a0') ∗ (sLoc d ↦{fullShare} V1 m d)
      ∗ ((SparseCore.T d).loc main_v2 ↦{fullShare} W4 m d a2') ∗ (dLoc d ↦{fullShare} V3 m d)) := by
  rw [held_S5, W4_e, W4_s, W4_d]

/-- After the call: the result array at what the workers left. -/
def V5 (d : Dev nD) (f : Buf (Elt F) (oLoc d)) : Valuation τ sig (Elt F) := Function.update (V0 m d) o' f
omit [FloatOps F] in
theorem V5_o (d : Dev nD) (f : Buf (Elt F) (oLoc d)) : V5 m d f o' = f := Function.update_self _ _ _
omit [FloatOps F] in
theorem V5_r (d : Dev nD) (f : Buf (Elt F) (oLoc d)) : V5 m d f r' = m (rLoc d) := Function.update_of_ne (show r' ≠ o' by decide) _ _

/-- The result as a column. -/
def R5 (d : Dev nD) (f : Buf (Elt F) (oLoc d)) : Buf (Elt F) (rLoc d) := shapeCast S320000x1 f shapeCasts_S320000_S320000x1
omit [FloatOps F] in
theorem R5_apply (d : Dev nD) (f : Buf (Elt F) (oLoc d)) (e : Fin 320000) : R5 d f (ix2 e (0 : Fin 1)) = f (ix1 e) := by
  unfold R5
  exact shapeCast_apply (s := S320000) (t := S320000x1) f _ (ix2 e (0 : Fin 1)) (ix1 e) (by
    rw [Shape.rowMajor_val_two, Shape.rowMajor_val_one]; simp)

omit [FloatOps F] in
theorem W5_r (d : Dev nD) (f : Buf (Elt F) (oLoc d)) : (op5 (F := F)).result (V5 m d f) r' = R5 d f := by
  simp (disch := decide) only [StableHlo.reshape_result', V5_o]
  rfl
omit [FloatOps F] in
theorem W5_o (d : Dev nD) (f : Buf (Elt F) (oLoc d)) : (op5 (F := F)).result (V5 m d f) o' = f := by
  simp (disch := decide) only [StableHlo.reshape_result_ne']
  exact V5_o m d f
omit [FloatOps F] in
theorem held_W5 (d : Dev nD) (f : Buf (Elt F) (oLoc d)) :
    (held (T d) S2 ((op5 (F := F)).result (V5 m d f)) : sProp 𝕄) = iprop((oLoc d ↦{fullShare} f) ∗ (rLoc d ↦{fullShare} R5 d f)) := by
  rw [held_S2, W5_o, W5_r]

theorem hS1 : (op1 (F := F)).bufs ⊆ S5 := show ({e', a0'} : Finset (DevRef τ sig)) ⊆ S5 by decide
theorem hS2 : (op2 (F := F)).bufs ⊆ S5 := show ({a0', s'} : Finset (DevRef τ sig)) ⊆ S5 by decide
theorem hS3 : (op3 (F := F)).bufs ⊆ S5 := show ({e', a2'} : Finset (DevRef τ sig)) ⊆ S5 by decide
theorem hS4 : (op4 (F := F)).bufs ⊆ S5 := show ({a2', d'} : Finset (DevRef τ sig)) ⊆ S5 by decide
theorem hS5 : (op5 (F := F)).bufs ⊆ S2 := show ({o', r'} : Finset (DevRef τ sig)) ⊆ S2 by decide

/-! ## What the call takes for the two SparseCores, and what it hands back -/

theorem st_all (Lane : LaneRel F) (d : Dev nD) :
    (bigSep Finset.univ fun c : Fin ((K (F := F)).nCore 0) => (P m Lane).st 0 d c)
      = iprop((bigSep Finset.univ fun c : Fin 2 => xAt m d (qC c.val)) ∗ (sLoc d ↦{fullShare} V1 m d) ∗ (dLoc d ↦{fullShare} V3 m d) ∗ (oLoc d ↦{fullShare} m (oLoc d))) := by
  show (bigSep Finset.univ fun c : Fin 2 => iprop(xAt m d (qC c.val) ∗ bigSep Finset.univ fun s : Fin 16 => restGo m d (wIdx c.val s.val c.isLt s.isLt))) = _
  rw [bigSep_sep']
  unfold restGo
  simp only [bigSep_sep']
  rw [← bigSep_workers (fun w => (sLoc d ↦[pSet w]{fullShare} V1 m d : sProp 𝕄)), ← bigSep_workers (fun w => (dLoc d ↦[pSet w]{fullShare} V3 m d : sProp 𝕄)),
    ← bigSep_workers (fun w => (oLoc d ↦[pSet w]{fullShare} m (oLoc d) : sProp 𝕄)), ← s_workers, ← d_workers, ← o_workers]

theorem dn_all (Lane : LaneRel F) (d : Dev nD) :
    (bigSep Finset.univ fun c : Fin ((K (F := F)).nCore 0) => (P m Lane).dn 0 d c)
      ⊢ iprop((bigSep Finset.univ fun c : Fin 2 => xAt m d (qC c.val)) ∗ (sLoc d ↦{fullShare} V1 m d) ∗ (dLoc d ↦{fullShare} V3 m d)
          ∗ ∃ f, ⌜AllGood m Lane d f⌝ ∗ (oLoc d ↦{fullShare} f)) := by
  show (bigSep Finset.univ fun c : Fin 2 => iprop(xAt m d (qC c.val) ∗ bigSep Finset.univ fun s : Fin 16 => restTd m Lane d (wIdx c.val s.val c.isLt s.isLt))) ⊢ _
  rw [bigSep_sep']
  unfold restTd
  simp only [bigSep_sep']
  rw [← bigSep_workers (fun w => (sLoc d ↦[pSet w]{fullShare} V1 m d : sProp 𝕄)), ← bigSep_workers (fun w => (dLoc d ↦[pSet w]{fullShare} V3 m d : sProp 𝕄)),
    ← bigSep_workers (fun w => (iprop(∃ f, ⌜Good m Lane d w f⌝ ∗ (oLoc d ↦[pSet w]{fullShare} f)) : sProp 𝕄)), ← s_workers, ← d_workers]
  iintro ⟨Hx, Hs, Hd, Ho⟩
  isplitl [Hx]; · iexact Hx
  isplitl [Hs]; · iexact Hs
  isplitl [Hd]; · iexact Hd
  iapply (o_join m Lane d); iexact Ho

/-! ## @main on the TensorCore -/

/-- What @main leaves the claim: the two arguments at their launch contents, the result with every entry in the relation. -/
abbrev FIN (Lane : LaneRel F) (d : Dev nD) : sProp 𝕄 :=
  iprop((xLoc d ↦{fullShare} m (xLoc d)) ∗ (eLoc d ↦{fullShare} m (eLoc d))
    ∗ ∃ f, ⌜∀ e : Fin 320000, Lane (m (xLoc d)) (Cert.Score.node (m (eLoc d)) 0 e) (Cert.Score.node (m (eLoc d)) 1 e) (f (ix2 e (0 : Fin 1)))⌝ ∗ (rLoc d ↦{fullShare} f))

theorem hmain (Lane : LaneRel F) (κ : GSem nD τ sig → ℕ) (d : Dev nD) :
    iprop((K (F := F)).ctx EH (P m Lane) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m Lane d) := by
  unfold SparseCore.Cfg.tcRes
  rw [unscopedBufs_eq]
  simp only [main, wp_bind, wp_pure]
  iintro ⟨#Hctx, Hst, ⟨Hb, ⟨Hx, He, H0, Hs, H2, Hd, Ho, Hr⟩, -, -⟩, -⟩
  -- the two rows of the edge list sliced out and flattened
  iapply (wp_hlo_within 𝒱 (SparseCore.T d) none Set.univ (op := op1) (S := S5) hS1 (V := V0 m d)) $$ [Hb He H0 Hs H2 Hd]
  · isplitl [Hb]; · iexact Hb
    rw [held_S5]
    isplitl [He]; · iexact He
    isplitl [H0]; · iexact H0
    isplitl [Hs]; · iexact Hs
    isplitl [H2]; · iexact H2
    iexact Hd
  iintro ⟨Hb, Hheld⟩
  rw [wp_ret]; imodintro
  iapply (wp_hlo_within 𝒱 (SparseCore.T d) none Set.univ (op := op2) (S := S5) hS2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S5) hS3 (V := (op2 (F := F)).result ((op1 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S5) hS4
    (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  ihave Hh := (Entails.of_eq (held_W4 m d)) $$ Hheld
  icases Hh with ⟨He, H0, Hs, H2, Hd⟩
  -- the call: a read share of the feature table to each SparseCore, the remainder kept here
  ihave Hx' := (Transfers.pointsTo_toks_split fullShare 2) $$ Hx
  icases Hx' with ⟨Hdrop, Htoks⟩
  iapply ((K (F := F)).wp_run (D (F := F)) 𝒱 (EH := EH) (P := P m Lane) κ d 0) $$ [Hst Htoks Hs Hd Ho Hb Hdrop He Hr]
  isplitr; · iexact Hctx
  isplitl [Hst]; · iexact Hst
  isplitl [Htoks Hs Hd Ho]
  · rw [st_all]
    isplitl [Htoks]; · iexact Htoks
    isplitl [Hs]; · iexact Hs
    isplitl [Hd]; · iexact Hd
    iexact Ho
  iintro ⟨Hst, Hdn⟩
  ihave Hdn' := (dn_all m Lane d) $$ Hdn
  icases Hdn' with ⟨Htoks, Hs, Hd, %f4, %hf4, Ho⟩
  ihave Hx := (Transfers.pointsTo_toks_join fullShare 2) $$ [Hdrop Htoks]
  · isplitl [Hdrop]; · iexact Hdrop
    iexact Htoks
  -- the result as a column
  iapply (wp_hlo_within 𝒱 (SparseCore.T d) none Set.univ (op := op5) (S := S2) hS5 (V := V5 m d f4)) $$ [Hb Ho Hr]
  · isplitl [Hb]; · iexact Hb
    rw [held_S2, V5_o, V5_r]
    isplitl [Ho]; · iexact Ho
    iexact Hr
  iintro ⟨Hb, Hheld⟩
  ihave Hh := (Entails.of_eq (held_W5 m d f4)) $$ Hheld
  icases Hh with ⟨Ho, Hr⟩
  rw [wp_ret]; imodintro; imodintro
  isplitl [Hst]; · iexact Hst
  isplitl [Hx]; · iexact Hx
  isplitl [He]; · iexact He
  iexists (R5 d f4)
  isplitr
  · ipureintro
    intro e
    rw [R5_apply]
    have h := hf4 (ix1 e)
    rw [V1_apply, V3_apply] at h
    exact h
  · iexact Hr

/-! ## The final memory -/

def fq (Lane : LaneRel F) (d : Dev nD) (st : Phys nD τ sig (Elt F)) : Prop :=
  st.mem.mem (xLoc d) = m (xLoc d) ∧ st.mem.mem (eLoc d) = m (eLoc d)
    ∧ ∀ e : Fin 320000, Lane (m (xLoc d)) (Cert.Score.node (m (eLoc d)) 0 e) (Cert.Score.node (m (eLoc d)) 1 e) (st.mem.mem (rLoc d) (ix2 e (0 : Fin 1)))

theorem hfin (Lane : LaneRel F) (d : Dev nD) (st : Phys nD τ sig (Elt F)) : iprop(FIN m Lane d ∗ SI st) ⊢ (⌜fq m Lane d st⌝ : sProp 𝕄) := by
  iintro ⟨⟨Hx, He, %f, %hf, Hr⟩, HSI⟩
  ihave H := (persistent_entails_right (SI_pointsTo_agree (st := st) (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := st) (ℓ := eLoc d) (I := Finset.univ) (q := fullShare) (f := m (eLoc d)))) $$ [HSI He]
  · isplitl [HSI] <;> iassumption
  icases H with ⟨%h2, HSI, -⟩
  ihave H := (SI_pointsTo_agree (st := st) (ℓ := rLoc d) (I := Finset.univ) (q := fullShare) (f := f)) $$ [HSI Hr]
  · isplitl [HSI] <;> iassumption
  icases H with %h3
  ipureintro
  refine ⟨funext fun i => h1 i (Finset.mem_univ i), funext fun i => h2 i (Finset.mem_univ i), fun e => ?_⟩
  rw [h3 _ (Finset.mem_univ _)]
  exact hf e

end Cert.Proof.KB

end
-- ==== Proof.LaunchB.lean ====
/-
  The program's run from the statement of one tile's run: from any memory with zero counters whose edge list is in range,
  every weakly fair execution of the device's threads terminates, the two arguments end unchanged, and every entry of the
  result is in the relation to the feature table and the entry's two nodes.
-/
import proofs.«215249_g59107339927817_cont_9to1_m_583_18_alg».proof.Proof.LaunchTileB
import proofs.«215249_g59107339927817_cont_9to1_m_583_18_alg».proof.Proof.LaunchSplitB
import proofs.«215249_g59107339927817_cont_9to1_m_583_18_alg».proof.Proof.LaunchMainB
import Idealize.ShloMosaic.Lib.ValueIdx
import Idealize.ShloMosaic.Lib.Pipeline.Value

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type}

local notation "𝕄" => MT nD τ sig (HIx 1) (Elt F) ℕ UU ℕ

variable [FloatOps F]

/-- The program's run from the statement of one tile's run: every weakly fair execution of the device's threads
    terminates, the two arguments end unchanged, and every entry of the result is in the relation to the feature table
    and the entry's two nodes. -/
theorem kernel_run [∀ e, Nonempty (Elt F e)] (Lane : LaneRel F) (hT : TileRun Lane)
    (m : (ℓ : Loc nD τ sig) → Buf (Elt F) ℓ) (ρ : Dev nD → PrngReg)
    (hr : ∀ c : Dev nD, Cert.Score.InRange (m ((c.tc : Thread nD τ).loc main_arg1))) :
    θ_run (Cert.Kernel.defs (F := F)) (Cert.Kernel.threads (F := F)) ⟨m, fun _ => 0, ρ⟩
      (fun r => ∀ c : Dev nD,
        (∀ e : Fin 320000, Lane (m ((c.tc : Thread nD τ).loc main_arg0))
            (Cert.Score.node (m ((c.tc : Thread nD τ).loc main_arg1)) 0 e) (Cert.Score.node (m ((c.tc : Thread nD τ).loc main_arg1)) 1 e)
            (r.2.mem ((c.tc : Thread nD τ).loc main_v5) (ix2 e (0 : Fin 1))))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m Lane) facts v₀
    (fun q hq => match q with | 0 => nomatch hq)
    (fun q _ => match q with | 0 => tileObl m Lane hT hr)
    (fun q _ => match q with | 0 => SparseCore.Cfg.VecSplit.of_plain (vecSplit m Lane))
    m ρ main (fun _ => iprop(emp)) (FIN m Lane) (u₀ (F := F)) (sep_elim_left.trans (hu₀ m Lane)) (hmain m ρ Lane) (fq m Lane) (hfin m Lane) _
    (fun _ h c => ⟨(h c).2.2, (h c).1, (h c).2.1⟩)

end Cert.Proof.KB

end
-- ==== Proof.GrpI.lean ====
/-
  One trip of each of the three inner loops over the groups of a chunk: sixteen rows of the two gathered row buffers are
  multiplied and added lane-wise into the 16 × 17 scratch, the scratch is read down its columns, and the sixteen sums are
  stored over sixteen entries of the output scratch. The stored vector is `grpSpec` of the two row buffers.
-/
import proofs.«215249_g59107339927817_cont_9to1_m_583_18_alg».proof.Proof.GrpSpecI
import Idealize.ShloMosaic.Lib.ValueIdx

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- Where the `j`-th block of row `r` of group `k` starts, as inner loop 2 computes it. -/
def off2 (k : Fin k0_t2_loop.trips) (j : Fin 8) (r : Fin 16) : Fin 2 → Nat :=
  match j with
  | 0 => k0_off4 k (BitVec.ofNat 32 r.val) | 1 => k0_off5 k (BitVec.ofNat 32 r.val) | 2 => k0_off6 k (BitVec.ofNat 32 r.val)
  | 3 => k0_off7 k (BitVec.ofNat 32 r.val) | 4 => k0_off8 k (BitVec.ofNat 32 r.val) | 5 => k0_off9 k (BitVec.ofNat 32 r.val)
  | 6 => k0_off10 k (BitVec.ofNat 32 r.val) | 7 => k0_off11 k (BitVec.ofNat 32 r.val)
theorem hoff2 (k : Fin k0_t2_loop.trips) : ∀ j r a, off2 k j r a + S1x16.size a ≤ S80x128.size a := by
  intro j r
  match j with
  | 0 => exact k0_off4_inb k r | 1 => exact k0_off5_inb k r | 2 => exact k0_off6_inb k r | 3 => exact k0_off7_inb k r
  | 4 => exact k0_off8_inb k r | 5 => exact k0_off9_inb k r | 6 => exact k0_off10_inb k r | 7 => exact k0_off11_inb k r
/-- Block `j` of row `r` of group `k` starts at row `16 k + r`, column `16 j`. -/
theorem off2_eq (k : Fin k0_t2_loop.trips) (j : Fin 8) (r : Fin 16) : off2 k j r = ![16 * k.val + r.val, 16 * j.val] := by
  match j with
  | 0 => exact k0_off4_eq k r | 1 => exact k0_off5_eq k r | 2 => exact k0_off6_eq k r | 3 => exact k0_off7_eq k r
  | 4 => exact k0_off8_eq k r | 5 => exact k0_off9_eq k r | 6 => exact k0_off10_eq k r | 7 => exact k0_off11_eq k r

/-- Where the `j`-th block of row `r` of group `k` starts, as inner loop 3 computes it. -/
def off3 (k : Fin k0_t3_loop.trips) (j : Fin 8) (r : Fin 16) : Fin 2 → Nat :=
  match j with
  | 0 => k0_off14 k (BitVec.ofNat 32 r.val) | 1 => k0_off15 k (BitVec.ofNat 32 r.val) | 2 => k0_off16 k (BitVec.ofNat 32 r.val)
  | 3 => k0_off17 k (BitVec.ofNat 32 r.val) | 4 => k0_off18 k (BitVec.ofNat 32 r.val) | 5 => k0_off19 k (BitVec.ofNat 32 r.val)
  | 6 => k0_off20 k (BitVec.ofNat 32 r.val) | 7 => k0_off21 k (BitVec.ofNat 32 r.val)
theorem hoff3 (k : Fin k0_t3_loop.trips) : ∀ j r a, off3 k j r a + S1x16.size a ≤ S80x128.size a := by
  intro j r
  match j with
  | 0 => exact k0_off14_inb k r | 1 => exact k0_off15_inb k r | 2 => exact k0_off16_inb k r | 3 => exact k0_off17_inb k r
  | 4 => exact k0_off18_inb k r | 5 => exact k0_off19_inb k r | 6 => exact k0_off20_inb k r | 7 => exact k0_off21_inb k r
/-- Block `j` of row `r` of group `k` starts at row `16 k + r`, column `16 j`. -/
theorem off3_eq (k : Fin k0_t3_loop.trips) (j : Fin 8) (r : Fin 16) : off3 k j r = ![16 * k.val + r.val, 16 * j.val] := by
  match j with
  | 0 => exact k0_off14_eq k r | 1 => exact k0_off15_eq k r | 2 => exact k0_off16_eq k r | 3 => exact k0_off17_eq k r
  | 4 => exact k0_off18_eq k r | 5 => exact k0_off19_eq k r | 6 => exact k0_off20_eq k r | 7 => exact k0_off21_eq k r

/-- Where the `j`-th block of row `r` of group `k` starts, as inner loop 4 computes it. -/
def off4 (k : Fin k0_t4_loop.trips) (j : Fin 8) (r : Fin 16) : Fin 2 → Nat :=
  match j with
  | 0 => k0_off23 k (BitVec.ofNat 32 r.val) | 1 => k0_off24 k (BitVec.ofNat 32 r.val) | 2 => k0_off25 k (BitVec.ofNat 32 r.val)
  | 3 => k0_off26 k (BitVec.ofNat 32 r.val) | 4 => k0_off27 k (BitVec.ofNat 32 r.val) | 5 => k0_off28 k (BitVec.ofNat 32 r.val)
  | 6 => k0_off29 k (BitVec.ofNat 32 r.val) | 7 => k0_off30 k (BitVec.ofNat 32 r.val)
theorem hoff4 (k : Fin k0_t4_loop.trips) : ∀ j r a, off4 k j r a + S1x16.size a ≤ S80x128.size a := by
  intro j r
  match j with
  | 0 => exact k0_off23_inb k r | 1 => exact k0_off24_inb k r | 2 => exact k0_off25_inb k r | 3 => exact k0_off26_inb k r
  | 4 => exact k0_off27_inb k r | 5 => exact k0_off28_inb k r | 6 => exact k0_off29_inb k r | 7 => exact k0_off30_inb k r
/-- Block `j` of row `r` of group `k` starts at row `16 k + r`, column `16 j`. -/
theorem off4_eq (k : Fin k0_t4_loop.trips) (j : Fin 8) (r : Fin 16) : off4 k j r = ![16 * k.val + r.val, 16 * j.val] := by
  match j with
  | 0 => exact k0_off23_eq k r | 1 => exact k0_off24_eq k r | 2 => exact k0_off25_eq k r | 3 => exact k0_off26_eq k r
  | 4 => exact k0_off27_eq k r | 5 => exact k0_off28_eq k r | 6 => exact k0_off29_eq k r | 7 => exact k0_off30_eq k r

/-- One trip of inner loop 2: the group's sixteen scores are written over sixteen entries of the output scratch. -/
def grpPre2 (d : Dev nD) (L : grid0.Coords) (O : CellTallies nD τ sig (HIx 1)) (W : Waits sig (HIx 1))
    (fu : Buf (Elt F) (rU0.view.loc (thr d L))) (fv : Buf (Elt F) (rV0.view.loc (thr d L)))
    (g2 : Buf (Elt F) (oA.view.loc (thr d L))) (g3 : Buf (Elt F) (tB.view.loc (thr d L))) : sProp 𝕄 :=
    iprop((rU0.view.loc (thr d L) ↦{fullShare} fu) ∗ (rV0.view.loc (thr d L) ↦{fullShare} fv)
        ∗ (oA.view.loc (thr d L) ↦{fullShare} g2) ∗ (tB.view.loc (thr d L) ↦{fullShare} g3)
        ∗ owes (thr d L) O W)

set_option maxHeartbeats 8000000 in
theorem grp2 (d : Dev nD) (L : grid0.Coords) (O : CellTallies nD τ sig (HIx 1)) (W : Waits sig (HIx 1))
    (k1 : Fin k0_t1_loop.trips) (k2 : Fin k0_t2_loop.trips) (v30 : BitVec 32) (a21 : BitVec 32)
    (fu : Buf (Elt F) (rU0.view.loc (thr d L))) (fv : Buf (Elt F) (rV0.view.loc (thr d L)))
    (g2 : Buf (Elt F) (oA.view.loc (thr d L))) (g3 : Buf (Elt F) (tB.view.loc (thr d L))) :
    grpPre2 d L O W fu fv g2 g3
      ⊢ wp frame (wpE (defs₀ (F := F)) 𝒱₀ (thr d L) none) Set.univ
          (k0_t2_body (F := F) L xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2
            0#32 1#32 k1 v30 (iota .scVector S16 32 [0] iota_S16_d0_w32_scVector) k2 a21)
          (fun _ => (iprop((rU0.view.loc (thr d L) ↦{fullShare} fu) ∗ (rV0.view.loc (thr d L) ↦{fullShare} fv)
            ∗ (oA.view.loc (thr d L) ↦{fullShare} oA.view.writes (Elt F) g2
                [⟨Rect.unit (s := S10000) (k0_off12 k1 k2) S16.size (k0_off12_inb k1 k2), grpSpec d L rU0 rV0 fu fv (off2 k2) (hoff2 k2) g3⟩])
            ∗ (∃ g3', tB.view.loc (thr d L) ↦{fullShare} g3') ∗ owes (thr d L) O W) : sProp 𝕄)) := by
  unfold k0_t2_body
  simp only [k0_part25_eq_skeleton, k0_part25_skel, k0_part24_eq_skeleton, k0_part24_skel, SparseCore.vectorLoadIdx]
  unfold grpPre2
  iintro ⟨Hu, Hv, Ha, Ht, HO⟩
  sl_exec (disch := exact chk_ok _ (by dsimp only; decide))
  sl_step
  isplitl [Hu]; · iexact Hu
  isplitl [Hv]; · iexact Hv
  isplitl [Ha]; · iexact Ha
  isplitl [Ht]; · iexists _; iexact Ht
  iexact HO

/-- One trip of inner loop 3: the group's sixteen scores are written over sixteen entries of the output scratch. -/
def grpPre3 (d : Dev nD) (L : grid0.Coords) (O : CellTallies nD τ sig (HIx 1)) (W : Waits sig (HIx 1))
    (fu : Buf (Elt F) (rU1.view.loc (thr d L))) (fv : Buf (Elt F) (rV1.view.loc (thr d L)))
    (g2 : Buf (Elt F) (oA.view.loc (thr d L))) (g3 : Buf (Elt F) (tB.view.loc (thr d L))) : sProp 𝕄 :=
    iprop((rU1.view.loc (thr d L) ↦{fullShare} fu) ∗ (rV1.view.loc (thr d L) ↦{fullShare} fv)
        ∗ (oA.view.loc (thr d L) ↦{fullShare} g2) ∗ (tB.view.loc (thr d L) ↦{fullShare} g3)
        ∗ owes (thr d L) O W)

set_option maxHeartbeats 8000000 in
theorem grp3 (d : Dev nD) (L : grid0.Coords) (O : CellTallies nD τ sig (HIx 1)) (W : Waits sig (HIx 1))
    (k1 : Fin k0_t1_loop.trips) (k3 : Fin k0_t3_loop.trips) (v48 : BitVec 32) (a21 : BitVec 32)
    (fu : Buf (Elt F) (rU1.view.loc (thr d L))) (fv : Buf (Elt F) (rV1.view.loc (thr d L)))
    (g2 : Buf (Elt F) (oA.view.loc (thr d L))) (g3 : Buf (Elt F) (tB.view.loc (thr d L))) :
    grpPre3 d L O W fu fv g2 g3
      ⊢ wp frame (wpE (defs₀ (F := F)) 𝒱₀ (thr d L) none) Set.univ
          (k0_t3_body (F := F) L xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2
            k1 v48 (iota .scVector S16 32 [0] iota_S16_d0_w32_scVector) k3 a21)
          (fun _ => (iprop((rU1.view.loc (thr d L) ↦{fullShare} fu) ∗ (rV1.view.loc (thr d L) ↦{fullShare} fv)
            ∗ (oA.view.loc (thr d L) ↦{fullShare} oA.view.writes (Elt F) g2
                [⟨Rect.unit (s := S10000) (k0_off22 k1 k3) S16.size (k0_off22_inb k1 k3), grpSpec d L rU1 rV1 fu fv (off3 k3) (hoff3 k3) g3⟩])
            ∗ (∃ g3', tB.view.loc (thr d L) ↦{fullShare} g3') ∗ owes (thr d L) O W) : sProp 𝕄)) := by
  unfold k0_t3_body
  simp only [k0_part50_eq_skeleton, k0_part50_skel, k0_part49_eq_skeleton, k0_part49_skel, SparseCore.vectorLoadIdx]
  unfold grpPre3
  iintro ⟨Hu, Hv, Ha, Ht, HO⟩
  sl_exec (disch := exact chk_ok _ (by dsimp only; decide))
  sl_step
  isplitl [Hu]; · iexact Hu
  isplitl [Hv]; · iexact Hv
  isplitl [Ha]; · iexact Ha
  isplitl [Ht]; · iexists _; iexact Ht
  iexact HO

/-- One trip of inner loop 4: the group's sixteen scores are written over sixteen entries of the output scratch. -/
def grpPre4 (d : Dev nD) (L : grid0.Coords) (O : CellTallies nD τ sig (HIx 1)) (W : Waits sig (HIx 1))
    (fu : Buf (Elt F) (rU0.view.loc (thr d L))) (fv : Buf (Elt F) (rV0.view.loc (thr d L)))
    (g2 : Buf (Elt F) (oA.view.loc (thr d L))) (g3 : Buf (Elt F) (tB.view.loc (thr d L))) : sProp 𝕄 :=
    iprop((rU0.view.loc (thr d L) ↦{fullShare} fu) ∗ (rV0.view.loc (thr d L) ↦{fullShare} fv)
        ∗ (oA.view.loc (thr d L) ↦{fullShare} g2) ∗ (tB.view.loc (thr d L) ↦{fullShare} g3)
        ∗ owes (thr d L) O W)

set_option maxHeartbeats 8000000 in
theorem grp4 (d : Dev nD) (L : grid0.Coords) (O : CellTallies nD τ sig (HIx 1)) (W : Waits sig (HIx 1))
    (k4 : Fin k0_t4_loop.trips) (a21 : BitVec 32)
    (fu : Buf (Elt F) (rU0.view.loc (thr d L))) (fv : Buf (Elt F) (rV0.view.loc (thr d L)))
    (g2 : Buf (Elt F) (oA.view.loc (thr d L))) (g3 : Buf (Elt F) (tB.view.loc (thr d L))) :
    grpPre4 d L O W fu fv g2 g3
      ⊢ wp frame (wpE (defs₀ (F := F)) 𝒱₀ (thr d L) none) Set.univ
          (k0_t4_body (F := F) L xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2
            (iota .scVector S16 32 [0] iota_S16_d0_w32_scVector) k4 a21)
          (fun _ => (iprop((rU0.view.loc (thr d L) ↦{fullShare} fu) ∗ (rV0.view.loc (thr d L) ↦{fullShare} fv)
            ∗ (oA.view.loc (thr d L) ↦{fullShare} oA.view.writes (Elt F) g2
                [⟨Rect.unit (s := S10000) (k0_off31 k4) S16.size (k0_off31_inb k4), grpSpec d L rU0 rV0 fu fv (off4 k4) (hoff4 k4) g3⟩])
            ∗ (∃ g3', tB.view.loc (thr d L) ↦{fullShare} g3') ∗ owes (thr d L) O W) : sProp 𝕄)) := by
  unfold k0_t4_body
  simp only [k0_part76_eq_skeleton, k0_part76_skel, k0_part75_eq_skeleton, k0_part75_skel, SparseCore.vectorLoadIdx]
  unfold grpPre4
  iintro ⟨Hu, Hv, Ha, Ht, HO⟩
  sl_exec (disch := exact chk_ok _ (by dsimp only; decide))
  sl_step
  isplitl [Hu]; · iexact Hu
  isplitl [Hv]; · iexact Hv
  isplitl [Ha]; · iexact Ha
  isplitl [Ht]; · iexists _; iexact Ht
  iexact HO

end Cert.Proof.KI

end
-- ==== Proof.TileDefsI.lean ====
/-
  Vocabulary of the tile's proof: the two index scratches cut into their 125 chunks of eighty words (a gather lends exactly
  the chunk it reads), the contents the two index copies and a landed gather leave, and the predicate carried through the
  loops: the first `N` entries of the output scratch are done.
-/
import proofs.«215249_g59107339927817_cont_9to1_m_583_18_alg».proof.Proof.GrpI
import proofs.«215249_g59107339927817_cont_9to1_m_583_18_alg».proof.Proof.TileSpecI
import Idealize.ShloMosaic.Lib.ValueIdx

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-! ## The index scratches in chunks of eighty -/

theorem hdivC : 125 ∣ S10000.size 0 := ⟨80, rfl⟩
/-- Chunk `j` of a 10000-entry list: entries `[80 j, 80 j + 80)`. -/
abbrev chunk (j : Fin 125) : Rect S10000 := Rect.part (s := S10000) (a₀ := 0) hdivC j
abbrev chunkSet (j : Fin 125) : Finset S10000.Idx := (chunk j).set

theorem chunks_disjoint : ∀ i ∈ (Finset.univ : Finset (Fin 125)), ∀ j ∈ (Finset.univ : Finset (Fin 125)), i ≠ j → Disjoint (chunkSet i) (chunkSet j) :=
  fun i _ j _ h => Rect.part_disjoint hdivC h
theorem chunks_cover : (Finset.univ : Finset (Fin 125)).biUnion chunkSet = Finset.univ := Rect.biUnion_part hdivC

/-- A slice of eighty entries at `80 j` is chunk `j`. -/
theorem unit_eq_chunk (off : Fin 1 → Nat) (j : Fin 125) (hoff : off = ![80 * j.val]) (h : ∀ a, off a + S80.size a ≤ S10000.size a) :
    Rect.unit (s := S10000) off S80.size h = chunk j := by
  subst hoff
  unfold chunk Rect.part Rect.block
  congr 1 <;> funext a
  · match a with
    | 0 => simp [Shape.partIx, Shape.partSize]; omega
  · match a with
    | 0 => simp [Shape.partSize]

/-! ## The copied index lists -/

/-- What the first copy leaves in the source-index scratch: the tile's slice of the source list. -/
def IUb (d : Dev nD) (L : grid0.Coords) (fs : Buf (Elt F) ((sSl L).view.loc (thr d L))) : Buf (Elt F) (iU.view.loc (thr d L)) :=
  ReadAs.same.apply ((sSl L).view.read (Elt F) fs)
/-- What the second copy leaves in the destination-index scratch: the tile's slice of the destination list. -/
def IVb (d : Dev nD) (L : grid0.Coords) (fd : Buf (Elt F) ((dSl L).view.loc (thr d L))) : Buf (Elt F) (iV.view.loc (thr d L)) :=
  ReadAs.same.apply ((dSl L).view.read (Elt F) fd)

omit [FloatOps F] in
theorem restate {ℓ : Loc nD τ sig} {I : Finset (Idx ℓ)} {q : PosShare TreeShare} {f g : Buf (Elt F) ℓ} (h : f = g) :
    (ℓ ↦[I]{q} f : sProp 𝕄) ⊢ (ℓ ↦[I]{q} g) := by subst h; exact Entails.of_eq rfl

omit [FloatOps F] in
theorem iU_chunks (d : Dev nD) (L : grid0.Coords) (q : PosShare TreeShare) (f : Buf (Elt F) (iU.view.loc (thr d L))) :
    (iU.view.loc (thr d L) ↦{q} f : sProp 𝕄) = bigSep Finset.univ fun j : Fin 125 => iU.view.loc (thr d L) ↦[chunkSet j]{q} f := by
  rw [← pointsTo_biUnion Finset.univ (ℓ := iU.view.loc (thr d L)) chunkSet chunks_disjoint, chunks_cover]; try rfl
omit [FloatOps F] in
theorem iV_chunks (d : Dev nD) (L : grid0.Coords) (q : PosShare TreeShare) (f : Buf (Elt F) (iV.view.loc (thr d L))) :
    (iV.view.loc (thr d L) ↦{q} f : sProp 𝕄) = bigSep Finset.univ fun j : Fin 125 => iV.view.loc (thr d L) ↦[chunkSet j]{q} f := by
  rw [← pointsTo_biUnion Finset.univ (ℓ := iV.view.loc (thr d L)) chunkSet chunks_disjoint, chunks_cover]; try rfl

/-- The eighty-entry slice of the source-index scratch at `off`, as the body slices it. -/
abbrev offU (off : Fin 1 → Nat) (h : ∀ a, off a + S80.size a ≤ S10000.size a) : Memref sig .scVector .vmem S80 .i32 :=
  iU.slice (Rect.unit (s := S10000) off S80.size h) (fun _ => rfl)
abbrev offV (off : Fin 1 → Nat) (h : ∀ a, off a + S80.size a ≤ S10000.size a) : Memref sig .scVector .vmem S80 .i32 :=
  iV.slice (Rect.unit (s := S10000) off S80.size h) (fun _ => rfl)

omit [FloatOps F] in
theorem set_offU (off : Fin 1 → Nat) (h : ∀ a, off a + S80.size a ≤ S10000.size a) (j : Fin 125) (hoff : off = ![80 * j.val]) :
    (offU off h).view.set = chunkSet j := by
  show ((View.whole (cc0_scratch0 : Ref sig .scVector)).slice (Rect.unit (s := S10000) off S80.size h)).set = _
  rw [View.set_slice, unit_eq_chunk off j hoff h]; exact Finset.map_refl
omit [FloatOps F] in
theorem set_offV (off : Fin 1 → Nat) (h : ∀ a, off a + S80.size a ≤ S10000.size a) (j : Fin 125) (hoff : off = ![80 * j.val]) :
    (offV off h).view.set = chunkSet j := by
  show ((View.whole (cc0_scratch1 : Ref sig .scVector)).slice (Rect.unit (s := S10000) off S80.size h)).set = _
  rw [View.set_slice, unit_eq_chunk off j hoff h]; exact Finset.map_refl

omit [FloatOps F] in
theorem pts_offU (d : Dev nD) (L : grid0.Coords) (q : PosShare TreeShare) (off : Fin 1 → Nat) (h : ∀ a, off a + S80.size a ≤ S10000.size a)
    (j : Fin 125) (hoff : off = ![80 * j.val]) (f : Buf (Elt F) (iU.view.loc (thr d L))) :
    ((offU off h).view.loc (thr d L) ↦[(offU off h).view.set]{q} f : sProp 𝕄) = (iU.view.loc (thr d L) ↦[chunkSet j]{q} f) := by
  rw [set_offU off h j hoff]
omit [FloatOps F] in
theorem pts_offV (d : Dev nD) (L : grid0.Coords) (q : PosShare TreeShare) (off : Fin 1 → Nat) (h : ∀ a, off a + S80.size a ≤ S10000.size a)
    (j : Fin 125) (hoff : off = ![80 * j.val]) (f : Buf (Elt F) (iV.view.loc (thr d L))) :
    ((offV off h).view.loc (thr d L) ↦[(offV off h).view.set]{q} f : sProp 𝕄) = (iV.view.loc (thr d L) ↦[chunkSet j]{q} f) := by
  rw [set_offV off h j hoff]

omit [FloatOps F] in
theorem bigSep7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- Every word of a chunk of the copied source list names a row of the feature table. -/
theorem hinU (d : Dev nD) (L : grid0.Coords) (fs : Buf (Elt F) ((sSl L).view.loc (thr d L))) (hs : IdxOK (sSl L) d L fs)
    (off : Fin 1 → Nat) (h : ∀ a, off a + S80.size a ≤ S10000.size a) :
    ∀ x, ((offU off h).view.read (Elt F) (IUb d L fs) x).toNat < S10000x128.size gathers_S10000x128_S80x128.axis :=
  fun x => hs _
theorem hinV (d : Dev nD) (L : grid0.Coords) (fd : Buf (Elt F) ((dSl L).view.loc (thr d L))) (hd : IdxOK (dSl L) d L fd)
    (off : Fin 1 → Nat) (h : ∀ a, off a + S80.size a ≤ S10000.size a) :
    ∀ x, ((offV off h).view.read (Elt F) (IVb d L fd) x).toNat < S10000x128.size gathers_S10000x128_S80x128.axis :=
  fun x => hd _

/-! ## What a landed gather leaves, and when entries of the output scratch are done -/

/-- The feature table as the gathers address it (the whole array). -/
abbrev xsl : Memref sig .scVector .hbm S10000x128 .f32 :=
  xW.slice (Rect.unit (s := S10000x128) ![0, 0] S10000x128.size inb_S10000x128_S10000x128_0_0) (fun _ => rfl)

/-- The eighty rows a gather over the source-index chunk at `off` delivers: row `r` is the feature row the chunk's `r`-th word names. -/
def landU (d : Dev nD) (L : grid0.Coords) (fx : Buf (Elt F) (xW.view.loc (thr d L))) (fs : Buf (Elt F) ((sSl L).view.loc (thr d L)))
    (hs : IdxOK (sSl L) d L fs) (off : Fin 1 → Nat) (h : ∀ a, off a + S80.size a ≤ S10000.size a) : S80x128.Idx → Elt F .f32 :=
  SparseCore.gatherPayload gathers_S10000x128_S80x128 (xsl.view.read (Elt F) fx)
    (SparseCore.rows ((offU off h).view.read (Elt F) (IUb d L fs)) rfl (hinU d L fs hs off h))
def landV (d : Dev nD) (L : grid0.Coords) (fx : Buf (Elt F) (xW.view.loc (thr d L))) (fd : Buf (Elt F) ((dSl L).view.loc (thr d L)))
    (hd : IdxOK (dSl L) d L fd) (off : Fin 1 → Nat) (h : ∀ a, off a + S80.size a ≤ S10000.size a) : S80x128.Idx → Elt F .f32 :=
  SparseCore.gatherPayload gathers_S10000x128_S80x128 (xsl.view.read (Elt F) fx)
    (SparseCore.rows ((offV off h).view.read (Elt F) (IVb d L fd)) rfl (hinV d L fd hd off h))

/-- The source node and the destination node of the tile's `j`-th edge. -/
def nU (d : Dev nD) (L : grid0.Coords) (fs : Buf (Elt F) ((sSl L).view.loc (thr d L))) (j : Fin 10000) : Fin 10000 :=
  nodeOf ((sSl L).view.read (Elt F) fs (ix1 j))
def nV (d : Dev nD) (L : grid0.Coords) (fd : Buf (Elt F) ((dSl L).view.loc (thr d L))) (j : Fin 10000) : Fin 10000 :=
  nodeOf ((dSl L).view.read (Elt F) fd (ix1 j))

/-- Row `r` of a row buffer holds the feature row of the source node of edge `80 c + r` (chunk `c` has landed in it). -/
def RowsU (d : Dev nD) (L : grid0.Coords) (fx : Buf (Elt F) (xW.view.loc (thr d L))) (fs : Buf (Elt F) ((sSl L).view.loc (thr d L)))
    (mm : Memref sig .scVector .vmem S80x128 .f32) (fu : Buf (Elt F) (mm.view.loc (thr d L))) (c : Nat) : Prop :=
  ∀ (r : Fin 80) (hj : 80 * c + r.val < 10000) (k : Fin 128),
    mm.view.read (Elt F) fu (ix2 r k) = xW.view.read (Elt F) fx (ix2 (nU d L fs ⟨80 * c + r.val, hj⟩) k)
def RowsV (d : Dev nD) (L : grid0.Coords) (fx : Buf (Elt F) (xW.view.loc (thr d L))) (fd : Buf (Elt F) ((dSl L).view.loc (thr d L)))
    (mm : Memref sig .scVector .vmem S80x128 .f32) (fv : Buf (Elt F) (mm.view.loc (thr d L))) (c : Nat) : Prop :=
  ∀ (r : Fin 80) (hj : 80 * c + r.val < 10000) (k : Fin 128),
    mm.view.read (Elt F) fv (ix2 r k) = xW.view.read (Elt F) fx (ix2 (nV d L fd ⟨80 * c + r.val, hj⟩) k)

/-- The first `N` entries of the output scratch are in the relation to the table and their edges' nodes. -/
def Done (Lane : LaneRel F) (d : Dev nD) (L : grid0.Coords) (fx : Buf (Elt F) (xW.view.loc (thr d L)))
    (fs : Buf (Elt F) ((sSl L).view.loc (thr d L))) (fd : Buf (Elt F) ((dSl L).view.loc (thr d L)))
    (f : Buf (Elt F) (oA.view.loc (thr d L))) (N : Nat) : Prop :=
  ∀ j : Fin 10000, j.val < N → Lane (xW.view.read (Elt F) fx) (nU d L fs j) (nV d L fd j) (oA.view.read (Elt F) f (ix1 j))

end Cert.Proof.KI

end
-- ==== Proof.TilePureDone.lean ====
/-
  The output scratch's progress predicate under one store of sixteen entries.
-/
import proofs.«215249_g59107339927817_cont_9to1_m_583_18_alg».proof.Proof.TileDefsI
import Idealize.ShloMosaic.Lib.Writes

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- Sixteen more entries are done once the sixteen written at `N` are in the relation: an entry below `N` is outside the
    written block and keeps its value; entry `N + l` is the block's `l`-th. -/
theorem done_step (Lane : LaneRel F) (d : Dev nD) (L : grid0.Coords) (fx : Buf (Elt F) (xW.view.loc (thr d L)))
    (fs : Buf (Elt F) ((sSl L).view.loc (thr d L))) (fd : Buf (Elt F) ((dSl L).view.loc (thr d L)))
    (f : Buf (Elt F) (oA.view.loc (thr d L))) (N : Nat) (hN : N + 16 ≤ 10000)
    (off : Fin 1 → Nat) (h : ∀ a, off a + S16.size a ≤ S10000.size a) (hoff : off = ![N]) (v : Vec F S16 .f32)
    (hD : Done Lane d L fx fs fd f N)
    (hv : ∀ l : Fin 16, ∀ hj : N + l.val < 10000, Lane (xW.view.read (Elt F) fx) (nU d L fs ⟨N + l.val, hj⟩) (nV d L fd ⟨N + l.val, hj⟩) (v (ix1 l))) :
    Done Lane d L fx fs fd (oA.view.writes (Elt F) f [⟨Rect.unit (s := S10000) off S16.size h, v⟩]) (N + 16) := by
  subst hoff
  intro j hj
  by_cases hlt : j.val < N
  · have e : oA.view.read (Elt F) (oA.view.writes (Elt F) f [⟨Rect.unit (s := S10000) ![N] S16.size h, v⟩]) (ix1 j)
        = oA.view.read (Elt F) f (ix1 j) := by
      refine View.read_writes_apply_of_forall_not_mem oA.view f (ix1 j) _ (fun p hp hm => ?_)
      obtain rfl := List.mem_singleton.1 hp
      have h0 := ((Rect.mem_set_unit (s := S10000) (off := ![N]) (size := S16.size) (inb := h)).1 hm) 0
      have h1 : N ≤ j.val := h0.1
      omega
    rw [e]
    exact hD j hlt
  · have hl : j.val - N < 16 := by omega
    have hx : (Rect.unit (s := S10000) ![N] S16.size h).emb (ix1 (⟨j.val - N, hl⟩ : Fin 16)) = ix1 j := by
      funext a
      refine Fin.ext ?_
      match a with
      | ⟨0, _⟩ => show N + 1 * (j.val - N) = j.val; omega
    have e : oA.view.read (Elt F) (oA.view.writes (Elt F) f [⟨Rect.unit (s := S10000) ![N] S16.size h, v⟩]) (ix1 j)
        = v (ix1 (⟨j.val - N, hl⟩ : Fin 16)) := by
      rw [← hx]
      exact View.read_writes_cons_emb oA.view f (Rect.unit (s := S10000) ![N] S16.size h) v [] (ix1 (⟨j.val - N, hl⟩ : Fin 16))
    rw [e]
    have hjj : (⟨N + (⟨j.val - N, hl⟩ : Fin 16).val, by show N + (j.val - N) < 10000; omega⟩ : Fin 10000) = j :=
      Fin.ext (by show N + (j.val - N) = j.val; omega)
    have := hv ⟨j.val - N, hl⟩ (by show N + (j.val - N) < 10000; omega)
    rw [hjj] at this
    exact this

end Cert.Proof.KI
end
-- ==== Proof.TilePureRows.lean ====
/-
  What a landed gather leaves in a row buffer, read at an index: row r is the feature row of the node the chunk's r-th
  word names, and that word is word 80 c + r of the tile's slice of the index list.
-/
import proofs.«215249_g59107339927817_cont_9to1_m_583_18_alg».proof.Proof.TileDefsI
import Idealize.ShloMosaic.Lib.Writes

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- A landed gather read at (r, k): the table at the row its `r`-th word names, column `k`. -/
theorem land_apply (X : S10000x128.Idx → Elt F .f32) (rws : Fin 80 → Fin 10000) (r : Fin 80) (k : Fin 128) :
    SparseCore.gatherPayload gathers_S10000x128_S80x128 X rws (ix2 r k) = X (ix2 (rws r) k) := by
  unfold SparseCore.gatherPayload
  refine congrArg X (funext fun b => Fin.ext ?_)
  match b with
  | ⟨0, _⟩ => rfl
  | ⟨1, _⟩ => rfl

/-- The feature table read through the slice the gathers address is the table. -/
theorem xsl_read (d : Dev nD) (L : grid0.Coords) (fx : Buf (Elt F) (xW.view.loc (thr d L))) (y : S10000x128.Idx) :
    xsl.view.read (Elt F) fx y = xW.view.read (Elt F) fx y := by
  show xW.view.read (Elt F) fx ((Rect.unit (s := S10000x128) ![0, 0] S10000x128.size inb_S10000x128_S10000x128_0_0).emb y) = _
  refine congrArg (xW.view.read (Elt F) fx) (funext fun a => Fin.ext ?_)
  match a with
  | ⟨0, _⟩ => show 0 + 1 * (y 0).val = (y 0).val; omega
  | ⟨1, _⟩ => show 0 + 1 * (y 1).val = (y 1).val; omega

/-- Position `n` of an eighty-entry list in row-major order is its index `n`. -/
theorem rowMajor_symm_S80 (r : Fin 80) (h : S80.numel = 80) : S80.rowMajor.symm (r.cast h.symm) = ix1 r :=
  (Equiv.symm_apply_eq _).2 (Fin.ext (by rw [Shape.rowMajor_val_one]; rfl))

/-- Word `r` of the chunk of the copied source list at `80 c` is word `80 c + r` of the tile's slice of the source list. -/
theorem offU_read (d : Dev nD) (L : grid0.Coords) (fs : Buf (Elt F) ((sSl L).view.loc (thr d L)))
    (off : Fin 1 → Nat) (h : ∀ a, off a + S80.size a ≤ S10000.size a) (c : Nat) (hoff : off = ![80 * c]) (r : Fin 80) (hj : 80 * c + r.val < 10000) :
    (offU off h).view.read (Elt F) (IUb d L fs) (ix1 r) = (sSl L).view.read (Elt F) fs (ix1 (⟨80 * c + r.val, hj⟩ : Fin 10000)) := by
  subst hoff
  show (sSl L).view.read (Elt F) fs ((Rect.unit (s := S10000) ![80 * c] S80.size h).emb (ix1 r)) = _
  refine congrArg ((sSl L).view.read (Elt F) fs) (funext fun a => Fin.ext ?_)
  match a with
  | ⟨0, _⟩ => show 80 * c + 1 * r.val = 80 * c + r.val; omega
theorem offV_read (d : Dev nD) (L : grid0.Coords) (fd : Buf (Elt F) ((dSl L).view.loc (thr d L)))
    (off : Fin 1 → Nat) (h : ∀ a, off a + S80.size a ≤ S10000.size a) (c : Nat) (hoff : off = ![80 * c]) (r : Fin 80) (hj : 80 * c + r.val < 10000) :
    (offV off h).view.read (Elt F) (IVb d L fd) (ix1 r) = (dSl L).view.read (Elt F) fd (ix1 (⟨80 * c + r.val, hj⟩ : Fin 10000)) := by
  subst hoff
  show (dSl L).view.read (Elt F) fd ((Rect.unit (s := S10000) ![80 * c] S80.size h).emb (ix1 r)) = _
  refine congrArg ((dSl L).view.read (Elt F) fd) (funext fun a => Fin.ext ?_)
  match a with
  | ⟨0, _⟩ => show 80 * c + 1 * r.val = 80 * c + r.val; omega

/-- A word below 10000 names the node of its own value. -/
theorem nodeOf_val (w : BitVec 32) (hw : w.toNat < 10000) : (nodeOf w).val = w.toNat := Nat.mod_eq_of_lt hw

/-- After the gather over the source chunk at `80 c` has landed, row `r` of the row buffer is the feature row of the
    source node of edge `80 c + r`. -/
theorem rows_landU (d : Dev nD) (L : grid0.Coords) (fx : Buf (Elt F) (xW.view.loc (thr d L))) (fs : Buf (Elt F) ((sSl L).view.loc (thr d L)))
    (hs : IdxOK (sSl L) d L fs) (mm : Memref sig .scVector .vmem S80x128 .f32) (g : Buf (Elt F) (mm.view.loc (thr d L)))
    (off : Fin 1 → Nat) (h : ∀ a, off a + S80.size a ≤ S10000.size a) (c : Nat) (hc : c < 125) (hoff : off = ![80 * c]) :
    RowsU d L fx fs mm (mm.view.writes (Elt F) g [⟨Rect.whole S80x128, landU d L fx fs hs off h⟩]) c := by
  intro r hj k
  have e := View.read_writes_cons_emb mm.view g (Rect.whole S80x128) (landU d L fx fs hs off h) [] (ix2 r k)
  rw [Rect.emb_whole_apply] at e
  refine e.trans ?_
  unfold landU
  refine (land_apply _ _ r k).trans ?_
  refine (xsl_read d L fx _).trans ?_
  refine congrArg (xW.view.read (Elt F) fx) (congrArg (fun n : Fin 10000 => ix2 n k) (Fin.ext ?_))
  unfold nU
  rw [nodeOf_val _ (hs _)]
  show ((offU off h).view.read (Elt F) (IUb d L fs) (S80.rowMajor.symm (r.cast _))).toNat = _
  rw [rowMajor_symm_S80 r rfl, offU_read d L fs off h c hoff r hj]

theorem rows_landV (d : Dev nD) (L : grid0.Coords) (fx : Buf (Elt F) (xW.view.loc (thr d L))) (fd : Buf (Elt F) ((dSl L).view.loc (thr d L)))
    (hd : IdxOK (dSl L) d L fd) (mm : Memref sig .scVector .vmem S80x128 .f32) (g : Buf (Elt F) (mm.view.loc (thr d L)))
    (off : Fin 1 → Nat) (h : ∀ a, off a + S80.size a ≤ S10000.size a) (c : Nat) (hc : c < 125) (hoff : off = ![80 * c]) :
    RowsV d L fx fd mm (mm.view.writes (Elt F) g [⟨Rect.whole S80x128, landV d L fx fd hd off h⟩]) c := by
  intro r hj k
  have e := View.read_writes_cons_emb mm.view g (Rect.whole S80x128) (landV d L fx fd hd off h) [] (ix2 r k)
  rw [Rect.emb_whole_apply] at e
  refine e.trans ?_
  unfold landV
  refine (land_apply _ _ r k).trans ?_
  refine (xsl_read d L fx _).trans ?_
  refine congrArg (xW.view.read (Elt F) fx) (congrArg (fun n : Fin 10000 => ix2 n k) (Fin.ext ?_))
  unfold nV
  rw [nodeOf_val _ (hd _)]
  show ((offV off h).view.read (Elt F) (IVb d L fd) (S80.rowMajor.symm (r.cast _))).toNat = _
  rw [rowMajor_symm_S80 r rfl, offV_read d L fd off h c hoff r hj]

end Cert.Proof.KI
end
-- ==== Proof.TilePureGrp.lean ====
/-
  A group's lanes in the lane relation, from the two row buffers holding the landed chunk; and a member taken out of a
  separating product over all indices but one.
-/
import proofs.«215249_g59107339927817_cont_9to1_m_583_18_alg».proof.Proof.TileDefsI

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- A group's lanes are in the relation: lane `l` of group `g` of chunk `c` reads row `16 g + l` of the two row buffers,
    which hold the feature rows of the two nodes of edge `80 c + 16 g + l`. -/
theorem grp_lane (Lane : LaneRel F) (hL : LaneHyp Lane) (d : Dev nD) (L : grid0.Coords) (fx : Buf (Elt F) (xW.view.loc (thr d L)))
    (fs : Buf (Elt F) ((sSl L).view.loc (thr d L))) (fd : Buf (Elt F) ((dSl L).view.loc (thr d L)))
    (mu mv : Memref sig .scVector .vmem S80x128 .f32) (fu : Buf (Elt F) (mu.view.loc (thr d L))) (fv : Buf (Elt F) (mv.view.loc (thr d L)))
    (off : Fin 8 → Fin 16 → Fin 2 → Nat) (hoff : ∀ j r a, off j r a + S1x16.size a ≤ S80x128.size a) (g3 : Buf (Elt F) (tB.view.loc (thr d L)))
    (c g : Nat) (hc : c < 125) (hg : g < 5) (hoffeq : ∀ j r, off j r = ![16 * g + r.val, 16 * j.val])
    (hu : RowsU d L fx fs mu fu c) (hv : RowsV d L fx fd mv fv c) :
    ∀ l : Fin 16, ∀ hj : 80 * c + 16 * g + l.val < 10000,
      Lane (xW.view.read (Elt F) fx) (nU d L fs ⟨80 * c + 16 * g + l.val, hj⟩) (nV d L fd ⟨80 * c + 16 * g + l.val, hj⟩) (grpSpec d L mu mv fu fv off hoff g3 (ix1 l)) := by
  intro l hj
  have hr : 16 * g + l.val < 80 := by have := l.isLt; omega
  have hj' : 80 * c + (16 * g + l.val) < 10000 := by omega
  have hjj : (⟨80 * c + (16 * g + l.val), hj'⟩ : Fin 10000) = ⟨80 * c + 16 * g + l.val, hj⟩ := Fin.ext (by show 80 * c + (16 * g + l.val) = 80 * c + 16 * g + l.val; omega)
  refine hL d L mu mv fu fv off hoff g3 (fun r => (⟨16 * g + r.val, by have := r.isLt; omega⟩ : Fin 80)) hoffeq (xW.view.read (Elt F) fx) _ _ l ?_ ?_
  · intro k
    have := hu ⟨16 * g + l.val, hr⟩ hj' k
    rw [hjj] at this
    exact this
  · intro k
    have := hv ⟨16 * g + l.val, hr⟩ hj' k
    rw [hjj] at this
    exact this

omit [FloatOps F] in
/-- One member taken out of a product over all indices but `b`: the member `a` beside the product over all but `a` and `b`. -/
theorem swap_erase_eq {ι : Type} [DecidableEq ι] [Fintype ι] (Φ : ι → sProp 𝕄) (a b : ι) (hab : a ≠ b) :
    iprop(Φ a ∗ bigSep ((Finset.univ.erase a).erase b) Φ) = bigSep (Finset.univ.erase b) Φ := by
  rw [SparseCore.bigSep_erase' (s := Finset.univ.erase b) (i := a) (Finset.mem_erase.2 ⟨hab, Finset.mem_univ a⟩), Finset.erase_right_comm]

omit [FloatOps F] in
theorem swap_erase {ι : Type} [DecidableEq ι] [Fintype ι] (Φ : ι → sProp 𝕄) (a b : ι) (hab : a ≠ b) :
    iprop(Φ a ∗ bigSep ((Finset.univ.erase a).erase b) Φ) ⊣⊢ bigSep (Finset.univ.erase b) Φ :=
  BiEntails.of_eq (swap_erase_eq Φ a b hab)

omit [FloatOps F] in
theorem swap_erase_in {ι : Type} [DecidableEq ι] [Fintype ι] (Φ : ι → sProp 𝕄) (a b : ι) (hab : a ≠ b) :
    iprop(Φ a ∗ bigSep ((Finset.univ.erase a).erase b) Φ) ⊢ bigSep (Finset.univ.erase b) Φ :=
  Entails.of_eq (swap_erase_eq Φ a b hab)

omit [FloatOps F] in
theorem swap_erase_out {ι : Type} [DecidableEq ι] [Fintype ι] (Φ : ι → sProp 𝕄) (a b : ι) (hab : a ≠ b) :
    bigSep (Finset.univ.erase b) Φ ⊢ iprop(Φ a ∗ bigSep ((Finset.univ.erase a).erase b) Φ) :=
  Entails.of_eq (swap_erase_eq Φ a b hab).symm

end Cert.Proof.KI
end
-- ==== Proof.TilePureI.lean ====
/-
  The pure lemmas of a tile's proof, gathered: the progress predicate under a store, a landed gather's rows, a group's
  lanes, and the separating-product step.
-/
import proofs.«215249_g59107339927817_cont_9to1_m_583_18_alg».proof.Proof.TilePureDone
import proofs.«215249_g59107339927817_cont_9to1_m_583_18_alg».proof.Proof.TilePureRows
import proofs.«215249_g59107339927817_cont_9to1_m_583_18_alg».proof.Proof.TilePureGrp
-- ==== Proof.TileInvI.lean ====
/-
  The invariants of the tile's loops.
-/
import proofs.«215249_g59107339927817_cont_9to1_m_583_18_alg».proof.Proof.TileDefsI
import proofs.«215249_g59107339927817_cont_9to1_m_583_18_alg».proof.Proof.TilePureI
import Idealize.ShloMosaic.Lib.ValueIdx

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- Chunk number `n` (reduced mod 125, so that it is a chunk for every `n`). -/
def ck (n : Nat) : Fin 125 := ⟨n % 125, Nat.mod_lt _ (by decide)⟩

theorem ck_val (n : Nat) (h : n < 125) : (ck n).val = n := Nat.mod_eq_of_lt h
theorem ck_ne (a b : Nat) (ha : a < 125) (hb : b < 125) (hab : a ≠ b) : ck a ≠ ck b :=
  Fin.ne_of_val_ne (by rw [ck_val a ha, ck_val b hb]; exact hab)

/-- What a landed source-row gather hands back: the row buffer at the gathered rows, the index chunk, the lent share of the table. -/
abbrev DU (d : Dev nD) (L : grid0.Coords) (q : PosShare TreeShare) (fx : Buf (Elt F) (xW.view.loc (thr d L))) (fs : Buf (Elt F) ((sSl L).view.loc (thr d L)))
    (hs : IdxOK (sSl L) d L fs) (mm : Memref sig .scVector .vmem S80x128 .f32) (tok : Fin 7) (g : Buf (Elt F) (mm.view.loc (thr d L)))
    (off : Fin 1 → Nat) (h : ∀ a, off a + S80.size a ≤ S10000.size a) : sProp 𝕄 :=
  iprop(((mm.view.loc (thr d L) ↦{fullShare} mm.view.writes (Elt F) g [⟨Rect.whole S80x128, landU d L fx fs hs off h⟩])
      ∗ ((offU off h).view.loc (thr d L) ↦[(offU off h).view.set]{fullShare} IUb d L fs))
    ∗ (xW.view.loc (thr d L) ↦[xsl.view.set]{Transfers.shareTok q 7 tok} fx))
abbrev DV (d : Dev nD) (L : grid0.Coords) (q : PosShare TreeShare) (fx : Buf (Elt F) (xW.view.loc (thr d L))) (fd : Buf (Elt F) ((dSl L).view.loc (thr d L)))
    (hd : IdxOK (dSl L) d L fd) (mm : Memref sig .scVector .vmem S80x128 .f32) (tok : Fin 7) (g : Buf (Elt F) (mm.view.loc (thr d L)))
    (off : Fin 1 → Nat) (h : ∀ a, off a + S80.size a ≤ S10000.size a) : sProp 𝕄 :=
  iprop(((mm.view.loc (thr d L) ↦{fullShare} mm.view.writes (Elt F) g [⟨Rect.whole S80x128, landV d L fx fd hd off h⟩])
      ∗ ((offV off h).view.loc (thr d L) ↦[(offV off h).view.set]{fullShare} IVb d L fd))
    ∗ (xW.view.loc (thr d L) ↦[xsl.view.set]{Transfers.shareTok q 7 tok} fx))

/-- The invariant of a loop over the five groups of a chunk held in the row buffers `mu`, `mv`: the first `base + 16 n` entries done. -/
def Ig (Lane : LaneRel F) (d : Dev nD) (L : grid0.Coords) (fx : Buf (Elt F) (xW.view.loc (thr d L)))
    (fs : Buf (Elt F) ((sSl L).view.loc (thr d L))) (fd : Buf (Elt F) ((dSl L).view.loc (thr d L)))
    (mu mv : Memref sig .scVector .vmem S80x128 .f32) (fu : Buf (Elt F) (mu.view.loc (thr d L))) (fv : Buf (Elt F) (mv.view.loc (thr d L)))
    (base : Nat) (O : CellTallies nD τ sig (HIx 1)) (W : Waits sig (HIx 1)) (n : Nat) (_ : BitVec 32) : sProp 𝕄 :=
  iprop((mu.view.loc (thr d L) ↦{fullShare} fu) ∗ (mv.view.loc (thr d L) ↦{fullShare} fv)
    ∗ (∃ f, (oA.view.loc (thr d L) ↦{fullShare} f) ∗ ⌜Done Lane d L fx fs fd f (base + 16 * n)⌝)
    ∗ (∃ g3, tB.view.loc (thr d L) ↦{fullShare} g3) ∗ ∃ W', ⌜∀ p ∈ W', p ∈ W ∨ p.2 = none⌝ ∗ owes (thr d L) O W')

/-- The invariant of the loop over pairs of chunks, before pair `n`: chunk `2 n` is in flight into slot 0, slot 1 is idle,
    every other index chunk is held, the first `160 n` entries are done. -/
def I1 (Lane : LaneRel F) (d : Dev nD) (L : grid0.Coords) (q : PosShare TreeShare) (O : CellTallies nD τ sig (HIx 1)) (W : Waits sig (HIx 1))
    (fx : Buf (Elt F) (xW.view.loc (thr d L))) (fs : Buf (Elt F) ((sSl L).view.loc (thr d L))) (fd : Buf (Elt F) ((dSl L).view.loc (thr d L)))
    (hs : IdxOK (sSl L) d L fs) (hd : IdxOK (dSl L) d L fd) (n : Nat) (_ : BitVec 32) : sProp 𝕄 :=
  iprop(Transfers.MayWaits (thr d L) (none : HIx 1) O
    ∗ (∃ gu off h, ⌜off = ![160 * n]⌝ ∗ Transfers.Flight countersEmb (thr d L) (SemLoc.dma cc0_scratch6.sem) (default : HIx 1) 327680
        iprop(((rU0.view.loc (thr d L) ↦{fullShare} rU0.view.writes (Elt F) gu [⟨Rect.whole S80x128, landU d L fx fs hs off h⟩])
          ∗ ((offU off h).view.loc (thr d L) ↦[(offU off h).view.set]{fullShare} IUb d L fs))
        ∗ (xW.view.loc (thr d L) ↦[xsl.view.set]{Transfers.shareTok q 7 0} fx)))
    ∗ (xW.view.loc (thr d L) ↦[Finset.univ \ xsl.view.set]{Transfers.shareTok q 7 0} fx)
    ∗ (∃ gv off h, ⌜off = ![160 * n]⌝ ∗ Transfers.Flight countersEmb (thr d L) (SemLoc.dma cc0_scratch7.sem) (default : HIx 1) 327680
        iprop(((rV0.view.loc (thr d L) ↦{fullShare} rV0.view.writes (Elt F) gv [⟨Rect.whole S80x128, landV d L fx fd hd off h⟩])
          ∗ ((offV off h).view.loc (thr d L) ↦[(offV off h).view.set]{fullShare} IVb d L fd))
        ∗ (xW.view.loc (thr d L) ↦[xsl.view.set]{Transfers.shareTok q 7 1} fx)))
    ∗ (xW.view.loc (thr d L) ↦[Finset.univ \ xsl.view.set]{Transfers.shareTok q 7 1} fx)
    ∗ (xW.view.loc (thr d L) ↦{Transfers.shareTok q 7 2} fx) ∗ (xW.view.loc (thr d L) ↦{Transfers.shareTok q 7 3} fx)
    ∗ (∃ g, rU1.view.loc (thr d L) ↦{fullShare} g) ∗ (∃ g, rV1.view.loc (thr d L) ↦{fullShare} g)
    ∗ semVal (thr d L, SemLoc.dma cc0_scratch10.sem) 0 ∗ semVal (thr d L, SemLoc.dma cc0_scratch11.sem) 0
    ∗ (bigSep (Finset.univ.erase (ck (2 * n))) fun j : Fin 125 => iU.view.loc (thr d L) ↦[chunkSet j]{fullShare} IUb d L fs)
    ∗ (bigSep (Finset.univ.erase (ck (2 * n))) fun j : Fin 125 => iV.view.loc (thr d L) ↦[chunkSet j]{fullShare} IVb d L fd)
    ∗ (∃ f, (oA.view.loc (thr d L) ↦{fullShare} f) ∗ ⌜Done Lane d L fx fs fd f (160 * n)⌝)
    ∗ (∃ g3, tB.view.loc (thr d L) ↦{fullShare} g3)
    ∗ ∃ W', ⌜∀ p ∈ W', p ∈ W ∨ p.2 = none⌝ ∗ owes (thr d L) O W')

end Cert.Proof.KI

end
-- ==== Proof.TileI.lean ====
/-
  One tile's run. The tile copies its 10000 source indices and its 10000 destination indices into two scratches, then
  works through 125 chunks of eighty edges with two slots of row buffers: while the rows of chunk `c` (the feature rows of
  the chunk's source nodes in one buffer, of its destination nodes in the other) are being multiplied, the gathers for
  chunk `c + 1` are already in flight into the other slot. Each of the four gathers in flight completes on a semaphore of
  its own, lends exactly the eighty index words it reads and a read share of the feature table, and nothing it reads or
  writes is touched before its wait; so no schedule can change a value. A chunk is five groups of sixteen edges; a group
  writes sixteen scores into the output scratch (`grpSpec`), and the proof carries "the first `N` entries of the output
  scratch are done" through the loops: `N = 160 k` before pair `k`, up to 10000, after which the scratch is copied to the
  tile's slice of the result.
-/
import proofs.«215249_g59107339927817_cont_9to1_m_583_18_alg».proof.Proof.TileInvI
import Idealize.ShloMosaic.Lib.ValueIdx

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- When all 10000 entries of the output scratch are done, the tile's slice of the result, written whole with the scratch's
    contents, has every entry in the relation to the table and its edge's two nodes. -/
theorem out_final (Lane : LaneRel F) (d : Dev nD) (L : grid0.Coords) (fx : Buf (Elt F) (xW.view.loc (thr d L)))
    (fs : Buf (Elt F) ((sSl L).view.loc (thr d L))) (fd : Buf (Elt F) ((dSl L).view.loc (thr d L)))
    (fo : Buf (Elt F) ((oSl L).view.loc (thr d L))) (f5 : Buf (Elt F) (oA.view.loc (thr d L)))
    (hD : Done Lane d L fx fs fd f5 10000) (j : S10000.Idx) :
    Lane (xW.view.read (Elt F) fx) (nodeOf ((sSl L).view.read (Elt F) fs j)) (nodeOf ((dSl L).view.read (Elt F) fd j))
      ((oSl L).view.read (Elt F) ((oSl L).view.writes (Elt F) fo [⟨Rect.whole S10000, ReadAs.same.apply (oA.view.read (Elt F) f5)⟩]) j) := by
  obtain ⟨a, rfl⟩ : ∃ a : Fin 10000, j = ix1 a := ⟨j 0, eq_ix1 j⟩
  have e := View.read_writes_cons_emb (oSl L).view fo (Rect.whole S10000) (ReadAs.same.apply (oA.view.read (Elt F) f5)) [] (ix1 a)
  rw [Rect.emb_whole_apply] at e
  rw [e]
  exact hD a a.isLt

set_option maxHeartbeats 8000000 in
theorem tile_run (Lane : LaneRel F) (hL : LaneHyp Lane) : TileRun Lane := by
  intro d L q O W fx fs fd fo g0 g1 g2 g3 g4 g5 g8 g9 hs hd
  rw [cc0__score_kernel_eq_skeleton]; unfold cc0__score_kernel_skel
  unfold tilePre
  iintro ⟨Hmw, Hx, Hs, Hd, Ho, H0, H1, H2, H3, H4, H5, H8, H9, S6, S7, S10, S11, T0, T1, T2, HO⟩
  -- the two index copies
  sl_exec
  -- the two index scratches hold the tile's slices of the two lists; cut them into their chunks and take chunk 0 of each
  ihave H0 := (restate (g := IUb d L fs) (View.write_whole_univ _ _ _)) $$ H0
  ihave H1 := (restate (g := IVb d L fd) (View.write_whole_univ _ _ _)) $$ H1
  ihave H0 := (Entails.of_eq (iU_chunks d L fullShare _)) $$ H0
  ihave H1 := (Entails.of_eq (iV_chunks d L fullShare _)) $$ H1
  ihave H0 := (Entails.of_eq (SparseCore.bigSep_erase' (Finset.mem_univ (0 : Fin 125)))) $$ H0
  icases H0 with ⟨C0, R0⟩
  ihave H1 := (Entails.of_eq (SparseCore.bigSep_erase' (Finset.mem_univ (0 : Fin 125)))) $$ H1
  icases H1 with ⟨C1, R1⟩
  ihave C0 := (Entails.of_eq (pts_offU d L fullShare ![0] inb_S10000_S80_0 0 rfl _).symm) $$ C0
  ihave C1 := (Entails.of_eq (pts_offV d L fullShare ![0] inb_S10000_S80_0 0 rfl _).symm) $$ C1
  -- the feature table under one read share per gather semaphore
  ihave Hx := (Transfers.pointsTo_toks_split (Ix := HIx 1) (Name := ℕ) (U := UU) (Lvl := ℕ) q 7) $$ Hx
  icases Hx with ⟨Hxr, Hxt⟩
  ihave Hxt := (Entails.of_eq (bigSep7 _)) $$ Hxt
  icases Hxt with ⟨X0, X1, X2, X3, X4, X5, X6⟩
  have hinU0 := hinU d L fs hs
  have hinV0 := hinV d L fd hd
  -- chunk 0 is requested into slot 0
  sl_exec
  sl_for (I1 Lane d L q O W fx fs fd hs hd) $$ [Hmw S6 X0 S7 X1 X2 X3 H8 H9 S10 S11 R0 R1 H2 H3 HO]
  case region =>
    intro k acc
    have hk : k.val < 62 := lt_of_lt_of_le k.isLt k0_t1_abs.2.1
    unfold I1
    iintro ⟨Hmw, ⟨%gu, %offu, %hu, %hoffu, FU⟩, X0, ⟨%gv, %offv, %hv, %hoffv, FV⟩, X1, X2, X3, ⟨%g8', H8⟩, ⟨%g9', H9⟩, S10, S11, R0, R1, ⟨%f, Ha, %hD⟩, ⟨%g3', Ht⟩, %W', %hW', HO⟩
    -- chunk 2k+1 of both lists, in the body's spelling, for the gathers into slot 1
    have hne01 : ck (2 * k.val + 1) ≠ ck (2 * k.val) := ck_ne _ _ (by omega) (by omega) (by omega)
    have eo2 : k0_off2 k = ![80 * (ck (2 * k.val + 1)).val] := by
      rw [k0_off2_eq k, ck_val _ (by omega), show 160 * k.val + 80 = 80 * (2 * k.val + 1) by omega]
    ihave R0 := (Entails.of_eq (SparseCore.bigSep_erase' (Finset.mem_erase.mpr ⟨hne01, Finset.mem_univ _⟩))) $$ R0
    icases R0 with ⟨C0, R0⟩
    ihave R1 := (Entails.of_eq (SparseCore.bigSep_erase' (Finset.mem_erase.mpr ⟨hne01, Finset.mem_univ _⟩))) $$ R1
    icases R1 with ⟨C1, R1⟩
    ihave C0 := (Entails.of_eq (pts_offU d L fullShare (k0_off2 k) (k0_off2_inb k) _ eo2 _).symm) $$ C0
    ihave C1 := (Entails.of_eq (pts_offV d L fullShare (k0_off2 k) (k0_off2_inb k) _ eo2 _).symm) $$ C1
    -- chunk 2k+1 is requested into slot 1; chunk 2k has landed in slot 0
    sl_exec
    -- chunk 2k is back with the other chunks
    have eoffu : offu = ![80 * (ck (2 * k.val)).val] := by
      rw [hoffu, ck_val _ (by omega), show 160 * k.val = 80 * (2 * k.val) by omega]
    have eoffv : offv = ![80 * (ck (2 * k.val)).val] := by
      rw [hoffv, ck_val _ (by omega), show 160 * k.val = 80 * (2 * k.val) by omega]
    ihave C0 := (Entails.of_eq (pts_offU d L fullShare offu hu _ eoffu _)) $$ FU_dst_and
    ihave C1 := (Entails.of_eq (pts_offV d L fullShare offv hv _ eoffv _)) $$ FV_dst_and
    ihave R0 := (swap_erase_in (fun j : Fin 125 => (iU.view.loc (thr d L) ↦[chunkSet j]{fullShare} IUb d L fs : sProp 𝕄)) (ck (2 * k.val)) (ck (2 * k.val + 1)) hne01.symm) $$ [C0 R0]
    · isplitl [C0]; · iexact C0
      iexact R0
    ihave R1 := (swap_erase_in (fun j : Fin 125 => (iV.view.loc (thr d L) ↦[chunkSet j]{fullShare} IVb d L fd : sProp 𝕄)) (ck (2 * k.val)) (ck (2 * k.val + 1)) hne01.symm) $$ [C1 R1]
    · isplitl [C1]; · iexact C1
      iexact R1
    -- slot 0 holds the feature rows of chunk 2k's nodes
    have hRU0 := rows_landU d L fx fs hs rU0 rU0.view.junk offu hu (2 * k.val) (by omega) (by rw [hoffu]; congr 1; omega)
    have hRV0 := rows_landV d L fx fd hd rV0 rV0.view.junk offv hv (2 * k.val) (by omega) (by rw [hoffv]; congr 1; omega)
    have hD0 : Done Lane d L fx fs fd f (80 * (2 * k.val) + 16 * 0) := by
      rw [show 80 * (2 * k.val) + 16 * 0 = 160 * k.val by omega]; exact hD
    -- the five groups of chunk 2k
    sl_for (Ig Lane d L fx fs fd rU0 rV0 (rU0.view.writes (Elt F) rU0.view.junk [⟨Rect.whole S80x128, landU d L fx fs hs offu hu⟩])
        (rV0.view.writes (Elt F) rV0.view.junk [⟨Rect.whole S80x128, landV d L fx fd hd offv hv⟩]) (80 * (2 * k.val)) O W) $$ [FU_dst FV_dst Ha Ht HO]
    case region =>
      intro k2 acc2
      have hk2 : k2.val < 5 := lt_of_lt_of_le k2.isLt k0_t2_abs.2.1
      unfold Ig
      iintro ⟨Hu, Hv, ⟨%f2, Ha, %hD2⟩, ⟨%g3b, Ht⟩, %W2, %hW2, HO⟩
      ihave Hwp := (grp2 d L O W2 k k2 _ acc2 _ _ f2 g3b) $$ [Hu Hv Ha Ht HO]
      · unfold grpPre2
        isplitl [Hu]; · iexact Hu
        isplitl [Hv]; · iexact Hv
        isplitl [Ha]; · iexact Ha
        isplitl [Ht]; · iexact Ht
        iexact HO
      iapply (wp_wand_r frame _ _)
      isplitl [Hwp]; · iexact Hwp
      iintro %_ Hpost
      icases Hpost with ⟨Hu, Hv, Ha, ⟨%g3n, Ht⟩, HO⟩
      isplitl [Hu]; · iexact Hu
      isplitl [Hv]; · iexact Hv
      isplitl [Ha]
      · iexists _; isplitl [Ha]; · iexact Ha
        ipureintro
        rw [show 80 * (2 * k.val) + 16 * (k2.val + 1) = 80 * (2 * k.val) + 16 * k2.val + 16 by omega]
        exact done_step Lane d L fx fs fd f2 (80 * (2 * k.val) + 16 * k2.val) (by omega) _ _
          (by rw [k0_off12_eq]; congr 1; omega) _ hD2
          (fun l hj => grp_lane Lane hL d L fx fs fd rU0 rV0 _ _ (off2 k2) (hoff2 k2) g3b (2 * k.val) k2.val (by omega) hk2
            (fun j r => off2_eq k2 j r) hRU0 hRV0 l hj)
      isplitl [Ht]; · iexists _; iexact Ht
      iexists W2; isplitr
      · ipureintro; exact hW2
      · iexact HO

    · unfold Ig
      isplitl [FU_dst]; · iexact FU_dst
      isplitl [FV_dst]; · iexact FV_dst
      isplitl [Ha]; · iexists f; isplitl [Ha]; · iexact Ha
                      ipureintro; exact hD0
      isplitl [Ht]; · iexists _; iexact Ht
      iexists _; isplitr
      rotate_left
      · iexact HO
      · ipureintro; intro p hp
        rcases Finset.mem_insert.mp hp with rfl | hp
        · exact .inr rfl
        rcases Finset.mem_insert.mp hp with rfl | hp
        · exact .inr rfl
        · exact hW' p hp
    iintro %acc3 HI
    unfold Ig
    icases HI with ⟨FU_dst, FV_dst, ⟨%f3, Ha, %hD3⟩, ⟨%g3c, Ht⟩, %W3, %hW3, HO⟩
    -- chunk 2k+2 of both lists, in the body's spelling, for the gathers into slot 0
    have hne21 : ck (2 * k.val + 2) ≠ ck (2 * k.val + 1) := ck_ne _ _ (by omega) (by omega) (by omega)
    have eo13 : k0_off13 k 2#32 = ![80 * (ck (2 * k.val + 2)).val] :=
      (k0_off13_eq k 1).trans (by rw [ck_val _ (by omega), show 160 * k.val + 80 * ((1 : Fin 2) : ℕ) + 80 = 80 * (2 * k.val + 2) by simp; omega])
    ihave R0 := (Entails.of_eq (SparseCore.bigSep_erase' (Finset.mem_erase.mpr ⟨hne21, Finset.mem_univ _⟩))) $$ R0
    icases R0 with ⟨C0, R0⟩
    ihave R1 := (Entails.of_eq (SparseCore.bigSep_erase' (Finset.mem_erase.mpr ⟨hne21, Finset.mem_univ _⟩))) $$ R1
    icases R1 with ⟨C1, R1⟩
    ihave C0 := (Entails.of_eq (pts_offU d L fullShare (k0_off13 k 2#32) (k0_off13_inb k 1) _ eo13 _).symm) $$ C0
    ihave C1 := (Entails.of_eq (pts_offV d L fullShare (k0_off13 k 2#32) (k0_off13_inb k 1) _ eo13 _).symm) $$ C1
    -- chunk 2k+2 is requested into slot 0; chunk 2k+1 has landed in slot 1
    sl_exec
    -- chunk 2k+1 is back with the other chunks
    ihave C0 := (Entails.of_eq (pts_offU d L fullShare (k0_off2 k) (k0_off2_inb k) _ eo2 _)) $$ C0
    ihave C1 := (Entails.of_eq (pts_offV d L fullShare (k0_off2 k) (k0_off2_inb k) _ eo2 _)) $$ C1
    ihave R0 := (swap_erase_in (fun j : Fin 125 => (iU.view.loc (thr d L) ↦[chunkSet j]{fullShare} IUb d L fs : sProp 𝕄)) (ck (2 * k.val + 1)) (ck (2 * k.val + 2)) hne21.symm) $$ [C0 R0]
    · isplitl [C0]; · iexact C0
      iexact R0
    ihave R1 := (swap_erase_in (fun j : Fin 125 => (iV.view.loc (thr d L) ↦[chunkSet j]{fullShare} IVb d L fd : sProp 𝕄)) (ck (2 * k.val + 1)) (ck (2 * k.val + 2)) hne21.symm) $$ [C1 R1]
    · isplitl [C1]; · iexact C1
      iexact R1
    -- slot 1 holds the feature rows of chunk 2k+1's nodes
    have hRU1 := rows_landU d L fx fs hs rU1 rU1.view.junk (k0_off2 k) (k0_off2_inb k) (2 * k.val + 1) (by omega) (by rw [k0_off2_eq]; congr 1; omega)
    have hRV1 := rows_landV d L fx fd hd rV1 rV1.view.junk (k0_off2 k) (k0_off2_inb k) (2 * k.val + 1) (by omega) (by rw [k0_off2_eq]; congr 1; omega)
    have hD1 : Done Lane d L fx fs fd f3 (80 * (2 * k.val + 1) + 16 * 0) := by
      rw [show 80 * (2 * k.val + 1) + 16 * 0 = 80 * (2 * k.val) + 16 * 5 by omega]; exact hD3
    -- the five groups of chunk 2k+1
    sl_for (Ig Lane d L fx fs fd rU1 rV1 (rU1.view.writes (Elt F) rU1.view.junk [⟨Rect.whole S80x128, landU d L fx fs hs (k0_off2 k) (k0_off2_inb k)⟩])
        (rV1.view.writes (Elt F) rV1.view.junk [⟨Rect.whole S80x128, landV d L fx fd hd (k0_off2 k) (k0_off2_inb k)⟩]) (80 * (2 * k.val + 1)) O W) $$ [H8 H9 Ha Ht HO]
    case region =>
      intro k3 acc2
      have hk2 : k3.val < 5 := lt_of_lt_of_le k3.isLt k0_t3_abs.2.1
      unfold Ig
      iintro ⟨Hu, Hv, ⟨%f2, Ha, %hD2⟩, ⟨%g3b, Ht⟩, %W2, %hW2, HO⟩
      ihave Hwp := (grp3 d L O W2 k k3 _ acc2 _ _ f2 g3b) $$ [Hu Hv Ha Ht HO]
      · unfold grpPre3
        isplitl [Hu]; · iexact Hu
        isplitl [Hv]; · iexact Hv
        isplitl [Ha]; · iexact Ha
        isplitl [Ht]; · iexact Ht
        iexact HO
      iapply (wp_wand_r frame _ _)
      isplitl [Hwp]; · iexact Hwp
      iintro %_ Hpost
      icases Hpost with ⟨Hu, Hv, Ha, ⟨%g3n, Ht⟩, HO⟩
      isplitl [Hu]; · iexact Hu
      isplitl [Hv]; · iexact Hv
      isplitl [Ha]
      · iexists _; isplitl [Ha]; · iexact Ha
        ipureintro
        rw [show 80 * (2 * k.val + 1) + 16 * (k3.val + 1) = 80 * (2 * k.val + 1) + 16 * k3.val + 16 by omega]
        exact done_step Lane d L fx fs fd f2 (80 * (2 * k.val + 1) + 16 * k3.val) (by omega) _ _
          (by rw [k0_off22_eq]; congr 1; omega) _ hD2
          (fun l hj => grp_lane Lane hL d L fx fs fd rU1 rV1 _ _ (off3 k3) (hoff3 k3) g3b (2 * k.val + 1) k3.val (by omega) hk2
            (fun j r => off3_eq k3 j r) hRU1 hRV1 l hj)
      isplitl [Ht]; · iexists _; iexact Ht
      iexists W2; isplitr
      · ipureintro; exact hW2
      · iexact HO

    · unfold Ig
      isplitl [H8]; · iexact H8
      isplitl [H9]; · iexact H9
      isplitl [Ha]; · iexists f3; isplitl [Ha]; · iexact Ha
                      ipureintro; exact hD1
      isplitl [Ht]; · iexists _; iexact Ht
      iexists _; isplitr
      rotate_left
      · iexact HO
      · ipureintro; intro p hp
        rcases Finset.mem_insert.mp hp with rfl | hp
        · exact .inr rfl
        rcases Finset.mem_insert.mp hp with rfl | hp
        · exact .inr rfl
        · exact hW3 p hp
    iintro %acc4 HI
    unfold Ig
    icases HI with ⟨H8, H9, ⟨%f4, Ha, %hD4⟩, ⟨%g3d, Ht⟩, %W4, %hW4, HO⟩
    sl_exec
    sl_step
    -- the invariant before pair k+1
    isplitl [Hmw]; · iexact Hmw
    isplitl [FU]
    · iexists (rU0.view.writes (Elt F) rU0.view.junk [⟨Rect.whole S80x128, landU d L fx fs hs offu hu⟩]), (k0_off13 k 2#32), (k0_off13_inb k 1)
      isplitr
      · ipureintro
        exact (k0_off13_eq k 1).trans (by rw [show 160 * k.val + 80 * ((1 : Fin 2) : ℕ) + 80 = 160 * (k.val + 1) by simp; omega])
      · iexact FU
    isplitl [X0]; · iexact X0
    isplitl [FV]
    · iexists (rV0.view.writes (Elt F) rV0.view.junk [⟨Rect.whole S80x128, landV d L fx fd hd offv hv⟩]), (k0_off13 k 2#32), (k0_off13_inb k 1)
      isplitr
      · ipureintro
        exact (k0_off13_eq k 1).trans (by rw [show 160 * k.val + 80 * ((1 : Fin 2) : ℕ) + 80 = 160 * (k.val + 1) by simp; omega])
      · iexact FV
    isplitl [X1]; · iexact X1
    isplitl [X2]; · iexact X2
    isplitl [X3]; · iexact X3
    isplitl [H8]; · iexists _; iexact H8
    isplitl [H9]; · iexists _; iexact H9
    isplitl [S10]; · iexact S10
    isplitl [S11]; · iexact S11
    isplitl [R0]; · iexact R0
    isplitl [R1]; · iexact R1
    isplitl [Ha]
    · iexists f4; isplitl [Ha]; · iexact Ha
      ipureintro
      rw [show 160 * (k.val + 1) = 80 * (2 * k.val + 1) + 16 * 5 by omega]; exact hD4
    isplitl [Ht]; · iexists _; iexact Ht
    iexists W4; isplitr
    · ipureintro; exact hW4
    · iexact HO

  · -- before the first pair: chunk 0 is in flight into slot 0, nothing is done
    unfold I1
    isplitl [Hmw]; · iexact Hmw
    isplitl [S6]
    · iexists g4, ![0], inb_S10000_S80_0
      isplitr; · ipureintro; rfl
      iexact S6
    isplitl [X0]; · iexact X0
    isplitl [S7]
    · iexists g5, ![0], inb_S10000_S80_0
      isplitr; · ipureintro; rfl
      iexact S7
    isplitl [X1]; · iexact X1
    isplitl [X2]; · iexact X2
    isplitl [X3]; · iexact X3
    isplitl [H8]; · iexists _; iexact H8
    isplitl [H9]; · iexists _; iexact H9
    isplitl [S10]; · iexact S10
    isplitl [S11]; · iexact S11
    isplitl [R0]; · iexact R0
    isplitl [R1]; · iexact R1
    isplitl [H2]
    · iexists g2; isplitl [H2]; · iexact H2
      ipureintro; intro j hj; exact absurd hj (by omega)
    isplitl [H3]; · iexists _; iexact H3
    iexists _; isplitr
    rotate_left
    · iexact HO
    · ipureintro; intro p hp
      rcases Finset.mem_insert.mp hp with rfl | hp
      · exact .inr rfl
      rcases Finset.mem_insert.mp hp with rfl | hp
      · exact .inr rfl
      · exact .inl hp
  -- after the last pair: chunk 124 is in flight into slot 0
  iintro %acc5 HI
  unfold I1
  icases HI with ⟨Hmw, ⟨%gu, %offu, %hu, %hoffu, FU⟩, X0, ⟨%gv, %offv, %hv, %hoffv, FV⟩, X1, X2, X3, ⟨%g8', H8⟩, ⟨%g9', H9⟩, S10, S11, R0, R1, ⟨%f, Ha, %hD⟩, ⟨%g3', Ht⟩, %W', %hW', HO⟩
  have htr : Scf.trips k0_t1_loop.lb k0_t1_loop.ub k0_t1_loop.st = 62 := by decide
  rw [htr] at hoffu hoffv hD
  ihave R0 := (Entails.of_eq (by rw [htr])) $$ R0
  ihave R1 := (Entails.of_eq (by rw [htr])) $$ R1
  sl_exec
  have hRU := rows_landU d L fx fs hs rU0 rU0.view.junk offu hu 124 (by omega) (by rw [hoffu])
  have hRV := rows_landV d L fx fd hd rV0 rV0.view.junk offv hv 124 (by omega) (by rw [hoffv])
  have hD0 : Done Lane d L fx fs fd f (80 * 124 + 16 * 0) := hD
  -- the five groups of the last chunk
  sl_for (Ig Lane d L fx fs fd rU0 rV0 (rU0.view.writes (Elt F) rU0.view.junk [⟨Rect.whole S80x128, landU d L fx fs hs offu hu⟩])
      (rV0.view.writes (Elt F) rV0.view.junk [⟨Rect.whole S80x128, landV d L fx fd hd offv hv⟩]) (80 * 124) O W) $$ [FU_dst FV_dst Ha Ht HO]
  case region =>
    intro k4 acc2
    have hk2 : k4.val < 5 := lt_of_lt_of_le k4.isLt k0_t4_abs.2.1
    unfold Ig
    iintro ⟨Hu, Hv, ⟨%f2, Ha, %hD2⟩, ⟨%g3b, Ht⟩, %W2, %hW2, HO⟩
    ihave Hwp := (grp4 d L O W2 k4 acc2 _ _ f2 g3b) $$ [Hu Hv Ha Ht HO]
    · unfold grpPre4
      isplitl [Hu]; · iexact Hu
      isplitl [Hv]; · iexact Hv
      isplitl [Ha]; · iexact Ha
      isplitl [Ht]; · iexact Ht
      iexact HO
    iapply (wp_wand_r frame _ _)
    isplitl [Hwp]; · iexact Hwp
    iintro %_ Hpost
    icases Hpost with ⟨Hu, Hv, Ha, ⟨%g3n, Ht⟩, HO⟩
    isplitl [Hu]; · iexact Hu
    isplitl [Hv]; · iexact Hv
    isplitl [Ha]
    · iexists _; isplitl [Ha]; · iexact Ha
      ipureintro
      rw [show 80 * (124) + 16 * (k4.val + 1) = 80 * (124) + 16 * k4.val + 16 by omega]
      exact done_step Lane d L fx fs fd f2 (80 * (124) + 16 * k4.val) (by omega) _ _
        (by rw [k0_off31_eq]; congr 1; omega) _ hD2
        (fun l hj => grp_lane Lane hL d L fx fs fd rU0 rV0 _ _ (off4 k4) (hoff4 k4) g3b (124) k4.val (by omega) hk2
          (fun j r => off4_eq k4 j r) hRU hRV l hj)
    isplitl [Ht]; · iexists _; iexact Ht
    iexists W2; isplitr
    · ipureintro; exact hW2
    · iexact HO

  · unfold Ig
    isplitl [FU_dst]; · iexact FU_dst
    isplitl [FV_dst]; · iexact FV_dst
    isplitl [Ha]; · iexists f; isplitl [Ha]; · iexact Ha
                    ipureintro; exact hD0
    isplitl [Ht]; · iexists _; iexact Ht
    iexists _; isplitr
    rotate_left
    · iexact HO
    · ipureintro; intro p hp
      rcases Finset.mem_insert.mp hp with rfl | hp
      · exact .inr rfl
      rcases Finset.mem_insert.mp hp with rfl | hp
      · exact .inr rfl
      · exact hW' p hp
  iintro %acc6 HI
  unfold Ig
  icases HI with ⟨FU_dst, FV_dst, ⟨%f5, Ha, %hD5⟩, ⟨%g3e, Ht⟩, %W5, %hW5, HO⟩
  -- the output scratch is copied to the tile's slice of the result
  sl_exec
  sl_step
  -- the feature table's read tokens rejoined
  ihave Hxt := (Entails.of_eq (bigSep7 (fun i : Fin 7 => (xW.view.loc (thr d L) ↦{Transfers.shareTok q 7 i} fx : sProp 𝕄))).symm) $$ [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  ihave Hx := (Transfers.pointsTo_toks_join (Ix := HIx 1) (Name := ℕ) (U := UU) (Lvl := ℕ) q 7) $$ [Hxr Hxt]
  · isplitl [Hxr]; · iexact Hxr
    iexact Hxt
  -- the index scratches whole again
  have hc124 : (ck (2 * 62)).val = 124 := ck_val _ (by omega)
  have eoffu : offu = ![80 * (ck (2 * 62)).val] := by rw [hoffu, hc124]
  have eoffv : offv = ![80 * (ck (2 * 62)).val] := by rw [hoffv, hc124]
  ihave C0 := (Entails.of_eq (pts_offU d L fullShare offu hu _ eoffu _)) $$ FU_dst_and
  ihave C1 := (Entails.of_eq (pts_offV d L fullShare offv hv _ eoffv _)) $$ FV_dst_and
  ihave R0 := (Entails.of_eq (SparseCore.bigSep_erase' (Φ := (fun j : Fin 125 => (iU.view.loc (thr d L) ↦[chunkSet j]{fullShare} IUb d L fs : sProp 𝕄))) (Finset.mem_univ (ck (2 * 62)))).symm) $$ [C0 R0]
  · isplitl [C0]; · iexact C0
    iexact R0
  ihave R1 := (Entails.of_eq (SparseCore.bigSep_erase' (Φ := (fun j : Fin 125 => (iV.view.loc (thr d L) ↦[chunkSet j]{fullShare} IVb d L fd : sProp 𝕄))) (Finset.mem_univ (ck (2 * 62)))).symm) $$ [C1 R1]
  · isplitl [C1]; · iexact C1
    iexact R1
  ihave H0 := (Entails.of_eq (iU_chunks d L fullShare _).symm) $$ R0
  ihave H1 := (Entails.of_eq (iV_chunks d L fullShare _).symm) $$ R1
  unfold tilePost
  isplitl [Hx]; · iexact Hx
  isplitl [Hs]; · iexact Hs
  isplitl [Hd]; · iexact Hd
  isplitl [Ho]
  · iexists _; isplitl [Ho]; · iexact Ho
    ipureintro
    exact out_final Lane d L fx fs fd fo f5 hD5
  isplitl [H0]; · iexists _; iexact H0
  isplitl [H1]; · iexists _; iexact H1
  isplitl [Ha]; · iexists _; iexact Ha
  isplitl [Ht]; · iexists _; iexact Ht
  isplitl [FU_dst]; · iexists _; iexact FU_dst
  isplitl [FV_dst]; · iexists _; iexact FV_dst
  isplitl [H8]; · iexists _; iexact H8
  isplitl [H9]; · iexists _; iexact H9
  isplitl [FU]; · iexact FU
  isplitl [FV]; · iexact FV
  isplitl [S10]; · iexact S10
  isplitl [S11]; · iexact S11
  isplitl [T0]; · iexact T0
  isplitl [T1]; · iexact T1
  isplitl [T2]; · iexact T2
  iexists _; isplitr
  rotate_left
  · iexact HO
  · ipureintro; intro p hp
    rcases Finset.mem_insert.mp hp with rfl | hp
    · exact .inr rfl
    · exact hW5 p hp

end Cert.Proof.KI

end
-- ==== Proof.GrpB.lean ====
/-
  One trip of each of the three inner loops over the groups of a chunk: sixteen rows of the two gathered row buffers are
  multiplied and added lane-wise into the 16 × 17 scratch, the scratch is read down its columns, and the sixteen sums are
  stored over sixteen entries of the output scratch. The stored vector is `grpSpec` of the two row buffers.
-/
import proofs.«215249_g59107339927817_cont_9to1_m_583_18_alg».proof.Proof.GrpSpecB
import Idealize.ShloMosaic.Lib.ValueIdx

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- Where the `j`-th block of row `r` of group `k` starts, as inner loop 2 computes it. -/
def off2 (k : Fin k0_t2_loop.trips) (j : Fin 8) (r : Fin 16) : Fin 2 → Nat :=
  match j with
  | 0 => k0_off4 k (BitVec.ofNat 32 r.val) | 1 => k0_off5 k (BitVec.ofNat 32 r.val) | 2 => k0_off6 k (BitVec.ofNat 32 r.val)
  | 3 => k0_off7 k (BitVec.ofNat 32 r.val) | 4 => k0_off8 k (BitVec.ofNat 32 r.val) | 5 => k0_off9 k (BitVec.ofNat 32 r.val)
  | 6 => k0_off10 k (BitVec.ofNat 32 r.val) | 7 => k0_off11 k (BitVec.ofNat 32 r.val)
theorem hoff2 (k : Fin k0_t2_loop.trips) : ∀ j r a, off2 k j r a + S1x16.size a ≤ S80x128.size a := by
  intro j r
  match j with
  | 0 => exact k0_off4_inb k r | 1 => exact k0_off5_inb k r | 2 => exact k0_off6_inb k r | 3 => exact k0_off7_inb k r
  | 4 => exact k0_off8_inb k r | 5 => exact k0_off9_inb k r | 6 => exact k0_off10_inb k r | 7 => exact k0_off11_inb k r
/-- Block `j` of row `r` of group `k` starts at row `16 k + r`, column `16 j`. -/
theorem off2_eq (k : Fin k0_t2_loop.trips) (j : Fin 8) (r : Fin 16) : off2 k j r = ![16 * k.val + r.val, 16 * j.val] := by
  match j with
  | 0 => exact k0_off4_eq k r | 1 => exact k0_off5_eq k r | 2 => exact k0_off6_eq k r | 3 => exact k0_off7_eq k r
  | 4 => exact k0_off8_eq k r | 5 => exact k0_off9_eq k r | 6 => exact k0_off10_eq k r | 7 => exact k0_off11_eq k r

/-- Where the `j`-th block of row `r` of group `k` starts, as inner loop 3 computes it. -/
def off3 (k : Fin k0_t3_loop.trips) (j : Fin 8) (r : Fin 16) : Fin 2 → Nat :=
  match j with
  | 0 => k0_off14 k (BitVec.ofNat 32 r.val) | 1 => k0_off15 k (BitVec.ofNat 32 r.val) | 2 => k0_off16 k (BitVec.ofNat 32 r.val)
  | 3 => k0_off17 k (BitVec.ofNat 32 r.val) | 4 => k0_off18 k (BitVec.ofNat 32 r.val) | 5 => k0_off19 k (BitVec.ofNat 32 r.val)
  | 6 => k0_off20 k (BitVec.ofNat 32 r.val) | 7 => k0_off21 k (BitVec.ofNat 32 r.val)
theorem hoff3 (k : Fin k0_t3_loop.trips) : ∀ j r a, off3 k j r a + S1x16.size a ≤ S80x128.size a := by
  intro j r
  match j with
  | 0 => exact k0_off14_inb k r | 1 => exact k0_off15_inb k r | 2 => exact k0_off16_inb k r | 3 => exact k0_off17_inb k r
  | 4 => exact k0_off18_inb k r | 5 => exact k0_off19_inb k r | 6 => exact k0_off20_inb k r | 7 => exact k0_off21_inb k r
/-- Block `j` of row `r` of group `k` starts at row `16 k + r`, column `16 j`. -/
theorem off3_eq (k : Fin k0_t3_loop.trips) (j : Fin 8) (r : Fin 16) : off3 k j r = ![16 * k.val + r.val, 16 * j.val] := by
  match j with
  | 0 => exact k0_off14_eq k r | 1 => exact k0_off15_eq k r | 2 => exact k0_off16_eq k r | 3 => exact k0_off17_eq k r
  | 4 => exact k0_off18_eq k r | 5 => exact k0_off19_eq k r | 6 => exact k0_off20_eq k r | 7 => exact k0_off21_eq k r

/-- Where the `j`-th block of row `r` of group `k` starts, as inner loop 4 computes it. -/
def off4 (k : Fin k0_t4_loop.trips) (j : Fin 8) (r : Fin 16) : Fin 2 → Nat :=
  match j with
  | 0 => k0_off23 k (BitVec.ofNat 32 r.val) | 1 => k0_off24 k (BitVec.ofNat 32 r.val) | 2 => k0_off25 k (BitVec.ofNat 32 r.val)
  | 3 => k0_off26 k (BitVec.ofNat 32 r.val) | 4 => k0_off27 k (BitVec.ofNat 32 r.val) | 5 => k0_off28 k (BitVec.ofNat 32 r.val)
  | 6 => k0_off29 k (BitVec.ofNat 32 r.val) | 7 => k0_off30 k (BitVec.ofNat 32 r.val)
theorem hoff4 (k : Fin k0_t4_loop.trips) : ∀ j r a, off4 k j r a + S1x16.size a ≤ S80x128.size a := by
  intro j r
  match j with
  | 0 => exact k0_off23_inb k r | 1 => exact k0_off24_inb k r | 2 => exact k0_off25_inb k r | 3 => exact k0_off26_inb k r
  | 4 => exact k0_off27_inb k r | 5 => exact k0_off28_inb k r | 6 => exact k0_off29_inb k r | 7 => exact k0_off30_inb k r
/-- Block `j` of row `r` of group `k` starts at row `16 k + r`, column `16 j`. -/
theorem off4_eq (k : Fin k0_t4_loop.trips) (j : Fin 8) (r : Fin 16) : off4 k j r = ![16 * k.val + r.val, 16 * j.val] := by
  match j with
  | 0 => exact k0_off23_eq k r | 1 => exact k0_off24_eq k r | 2 => exact k0_off25_eq k r | 3 => exact k0_off26_eq k r
  | 4 => exact k0_off27_eq k r | 5 => exact k0_off28_eq k r | 6 => exact k0_off29_eq k r | 7 => exact k0_off30_eq k r

/-- One trip of inner loop 2: the group's sixteen scores are written over sixteen entries of the output scratch. -/
def grpPre2 (d : Dev nD) (L : grid0.Coords) (O : CellTallies nD τ sig (HIx 1)) (W : Waits sig (HIx 1))
    (fu : Buf (Elt F) (rU0.view.loc (thr d L))) (fv : Buf (Elt F) (rV0.view.loc (thr d L)))
    (g2 : Buf (Elt F) (oA.view.loc (thr d L))) (g3 : Buf (Elt F) (tB.view.loc (thr d L))) : sProp 𝕄 :=
    iprop((rU0.view.loc (thr d L) ↦{fullShare} fu) ∗ (rV0.view.loc (thr d L) ↦{fullShare} fv)
        ∗ (oA.view.loc (thr d L) ↦{fullShare} g2) ∗ (tB.view.loc (thr d L) ↦{fullShare} g3)
        ∗ owes (thr d L) O W)

set_option maxHeartbeats 8000000 in
theorem grp2 (d : Dev nD) (L : grid0.Coords) (O : CellTallies nD τ sig (HIx 1)) (W : Waits sig (HIx 1))
    (k1 : Fin k0_t1_loop.trips) (k2 : Fin k0_t2_loop.trips) (v30 : BitVec 32) (a21 : BitVec 32)
    (fu : Buf (Elt F) (rU0.view.loc (thr d L))) (fv : Buf (Elt F) (rV0.view.loc (thr d L)))
    (g2 : Buf (Elt F) (oA.view.loc (thr d L))) (g3 : Buf (Elt F) (tB.view.loc (thr d L))) :
    grpPre2 d L O W fu fv g2 g3
      ⊢ wp frame (wpE (defs₀ (F := F)) 𝒱₀ (thr d L) none) Set.univ
          (k0_t2_body (F := F) L xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2
            0#32 1#32 k1 v30 (iota .scVector S16 32 [0] iota_S16_d0_w32_scVector) k2 a21)
          (fun _ => (iprop((rU0.view.loc (thr d L) ↦{fullShare} fu) ∗ (rV0.view.loc (thr d L) ↦{fullShare} fv)
            ∗ (oA.view.loc (thr d L) ↦{fullShare} oA.view.writes (Elt F) g2
                [⟨Rect.unit (s := S10000) (k0_off12 k1 k2) S16.size (k0_off12_inb k1 k2), grpSpec d L rU0 rV0 fu fv (off2 k2) (hoff2 k2) g3⟩])
            ∗ (∃ g3', tB.view.loc (thr d L) ↦{fullShare} g3') ∗ owes (thr d L) O W) : sProp 𝕄)) := by
  unfold k0_t2_body
  simp only [k0_part25_eq_skeleton, k0_part25_skel, k0_part24_eq_skeleton, k0_part24_skel, SparseCore.vectorLoadIdx]
  unfold grpPre2
  iintro ⟨Hu, Hv, Ha, Ht, HO⟩
  sl_exec (disch := exact chk_ok _ (by dsimp only; decide))
  sl_step
  isplitl [Hu]; · iexact Hu
  isplitl [Hv]; · iexact Hv
  isplitl [Ha]; · iexact Ha
  isplitl [Ht]; · iexists _; iexact Ht
  iexact HO

/-- One trip of inner loop 3: the group's sixteen scores are written over sixteen entries of the output scratch. -/
def grpPre3 (d : Dev nD) (L : grid0.Coords) (O : CellTallies nD τ sig (HIx 1)) (W : Waits sig (HIx 1))
    (fu : Buf (Elt F) (rU1.view.loc (thr d L))) (fv : Buf (Elt F) (rV1.view.loc (thr d L)))
    (g2 : Buf (Elt F) (oA.view.loc (thr d L))) (g3 : Buf (Elt F) (tB.view.loc (thr d L))) : sProp 𝕄 :=
    iprop((rU1.view.loc (thr d L) ↦{fullShare} fu) ∗ (rV1.view.loc (thr d L) ↦{fullShare} fv)
        ∗ (oA.view.loc (thr d L) ↦{fullShare} g2) ∗ (tB.view.loc (thr d L) ↦{fullShare} g3)
        ∗ owes (thr d L) O W)

set_option maxHeartbeats 8000000 in
theorem grp3 (d : Dev nD) (L : grid0.Coords) (O : CellTallies nD τ sig (HIx 1)) (W : Waits sig (HIx 1))
    (k1 : Fin k0_t1_loop.trips) (k3 : Fin k0_t3_loop.trips) (v48 : BitVec 32) (a21 : BitVec 32)
    (fu : Buf (Elt F) (rU1.view.loc (thr d L))) (fv : Buf (Elt F) (rV1.view.loc (thr d L)))
    (g2 : Buf (Elt F) (oA.view.loc (thr d L))) (g3 : Buf (Elt F) (tB.view.loc (thr d L))) :
    grpPre3 d L O W fu fv g2 g3
      ⊢ wp frame (wpE (defs₀ (F := F)) 𝒱₀ (thr d L) none) Set.univ
          (k0_t3_body (F := F) L xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2
            k1 v48 (iota .scVector S16 32 [0] iota_S16_d0_w32_scVector) k3 a21)
          (fun _ => (iprop((rU1.view.loc (thr d L) ↦{fullShare} fu) ∗ (rV1.view.loc (thr d L) ↦{fullShare} fv)
            ∗ (oA.view.loc (thr d L) ↦{fullShare} oA.view.writes (Elt F) g2
                [⟨Rect.unit (s := S10000) (k0_off22 k1 k3) S16.size (k0_off22_inb k1 k3), grpSpec d L rU1 rV1 fu fv (off3 k3) (hoff3 k3) g3⟩])
            ∗ (∃ g3', tB.view.loc (thr d L) ↦{fullShare} g3') ∗ owes (thr d L) O W) : sProp 𝕄)) := by
  unfold k0_t3_body
  simp only [k0_part50_eq_skeleton, k0_part50_skel, k0_part49_eq_skeleton, k0_part49_skel, SparseCore.vectorLoadIdx]
  unfold grpPre3
  iintro ⟨Hu, Hv, Ha, Ht, HO⟩
  sl_exec (disch := exact chk_ok _ (by dsimp only; decide))
  sl_step
  isplitl [Hu]; · iexact Hu
  isplitl [Hv]; · iexact Hv
  isplitl [Ha]; · iexact Ha
  isplitl [Ht]; · iexists _; iexact Ht
  iexact HO

/-- One trip of inner loop 4: the group's sixteen scores are written over sixteen entries of the output scratch. -/
def grpPre4 (d : Dev nD) (L : grid0.Coords) (O : CellTallies nD τ sig (HIx 1)) (W : Waits sig (HIx 1))
    (fu : Buf (Elt F) (rU0.view.loc (thr d L))) (fv : Buf (Elt F) (rV0.view.loc (thr d L)))
    (g2 : Buf (Elt F) (oA.view.loc (thr d L))) (g3 : Buf (Elt F) (tB.view.loc (thr d L))) : sProp 𝕄 :=
    iprop((rU0.view.loc (thr d L) ↦{fullShare} fu) ∗ (rV0.view.loc (thr d L) ↦{fullShare} fv)
        ∗ (oA.view.loc (thr d L) ↦{fullShare} g2) ∗ (tB.view.loc (thr d L) ↦{fullShare} g3)
        ∗ owes (thr d L) O W)

set_option maxHeartbeats 8000000 in
theorem grp4 (d : Dev nD) (L : grid0.Coords) (O : CellTallies nD τ sig (HIx 1)) (W : Waits sig (HIx 1))
    (k4 : Fin k0_t4_loop.trips) (a21 : BitVec 32)
    (fu : Buf (Elt F) (rU0.view.loc (thr d L))) (fv : Buf (Elt F) (rV0.view.loc (thr d L)))
    (g2 : Buf (Elt F) (oA.view.loc (thr d L))) (g3 : Buf (Elt F) (tB.view.loc (thr d L))) :
    grpPre4 d L O W fu fv g2 g3
      ⊢ wp frame (wpE (defs₀ (F := F)) 𝒱₀ (thr d L) none) Set.univ
          (k0_t4_body (F := F) L xW (Memref.isWhole_whole _) sW (Memref.isWhole_whole _) dW (Memref.isWhole_whole _) oW (Memref.isWhole_whole _)
            iU (Memref.isWhole_whole _) iV (Memref.isWhole_whole _) oA (Memref.isWhole_whole _) tB (Memref.isWhole_whole _) rU0 (Memref.isWhole_whole _) rV0 (Memref.isWhole_whole _)
            cc0_scratch6 cc0_scratch7 rU1 (Memref.isWhole_whole _) rV1 (Memref.isWhole_whole _) cc0_scratch10 cc0_scratch11 cc0_scoped0 cc0_scoped1 cc0_scoped2
            (iota .scVector S16 32 [0] iota_S16_d0_w32_scVector) k4 a21)
          (fun _ => (iprop((rU0.view.loc (thr d L) ↦{fullShare} fu) ∗ (rV0.view.loc (thr d L) ↦{fullShare} fv)
            ∗ (oA.view.loc (thr d L) ↦{fullShare} oA.view.writes (Elt F) g2
                [⟨Rect.unit (s := S10000) (k0_off31 k4) S16.size (k0_off31_inb k4), grpSpec d L rU0 rV0 fu fv (off4 k4) (hoff4 k4) g3⟩])
            ∗ (∃ g3', tB.view.loc (thr d L) ↦{fullShare} g3') ∗ owes (thr d L) O W) : sProp 𝕄)) := by
  unfold k0_t4_body
  simp only [k0_part76_eq_skeleton, k0_part76_skel, k0_part75_eq_skeleton, k0_part75_skel, SparseCore.vectorLoadIdx]
  unfold grpPre4
  iintro ⟨Hu, Hv, Ha, Ht, HO⟩
  sl_exec (disch := exact chk_ok _ (by dsimp only; decide))
  sl_step
  isplitl [Hu]; · iexact Hu
  isplitl [Hv]; · iexact Hv
  isplitl [Ha]; · iexact Ha
  isplitl [Ht]; · iexists _; iexact Ht
  iexact HO

end Cert.Proof.KB

end
-- ==== Proof.TileDefsB.lean ====
/-
  Vocabulary of the tile's proof: the two index scratches cut into their 125 chunks of eighty words (a gather lends exactly
  the chunk it reads), the contents the two index copies and a landed gather leave, and the predicate carried through the
  loops: the first `N` entries of the output scratch are done.
-/
import proofs.«215249_g59107339927817_cont_9to1_m_583_18_alg».proof.Proof.GrpB
import proofs.«215249_g59107339927817_cont_9to1_m_583_18_alg».proof.Proof.TileSpecB
import Idealize.ShloMosaic.Lib.ValueIdx

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-! ## The index scratches in chunks of eighty -/

theorem hdivC : 125 ∣ S10000.size 0 := ⟨80, rfl⟩
/-- Chunk `j` of a 10000-entry list: entries `[80 j, 80 j + 80)`. -/
abbrev chunk (j : Fin 125) : Rect S10000 := Rect.part (s := S10000) (a₀ := 0) hdivC j
abbrev chunkSet (j : Fin 125) : Finset S10000.Idx := (chunk j).set

theorem chunks_disjoint : ∀ i ∈ (Finset.univ : Finset (Fin 125)), ∀ j ∈ (Finset.univ : Finset (Fin 125)), i ≠ j → Disjoint (chunkSet i) (chunkSet j) :=
  fun i _ j _ h => Rect.part_disjoint hdivC h
theorem chunks_cover : (Finset.univ : Finset (Fin 125)).biUnion chunkSet = Finset.univ := Rect.biUnion_part hdivC

/-- A slice of eighty entries at `80 j` is chunk `j`. -/
theorem unit_eq_chunk (off : Fin 1 → Nat) (j : Fin 125) (hoff : off = ![80 * j.val]) (h : ∀ a, off a + S80.size a ≤ S10000.size a) :
    Rect.unit (s := S10000) off S80.size h = chunk j := by
  subst hoff
  unfold chunk Rect.part Rect.block
  congr 1 <;> funext a
  · match a with
    | 0 => simp [Shape.partIx, Shape.partSize]; omega
  · match a with
    | 0 => simp [Shape.partSize]

/-! ## The copied index lists -/

/-- What the first copy leaves in the source-index scratch: the tile's slice of the source list. -/
def IUb (d : Dev nD) (L : grid0.Coords) (fs : Buf (Elt F) ((sSl L).view.loc (thr d L))) : Buf (Elt F) (iU.view.loc (thr d L)) :=
  ReadAs.same.apply ((sSl L).view.read (Elt F) fs)
/-- What the second copy leaves in the destination-index scratch: the tile's slice of the destination list. -/
def IVb (d : Dev nD) (L : grid0.Coords) (fd : Buf (Elt F) ((dSl L).view.loc (thr d L))) : Buf (Elt F) (iV.view.loc (thr d L)) :=
  ReadAs.same.apply ((dSl L).view.read (Elt F) fd)

omit [FloatOps F] in
theorem restate {ℓ : Loc nD τ sig} {I : Finset (Idx ℓ)} {q : PosShare TreeShare} {f g : Buf (Elt F) ℓ} (h : f = g) :
    (ℓ ↦[I]{q} f : sProp 𝕄) ⊢ (ℓ ↦[I]{q} g) := by subst h; exact Entails.of_eq rfl

omit [FloatOps F] in
theorem iU_chunks (d : Dev nD) (L : grid0.Coords) (q : PosShare TreeShare) (f : Buf (Elt F) (iU.view.loc (thr d L))) :
    (iU.view.loc (thr d L) ↦{q} f : sProp 𝕄) = bigSep Finset.univ fun j : Fin 125 => iU.view.loc (thr d L) ↦[chunkSet j]{q} f := by
  rw [← pointsTo_biUnion Finset.univ (ℓ := iU.view.loc (thr d L)) chunkSet chunks_disjoint, chunks_cover]; try rfl
omit [FloatOps F] in
theorem iV_chunks (d : Dev nD) (L : grid0.Coords) (q : PosShare TreeShare) (f : Buf (Elt F) (iV.view.loc (thr d L))) :
    (iV.view.loc (thr d L) ↦{q} f : sProp 𝕄) = bigSep Finset.univ fun j : Fin 125 => iV.view.loc (thr d L) ↦[chunkSet j]{q} f := by
  rw [← pointsTo_biUnion Finset.univ (ℓ := iV.view.loc (thr d L)) chunkSet chunks_disjoint, chunks_cover]; try rfl

/-- The eighty-entry slice of the source-index scratch at `off`, as the body slices it. -/
abbrev offU (off : Fin 1 → Nat) (h : ∀ a, off a + S80.size a ≤ S10000.size a) : Memref sig .scVector .vmem S80 .i32 :=
  iU.slice (Rect.unit (s := S10000) off S80.size h) (fun _ => rfl)
abbrev offV (off : Fin 1 → Nat) (h : ∀ a, off a + S80.size a ≤ S10000.size a) : Memref sig .scVector .vmem S80 .i32 :=
  iV.slice (Rect.unit (s := S10000) off S80.size h) (fun _ => rfl)

omit [FloatOps F] in
theorem set_offU (off : Fin 1 → Nat) (h : ∀ a, off a + S80.size a ≤ S10000.size a) (j : Fin 125) (hoff : off = ![80 * j.val]) :
    (offU off h).view.set = chunkSet j := by
  show ((View.whole (cc0_scratch0 : Ref sig .scVector)).slice (Rect.unit (s := S10000) off S80.size h)).set = _
  rw [View.set_slice, unit_eq_chunk off j hoff h]; exact Finset.map_refl
omit [FloatOps F] in
theorem set_offV (off : Fin 1 → Nat) (h : ∀ a, off a + S80.size a ≤ S10000.size a) (j : Fin 125) (hoff : off = ![80 * j.val]) :
    (offV off h).view.set = chunkSet j := by
  show ((View.whole (cc0_scratch1 : Ref sig .scVector)).slice (Rect.unit (s := S10000) off S80.size h)).set = _
  rw [View.set_slice, unit_eq_chunk off j hoff h]; exact Finset.map_refl

omit [FloatOps F] in
theorem pts_offU (d : Dev nD) (L : grid0.Coords) (q : PosShare TreeShare) (off : Fin 1 → Nat) (h : ∀ a, off a + S80.size a ≤ S10000.size a)
    (j : Fin 125) (hoff : off = ![80 * j.val]) (f : Buf (Elt F) (iU.view.loc (thr d L))) :
    ((offU off h).view.loc (thr d L) ↦[(offU off h).view.set]{q} f : sProp 𝕄) = (iU.view.loc (thr d L) ↦[chunkSet j]{q} f) := by
  rw [set_offU off h j hoff]
omit [FloatOps F] in
theorem pts_offV (d : Dev nD) (L : grid0.Coords) (q : PosShare TreeShare) (off : Fin 1 → Nat) (h : ∀ a, off a + S80.size a ≤ S10000.size a)
    (j : Fin 125) (hoff : off = ![80 * j.val]) (f : Buf (Elt F) (iV.view.loc (thr d L))) :
    ((offV off h).view.loc (thr d L) ↦[(offV off h).view.set]{q} f : sProp 𝕄) = (iV.view.loc (thr d L) ↦[chunkSet j]{q} f) := by
  rw [set_offV off h j hoff]

omit [FloatOps F] in
theorem bigSep7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- Every word of a chunk of the copied source list names a row of the feature table. -/
theorem hinU (d : Dev nD) (L : grid0.Coords) (fs : Buf (Elt F) ((sSl L).view.loc (thr d L))) (hs : IdxOK (sSl L) d L fs)
    (off : Fin 1 → Nat) (h : ∀ a, off a + S80.size a ≤ S10000.size a) :
    ∀ x, ((offU off h).view.read (Elt F) (IUb d L fs) x).toNat < S10000x128.size gathers_S10000x128_S80x128.axis :=
  fun x => hs _
theorem hinV (d : Dev nD) (L : grid0.Coords) (fd : Buf (Elt F) ((dSl L).view.loc (thr d L))) (hd : IdxOK (dSl L) d L fd)
    (off : Fin 1 → Nat) (h : ∀ a, off a + S80.size a ≤ S10000.size a) :
    ∀ x, ((offV off h).view.read (Elt F) (IVb d L fd) x).toNat < S10000x128.size gathers_S10000x128_S80x128.axis :=
  fun x => hd _

/-! ## What a landed gather leaves, and when entries of the output scratch are done -/

/-- The feature table as the gathers address it (the whole array). -/
abbrev xsl : Memref sig .scVector .hbm S10000x128 .f32 :=
  xW.slice (Rect.unit (s := S10000x128) ![0, 0] S10000x128.size inb_S10000x128_S10000x128_0_0) (fun _ => rfl)

/-- The eighty rows a gather over the source-index chunk at `off` delivers: row `r` is the feature row the chunk's `r`-th word names. -/
def landU (d : Dev nD) (L : grid0.Coords) (fx : Buf (Elt F) (xW.view.loc (thr d L))) (fs : Buf (Elt F) ((sSl L).view.loc (thr d L)))
    (hs : IdxOK (sSl L) d L fs) (off : Fin 1 → Nat) (h : ∀ a, off a + S80.size a ≤ S10000.size a) : S80x128.Idx → Elt F .f32 :=
  SparseCore.gatherPayload gathers_S10000x128_S80x128 (xsl.view.read (Elt F) fx)
    (SparseCore.rows ((offU off h).view.read (Elt F) (IUb d L fs)) rfl (hinU d L fs hs off h))
def landV (d : Dev nD) (L : grid0.Coords) (fx : Buf (Elt F) (xW.view.loc (thr d L))) (fd : Buf (Elt F) ((dSl L).view.loc (thr d L)))
    (hd : IdxOK (dSl L) d L fd) (off : Fin 1 → Nat) (h : ∀ a, off a + S80.size a ≤ S10000.size a) : S80x128.Idx → Elt F .f32 :=
  SparseCore.gatherPayload gathers_S10000x128_S80x128 (xsl.view.read (Elt F) fx)
    (SparseCore.rows ((offV off h).view.read (Elt F) (IVb d L fd)) rfl (hinV d L fd hd off h))

/-- The source node and the destination node of the tile's `j`-th edge. -/
def nU (d : Dev nD) (L : grid0.Coords) (fs : Buf (Elt F) ((sSl L).view.loc (thr d L))) (j : Fin 10000) : Fin 10000 :=
  nodeOf ((sSl L).view.read (Elt F) fs (ix1 j))
def nV (d : Dev nD) (L : grid0.Coords) (fd : Buf (Elt F) ((dSl L).view.loc (thr d L))) (j : Fin 10000) : Fin 10000 :=
  nodeOf ((dSl L).view.read (Elt F) fd (ix1 j))

/-- Row `r` of a row buffer holds the feature row of the source node of edge `80 c + r` (chunk `c` has landed in it). -/
def RowsU (d : Dev nD) (L : grid0.Coords) (fx : Buf (Elt F) (xW.view.loc (thr d L))) (fs : Buf (Elt F) ((sSl L).view.loc (thr d L)))
    (mm : Memref sig .scVector .vmem S80x128 .f32) (fu : Buf (Elt F) (mm.view.loc (thr d L))) (c : Nat) : Prop :=
  ∀ (r : Fin 80) (hj : 80 * c + r.val < 10000) (k : Fin 128),
    mm.view.read (Elt F) fu (ix2 r k) = xW.view.read (Elt F) fx (ix2 (nU d L fs ⟨80 * c + r.val, hj⟩) k)
def RowsV (d : Dev nD) (L : grid0.Coords) (fx : Buf (Elt F) (xW.view.loc (thr d L))) (fd : Buf (Elt F) ((dSl L).view.loc (thr d L)))
    (mm : Memref sig .scVector .vmem S80x128 .f32) (fv : Buf (Elt F) (mm.view.loc (thr d L))) (c : Nat) : Prop :=
  ∀ (r : Fin 80) (hj : 80 * c + r.val < 10000) (k : Fin 128),
    mm.view.read (Elt F) fv (ix2 r k) = xW.view.read (Elt F) fx (ix2 (nV d L fd ⟨80 * c + r.val, hj⟩) k)

/-- The first `N` entries of the output scratch are in the relation to the table and their edges' nodes. -/
def Done (Lane : LaneRel F) (d : Dev nD) (L : grid0.Coords) (fx : Buf (Elt F) (xW.view.loc (thr d L)))
    (fs : Buf (Elt F) ((sSl L).view.loc (thr d L))) (fd : Buf (Elt F) ((dSl L).view.loc (thr d L)))
    (f : Buf (Elt F) (oA.view.loc (thr d L))) (N : Nat) : Prop :=
  ∀ j : Fin 10000, j.val < N → Lane (xW.view.read (Elt F) fx) (nU d L fs j) (nV d L fd j) (oA.view.read (Elt F) f (ix1 j))

end Cert.Proof.KB

end
-- ==== Proof.TilePureDoneB.lean ====
/-
  The output scratch's progress predicate under one store of sixteen entries.
-/
import proofs.«215249_g59107339927817_cont_9to1_m_583_18_alg».proof.Proof.TileDefsB
import Idealize.ShloMosaic.Lib.Writes

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- Sixteen more entries are done once the sixteen written at `N` are in the relation: an entry below `N` is outside the
    written block and keeps its value; entry `N + l` is the block's `l`-th. -/
theorem done_step (Lane : LaneRel F) (d : Dev nD) (L : grid0.Coords) (fx : Buf (Elt F) (xW.view.loc (thr d L)))
    (fs : Buf (Elt F) ((sSl L).view.loc (thr d L))) (fd : Buf (Elt F) ((dSl L).view.loc (thr d L)))
    (f : Buf (Elt F) (oA.view.loc (thr d L))) (N : Nat) (hN : N + 16 ≤ 10000)
    (off : Fin 1 → Nat) (h : ∀ a, off a + S16.size a ≤ S10000.size a) (hoff : off = ![N]) (v : Vec F S16 .f32)
    (hD : Done Lane d L fx fs fd f N)
    (hv : ∀ l : Fin 16, ∀ hj : N + l.val < 10000, Lane (xW.view.read (Elt F) fx) (nU d L fs ⟨N + l.val, hj⟩) (nV d L fd ⟨N + l.val, hj⟩) (v (ix1 l))) :
    Done Lane d L fx fs fd (oA.view.writes (Elt F) f [⟨Rect.unit (s := S10000) off S16.size h, v⟩]) (N + 16) := by
  subst hoff
  intro j hj
  by_cases hlt : j.val < N
  · have e : oA.view.read (Elt F) (oA.view.writes (Elt F) f [⟨Rect.unit (s := S10000) ![N] S16.size h, v⟩]) (ix1 j)
        = oA.view.read (Elt F) f (ix1 j) := by
      refine View.read_writes_apply_of_forall_not_mem oA.view f (ix1 j) _ (fun p hp hm => ?_)
      obtain rfl := List.mem_singleton.1 hp
      have h0 := ((Rect.mem_set_unit (s := S10000) (off := ![N]) (size := S16.size) (inb := h)).1 hm) 0
      have h1 : N ≤ j.val := h0.1
      omega
    rw [e]
    exact hD j hlt
  · have hl : j.val - N < 16 := by omega
    have hx : (Rect.unit (s := S10000) ![N] S16.size h).emb (ix1 (⟨j.val - N, hl⟩ : Fin 16)) = ix1 j := by
      funext a
      refine Fin.ext ?_
      match a with
      | ⟨0, _⟩ => show N + 1 * (j.val - N) = j.val; omega
    have e : oA.view.read (Elt F) (oA.view.writes (Elt F) f [⟨Rect.unit (s := S10000) ![N] S16.size h, v⟩]) (ix1 j)
        = v (ix1 (⟨j.val - N, hl⟩ : Fin 16)) := by
      rw [← hx]
      exact View.read_writes_cons_emb oA.view f (Rect.unit (s := S10000) ![N] S16.size h) v [] (ix1 (⟨j.val - N, hl⟩ : Fin 16))
    rw [e]
    have hjj : (⟨N + (⟨j.val - N, hl⟩ : Fin 16).val, by show N + (j.val - N) < 10000; omega⟩ : Fin 10000) = j :=
      Fin.ext (by show N + (j.val - N) = j.val; omega)
    have := hv ⟨j.val - N, hl⟩ (by show N + (j.val - N) < 10000; omega)
    rw [hjj] at this
    exact this

end Cert.Proof.KB
end
-- ==== Proof.TilePureRowsB.lean ====
/-
  What a landed gather leaves in a row buffer, read at an index: row r is the feature row of the node the chunk's r-th
  word names, and that word is word 80 c + r of the tile's slice of the index list.
-/
import proofs.«215249_g59107339927817_cont_9to1_m_583_18_alg».proof.Proof.TileDefsB
import Idealize.ShloMosaic.Lib.Writes

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- A landed gather read at (r, k): the table at the row its `r`-th word names, column `k`. -/
theorem land_apply (X : S10000x128.Idx → Elt F .f32) (rws : Fin 80 → Fin 10000) (r : Fin 80) (k : Fin 128) :
    SparseCore.gatherPayload gathers_S10000x128_S80x128 X rws (ix2 r k) = X (ix2 (rws r) k) := by
  unfold SparseCore.gatherPayload
  refine congrArg X (funext fun b => Fin.ext ?_)
  match b with
  | ⟨0, _⟩ => rfl
  | ⟨1, _⟩ => rfl

/-- The feature table read through the slice the gathers address is the table. -/
theorem xsl_read (d : Dev nD) (L : grid0.Coords) (fx : Buf (Elt F) (xW.view.loc (thr d L))) (y : S10000x128.Idx) :
    xsl.view.read (Elt F) fx y = xW.view.read (Elt F) fx y := by
  show xW.view.read (Elt F) fx ((Rect.unit (s := S10000x128) ![0, 0] S10000x128.size inb_S10000x128_S10000x128_0_0).emb y) = _
  refine congrArg (xW.view.read (Elt F) fx) (funext fun a => Fin.ext ?_)
  match a with
  | ⟨0, _⟩ => show 0 + 1 * (y 0).val = (y 0).val; omega
  | ⟨1, _⟩ => show 0 + 1 * (y 1).val = (y 1).val; omega

/-- Position `n` of an eighty-entry list in row-major order is its index `n`. -/
theorem rowMajor_symm_S80 (r : Fin 80) (h : S80.numel = 80) : S80.rowMajor.symm (r.cast h.symm) = ix1 r :=
  (Equiv.symm_apply_eq _).2 (Fin.ext (by rw [Shape.rowMajor_val_one]; rfl))

/-- Word `r` of the chunk of the copied source list at `80 c` is word `80 c + r` of the tile's slice of the source list. -/
theorem offU_read (d : Dev nD) (L : grid0.Coords) (fs : Buf (Elt F) ((sSl L).view.loc (thr d L)))
    (off : Fin 1 → Nat) (h : ∀ a, off a + S80.size a ≤ S10000.size a) (c : Nat) (hoff : off = ![80 * c]) (r : Fin 80) (hj : 80 * c + r.val < 10000) :
    (offU off h).view.read (Elt F) (IUb d L fs) (ix1 r) = (sSl L).view.read (Elt F) fs (ix1 (⟨80 * c + r.val, hj⟩ : Fin 10000)) := by
  subst hoff
  show (sSl L).view.read (Elt F) fs ((Rect.unit (s := S10000) ![80 * c] S80.size h).emb (ix1 r)) = _
  refine congrArg ((sSl L).view.read (Elt F) fs) (funext fun a => Fin.ext ?_)
  match a with
  | ⟨0, _⟩ => show 80 * c + 1 * r.val = 80 * c + r.val; omega
theorem offV_read (d : Dev nD) (L : grid0.Coords) (fd : Buf (Elt F) ((dSl L).view.loc (thr d L)))
    (off : Fin 1 → Nat) (h : ∀ a, off a + S80.size a ≤ S10000.size a) (c : Nat) (hoff : off = ![80 * c]) (r : Fin 80) (hj : 80 * c + r.val < 10000) :
    (offV off h).view.read (Elt F) (IVb d L fd) (ix1 r) = (dSl L).view.read (Elt F) fd (ix1 (⟨80 * c + r.val, hj⟩ : Fin 10000)) := by
  subst hoff
  show (dSl L).view.read (Elt F) fd ((Rect.unit (s := S10000) ![80 * c] S80.size h).emb (ix1 r)) = _
  refine congrArg ((dSl L).view.read (Elt F) fd) (funext fun a => Fin.ext ?_)
  match a with
  | ⟨0, _⟩ => show 80 * c + 1 * r.val = 80 * c + r.val; omega

/-- A word below 10000 names the node of its own value. -/
theorem nodeOf_val (w : BitVec 32) (hw : w.toNat < 10000) : (nodeOf w).val = w.toNat := Nat.mod_eq_of_lt hw

/-- After the gather over the source chunk at `80 c` has landed, row `r` of the row buffer is the feature row of the
    source node of edge `80 c + r`. -/
theorem rows_landU (d : Dev nD) (L : grid0.Coords) (fx : Buf (Elt F) (xW.view.loc (thr d L))) (fs : Buf (Elt F) ((sSl L).view.loc (thr d L)))
    (hs : IdxOK (sSl L) d L fs) (mm : Memref sig .scVector .vmem S80x128 .f32) (g : Buf (Elt F) (mm.view.loc (thr d L)))
    (off : Fin 1 → Nat) (h : ∀ a, off a + S80.size a ≤ S10000.size a) (c : Nat) (hc : c < 125) (hoff : off = ![80 * c]) :
    RowsU d L fx fs mm (mm.view.writes (Elt F) g [⟨Rect.whole S80x128, landU d L fx fs hs off h⟩]) c := by
  intro r hj k
  have e := View.read_writes_cons_emb mm.view g (Rect.whole S80x128) (landU d L fx fs hs off h) [] (ix2 r k)
  rw [Rect.emb_whole_apply] at e
  refine e.trans ?_
  unfold landU
  refine (land_apply _ _ r k).trans ?_
  refine (xsl_read d L fx _).trans ?_
  refine congrArg (xW.view.read (Elt F) fx) (congrArg (fun n : Fin 10000 => ix2 n k) (Fin.ext ?_))
  unfold nU
  rw [nodeOf_val _ (hs _)]
  show ((offU off h).view.read (Elt F) (IUb d L fs) (S80.rowMajor.symm (r.cast _))).toNat = _
  rw [rowMajor_symm_S80 r rfl, offU_read d L fs off h c hoff r hj]

theorem rows_landV (d : Dev nD) (L : grid0.Coords) (fx : Buf (Elt F) (xW.view.loc (thr d L))) (fd : Buf (Elt F) ((dSl L).view.loc (thr d L)))
    (hd : IdxOK (dSl L) d L fd) (mm : Memref sig .scVector .vmem S80x128 .f32) (g : Buf (Elt F) (mm.view.loc (thr d L)))
    (off : Fin 1 → Nat) (h : ∀ a, off a + S80.size a ≤ S10000.size a) (c : Nat) (hc : c < 125) (hoff : off = ![80 * c]) :
    RowsV d L fx fd mm (mm.view.writes (Elt F) g [⟨Rect.whole S80x128, landV d L fx fd hd off h⟩]) c := by
  intro r hj k
  have e := View.read_writes_cons_emb mm.view g (Rect.whole S80x128) (landV d L fx fd hd off h) [] (ix2 r k)
  rw [Rect.emb_whole_apply] at e
  refine e.trans ?_
  unfold landV
  refine (land_apply _ _ r k).trans ?_
  refine (xsl_read d L fx _).trans ?_
  refine congrArg (xW.view.read (Elt F) fx) (congrArg (fun n : Fin 10000 => ix2 n k) (Fin.ext ?_))
  unfold nV
  rw [nodeOf_val _ (hd _)]
  show ((offV off h).view.read (Elt F) (IVb d L fd) (S80.rowMajor.symm (r.cast _))).toNat = _
  rw [rowMajor_symm_S80 r rfl, offV_read d L fd off h c hoff r hj]

end Cert.Proof.KB
end
-- ==== Proof.TilePureGrpB.lean ====
/-
  A group's lanes in the lane relation, from the two row buffers holding the landed chunk; and a member taken out of a
  separating product over all indices but one.
-/
import proofs.«215249_g59107339927817_cont_9to1_m_583_18_alg».proof.Proof.TileDefsB

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- A group's lanes are in the relation: lane `l` of group `g` of chunk `c` reads row `16 g + l` of the two row buffers,
    which hold the feature rows of the two nodes of edge `80 c + 16 g + l`. -/
theorem grp_lane (Lane : LaneRel F) (hL : LaneHyp Lane) (d : Dev nD) (L : grid0.Coords) (fx : Buf (Elt F) (xW.view.loc (thr d L)))
    (fs : Buf (Elt F) ((sSl L).view.loc (thr d L))) (fd : Buf (Elt F) ((dSl L).view.loc (thr d L)))
    (mu mv : Memref sig .scVector .vmem S80x128 .f32) (fu : Buf (Elt F) (mu.view.loc (thr d L))) (fv : Buf (Elt F) (mv.view.loc (thr d L)))
    (off : Fin 8 → Fin 16 → Fin 2 → Nat) (hoff : ∀ j r a, off j r a + S1x16.size a ≤ S80x128.size a) (g3 : Buf (Elt F) (tB.view.loc (thr d L)))
    (c g : Nat) (hc : c < 125) (hg : g < 5) (hoffeq : ∀ j r, off j r = ![16 * g + r.val, 16 * j.val])
    (hu : RowsU d L fx fs mu fu c) (hv : RowsV d L fx fd mv fv c) :
    ∀ l : Fin 16, ∀ hj : 80 * c + 16 * g + l.val < 10000,
      Lane (xW.view.read (Elt F) fx) (nU d L fs ⟨80 * c + 16 * g + l.val, hj⟩) (nV d L fd ⟨80 * c + 16 * g + l.val, hj⟩) (grpSpec d L mu mv fu fv off hoff g3 (ix1 l)) := by
  intro l hj
  have hr : 16 * g + l.val < 80 := by have := l.isLt; omega
  have hj' : 80 * c + (16 * g + l.val) < 10000 := by omega
  have hjj : (⟨80 * c + (16 * g + l.val), hj'⟩ : Fin 10000) = ⟨80 * c + 16 * g + l.val, hj⟩ := Fin.ext (by show 80 * c + (16 * g + l.val) = 80 * c + 16 * g + l.val; omega)
  refine hL d L mu mv fu fv off hoff g3 (fun r => (⟨16 * g + r.val, by have := r.isLt; omega⟩ : Fin 80)) hoffeq (xW.view.read (Elt F) fx) _ _ l ?_ ?_
  · intro k
    have := hu ⟨16 * g + l.val, hr⟩ hj' k
    rw [hjj] at this
    exact this
  · intro k
    have := hv ⟨16 * g + l.val, hr⟩ hj' k
    rw [hjj] at this
    exact this

omit [FloatOps F] in
/-- One member taken out of a product over all indices but `b`: the member `a` beside the product over all but `a` and `b`. -/
theorem swap_erase_eq {ι : Type} [DecidableEq ι] [Fintype ι] (Φ : ι → sProp 𝕄) (a b : ι) (hab : a ≠ b) :
    iprop(Φ a ∗ bigSep ((Finset.univ.erase a).erase b) Φ) = bigSep (Finset.univ.erase b) Φ := by
  rw [SparseCore.bigSep_erase' (s := Finset.univ.erase b) (i := a) (Finset.mem_erase.2 ⟨hab, Finset.mem_univ a⟩), Finset.erase_right_comm]

omit [FloatOps F] in
theorem swap_erase {ι : Type} [DecidableEq ι] [Fintype ι] (Φ : ι → sProp 𝕄) (a b : ι) (hab : a ≠ b) :
    iprop(Φ a ∗ bigSep ((Finset.univ.erase a).erase b) Φ) ⊣⊢ bigSep (Finset.univ.erase b) Φ :=
  BiEntails.of_eq (swap_erase_eq Φ a b hab)

omit [FloatOps F] in
theorem swap_erase_in {ι : Type} [DecidableEq ι] [Fintype ι] (Φ : ι → sProp 𝕄) (a b : ι) (hab : a ≠ b) :
    iprop(Φ a ∗ bigSep ((Finset.univ.erase a).erase b) Φ) ⊢ bigSep (Finset.univ.erase b) Φ :=
  Entails.of_eq (swap_erase_eq Φ a b hab)

omit [FloatOps F] in
theorem swap_erase_out {ι : Type} [DecidableEq ι] [Fintype ι] (Φ : ι → sProp 𝕄) (a b : ι) (hab : a ≠ b) :
    bigSep (Finset.univ.erase b) Φ ⊢ iprop(Φ a ∗ bigSep ((Finset.univ.erase a).erase b) Φ) :=
  Entails.of_eq (swap_erase_eq Φ a b hab).symm

end Cert.Proof.KB
end
-- ==== Proof.TilePureB.lean ====
/-
  The pure lemmas of a tile's proof, gathered: the progress predicate under a store, a landed gather's rows, a group's
  lanes, and the separating-product step.
-/
import proofs.«215249_g59107339927817_cont_9to1_m_583_18_alg».proof.Proof.TilePureDoneB
import proofs.«215249_g59107339927817_cont_9to1_m_583_18_alg».proof.Proof.TilePureRowsB
import proofs.«215249_g59107339927817_cont_9to1_m_583_18_alg».proof.Proof.TilePureGrpB
-- ==== Proof.TileInvB.lean ====
/-
  The invariants of the tile's loops.
-/
import proofs.«215249_g59107339927817_cont_9to1_m_583_18_alg».proof.Proof.TileDefsB
import proofs.«215249_g59107339927817_cont_9to1_m_583_18_alg».proof.Proof.TilePureB
import Idealize.ShloMosaic.Lib.ValueIdx

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- Chunk number `n` (reduced mod 125, so that it is a chunk for every `n`). -/
def ck (n : Nat) : Fin 125 := ⟨n % 125, Nat.mod_lt _ (by decide)⟩

theorem ck_val (n : Nat) (h : n < 125) : (ck n).val = n := Nat.mod_eq_of_lt h
theorem ck_ne (a b : Nat) (ha : a < 125) (hb : b < 125) (hab : a ≠ b) : ck a ≠ ck b :=
  Fin.ne_of_val_ne (by rw [ck_val a ha, ck_val b hb]; exact hab)

/-- What a landed source-row gather hands back: the row buffer at the gathered rows, the index chunk, the lent share of the table. -/
abbrev DU (d : Dev nD) (L : grid0.Coords) (q : PosShare TreeShare) (fx : Buf (Elt F) (xW.view.loc (thr d L))) (fs : Buf (Elt F) ((sSl L).view.loc (thr d L)))
    (hs : IdxOK (sSl L) d L fs) (mm : Memref sig .scVector .vmem S80x128 .f32) (tok : Fin 7) (g : Buf (Elt F) (mm.view.loc (thr d L)))
    (off : Fin 1 → Nat) (h : ∀ a, off a + S80.size a ≤ S10000.size a) : sProp 𝕄 :=
  iprop(((mm.view.loc (thr d L) ↦{fullShare} mm.view.writes (Elt F) g [⟨Rect.whole S80x128, landU d L fx fs hs off h⟩])
      ∗ ((offU off h).view.loc (thr d L) ↦[(offU off h).view.set]{fullShare} IUb d L fs))
    ∗ (xW.view.loc (thr d L) ↦[xsl.view.set]{Transfers.shareTok q 7 tok} fx))
abbrev DV (d : Dev nD) (L : grid0.Coords) (q : PosShare TreeShare) (fx : Buf (Elt F) (xW.view.loc (thr d L))) (fd : Buf (Elt F) ((dSl L).view.loc (thr d L)))
    (hd : IdxOK (dSl L) d L fd) (mm : Memref sig .scVector .vmem S80x128 .f32) (tok : Fin 7) (g : Buf (Elt F) (mm.view.loc (thr d L)))
    (off : Fin 1 → Nat) (h : ∀ a, off a + S80.size a ≤ S10000.size a) : sProp 𝕄 :=
  iprop(((mm.view.loc (thr d L) ↦{fullShare} mm.view.writes (Elt F) g [⟨Rect.whole S80x128, landV d L fx fd hd off h⟩])
      ∗ ((offV off h).view.loc (thr d L) ↦[(offV off h).view.set]{fullShare} IVb d L fd))
    ∗ (xW.view.loc (thr d L) ↦[xsl.view.set]{Transfers.shareTok q 7 tok} fx))

/-- The invariant of a loop over the five groups of a chunk held in the row buffers `mu`, `mv`: the first `base + 16 n` entries done. -/
def Ig (Lane : LaneRel F) (d : Dev nD) (L : grid0.Coords) (fx : Buf (Elt F) (xW.view.loc (thr d L)))
    (fs : Buf (Elt F) ((sSl L).view.loc (thr d L))) (fd : Buf (Elt F) ((dSl L).view.loc (thr d L)))
    (mu mv : Memref sig .scVector .vmem S80x128 .f32) (fu : Buf (Elt F) (mu.view.loc (thr d L))) (fv : Buf (Elt F) (mv.view.loc (thr d L)))
    (base : Nat) (O : CellTallies nD τ sig (HIx 1)) (W : Waits sig (HIx 1)) (n : Nat) (_ : BitVec 32) : sProp 𝕄 :=
  iprop((mu.view.loc (thr d L) ↦{fullShare} fu) ∗ (mv.view.loc (thr d L) ↦{fullShare} fv)
    ∗ (∃ f, (oA.view.loc (thr d L) ↦{fullShare} f) ∗ ⌜Done Lane d L fx fs fd f (base + 16 * n)⌝)
    ∗ (∃ g3, tB.view.loc (thr d L) ↦{fullShare} g3) ∗ ∃ W', ⌜∀ p ∈ W', p ∈ W ∨ p.2 = none⌝ ∗ owes (thr d L) O W')

/-- The invariant of the loop over pairs of chunks, before pair `n`: chunk `2 n` is in flight into slot 0, slot 1 is idle,
    every other index chunk is held, the first `160 n` entries are done. -/
def I1 (Lane : LaneRel F) (d : Dev nD) (L : grid0.Coords) (q : PosShare TreeShare) (O : CellTallies nD τ sig (HIx 1)) (W : Waits sig (HIx 1))
    (fx : Buf (Elt F) (xW.view.loc (thr d L))) (fs : Buf (Elt F) ((sSl L).view.loc (thr d L))) (fd : Buf (Elt F) ((dSl L).view.loc (thr d L)))
    (hs : IdxOK (sSl L) d L fs) (hd : IdxOK (dSl L) d L fd) (n : Nat) (_ : BitVec 32) : sProp 𝕄 :=
  iprop(Transfers.MayWaits (thr d L) (none : HIx 1) O
    ∗ (∃ gu off h, ⌜off = ![160 * n]⌝ ∗ Transfers.Flight countersEmb (thr d L) (SemLoc.dma cc0_scratch6.sem) (default : HIx 1) 327680
        iprop(((rU0.view.loc (thr d L) ↦{fullShare} rU0.view.writes (Elt F) gu [⟨Rect.whole S80x128, landU d L fx fs hs off h⟩])
          ∗ ((offU off h).view.loc (thr d L) ↦[(offU off h).view.set]{fullShare} IUb d L fs))
        ∗ (xW.view.loc (thr d L) ↦[xsl.view.set]{Transfers.shareTok q 7 0} fx)))
    ∗ (xW.view.loc (thr d L) ↦[Finset.univ \ xsl.view.set]{Transfers.shareTok q 7 0} fx)
    ∗ (∃ gv off h, ⌜off = ![160 * n]⌝ ∗ Transfers.Flight countersEmb (thr d L) (SemLoc.dma cc0_scratch7.sem) (default : HIx 1) 327680
        iprop(((rV0.view.loc (thr d L) ↦{fullShare} rV0.view.writes (Elt F) gv [⟨Rect.whole S80x128, landV d L fx fd hd off h⟩])
          ∗ ((offV off h).view.loc (thr d L) ↦[(offV off h).view.set]{fullShare} IVb d L fd))
        ∗ (xW.view.loc (thr d L) ↦[xsl.view.set]{Transfers.shareTok q 7 1} fx)))
    ∗ (xW.view.loc (thr d L) ↦[Finset.univ \ xsl.view.set]{Transfers.shareTok q 7 1} fx)
    ∗ (xW.view.loc (thr d L) ↦{Transfers.shareTok q 7 2} fx) ∗ (xW.view.loc (thr d L) ↦{Transfers.shareTok q 7 3} fx)
    ∗ (∃ g, rU1.view.loc (thr d L) ↦{fullShare} g) ∗ (∃ g, rV1.view.loc (thr d L) ↦{fullShare} g)
    ∗ semVal (thr d L, SemLoc.dma cc0_scratch10.sem) 0 ∗ semVal (thr d L, SemLoc.dma cc0_scratch11.sem) 0
    ∗ (bigSep (Finset.univ.erase (ck (2 * n))) fun j : Fin 125 => iU.view.loc (thr d L) ↦[chunkSet j]{fullShare} IUb d L fs)
    ∗ (bigSep (Finset.univ.erase (ck (2 * n))) fun j : Fin 125 => iV.view.loc (thr d L) ↦[chunkSet j]{fullShare} IVb d L fd)
    ∗ (∃ f, (oA.view.loc (thr d L) ↦{fullShare} f) ∗ ⌜Done Lane d L fx fs fd f (160 * n)⌝)
    ∗ (∃ g3, tB.view.loc (thr d L) ↦{fullShare} g3)
    ∗ ∃ W', ⌜∀ p ∈ W', p ∈ W ∨ p.2 = none⌝ ∗ owes (thr d L) O W')

end Cert.Proof.KB

end
-- ==== Proof.TileB.lean ====
/-
  One tile's run. The tile copies its 10000 source indices and its 10000 destination indices into two scratches, then
  works through 125 chunks of eighty edges with two slots of row buffers: while the rows of chunk `c` (the feature rows of
  the chunk's source nodes in one buffer, of its destination nodes in the other) are being multiplied, the gathers for
  chunk `c + 1` are already in flight into the other slot. Each of the four gathers in flight completes on a semaphore of
  its own, lends exactly the eighty index words it reads and a read share of the feature table, and nothing it reads or
  writes is touched before its wait; so no schedule can change a value. A chunk is five groups of sixteen edges; a group
  writes sixteen scores into the output scratch (`grpSpec`), and the proof carries "the first `N` entries of the output
  scratch are done" through the loops: `N = 160 k` before pair `k`, up to 10000, after which the scratch is copied to the
  tile's slice of the result.
-/
import proofs.«215249_g59107339927817_cont_9to1_m_583_18_alg».proof.Proof.TileInvB
import Idealize.ShloMosaic.Lib.ValueIdx

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

variable [FloatOps F]

/-- When all 10000 entries of the output scratch are done, the tile's slice of the result, written whole with the scratch's
    contents, has every entry in the relation to the table and its edge's two nodes. -/
theorem out_final (Lane : LaneRel F) (d : Dev nD) (L : grid0.Coords) (fx : Buf (Elt F) (xW.view.loc (thr d L)))
    (fs : Buf (Elt F) ((sSl L).view.loc (thr d L))) (fd : Buf (Elt F) ((dSl L).view.loc (thr d L)))
    (fo : Buf (Elt F) ((oSl L).view.loc (thr d L))) (f5 : Buf (Elt F) (oA.view.loc (thr d L)))
    (hD : Done Lane d L fx fs fd f5 10000) (j : S10000.Idx) :
    Lane (xW.view.read (Elt F) fx) (nodeOf ((sSl L).view.read (Elt F) fs j)) (nodeOf ((dSl L).view.read (Elt F) fd j))
      ((oSl L).view.read (Elt F) ((oSl L).view.writes (Elt F) fo [⟨Rect.whole S10000, ReadAs.same.apply (oA.view.read (Elt F) f5)⟩]) j) := by
  obtain ⟨a, rfl⟩ : ∃ a : Fin 10000, j = ix1 a := ⟨j 0, eq_ix1 j⟩
  have e := View.read_writes_cons_emb (oSl L).view fo (Rect.whole S10000) (ReadAs.same.apply (oA.view.read (Elt F) f5)) [] (ix1 a)
  rw [Rect.emb_whole_apply] at e
  rw [e]
  exact hD a a.isLt

set_option maxHeartbeats 8000000 in
theorem tile_run (Lane : LaneRel F) (hL : LaneHyp Lane) : TileRun Lane := by
  intro d L q O W fx fs fd fo g0 g1 g2 g3 g4 g5 g8 g9 hs hd
  rw [cc0__score_kernel_eq_skeleton]; unfold cc0__score_kernel_skel
  unfold tilePre
  iintro ⟨Hmw, Hx, Hs, Hd, Ho, H0, H1, H2, H3, H4, H5, H8, H9, S6, S7, S10, S11, T0, T1, T2, HO⟩
  -- the two index copies
  sl_exec
  -- the two index scratches hold the tile's slices of the two lists; cut them into their chunks and take chunk 0 of each
  ihave H0 := (restate (g := IUb d L fs) (View.write_whole_univ _ _ _)) $$ H0
  ihave H1 := (restate (g := IVb d L fd) (View.write_whole_univ _ _ _)) $$ H1
  ihave H0 := (Entails.of_eq (iU_chunks d L fullShare _)) $$ H0
  ihave H1 := (Entails.of_eq (iV_chunks d L fullShare _)) $$ H1
  ihave H0 := (Entails.of_eq (SparseCore.bigSep_erase' (Finset.mem_univ (0 : Fin 125)))) $$ H0
  icases H0 with ⟨C0, R0⟩
  ihave H1 := (Entails.of_eq (SparseCore.bigSep_erase' (Finset.mem_univ (0 : Fin 125)))) $$ H1
  icases H1 with ⟨C1, R1⟩
  ihave C0 := (Entails.of_eq (pts_offU d L fullShare ![0] inb_S10000_S80_0 0 rfl _).symm) $$ C0
  ihave C1 := (Entails.of_eq (pts_offV d L fullShare ![0] inb_S10000_S80_0 0 rfl _).symm) $$ C1
  -- the feature table under one read share per gather semaphore
  ihave Hx := (Transfers.pointsTo_toks_split (Ix := HIx 1) (Name := ℕ) (U := UU) (Lvl := ℕ) q 7) $$ Hx
  icases Hx with ⟨Hxr, Hxt⟩
  ihave Hxt := (Entails.of_eq (bigSep7 _)) $$ Hxt
  icases Hxt with ⟨X0, X1, X2, X3, X4, X5, X6⟩
  have hinU0 := hinU d L fs hs
  have hinV0 := hinV d L fd hd
  -- chunk 0 is requested into slot 0
  sl_exec
  sl_for (I1 Lane d L q O W fx fs fd hs hd) $$ [Hmw S6 X0 S7 X1 X2 X3 H8 H9 S10 S11 R0 R1 H2 H3 HO]
  case region =>
    intro k acc
    have hk : k.val < 62 := lt_of_lt_of_le k.isLt k0_t1_abs.2.1
    unfold I1
    iintro ⟨Hmw, ⟨%gu, %offu, %hu, %hoffu, FU⟩, X0, ⟨%gv, %offv, %hv, %hoffv, FV⟩, X1, X2, X3, ⟨%g8', H8⟩, ⟨%g9', H9⟩, S10, S11, R0, R1, ⟨%f, Ha, %hD⟩, ⟨%g3', Ht⟩, %W', %hW', HO⟩
    -- chunk 2k+1 of both lists, in the body's spelling, for the gathers into slot 1
    have hne01 : ck (2 * k.val + 1) ≠ ck (2 * k.val) := ck_ne _ _ (by omega) (by omega) (by omega)
    have eo2 : k0_off2 k = ![80 * (ck (2 * k.val + 1)).val] := by
      rw [k0_off2_eq k, ck_val _ (by omega), show 160 * k.val + 80 = 80 * (2 * k.val + 1) by omega]
    ihave R0 := (Entails.of_eq (SparseCore.bigSep_erase' (Finset.mem_erase.mpr ⟨hne01, Finset.mem_univ _⟩))) $$ R0
    icases R0 with ⟨C0, R0⟩
    ihave R1 := (Entails.of_eq (SparseCore.bigSep_erase' (Finset.mem_erase.mpr ⟨hne01, Finset.mem_univ _⟩))) $$ R1
    icases R1 with ⟨C1, R1⟩
    ihave C0 := (Entails.of_eq (pts_offU d L fullShare (k0_off2 k) (k0_off2_inb k) _ eo2 _).symm) $$ C0
    ihave C1 := (Entails.of_eq (pts_offV d L fullShare (k0_off2 k) (k0_off2_inb k) _ eo2 _).symm) $$ C1
    -- chunk 2k+1 is requested into slot 1; chunk 2k has landed in slot 0
    sl_exec
    -- chunk 2k is back with the other chunks
    have eoffu : offu = ![80 * (ck (2 * k.val)).val] := by
      rw [hoffu, ck_val _ (by omega), show 160 * k.val = 80 * (2 * k.val) by omega]
    have eoffv : offv = ![80 * (ck (2 * k.val)).val] := by
      rw [hoffv, ck_val _ (by omega), show 160 * k.val = 80 * (2 * k.val) by omega]
    ihave C0 := (Entails.of_eq (pts_offU d L fullShare offu hu _ eoffu _)) $$ FU_dst_and
    ihave C1 := (Entails.of_eq (pts_offV d L fullShare offv hv _ eoffv _)) $$ FV_dst_and
    ihave R0 := (swap_erase_in (fun j : Fin 125 => (iU.view.loc (thr d L) ↦[chunkSet j]{fullShare} IUb d L fs : sProp 𝕄)) (ck (2 * k.val)) (ck (2 * k.val + 1)) hne01.symm) $$ [C0 R0]
    · isplitl [C0]; · iexact C0
      iexact R0
    ihave R1 := (swap_erase_in (fun j : Fin 125 => (iV.view.loc (thr d L) ↦[chunkSet j]{fullShare} IVb d L fd : sProp 𝕄)) (ck (2 * k.val)) (ck (2 * k.val + 1)) hne01.symm) $$ [C1 R1]
    · isplitl [C1]; · iexact C1
      iexact R1
    -- slot 0 holds the feature rows of chunk 2k's nodes
    have hRU0 := rows_landU d L fx fs hs rU0 rU0.view.junk offu hu (2 * k.val) (by omega) (by rw [hoffu]; congr 1; omega)
    have hRV0 := rows_landV d L fx fd hd rV0 rV0.view.junk offv hv (2 * k.val) (by omega) (by rw [hoffv]; congr 1; omega)
    have hD0 : Done Lane d L fx fs fd f (80 * (2 * k.val) + 16 * 0) := by
      rw [show 80 * (2 * k.val) + 16 * 0 = 160 * k.val by omega]; exact hD
    -- the five groups of chunk 2k
    sl_for (Ig Lane d L fx fs fd rU0 rV0 (rU0.view.writes (Elt F) rU0.view.junk [⟨Rect.whole S80x128, landU d L fx fs hs offu hu⟩])
        (rV0.view.writes (Elt F) rV0.view.junk [⟨Rect.whole S80x128, landV d L fx fd hd offv hv⟩]) (80 * (2 * k.val)) O W) $$ [FU_dst FV_dst Ha Ht HO]
    case region =>
      intro k2 acc2
      have hk2 : k2.val < 5 := lt_of_lt_of_le k2.isLt k0_t2_abs.2.1
      unfold Ig
      iintro ⟨Hu, Hv, ⟨%f2, Ha, %hD2⟩, ⟨%g3b, Ht⟩, %W2, %hW2, HO⟩
      ihave Hwp := (grp2 d L O W2 k k2 _ acc2 _ _ f2 g3b) $$ [Hu Hv Ha Ht HO]
      · unfold grpPre2
        isplitl [Hu]; · iexact Hu
        isplitl [Hv]; · iexact Hv
        isplitl [Ha]; · iexact Ha
        isplitl [Ht]; · iexact Ht
        iexact HO
      iapply (wp_wand_r frame _ _)
      isplitl [Hwp]; · iexact Hwp
      iintro %_ Hpost
      icases Hpost with ⟨Hu, Hv, Ha, ⟨%g3n, Ht⟩, HO⟩
      isplitl [Hu]; · iexact Hu
      isplitl [Hv]; · iexact Hv
      isplitl [Ha]
      · iexists _; isplitl [Ha]; · iexact Ha
        ipureintro
        rw [show 80 * (2 * k.val) + 16 * (k2.val + 1) = 80 * (2 * k.val) + 16 * k2.val + 16 by omega]
        exact done_step Lane d L fx fs fd f2 (80 * (2 * k.val) + 16 * k2.val) (by omega) _ _
          (by rw [k0_off12_eq]; congr 1; omega) _ hD2
          (fun l hj => grp_lane Lane hL d L fx fs fd rU0 rV0 _ _ (off2 k2) (hoff2 k2) g3b (2 * k.val) k2.val (by omega) hk2
            (fun j r => off2_eq k2 j r) hRU0 hRV0 l hj)
      isplitl [Ht]; · iexists _; iexact Ht
      iexists W2; isplitr
      · ipureintro; exact hW2
      · iexact HO

    · unfold Ig
      isplitl [FU_dst]; · iexact FU_dst
      isplitl [FV_dst]; · iexact FV_dst
      isplitl [Ha]; · iexists f; isplitl [Ha]; · iexact Ha
                      ipureintro; exact hD0
      isplitl [Ht]; · iexists _; iexact Ht
      iexists _; isplitr
      rotate_left
      · iexact HO
      · ipureintro; intro p hp
        rcases Finset.mem_insert.mp hp with rfl | hp
        · exact .inr rfl
        rcases Finset.mem_insert.mp hp with rfl | hp
        · exact .inr rfl
        · exact hW' p hp
    iintro %acc3 HI
    unfold Ig
    icases HI with ⟨FU_dst, FV_dst, ⟨%f3, Ha, %hD3⟩, ⟨%g3c, Ht⟩, %W3, %hW3, HO⟩
    -- chunk 2k+2 of both lists, in the body's spelling, for the gathers into slot 0
    have hne21 : ck (2 * k.val + 2) ≠ ck (2 * k.val + 1) := ck_ne _ _ (by omega) (by omega) (by omega)
    have eo13 : k0_off13 k 2#32 = ![80 * (ck (2 * k.val + 2)).val] :=
      (k0_off13_eq k 1).trans (by rw [ck_val _ (by omega), show 160 * k.val + 80 * ((1 : Fin 2) : ℕ) + 80 = 80 * (2 * k.val + 2) by simp; omega])
    ihave R0 := (Entails.of_eq (SparseCore.bigSep_erase' (Finset.mem_erase.mpr ⟨hne21, Finset.mem_univ _⟩))) $$ R0
    icases R0 with ⟨C0, R0⟩
    ihave R1 := (Entails.of_eq (SparseCore.bigSep_erase' (Finset.mem_erase.mpr ⟨hne21, Finset.mem_univ _⟩))) $$ R1
    icases R1 with ⟨C1, R1⟩
    ihave C0 := (Entails.of_eq (pts_offU d L fullShare (k0_off13 k 2#32) (k0_off13_inb k 1) _ eo13 _).symm) $$ C0
    ihave C1 := (Entails.of_eq (pts_offV d L fullShare (k0_off13 k 2#32) (k0_off13_inb k 1) _ eo13 _).symm) $$ C1
    -- chunk 2k+2 is requested into slot 0; chunk 2k+1 has landed in slot 1
    sl_exec
    -- chunk 2k+1 is back with the other chunks
    ihave C0 := (Entails.of_eq (pts_offU d L fullShare (k0_off2 k) (k0_off2_inb k) _ eo2 _)) $$ C0
    ihave C1 := (Entails.of_eq (pts_offV d L fullShare (k0_off2 k) (k0_off2_inb k) _ eo2 _)) $$ C1
    ihave R0 := (swap_erase_in (fun j : Fin 125 => (iU.view.loc (thr d L) ↦[chunkSet j]{fullShare} IUb d L fs : sProp 𝕄)) (ck (2 * k.val + 1)) (ck (2 * k.val + 2)) hne21.symm) $$ [C0 R0]
    · isplitl [C0]; · iexact C0
      iexact R0
    ihave R1 := (swap_erase_in (fun j : Fin 125 => (iV.view.loc (thr d L) ↦[chunkSet j]{fullShare} IVb d L fd : sProp 𝕄)) (ck (2 * k.val + 1)) (ck (2 * k.val + 2)) hne21.symm) $$ [C1 R1]
    · isplitl [C1]; · iexact C1
      iexact R1
    -- slot 1 holds the feature rows of chunk 2k+1's nodes
    have hRU1 := rows_landU d L fx fs hs rU1 rU1.view.junk (k0_off2 k) (k0_off2_inb k) (2 * k.val + 1) (by omega) (by rw [k0_off2_eq]; congr 1; omega)
    have hRV1 := rows_landV d L fx fd hd rV1 rV1.view.junk (k0_off2 k) (k0_off2_inb k) (2 * k.val + 1) (by omega) (by rw [k0_off2_eq]; congr 1; omega)
    have hD1 : Done Lane d L fx fs fd f3 (80 * (2 * k.val + 1) + 16 * 0) := by
      rw [show 80 * (2 * k.val + 1) + 16 * 0 = 80 * (2 * k.val) + 16 * 5 by omega]; exact hD3
    -- the five groups of chunk 2k+1
    sl_for (Ig Lane d L fx fs fd rU1 rV1 (rU1.view.writes (Elt F) rU1.view.junk [⟨Rect.whole S80x128, landU d L fx fs hs (k0_off2 k) (k0_off2_inb k)⟩])
        (rV1.view.writes (Elt F) rV1.view.junk [⟨Rect.whole S80x128, landV d L fx fd hd (k0_off2 k) (k0_off2_inb k)⟩]) (80 * (2 * k.val + 1)) O W) $$ [H8 H9 Ha Ht HO]
    case region =>
      intro k3 acc2
      have hk2 : k3.val < 5 := lt_of_lt_of_le k3.isLt k0_t3_abs.2.1
      unfold Ig
      iintro ⟨Hu, Hv, ⟨%f2, Ha, %hD2⟩, ⟨%g3b, Ht⟩, %W2, %hW2, HO⟩
      ihave Hwp := (grp3 d L O W2 k k3 _ acc2 _ _ f2 g3b) $$ [Hu Hv Ha Ht HO]
      · unfold grpPre3
        isplitl [Hu]; · iexact Hu
        isplitl [Hv]; · iexact Hv
        isplitl [Ha]; · iexact Ha
        isplitl [Ht]; · iexact Ht
        iexact HO
      iapply (wp_wand_r frame _ _)
      isplitl [Hwp]; · iexact Hwp
      iintro %_ Hpost
      icases Hpost with ⟨Hu, Hv, Ha, ⟨%g3n, Ht⟩, HO⟩
      isplitl [Hu]; · iexact Hu
      isplitl [Hv]; · iexact Hv
      isplitl [Ha]
      · iexists _; isplitl [Ha]; · iexact Ha
        ipureintro
        rw [show 80 * (2 * k.val + 1) + 16 * (k3.val + 1) = 80 * (2 * k.val + 1) + 16 * k3.val + 16 by omega]
        exact done_step Lane d L fx fs fd f2 (80 * (2 * k.val + 1) + 16 * k3.val) (by omega) _ _
          (by rw [k0_off22_eq]; congr 1; omega) _ hD2
          (fun l hj => grp_lane Lane hL d L fx fs fd rU1 rV1 _ _ (off3 k3) (hoff3 k3) g3b (2 * k.val + 1) k3.val (by omega) hk2
            (fun j r => off3_eq k3 j r) hRU1 hRV1 l hj)
      isplitl [Ht]; · iexists _; iexact Ht
      iexists W2; isplitr
      · ipureintro; exact hW2
      · iexact HO

    · unfold Ig
      isplitl [H8]; · iexact H8
      isplitl [H9]; · iexact H9
      isplitl [Ha]; · iexists f3; isplitl [Ha]; · iexact Ha
                      ipureintro; exact hD1
      isplitl [Ht]; · iexists _; iexact Ht
      iexists _; isplitr
      rotate_left
      · iexact HO
      · ipureintro; intro p hp
        rcases Finset.mem_insert.mp hp with rfl | hp
        · exact .inr rfl
        rcases Finset.mem_insert.mp hp with rfl | hp
        · exact .inr rfl
        · exact hW3 p hp
    iintro %acc4 HI
    unfold Ig
    icases HI with ⟨H8, H9, ⟨%f4, Ha, %hD4⟩, ⟨%g3d, Ht⟩, %W4, %hW4, HO⟩
    sl_exec
    sl_step
    -- the invariant before pair k+1
    isplitl [Hmw]; · iexact Hmw
    isplitl [FU]
    · iexists (rU0.view.writes (Elt F) rU0.view.junk [⟨Rect.whole S80x128, landU d L fx fs hs offu hu⟩]), (k0_off13 k 2#32), (k0_off13_inb k 1)
      isplitr
      · ipureintro
        exact (k0_off13_eq k 1).trans (by rw [show 160 * k.val + 80 * ((1 : Fin 2) : ℕ) + 80 = 160 * (k.val + 1) by simp; omega])
      · iexact FU
    isplitl [X0]; · iexact X0
    isplitl [FV]
    · iexists (rV0.view.writes (Elt F) rV0.view.junk [⟨Rect.whole S80x128, landV d L fx fd hd offv hv⟩]), (k0_off13 k 2#32), (k0_off13_inb k 1)
      isplitr
      · ipureintro
        exact (k0_off13_eq k 1).trans (by rw [show 160 * k.val + 80 * ((1 : Fin 2) : ℕ) + 80 = 160 * (k.val + 1) by simp; omega])
      · iexact FV
    isplitl [X1]; · iexact X1
    isplitl [X2]; · iexact X2
    isplitl [X3]; · iexact X3
    isplitl [H8]; · iexists _; iexact H8
    isplitl [H9]; · iexists _; iexact H9
    isplitl [S10]; · iexact S10
    isplitl [S11]; · iexact S11
    isplitl [R0]; · iexact R0
    isplitl [R1]; · iexact R1
    isplitl [Ha]
    · iexists f4; isplitl [Ha]; · iexact Ha
      ipureintro
      rw [show 160 * (k.val + 1) = 80 * (2 * k.val + 1) + 16 * 5 by omega]; exact hD4
    isplitl [Ht]; · iexists _; iexact Ht
    iexists W4; isplitr
    · ipureintro; exact hW4
    · iexact HO

  · -- before the first pair: chunk 0 is in flight into slot 0, nothing is done
    unfold I1
    isplitl [Hmw]; · iexact Hmw
    isplitl [S6]
    · iexists g4, ![0], inb_S10000_S80_0
      isplitr; · ipureintro; rfl
      iexact S6
    isplitl [X0]; · iexact X0
    isplitl [S7]
    · iexists g5, ![0], inb_S10000_S80_0
      isplitr; · ipureintro; rfl
      iexact S7
    isplitl [X1]; · iexact X1
    isplitl [X2]; · iexact X2
    isplitl [X3]; · iexact X3
    isplitl [H8]; · iexists _; iexact H8
    isplitl [H9]; · iexists _; iexact H9
    isplitl [S10]; · iexact S10
    isplitl [S11]; · iexact S11
    isplitl [R0]; · iexact R0
    isplitl [R1]; · iexact R1
    isplitl [H2]
    · iexists g2; isplitl [H2]; · iexact H2
      ipureintro; intro j hj; exact absurd hj (by omega)
    isplitl [H3]; · iexists _; iexact H3
    iexists _; isplitr
    rotate_left
    · iexact HO
    · ipureintro; intro p hp
      rcases Finset.mem_insert.mp hp with rfl | hp
      · exact .inr rfl
      rcases Finset.mem_insert.mp hp with rfl | hp
      · exact .inr rfl
      · exact .inl hp
  -- after the last pair: chunk 124 is in flight into slot 0
  iintro %acc5 HI
  unfold I1
  icases HI with ⟨Hmw, ⟨%gu, %offu, %hu, %hoffu, FU⟩, X0, ⟨%gv, %offv, %hv, %hoffv, FV⟩, X1, X2, X3, ⟨%g8', H8⟩, ⟨%g9', H9⟩, S10, S11, R0, R1, ⟨%f, Ha, %hD⟩, ⟨%g3', Ht⟩, %W', %hW', HO⟩
  have htr : Scf.trips k0_t1_loop.lb k0_t1_loop.ub k0_t1_loop.st = 62 := by decide
  rw [htr] at hoffu hoffv hD
  ihave R0 := (Entails.of_eq (by rw [htr])) $$ R0
  ihave R1 := (Entails.of_eq (by rw [htr])) $$ R1
  sl_exec
  have hRU := rows_landU d L fx fs hs rU0 rU0.view.junk offu hu 124 (by omega) (by rw [hoffu])
  have hRV := rows_landV d L fx fd hd rV0 rV0.view.junk offv hv 124 (by omega) (by rw [hoffv])
  have hD0 : Done Lane d L fx fs fd f (80 * 124 + 16 * 0) := hD
  -- the five groups of the last chunk
  sl_for (Ig Lane d L fx fs fd rU0 rV0 (rU0.view.writes (Elt F) rU0.view.junk [⟨Rect.whole S80x128, landU d L fx fs hs offu hu⟩])
      (rV0.view.writes (Elt F) rV0.view.junk [⟨Rect.whole S80x128, landV d L fx fd hd offv hv⟩]) (80 * 124) O W) $$ [FU_dst FV_dst Ha Ht HO]
  case region =>
    intro k4 acc2
    have hk2 : k4.val < 5 := lt_of_lt_of_le k4.isLt k0_t4_abs.2.1
    unfold Ig
    iintro ⟨Hu, Hv, ⟨%f2, Ha, %hD2⟩, ⟨%g3b, Ht⟩, %W2, %hW2, HO⟩
    ihave Hwp := (grp4 d L O W2 k4 acc2 _ _ f2 g3b) $$ [Hu Hv Ha Ht HO]
    · unfold grpPre4
      isplitl [Hu]; · iexact Hu
      isplitl [Hv]; · iexact Hv
      isplitl [Ha]; · iexact Ha
      isplitl [Ht]; · iexact Ht
      iexact HO
    iapply (wp_wand_r frame _ _)
    isplitl [Hwp]; · iexact Hwp
    iintro %_ Hpost
    icases Hpost with ⟨Hu, Hv, Ha, ⟨%g3n, Ht⟩, HO⟩
    isplitl [Hu]; · iexact Hu
    isplitl [Hv]; · iexact Hv
    isplitl [Ha]
    · iexists _; isplitl [Ha]; · iexact Ha
      ipureintro
      rw [show 80 * (124) + 16 * (k4.val + 1) = 80 * (124) + 16 * k4.val + 16 by omega]
      exact done_step Lane d L fx fs fd f2 (80 * (124) + 16 * k4.val) (by omega) _ _
        (by rw [k0_off31_eq]; congr 1; omega) _ hD2
        (fun l hj => grp_lane Lane hL d L fx fs fd rU0 rV0 _ _ (off4 k4) (hoff4 k4) g3b (124) k4.val (by omega) hk2
          (fun j r => off4_eq k4 j r) hRU hRV l hj)
    isplitl [Ht]; · iexists _; iexact Ht
    iexists W2; isplitr
    · ipureintro; exact hW2
    · iexact HO

  · unfold Ig
    isplitl [FU_dst]; · iexact FU_dst
    isplitl [FV_dst]; · iexact FV_dst
    isplitl [Ha]; · iexists f; isplitl [Ha]; · iexact Ha
                    ipureintro; exact hD0
    isplitl [Ht]; · iexists _; iexact Ht
    iexists _; isplitr
    rotate_left
    · iexact HO
    · ipureintro; intro p hp
      rcases Finset.mem_insert.mp hp with rfl | hp
      · exact .inr rfl
      rcases Finset.mem_insert.mp hp with rfl | hp
      · exact .inr rfl
      · exact hW' p hp
  iintro %acc6 HI
  unfold Ig
  icases HI with ⟨FU_dst, FV_dst, ⟨%f5, Ha, %hD5⟩, ⟨%g3e, Ht⟩, %W5, %hW5, HO⟩
  -- the output scratch is copied to the tile's slice of the result
  sl_exec
  sl_step
  -- the feature table's read tokens rejoined
  ihave Hxt := (Entails.of_eq (bigSep7 (fun i : Fin 7 => (xW.view.loc (thr d L) ↦{Transfers.shareTok q 7 i} fx : sProp 𝕄))).symm) $$ [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  ihave Hx := (Transfers.pointsTo_toks_join (Ix := HIx 1) (Name := ℕ) (U := UU) (Lvl := ℕ) q 7) $$ [Hxr Hxt]
  · isplitl [Hxr]; · iexact Hxr
    iexact Hxt
  -- the index scratches whole again
  have hc124 : (ck (2 * 62)).val = 124 := ck_val _ (by omega)
  have eoffu : offu = ![80 * (ck (2 * 62)).val] := by rw [hoffu, hc124]
  have eoffv : offv = ![80 * (ck (2 * 62)).val] := by rw [hoffv, hc124]
  ihave C0 := (Entails.of_eq (pts_offU d L fullShare offu hu _ eoffu _)) $$ FU_dst_and
  ihave C1 := (Entails.of_eq (pts_offV d L fullShare offv hv _ eoffv _)) $$ FV_dst_and
  ihave R0 := (Entails.of_eq (SparseCore.bigSep_erase' (Φ := (fun j : Fin 125 => (iU.view.loc (thr d L) ↦[chunkSet j]{fullShare} IUb d L fs : sProp 𝕄))) (Finset.mem_univ (ck (2 * 62)))).symm) $$ [C0 R0]
  · isplitl [C0]; · iexact C0
    iexact R0
  ihave R1 := (Entails.of_eq (SparseCore.bigSep_erase' (Φ := (fun j : Fin 125 => (iV.view.loc (thr d L) ↦[chunkSet j]{fullShare} IVb d L fd : sProp 𝕄))) (Finset.mem_univ (ck (2 * 62)))).symm) $$ [C1 R1]
  · isplitl [C1]; · iexact C1
    iexact R1
  ihave H0 := (Entails.of_eq (iU_chunks d L fullShare _).symm) $$ R0
  ihave H1 := (Entails.of_eq (iV_chunks d L fullShare _).symm) $$ R1
  unfold tilePost
  isplitl [Hx]; · iexact Hx
  isplitl [Hs]; · iexact Hs
  isplitl [Hd]; · iexact Hd
  isplitl [Ho]
  · iexists _; isplitl [Ho]; · iexact Ho
    ipureintro
    exact out_final Lane d L fx fs fd fo f5 hD5
  isplitl [H0]; · iexists _; iexact H0
  isplitl [H1]; · iexists _; iexact H1
  isplitl [Ha]; · iexists _; iexact Ha
  isplitl [Ht]; · iexists _; iexact Ht
  isplitl [FU_dst]; · iexists _; iexact FU_dst
  isplitl [FV_dst]; · iexists _; iexact FV_dst
  isplitl [H8]; · iexists _; iexact H8
  isplitl [H9]; · iexists _; iexact H9
  isplitl [FU]; · iexact FU
  isplitl [FV]; · iexact FV
  isplitl [S10]; · iexact S10
  isplitl [S11]; · iexact S11
  isplitl [T0]; · iexact T0
  isplitl [T1]; · iexact T1
  isplitl [T2]; · iexact T2
  iexists _; isplitr
  rotate_left
  · iexact HO
  · ipureintro; intro p hp
    rcases Finset.mem_insert.mp hp with rfl | hp
    · exact .inr rfl
    · exact hW5 p hp

end Cert.Proof.KB

end
-- ==== Proof.lean ====
/-
  The certificate's claims, assembled. The kernel scores every edge by the inner product of the feature rows of its two end
  nodes; the reference does the same with a row gather, a product and a row sum. At the ideal instance both results are
  `Cert.Score.score` of the arguments (proof/Proof/Spec.lean): the kernel's side through one tile's run (TileI), the sum of
  a group read as a row inner product (LaneIdeal) and the launch of the 32 tiles (LaunchI); the reference's side through its
  run read at an index (RefRun). The two frames of the kernel are the same run with the values dropped, at each instance;
  the idealization rewrote no operation, so what it must preserve is trivial.
-/
import proofs.«215249_g59107339927817_cont_9to1_m_583_18_alg».proof.Defs
import proofs.«215249_g59107339927817_cont_9to1_m_583_18_alg».proof.Proof.Gen.Kernel
import proofs.«215249_g59107339927817_cont_9to1_m_583_18_alg».proof.Proof.Gen.Kernel.Skeleton
import proofs.«215249_g59107339927817_cont_9to1_m_583_18_alg».proof.Proof.Gen.KernelIdeal
import proofs.«215249_g59107339927817_cont_9to1_m_583_18_alg».proof.Proof.Gen.KernelIdeal.Skeleton
import proofs.«215249_g59107339927817_cont_9to1_m_583_18_alg».proof.Proof.Gen.ReferenceIdeal
import proofs.«215249_g59107339927817_cont_9to1_m_583_18_alg».proof.Proof.Gen.Pre_input_domain
import proofs.«215249_g59107339927817_cont_9to1_m_583_18_alg».proof.Proof.ClaimsI
import proofs.«215249_g59107339927817_cont_9to1_m_583_18_alg».proof.Proof.ClaimsB
import proofs.«215249_g59107339927817_cont_9to1_m_583_18_alg».proof.Proof.LaunchI
import proofs.«215249_g59107339927817_cont_9to1_m_583_18_alg».proof.Proof.LaunchB
import proofs.«215249_g59107339927817_cont_9to1_m_583_18_alg».proof.Proof.TileI
import proofs.«215249_g59107339927817_cont_9to1_m_583_18_alg».proof.Proof.TileB
import proofs.«215249_g59107339927817_cont_9to1_m_583_18_alg».proof.Proof.LaneIdeal
import Idealize.ShloMosaic.Adequacy
import Idealize.ShloMosaic.Init

noncomputable section

namespace Cert.Proof

open Idealize.ShloMosaic Idealize.SL.Sem

/-- The word-level kernel runs and leaves its arguments unchanged: the launch of the tiles' runs, no value asked. -/
theorem frame_p : Cert.frame_Kernel :=
  KB.frame_p_of (fun Lane hT m ρ hr => KB.kernel_run Lane hT m ρ hr) (KB.tile_run _ KB.laneHyp_true)

/-- The idealized kernel runs and leaves its arguments unchanged. -/
theorem frame_pi : Cert.frame_KernelIdeal :=
  KI.frame_pi_of (fun Lane hT m ρ hr => KI.kernel_run Lane hT m ρ hr) (KI.tile_run _ KI.laneHyp_ideal)

/-- Both idealized programs end with every edge's score, the inner product of its two nodes' feature rows. -/
theorem algebraic : Cert.algebraic_KernelIdeal_ReferenceIdeal :=
  KI.algebraic_of (fun Lane hT m ρ hr => KI.kernel_run Lane hT m ρ hr) (KI.tile_run _ KI.laneHyp_ideal)

theorem claim : Cert.Claim :=
  ⟨Cert.Kernel.Gen.facts, Cert.KernelIdeal.Gen.facts, Cert.ReferenceIdeal.Gen.facts, Cert.Pre_input_domain.Gen.facts,
    frame_p, frame_pi, KI.frame_ri, trivial, algebraic⟩

end Cert.Proof

end
